-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.sign_bit.Statement Cert.KernelIdeal.S512x4096 .f32
  ∧ IdealRules.sign_bit.Statement Cert.KernelIdeal.S512x4096 .f32
  ∧ IdealRules.sign_bit.Statement Cert.KernelIdeal.S512x4096 .f32
  ∧ IdealRules.sign_bit.Statement Cert.KernelIdeal.S512x4096 .f32
  ∧ IdealRules.sign_bit.Statement Cert.KernelIdeal.S512x4096 .f32
  ∧ IdealRules.sign_bit.Statement Cert.KernelIdeal.S1024x1024 .f32
  ∧ IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1000x4096 : S_.BroadcastsInDim S1000x4096 (![] : Fin 0 → Fin S1000x4096.rank)
  reducesTo_S1000x4096_S_d0_1 : S1000x4096.ReducesTo [0, 1] S_

variable [Facts]

def fn_part3 {F : FTy → Type} [FloatOps F] (main_v48 : IVec S_ 1) (main_v49 : FVec F S1000x4096 .f32) (main_v50 : FVec F S1000x4096 .f32) : IVec S_ 1 :=
  let main_v51 : IVec S1000x4096 1 := cmpf .olt main_v49 main_v50
  let main_c_19 : IVec S_ 1 := constantI S_ 1 1#1
  let main_v52 : IVec S_ 1 := (fun x v => Host.reduce IntOp.andi x v reducesTo_S1000x4096_S_d0_1 h_S_) main_v51 main_c_19
  let main_v53 : IVec S_ 1 := andi main_v48 main_v52
  main_v53

def fn_part2 {F : FTy → Type} [FloatOps F] (main_arg7 : FVec F S4096x4096 .f32) (main_arg8 : FVec F S4096 .f32) (main_arg9 : FVec F S4096 .f32) (main_arg10 : FVec F S1000x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S1000x4096 .f32 := Host.absf main_arg10
  let main_cst_18 : FVec F S_ .f32 := constant S_ .f32 0x7F800000#32
  let main_v50 : FVec F S1000x4096 .f32 := broadcastInDim S1000x4096 ![] bcast_S_S1000x4096 main_cst_18
  fn_part3 (F := F) main_v48 main_v49 main_v50

def fn_part1 {F : FTy → Type} [FloatOps F] (main_arg4 : FVec F S4096x4096 .f32) (main_arg5 : FVec F S4096 .f32) (main_arg6 : FVec F S4096 .f32) (main_arg7 : FVec F S4096x4096 .f32) (main_arg8 : FVec F S4096 .f32) (main_arg9 : FVec F S4096 .f32) (main_arg10 : FVec F S1000x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x4096 .f32) (main_arg1 : FVec F S4096x4096 .f32) (main_arg2 : FVec F S4096 .f32) (main_arg3 : FVec F S4096 .f32) (main_arg4 : FVec F S4096x4096 .f32) (main_arg5 : FVec F S4096 .f32) (main_arg6 : FVec F S4096 .f32) (main_arg7 : FVec F S4096x4096 .f32) (main_arg8 : FVec F S4096 .f32) (main_arg9 : FVec F S4096 .f32) (main_arg10 : FVec F S1000x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S512x4096 : Shape := ⟨2, ![512, 4096]⟩
abbrev S_ : Shape := ⟨0, ![]⟩
abbrev S1024x4096 : Shape := ⟨2, ![1024, 4096]⟩
abbrev S4x2x4096 : Shape := ⟨3, ![4, 2, 4096]⟩
abbrev S2048x1024 : Shape := ⟨2, ![2048, 1024]⟩
abbrev S1024x1024 : Shape := ⟨2, ![1024, 1024]⟩
abbrev S1x2x1024 : Shape := ⟨3, ![1, 2, 1024]⟩
abbrev S1024 : Shape := ⟨1, ![1024]⟩
abbrev S1x1024 : Shape := ⟨2, ![1, 1024]⟩
abbrev S1x1x1024 : Shape := ⟨3, ![1, 1, 1024]⟩
abbrev S4x1x4096 : Shape := ⟨3, ![4, 1, 4096]⟩
abbrev S4x4096 : Shape := ⟨2, ![4, 4096]⟩
abbrev S1x4096 : Shape := ⟨2, ![1, 4096]⟩
abbrev S8192x1024 : Shape := ⟨2, ![8192, 1024]⟩
abbrev S512x1024 : Shape := ⟨2, ![512, 1024]⟩
abbrev S8192x1000 : Shape := ⟨2, ![8192, 1000]⟩

abbrev nBuf : Space → Nat
  | .hbm => 99
  | .vmem => 89
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S1000x4096, .f32⟩
  | .hbm, ⟨11, _⟩ => ⟨S8192x4096, .bf16⟩
  | .hbm, ⟨12, _⟩ => ⟨S4096x4096, .bf16⟩
  | .hbm, ⟨13, _⟩ => ⟨S4096x4096, .bf16⟩
  | .hbm, ⟨14, _⟩ => ⟨S4096x4096, .bf16⟩
  | .hbm, ⟨15, _⟩ => ⟨S_, .i32⟩
  | .hbm, ⟨16, _⟩ => ⟨S_, .f32⟩
  | .hbm, ⟨17, _⟩ => ⟨S1024x4096, .f32⟩
  | .hbm, ⟨18, _⟩ => ⟨S1024x4096, .bf16⟩
  | .hbm, ⟨19, _⟩ => ⟨S8192x4096, .f32⟩
  | .hbm, ⟨20, _⟩ => ⟨S4x2x4096, .f32⟩
  | .hbm, ⟨21, _⟩ => ⟨S4x1x4096, .f32⟩
  | .hbm, ⟨22, _⟩ => ⟨S4x4096, .f32⟩
  | .hbm, ⟨23, _⟩ => ⟨S_, .f32⟩
  | .hbm, ⟨24, _⟩ => ⟨S4096, .f32⟩
  | .hbm, ⟨25, _⟩ => ⟨S1x4096, .f32⟩
  | .hbm, ⟨26, _⟩ => ⟨S4x1x4096, .f32⟩
  | .hbm, ⟨27, _⟩ => ⟨S4x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S_, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S1x4096, .f32⟩
  | .hbm, ⟨44, _⟩ => ⟨S8192x4096, .bf16⟩
  | .hbm, ⟨45, _⟩ => ⟨S8192x4096, .f32⟩
  | .hbm, ⟨46, _⟩ => ⟨S4x2x4096, .f32⟩
  | .hbm, ⟨47, _⟩ => ⟨S4x1x4096, .f32⟩
  | .hbm, ⟨48, _⟩ => ⟨S4x4096, .f32⟩
  | .hbm, ⟨49, _⟩ => ⟨S_, .f32⟩
  | .hbm, ⟨50, _⟩ => ⟨S4096, .f32⟩
  | .hbm, ⟨51, _⟩ => ⟨S1x4096, .f32⟩
  | .hbm, ⟨52, _⟩ => ⟨S4x1x4096, .f32⟩
  | .hbm, ⟨53, _⟩ => ⟨S4x4096, .f32⟩
  | .hbm, ⟨54, _⟩ => ⟨S_, .f32⟩
  | .hbm, ⟨55, _⟩ => ⟨S4096, .f32⟩
  | .hbm, ⟨56, _⟩ => ⟨S1x4096, .f32⟩
  | .hbm, ⟨57, _⟩ => ⟨S_, .f32⟩
  | .hbm, ⟨58, _⟩ => ⟨S1x4096, .f32⟩
  | .hbm, ⟨59, _⟩ => ⟨S1x4096, .f32⟩
  | .hbm, ⟨60, _⟩ => ⟨S_, .f32⟩
  | .hbm, ⟨61, _⟩ => ⟨S1x4096, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S_, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S1x4096, .f32⟩
  | .hbm, ⟨70, _⟩ => ⟨S8192x4096, .bf16⟩
  | .hbm, ⟨71, _⟩ => ⟨S8192x4096, .f32⟩
  | .hbm, ⟨72, _⟩ => ⟨S4x2x4096, .f32⟩
  | .hbm, ⟨73, _⟩ => ⟨S4x1x4096, .f32⟩
  | .hbm, ⟨74, _⟩ => ⟨S4x4096, .f32⟩
  | .hbm, ⟨75, _⟩ => ⟨S_, .f32⟩
  | .hbm, ⟨76, _⟩ => ⟨S4096, .f32⟩
  | .hbm, ⟨77, _⟩ => ⟨S1x4096, .f32⟩
  | .hbm, ⟨78, _⟩ => ⟨S4x1x4096, .f32⟩
  | .hbm, ⟨79, _⟩ => ⟨S4x4096, .f32⟩
  | .hbm, ⟨80, _⟩ => ⟨S_, .f32⟩
  | .hbm, ⟨81, _⟩ => ⟨S4096, .f32⟩
  | .hbm, ⟨82, _⟩ => ⟨S1x4096, .f32⟩
  | .hbm, ⟨83, _⟩ => ⟨S_, .f32⟩
  | .hbm, ⟨84, _⟩ => ⟨S1x4096, .f32⟩
  | .hbm, ⟨85, _⟩ => ⟨S1x4096, .f32⟩
  | .hbm, ⟨86, _⟩ => ⟨S_, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S_, .f32⟩
  | .hbm, ⟨92, _⟩ => ⟨S1x4096, .f32⟩
  | .hbm, ⟨93, _⟩ => ⟨S1x4096, .f32⟩
  | .hbm, ⟨94, _⟩ => ⟨S1x4096, .f32⟩
  | .hbm, ⟨95, _⟩ => ⟨S1x4096, .f32⟩
  | .hbm, ⟨96, _⟩ => ⟨S8192x4096, .bf16⟩
  | .hbm, ⟨97, _⟩ => ⟨S8192x1024, .f32⟩
  | .hbm, ⟨98, _⟩ => ⟨S8192x1000, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | .local _ .vmem, ⟨12, _⟩ => ⟨S512x4096, .f32⟩
  | .local _ .vmem, ⟨13, _⟩ => ⟨S512x4096, .f32⟩
  | .local _ .vmem, ⟨14, _⟩ => ⟨S512x4096, .bf16⟩
  | .local _ .vmem, ⟨15, _⟩ => ⟨S512x4096, .bf16⟩
  | .local _ .vmem, ⟨16, _⟩ => ⟨S512x4096, .f32⟩
  | .local _ .vmem, ⟨17, _⟩ => ⟨S512x4096, .f32⟩
  | .local _ .vmem, ⟨18, _⟩ => ⟨S512x4096, .bf16⟩
  | .local _ .vmem, ⟨19, _⟩ => ⟨S512x4096, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1024x1024, .bf16⟩
  | .local _ .vmem, ⟨24, _⟩ => ⟨S2048x1024, .f32⟩
  | .local _ .vmem, ⟨25, _⟩ => ⟨S2048x1024, .f32⟩
  | .local _ .vmem, ⟨26, _⟩ => ⟨S1x2x1024, .f32⟩
  | .local _ .vmem, ⟨27, _⟩ => ⟨S1x2x1024, .f32⟩
  | .local _ .vmem, ⟨28, _⟩ => ⟨S2048x1024, .f32⟩
  | .local _ .vmem, ⟨29, _⟩ => ⟨S1024x1024, .f32⟩
  | .local _ .vmem, ⟨30, _⟩ => ⟨S1024x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1024x1024, .bf16⟩
  | .local _ .vmem, ⟨40, _⟩ => ⟨S1024x1024, .bf16⟩
  | .local _ .vmem, ⟨41, _⟩ => ⟨S2048x1024, .bf16⟩
  | .local _ .vmem, ⟨42, _⟩ => ⟨S2048x1024, .bf16⟩
  | .local _ .vmem, ⟨43, _⟩ => ⟨S1024x1024, .bf16⟩
  | .local _ .vmem, ⟨44, _⟩ => ⟨S1024x1024, .bf16⟩
  | .local _ .vmem, ⟨45, _⟩ => ⟨S2048x1024, .f32⟩
  | .local _ .vmem, ⟨46, _⟩ => ⟨S2048x1024, .f32⟩
  | .local _ .vmem, ⟨47, _⟩ => ⟨S1x2x1024, .f32⟩
  | .local _ .vmem, ⟨48, _⟩ => ⟨S1x2x1024, .f32⟩
  | .local _ .vmem, ⟨49, _⟩ => ⟨S2048x1024, .f32⟩
  | .local _ .vmem, ⟨50, _⟩ => ⟨S1024x1024, .f32⟩
  | .local _ .vmem, ⟨51, _⟩ => ⟨S1024x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1024x1024, .bf16⟩
  | .local _ .vmem, ⟨61, _⟩ => ⟨S1024x1024, .bf16⟩
  | .local _ .vmem, ⟨62, _⟩ => ⟨S2048x1024, .bf16⟩
  | .local _ .vmem, ⟨63, _⟩ => ⟨S2048x1024, .bf16⟩
  | .local _ .vmem, ⟨64, _⟩ => ⟨S1024x1024, .bf16⟩
  | .local _ .vmem, ⟨65, _⟩ => ⟨S1024x1024, .bf16⟩
  | .local _ .vmem, ⟨66, _⟩ => ⟨S2048x1024, .f32⟩
  | .local _ .vmem, ⟨67, _⟩ => ⟨S2048x1024, .f32⟩
  | .local _ .vmem, ⟨68, _⟩ => ⟨S1x2x1024, .f32⟩
  | .local _ .vmem, ⟨69, _⟩ => ⟨S1x2x1024, .f32⟩
  | .local _ .vmem, ⟨70, _⟩ => ⟨S2048x1024, .f32⟩
  | .local _ .vmem, ⟨71, _⟩ => ⟨S1024x1024, .f32⟩
  | .local _ .vmem, ⟨72, _⟩ => ⟨S1024x1024, .f32⟩
  | .local _ .vmem, ⟨73, _⟩ => ⟨S1x1024, .f32⟩
  | .local _ .vmem, ⟨74, _⟩ => ⟨S1x1024, .f32⟩
  | .local _ .vmem, ⟨75, _⟩ => ⟨S1x1024, .f32⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S1x1024, .f32⟩
  | .local _ .vmem, ⟨80, _⟩ => ⟨S1x1024, .f32⟩
  | .local _ .vmem, ⟨81, _⟩ => ⟨S1024x1024, .bf16⟩
  | .local _ .vmem, ⟨82, _⟩ => ⟨S1024x1024, .bf16⟩
  | .local _ .vmem, ⟨83, _⟩ => ⟨S512x4096, .bf16⟩
  | .local _ .vmem, ⟨84, _⟩ => ⟨S512x4096, .bf16⟩
  | .local _ .vmem, ⟨85, _⟩ => ⟨S1024x4096, .bf16⟩
  | .local _ .vmem, ⟨86, _⟩ => ⟨S512x1024, .f32⟩
  | .local _ .vmem, ⟨87, _⟩ => ⟨S512x1024, .f32⟩
  | .local _ .vmem, ⟨88, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46_0 : Ref sig .tc := ⟨.hbm, 71, rfl⟩
abbrev main_v46_1 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc5_stg2_0 : Ref sig .tc := ⟨.vmem, 24, rfl⟩
abbrev cc5_stg2_1 : Ref sig .tc := ⟨.vmem, 25, rfl⟩
abbrev cc5_stg3_0 : Ref sig .tc := ⟨.vmem, 26, rfl⟩
abbrev cc5_stg3_1 : Ref sig .tc := ⟨.vmem, 27, rfl⟩
abbrev cc5_scratch0 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg1_1 : Ref sig .tc := ⟨.vmem, 32, rfl⟩
abbrev cc6_stg2_0 : Ref sig .tc := ⟨.vmem, 33, rfl⟩
abbrev cc6_stg2_1 : Ref sig .tc := ⟨.vmem, 34, rfl⟩
abbrev cc6_stg3_0 : Ref sig .tc := ⟨.vmem, 35, rfl⟩
abbrev cc6_stg3_1 : Ref sig .tc := ⟨.vmem, 36, rfl⟩
abbrev cc6_stg4_0 : Ref sig .tc := ⟨.vmem, 37, rfl⟩
abbrev cc6_stg4_1 : Ref sig .tc := ⟨.vmem, 38, rfl⟩
abbrev cc6_stg5_0 : Ref sig .tc := ⟨.vmem, 39, rfl⟩
abbrev cc6_stg5_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc7_stg3_0 : Ref sig .tc := ⟨.vmem, 47, rfl⟩
abbrev cc7_stg3_1 : Ref sig .tc := ⟨.vmem, 48, rfl⟩
abbrev cc7_scratch0 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc8_stg3_0 : Ref sig .tc := ⟨.vmem, 56, rfl⟩
abbrev cc8_stg3_1 : Ref sig .tc := ⟨.vmem, 57, rfl⟩
abbrev cc8_stg4_0 : Ref sig .tc := ⟨.vmem, 58, rfl⟩
abbrev cc8_stg4_1 : Ref sig .tc := ⟨.vmem, 59, rfl⟩
abbrev cc8_stg5_0 : Ref sig .tc := ⟨.vmem, 60, rfl⟩
abbrev cc8_stg5_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc9_stg3_0 : Ref sig .tc := ⟨.vmem, 68, rfl⟩
abbrev cc9_stg3_1 : Ref sig .tc := ⟨.vmem, 69, rfl⟩
abbrev cc9_scratch0 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg1_1 : Ref sig .tc := ⟨.vmem, 74, rfl⟩
abbrev cc10_stg2_0 : Ref sig .tc := ⟨.vmem, 75, rfl⟩
abbrev cc10_stg2_1 : Ref sig .tc := ⟨.vmem, 76, rfl⟩
abbrev cc10_stg3_0 : Ref sig .tc := ⟨.vmem, 77, rfl⟩
abbrev cc10_stg3_1 : Ref sig .tc := ⟨.vmem, 78, rfl⟩
abbrev cc10_stg4_0 : Ref sig .tc := ⟨.vmem, 79, rfl⟩
abbrev cc10_stg4_1 : Ref sig .tc := ⟨.vmem, 80, rfl⟩
abbrev cc10_stg5_0 : Ref sig .tc := ⟨.vmem, 81, rfl⟩
abbrev cc10_stg5_1 : Ref sig .tc := ⟨.vmem, 82, rfl⟩
abbrev cc11_stg0_0 : Ref sig .tc := ⟨.vmem, 83, rfl⟩
abbrev cc11_stg0_1 : Ref sig .tc := ⟨.vmem, 84, rfl⟩
abbrev cc11_stg1_0 : Ref sig .tc := ⟨.vmem, 85, rfl⟩
abbrev cc11_stg2_0 : Ref sig .tc := ⟨.vmem, 86, rfl⟩
abbrev cc11_stg2_1 : Ref sig .tc := ⟨.vmem, 87, rfl⟩
abbrev cc11_scratch0 : Ref sig .tc := ⟨.vmem, 88, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc5_sem2_0 : DmaSem sig := 24
abbrev cc5_sem2_1 : DmaSem sig := 25
abbrev cc5_sem3_0 : DmaSem sig := 26
abbrev cc5_sem3_1 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc6_sem2_1 : DmaSem sig := 33
abbrev cc6_sem3_0 : DmaSem sig := 34
abbrev cc6_sem3_1 : DmaSem sig := 35
abbrev cc6_sem4_0 : DmaSem sig := 36
abbrev cc6_sem4_1 : DmaSem sig := 37
abbrev cc6_sem5_0 : DmaSem sig := 38
abbrev cc6_sem5_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc8_sem3_0 : DmaSem sig := 54
abbrev cc8_sem3_1 : DmaSem sig := 55
abbrev cc8_sem4_0 : DmaSem sig := 56
abbrev cc8_sem4_1 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem2_1 : DmaSem sig := 65
abbrev cc9_sem3_0 : DmaSem sig := 66
abbrev cc9_sem3_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc10_sem2_1 : DmaSem sig := 73
abbrev cc10_sem3_0 : DmaSem sig := 74
abbrev cc10_sem3_1 : DmaSem sig := 75
abbrev cc10_sem4_0 : DmaSem sig := 76
abbrev cc10_sem4_1 : DmaSem sig := 77
abbrev cc10_sem5_0 : DmaSem sig := 78
abbrev cc10_sem5_1 : DmaSem sig := 79
abbrev cc11_sem0_0 : DmaSem sig := 80
abbrev cc11_sem0_1 : DmaSem sig := 81
abbrev cc11_sem1_0 : DmaSem sig := 82
abbrev cc11_sem2_0 : DmaSem sig := 83
abbrev cc11_sem2_1 : DmaSem sig := 84

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨3, ![4, 4, 4], ![false, false, false]⟩

def k5_cond2 (i : grid5.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1x2x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨2, ![8, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S1x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S1024x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev grid7 : Pipeline.Grid := ⟨3, ![4, 4, 4], ![false, false, false]⟩

def k7_cond2 (i : grid7.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S2048x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1x2x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨2, ![8, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![false, true]

abbrev stage8_4 : Fin 2 → Memref sig .tc .vmem S1x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![false, true]

abbrev stage8_5 : Fin 2 → Memref sig .tc .vmem S1024x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev grid9 : Pipeline.Grid := ⟨3, ![4, 4, 4], ![false, false, false]⟩

def k9_cond2 (i : grid9.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage9_0 : Fin 2 → Memref sig .tc .vmem S2048x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S2048x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S1x2x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨2, ![8, 4], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_5 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x1024 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S1x1024 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![false, true]

abbrev stage10_4 : Fin 2 → Memref sig .tc .vmem S1x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![false, true]

abbrev stage10_5 : Fin 2 → Memref sig .tc .vmem S1024x1024 .bf16 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true, true]

abbrev grid11 : Pipeline.Grid := ⟨3, ![16, 1, 1], ![false, false, false]⟩

def k11_cond2 (i : grid11.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S512x4096 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S1024x4096 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 2 → Memref sig .tc .vmem S512x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  pads_S1000x4096_S1024x4096_0240_000 : S1000x4096.Pads (![0, 0] : Fin 2 → Nat) ![24, 0] ![0, 0] S1024x4096
  h_S_ : 0 < S_.numel
  shapeCasts_S512x4096_S512x4096 : S512x4096.ShapeCasts S512x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S2048x1024_S1024 : S2048x1024.Reduces [0] S1024
  shapeCasts_S1024_S1x1024 : S1024.ShapeCasts S1x1024
  shapeCasts_S1x1024_S1x1x1024 : S1x1024.ShapeCasts S1x1x1024
  inb_S1x2x1024_S1x1x1024_0_0_0 : ∀ a, (![0, 0, 0] : Fin 3 → Nat) a + S1x1x1024.size a ≤ S1x2x1024.size a
  h_S1x1x1024 : 0 < S1x1x1024.numel
  inb_S1x2x1024_S1x1x1024_0_1_0 : ∀ a, (![0, 1, 0] : Fin 3 → Nat) a + S1x1x1024.size a ≤ S1x2x1024.size a
  slices_S4x2x4096_S4x1x4096_0_0_0 : S4x2x4096.Slices ![0, 0, 0] S4x1x4096
  shapeCasts_S4x1x4096_S4x4096 : S4x1x4096.ShapeCasts S4x4096
  reducesTo_S4x4096_S4096_d0 : S4x4096.ReducesTo [0] S4096
  bcast_S4096_S1x4096_1 : S4096.BroadcastsInDim S1x4096 (![1] : Fin 1 → Fin S1x4096.rank)
  slices_S4x2x4096_S4x1x4096_0_1_0 : S4x2x4096.Slices ![0, 1, 0] S4x1x4096
  bcast_S_S1x4096 : S_.BroadcastsInDim S1x4096 (![] : Fin 0 → Fin S1x4096.rank)
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S8192x1024_S8192x1000_0_0 : S8192x1024.Slices ![0, 0] S8192x1000
  dot_S2048x1024_S1024x1024_S2048x1024_1_1_0_0_n_n_wf : DotDims.WF S2048x1024 S1024x1024 S2048x1024 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .f32 = 32 ∨ (Rect.block (s := S4096x4096) S512x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x4096.size a ≤ S4096x4096.size a
  hwx3_1 : ∀ i : grid3.Coords, EltTy.bits .bf16 = 32 ∨ (Rect.block (s := S4096x4096) S512x4096.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S1024x4096.size a
  hwx4_0 : ∀ i : grid4.Coords, EltTy.bits .f32 = 32 ∨ (Rect.block (s := S1024x4096) S512x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x4096.size a ≤ S1024x4096.size a
  hwx4_1 : ∀ i : grid4.Coords, EltTy.bits .bf16 = 32 ∨ (Rect.block (s := S1024x4096) S512x4096.size (cc4_transform_1 i) (hinb4_1 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S8192x4096.size a
  hwx5_0 : ∀ i : grid5.Coords, EltTy.bits .bf16 = 32 ∨ (Rect.block (s := S8192x4096) S2048x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x4096.size a
  hwx5_1 : ∀ i : grid5.Coords, EltTy.bits .bf16 = 32 ∨ (Rect.block (s := S4096x4096) S1024x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1024.size a ≤ S8192x4096.size a
  hwx5_2 : ∀ i : grid5.Coords, EltTy.bits .f32 = 32 ∨ (Rect.block (s := S8192x4096) S2048x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x2x1024.size a ≤ S4x2x4096.size a
  hwx5_3 : ∀ i : grid5.Coords, EltTy.bits .f32 = 32 ∨ (Rect.block (s := S4x2x4096) S1x2x1024.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x4096.size a
  hwx6_0 : ∀ i : grid6.Coords, EltTy.bits .f32 = 32 ∨ (Rect.block (s := S8192x4096) S1024x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1024.size a ≤ S1x4096.size a
  hwx6_1 : ∀ i : grid6.Coords, EltTy.bits .f32 = 32 ∨ (Rect.block (s := S1x4096) S1x1024.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x4096.size a
  hwx6_2 : ∀ i : grid6.Coords, EltTy.bits .f32 = 32 ∨ (Rect.block (s := S1x4096) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1024.size a ≤ S1x4096.size a
  hwx6_3 : ∀ i : grid6.Coords, EltTy.bits .f32 = 32 ∨ (Rect.block (s := S1x4096) S1x1024.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x4096.size a
  hwx6_4 : ∀ i : grid6.Coords, EltTy.bits .f32 = 32 ∨ (Rect.block (s := S1x4096) S1x1024.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x1024.size a ≤ S8192x4096.size a
  hwx6_5 : ∀ i : grid6.Coords, EltTy.bits .bf16 = 32 ∨ (Rect.block (s := S8192x4096) S1024x1024.size (cc6_transform_5 i) (hinb6_5 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x1024.size a ≤ S8192x4096.size a
  hwx7_0 : ∀ i : grid7.Coords, EltTy.bits .bf16 = 32 ∨ (Rect.block (s := S8192x4096) S2048x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x1024.size a ≤ S4096x4096.size a
  hwx7_1 : ∀ i : grid7.Coords, EltTy.bits .bf16 = 32 ∨ (Rect.block (s := S4096x4096) S1024x1024.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x1024.size a ≤ S8192x4096.size a
  hwx7_2 : ∀ i : grid7.Coords, EltTy.bits .f32 = 32 ∨ (Rect.block (s := S8192x4096) S2048x1024.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x2x1024.size a ≤ S4x2x4096.size a
  hwx7_3 : ∀ i : grid7.Coords, EltTy.bits .f32 = 32 ∨ (Rect.block (s := S4x2x4096) S1x2x1024.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S8192x4096.size a
  hwx8_0 : ∀ i : grid8.Coords, EltTy.bits .f32 = 32 ∨ (Rect.block (s := S8192x4096) S1024x1024.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x1024.size a ≤ S1x4096.size a
  hwx8_1 : ∀ i : grid8.Coords, EltTy.bits .f32 = 32 ∨ (Rect.block (s := S1x4096) S1x1024.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x4096.size a
  hwx8_2 : ∀ i : grid8.Coords, EltTy.bits .f32 = 32 ∨ (Rect.block (s := S1x4096) S1x1024.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x1024.size a ≤ S1x4096.size a
  hwx8_3 : ∀ i : grid8.Coords, EltTy.bits .f32 = 32 ∨ (Rect.block (s := S1x4096) S1x1024.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x1024.size a ≤ S1x4096.size a
  hwx8_4 : ∀ i : grid8.Coords, EltTy.bits .f32 = 32 ∨ (Rect.block (s := S1x4096) S1x1024.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x1024.size a ≤ S8192x4096.size a
  hwx8_5 : ∀ i : grid8.Coords, EltTy.bits .bf16 = 32 ∨ (Rect.block (s := S8192x4096) S1024x1024.size (cc8_transform_5 i) (hinb8_5 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x1024.size a ≤ S8192x4096.size a
  hwx9_0 : ∀ i : grid9.Coords, EltTy.bits .bf16 = 32 ∨ (Rect.block (s := S8192x4096) S2048x1024.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x1024.size a ≤ S4096x4096.size a
  hwx9_1 : ∀ i : grid9.Coords, EltTy.bits .bf16 = 32 ∨ (Rect.block (s := S4096x4096) S1024x1024.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x1024.size a ≤ S8192x4096.size a
  hwx9_2 : ∀ i : grid9.Coords, EltTy.bits .f32 = 32 ∨ (Rect.block (s := S8192x4096) S2048x1024.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1x2x1024.size a ≤ S4x2x4096.size a
  hwx9_3 : ∀ i : grid9.Coords, EltTy.bits .f32 = 32 ∨ (Rect.block (s := S4x2x4096) S1x2x1024.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x1024.size a ≤ S8192x4096.size a
  hwx10_0 : ∀ i : grid10.Coords, EltTy.bits .f32 = 32 ∨ (Rect.block (s := S8192x4096) S1024x1024.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x1024.size a ≤ S1x4096.size a
  hwx10_1 : ∀ i : grid10.Coords, EltTy.bits .f32 = 32 ∨ (Rect.block (s := S1x4096) S1x1024.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x1024.size a ≤ S1x4096.size a
  hwx10_2 : ∀ i : grid10.Coords, EltTy.bits .f32 = 32 ∨ (Rect.block (s := S1x4096) S1x1024.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x1024.size a ≤ S1x4096.size a
  hwx10_3 : ∀ i : grid10.Coords, EltTy.bits .f32 = 32 ∨ (Rect.block (s := S1x4096) S1x1024.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x1024.size a ≤ S1x4096.size a
  hwx10_4 : ∀ i : grid10.Coords, EltTy.bits .f32 = 32 ∨ (Rect.block (s := S1x4096) S1x1024.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1024x1024.size a ≤ S8192x4096.size a
  hwx10_5 : ∀ i : grid10.Coords, EltTy.bits .bf16 = 32 ∨ (Rect.block (s := S8192x4096) S1024x1024.size (cc10_transform_5 i) (hinb10_5 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x4096.size a ≤ S8192x4096.size a
  hwx11_0 : ∀ i : grid11.Coords, EltTy.bits .bf16 = 32 ∨ (Rect.block (s := S8192x4096) S512x4096.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1024x4096.size a ≤ S1024x4096.size a
  hwx11_1 : ∀ i : grid11.Coords, EltTy.bits .bf16 = 32 ∨ (Rect.block (s := S1024x4096) S1024x4096.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S512x1024.size a ≤ S8192x1024.size a
  hwx11_2 : ∀ i : grid11.Coords, EltTy.bits .f32 = 32 ∨ (Rect.block (s := S8192x1024) S512x1024.size (cc11_transform_2 i) (hinb11_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg4) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x4096.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg7) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x4096.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v4) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S512x4096.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v0) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6_0) S2048x1024.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v6_1) S1x2x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun i => !(k5_cond2 i == 1#1) | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v6_0) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16) S1x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v22) S1x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v23) S1x1024.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v24) S1x1024.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v25) S1024x1024.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v25) S2048x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v2) S1024x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v26_0) S2048x1024.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v26_1) S1x2x1024.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v26_0) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v36) S1x1024.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v42) S1x1024.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v43) S1x1024.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v44) S1x1024.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v45) S1024x1024.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v45) S2048x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v3) S1024x1024.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v46_0) S2048x1024.size cc9_transform_2 reads9_2 true false 2 stage9_2 sem9_2
    hrank9 hreads9_2 hinb9_2 nbuf9_2 (Memref.isWhole_whole _) hwx9_2 hstage9_2

abbrev win9_3 : Pipeline.Window sig grid9 :=
  Pipeline.Window.ofSpec (Memref.whole main_v46_1) S1x2x1024.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun i => !(k9_cond2 i == 1#1) | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v46_0) S1024x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v56) S1x1024.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v62) S1x1024.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v63) S1x1024.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v64) S1x1024.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_v65) S1024x1024.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v65) S512x4096.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v5) S1024x4096.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v66) S512x1024.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S_ : Shape := ⟨0, ![]⟩
abbrev S1x4096 : Shape := ⟨2, ![1, 4096]⟩
abbrev S4096x1000 : Shape := ⟨2, ![4096, 1000]⟩
abbrev S8192x1000 : Shape := ⟨2, ![8192, 1000]⟩

abbrev nBuf : Space → Nat
  | .hbm => 162
  | .vmem => 0
  | .smem => 0
  | _ => 0

abbrev hbmTy0_0 (i : Nat) : BufTy := match i % 128 with
  | 0 => ⟨S8192x4096, .f32⟩
  | 1 => ⟨S4096x4096, .f32⟩
  | 2 => ⟨S4096, .f32⟩
  | 3 => ⟨S4096, .f32⟩
  | 4 => ⟨S4096x4096, .f32⟩
  | 5 => ⟨S4096, .f32⟩
  | 6 => ⟨S4096, .f32⟩
  | 7 => ⟨S4096x4096, .f32⟩
  | 8 => ⟨S4096, .f32⟩
  | 9 => ⟨S4096, .f32⟩
  | 10 => ⟨S1000x4096, .f32⟩
  | 11 => ⟨S8192x4096, .f32⟩
  | 12 => ⟨S4096x4096, .f32⟩
  | 13 => ⟨S4096x4096, .f32⟩
  | 14 => ⟨S8192x4096, .f32⟩
  | 15 => ⟨S_, .f32⟩
  | 16 => ⟨S4096, .f32⟩
  | 17 => ⟨S_, .f32⟩
  | 18 => ⟨S4096, .f32⟩
  | 19 => ⟨S4096, .f32⟩
  | 20 => ⟨S_, .i32⟩
  | 21 => ⟨S_, .f32⟩
  | 22 => ⟨S4096, .f32⟩
  | 23 => ⟨S1x4096, .f32⟩
  | 24 => ⟨S_, .f32⟩
  | 25 => ⟨S1x4096, .f32⟩
  | 26 => ⟨S1x4096, .f32⟩
  | 27 => ⟨S8192x4096, .f32⟩
  | 28 => ⟨S8192x4096, .f32⟩
  | 29 => ⟨S8192x4096, .f32⟩
  | 30 => ⟨S_, .f32⟩
  | 31 => ⟨S_, .f32⟩
  | 32 => ⟨S_, .f32⟩
  | 33 => ⟨S_, .f32⟩
  | 34 => ⟨S4096, .f32⟩
  | 35 => ⟨S4096, .f32⟩
  | 36 => ⟨S4096, .f32⟩
  | 37 => ⟨S_, .f32⟩
  | 38 => ⟨S_, .i1⟩
  | 39 => ⟨S_, .f32⟩
  | 40 => ⟨S_, .f32⟩
  | 41 => ⟨S4096, .f32⟩
  | 42 => ⟨S4096, .f32⟩
  | 43 => ⟨S1x4096, .f32⟩
  | 44 => ⟨S8192x4096, .f32⟩
  | 45 => ⟨S8192x4096, .f32⟩
  | 46 => ⟨S1x4096, .f32⟩
  | 47 => ⟨S8192x4096, .f32⟩
  | 48 => ⟨S8192x4096, .f32⟩
  | 49 => ⟨S_, .f32⟩
  | 50 => ⟨S4096, .f32⟩
  | 51 => ⟨S4096, .f32⟩
  | 52 => ⟨S4096, .f32⟩
  | 53 => ⟨S1x4096, .f32⟩
  | 54 => ⟨S8192x4096, .f32⟩
  | 55 => ⟨S8192x4096, .f32⟩
  | 56 => ⟨S1x4096, .f32⟩
  | 57 => ⟨S8192x4096, .f32⟩
  | 58 => ⟨S8192x4096, .f32⟩
  | 59 => ⟨S8192x4096, .f32⟩
  | 60 => ⟨S8192x4096, .f32⟩
  | 61 => ⟨S4096x4096, .f32⟩
  | 62 => ⟨S4096x4096, .f32⟩
  | 63 => ⟨S8192x4096, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .i32⟩
  | 70 => ⟨S_, .f32⟩
  | 71 => ⟨S4096, .f32⟩
  | 72 => ⟨S1x4096, .f32⟩
  | 73 => ⟨S_, .f32⟩
  | 74 => ⟨S1x4096, .f32⟩
  | 75 => ⟨S1x4096, .f32⟩
  | 76 => ⟨S8192x4096, .f32⟩
  | 77 => ⟨S8192x4096, .f32⟩
  | 78 => ⟨S8192x4096, .f32⟩
  | 79 => ⟨S_, .f32⟩
  | 80 => ⟨S_, .f32⟩
  | 81 => ⟨S_, .f32⟩
  | 82 => ⟨S_, .f32⟩
  | 83 => ⟨S4096, .f32⟩
  | 84 => ⟨S4096, .f32⟩
  | 85 => ⟨S4096, .f32⟩
  | 86 => ⟨S_, .f32⟩
  | 87 => ⟨S_, .i1⟩
  | 88 => ⟨S_, .f32⟩
  | 89 => ⟨S_, .f32⟩
  | 90 => ⟨S4096, .f32⟩
  | 91 => ⟨S4096, .f32⟩
  | 92 => ⟨S1x4096, .f32⟩
  | 93 => ⟨S8192x4096, .f32⟩
  | 94 => ⟨S8192x4096, .f32⟩
  | 95 => ⟨S1x4096, .f32⟩
  | 96 => ⟨S8192x4096, .f32⟩
  | 97 => ⟨S8192x4096, .f32⟩
  | 98 => ⟨S_, .f32⟩
  | 99 => ⟨S4096, .f32⟩
  | 100 => ⟨S4096, .f32⟩
  | 101 => ⟨S4096, .f32⟩
  | 102 => ⟨S1x4096, .f32⟩
  | 103 => ⟨S8192x4096, .f32⟩
  | 104 => ⟨S8192x4096, .f32⟩
  | 105 => ⟨S1x4096, .f32⟩
  | 106 => ⟨S8192x4096, .f32⟩
  | 107 => ⟨S8192x4096, .f32⟩
  | 108 => ⟨S8192x4096, .f32⟩
  | 109 => ⟨S8192x4096, .f32⟩
  | 110 => ⟨S4096x4096, .f32⟩
  | 111 => ⟨S4096x4096, .f32⟩
  | 112 => ⟨S8192x4096, .f32⟩
  | 113 => ⟨S_, .f32⟩
  | 114 => ⟨S4096, .f32⟩
  | 115 => ⟨S_, .f32⟩
  | 116 => ⟨S4096, .f32⟩
  | 117 => ⟨S4096, .f32⟩
  | 118 => ⟨S_, .i32⟩
  | 119 => ⟨S_, .f32⟩
  | 120 => ⟨S4096, .f32⟩
  | 121 => ⟨S1x4096, .f32⟩
  | 122 => ⟨S_, .f32⟩
  | 123 => ⟨S1x4096, .f32⟩
  | 124 => ⟨S1x4096, .f32⟩
  | 125 => ⟨S8192x4096, .f32⟩
  | 126 => ⟨S8192x4096, .f32⟩
  | 127 => ⟨S8192x4096, .f32⟩
  | _ => ⟨S8192x4096, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S4096, .f32⟩
  | 5 => ⟨S4096, .f32⟩
  | 6 => ⟨S4096, .f32⟩
  | 7 => ⟨S_, .f32⟩
  | 8 => ⟨S_, .i1⟩
  | 9 => ⟨S_, .f32⟩
  | 10 => ⟨S_, .f32⟩
  | 11 => ⟨S4096, .f32⟩
  | 12 => ⟨S4096, .f32⟩
  | 13 => ⟨S1x4096, .f32⟩
  | 14 => ⟨S8192x4096, .f32⟩
  | 15 => ⟨S8192x4096, .f32⟩
  | 16 => ⟨S1x4096, .f32⟩
  | 17 => ⟨S8192x4096, .f32⟩
  | 18 => ⟨S8192x4096, .f32⟩
  | 19 => ⟨S_, .f32⟩
  | 20 => ⟨S4096, .f32⟩
  | 21 => ⟨S4096, .f32⟩
  | 22 => ⟨S4096, .f32⟩
  | 23 => ⟨S1x4096, .f32⟩
  | 24 => ⟨S8192x4096, .f32⟩
  | 25 => ⟨S8192x4096, .f32⟩
  | 26 => ⟨S1x4096, .f32⟩
  | 27 => ⟨S8192x4096, .f32⟩
  | 28 => ⟨S8192x4096, .f32⟩
  | 29 => ⟨S8192x4096, .f32⟩
  | 30 => ⟨S8192x4096, .f32⟩
  | 31 => ⟨S1000x4096, .f32⟩
  | 32 => ⟨S4096x1000, .f32⟩
  | 33 => ⟨S8192x1000, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_cst_3 : Ref sig .tc := ⟨.hbm, 66, rfl⟩
abbrev main_v29 : Ref sig .tc := ⟨.hbm, 67, rfl⟩
abbrev main_v30 : Ref sig .tc := ⟨.hbm, 68, rfl⟩
abbrev main_c_4 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_cst_5 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_cst_6 : Ref sig .tc := ⟨.hbm, 113, rfl⟩
abbrev main_v52 : Ref sig .tc := ⟨.hbm, 114, rfl⟩
abbrev main_cst_7 : Ref sig .tc := ⟨.hbm, 115, rfl⟩
abbrev main_v53 : Ref sig .tc := ⟨.hbm, 116, rfl⟩
abbrev main_v54 : Ref sig .tc := ⟨.hbm, 117, rfl⟩
abbrev main_c_8 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_cst_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_cst_1 : Ref sig .tc := ⟨.hbm, 129, rfl⟩
abbrev main_call2_v8 : Ref sig .tc := ⟨.hbm, 130, rfl⟩
abbrev main_call2_cst_2 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_cst_3 : Ref sig .tc := ⟨.hbm, 135, rfl⟩
abbrev main_call2_v12 : Ref sig .tc := ⟨.hbm, 136, rfl⟩
abbrev main_call2_cst_4 : Ref sig .tc := ⟨.hbm, 137, rfl⟩
abbrev main_call2_call0_v0 : Ref sig .tc := ⟨.hbm, 138, rfl⟩
abbrev main_call2_call0_v1 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_cst_9 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S8192x4096_S4096_d0 : S8192x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S8192x4096_0_1 : S1x4096.BroadcastsInDim S8192x4096 (![0, 1] : Fin 2 → Fin S8192x4096.rank)
  transposes_S1000x4096_S4096x1000_1_0 : S1000x4096.Transposes [1, 0] S4096x1000
  dot_S8192x4096_S4096x4096_S8192x4096_1_0_0_1_n_n_wf : DotDims.WF S8192x4096 S4096x4096 S8192x4096 [1] [0] [0] [1] [] []
  dot_S8192x4096_S4096x1000_S8192x1000_1_0_0_1_n_n_wf : DotDims.WF S8192x4096 S4096x1000 S8192x1000 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.BReg0.lean ====
/- Region 0 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's
    and whose body leaves the block in place: the window is fetched whole and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512x4096 block: the one rectangle the body loads and stores through. -/
abbrev r0_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out0_1 (x0 : Vec F S512x4096 .f32) : Vec F S512x4096 .bf16 :=
  View.canon [⟨r0_0, k0_pay1 (View.ld x0 r0_0)⟩]

/-- The one store covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- The kernel body on whole staging memrefs, the input's at contents x0 and the output's at anything, runs to the
    continuation holding the input's as it was and the output's at out0_1 x0. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core c: the arrays as the region finds them; after the body at point t the
    input's buffer at its block and the output's at out0_1 of the input block; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

theorem q_eq0 (c : Dev nD) (w : Fin cfg0.W) : (dat0 V c).q w = fullShare := rfl
theorem owed_eq0 (c : Dev nD) (j) : (dat0 V c).owed j = 0 := rfl

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest make the invariant at the first point. -/
theorem hin0 (c : Dev nD) : iprop((∃ r, prngReg c r) ∗ Pipeline.scopedRest spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Leaving: the invariant at the last point gives them back. -/
theorem hout0 (c : Dev nD) : (dat0 V c).Φ (Fin.last cfg0.N) ⊢ iprop((∃ r, prngReg c r) ∗ Pipeline.scopedRest spec0 c) := by
  rw [show (dat0 V c).Φ (Fin.last _) = Pipeline.ΦA spec0 c from rfl]; unfold Pipeline.ΦA
  iintro ⟨Hr, Hp⟩
  isplitl [Hp]; · iexact Hp
  iexact Hr

end Cert.Kernel.Hand

end
-- ==== Proof.BReg1.lean ====
/- Region 1 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is V's
    and whose body leaves the block in place: the window is fetched whole and is never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 512x4096 block: the one rectangle the body loads and stores through. -/
abbrev r1_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out1_1 (x0 : Vec F S512x4096 .f32) : Vec F S512x4096 .bf16 :=
  View.canon [⟨r1_0, k1_pay1 (View.ld x0 r1_0)⟩]

/-- The one store covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-! ## The body's triple -/

set_option maxHeartbeats 1000000 in
/-- The kernel body on whole staging memrefs, the input's at contents x0 and the output's at anything, runs to the
    continuation holding the input's as it was and the output's at out1_1 x0. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__binarize_kernel i arg1 harg1 arg2 harg2) K := by
  simp only [cc1__binarize_kernel_eq_skeleton]; unfold cc1__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the region on core c: the arrays as the region finds them; after the body at point t the
    input's buffer at its block and the output's at out1_1 of the input block; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

theorem q_eq1 (c : Dev nD) (w : Fin cfg1.W) : (dat1 V c).q w = fullShare := rfl
theorem owed_eq1 (c : Dev nD) (j) : (dat1 V c).owed j = 0 := rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering: the generator register and the scoped rest make the invariant at the first point. -/
theorem hin1 (c : Dev nD) : iprop((∃ r, prngReg c r) ∗ Pipeline.scopedRest spec1 c) ⊢ (dat1 V c).Φ 0 := by
  rw [show (dat1 V c).Φ 0 = Pipeline.ΦA spec1 c from rfl]; unfold Pipeline.ΦA
  iintro ⟨Hp, Hr⟩
  isplitl [Hr]; · iexact Hr
  iexact Hp

/-- Leaving: the invariant at the last point gives them back. -/
theorem hout1 (c : Dev nD) : (dat1 V c).Φ (Fin.last cfg1.N) ⊢ iprop((∃ r, prngReg c r) ∗ Pipeline.scopedRest spec1 c) := by
  rw [show (dat1 V c).Φ (Fin.last _) = Pipeline.ΦA spec1 c from rfl]; unfold Pipeline.ΦA
  iintro ⟨Hr, Hp⟩
  isplitl [Hp]; · iexact Hp
  iexact Hr

end Cert.Kernel.Hand

end
-- ==== Proof.BReg2.lean ====
/- Region 2 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is V's
    and whose body leaves the block in place: the window is fetched whole and is never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 512x4096 block: the one rectangle the body loads and stores through. -/
abbrev r2_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out2_1 (x0 : Vec F S512x4096 .f32) : Vec F S512x4096 .bf16 :=
  View.canon [⟨r2_0, k2_pay1 (View.ld x0 r2_0)⟩]

/-- The one store covers the buffer. -/
theorem cover2_1 (p0 : Vec F S512x4096 .bf16) (y : S512x4096.Idx) :
    ∃ pc ∈ ([⟨r2_0, p0⟩] : List (View.Piece (Elt F) S512x4096 .bf16)), y ∈ pc.1.set :=
  View.cover_of_tiled [⟨r2_0, p0⟩] S512x4096.size (by rfl) y

/-! ## The body's triple -/

set_option maxHeartbeats 1000000 in
/-- The kernel body on whole staging memrefs, the input's at contents x0 and the output's at anything, runs to the
    continuation holding the input's as it was and the output's at out2_1 x0. -/
theorem sound_kernel2 (c : Dev nD) (E : Set ℕ) (i : grid2.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__binarize_kernel i arg1 harg1 arg2 harg2) K := by
  simp only [cc2__binarize_kernel_eq_skeleton]; unfold cc2__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of the region on core c: the arrays as the region finds them; after the body at point t the
    input's buffer at its block and the output's at out2_1 of the input block; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

theorem q_eq2 (c : Dev nD) (w : Fin cfg2.W) : (dat2 V c).q w = fullShare := rfl
theorem owed_eq2 (c : Dev nD) (j) : (dat2 V c).owed j = 0 := rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the triple applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- Entering: the generator register and the scoped rest make the invariant at the first point. -/
theorem hin2 (c : Dev nD) : iprop((∃ r, prngReg c r) ∗ Pipeline.scopedRest spec2 c) ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Leaving: the invariant at the last point gives them back. -/
theorem hout2 (c : Dev nD) : (dat2 V c).Φ (Fin.last cfg2.N) ⊢ iprop((∃ r, prngReg c r) ∗ Pipeline.scopedRest spec2 c) := by
  rw [show (dat2 V c).Φ (Fin.last _) = Pipeline.ΦA spec2 c from rfl]; unfold Pipeline.ΦA
  iintro ⟨Hr, Hp⟩
  isplitl [Hp]; · iexact Hp
  iexact Hr

end Cert.Kernel.Hand

end
-- ==== Proof.BReg3.lean ====
/- Region 3 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is V's
    and whose body leaves the block in place: the window is fetched whole and is never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 512x4096 block: the one rectangle the body loads and stores through. -/
abbrev r3_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out3_1 (x0 : Vec F S512x4096 .f32) : Vec F S512x4096 .bf16 :=
  View.canon [⟨r3_0, k3_pay1 (View.ld x0 r3_0)⟩]

/-- The one store covers the buffer. -/
theorem cover3_1 (p0 : Vec F S512x4096 .bf16) (y : S512x4096.Idx) :
    ∃ pc ∈ ([⟨r3_0, p0⟩] : List (View.Piece (Elt F) S512x4096 .bf16)), y ∈ pc.1.set :=
  View.cover_of_tiled [⟨r3_0, p0⟩] S512x4096.size (by rfl) y

/-! ## The body's triple -/

set_option maxHeartbeats 1000000 in
/-- The kernel body on whole staging memrefs, the input's at contents x0 and the output's at anything, runs to the
    continuation holding the input's as it was and the output's at out3_1 x0. -/
theorem sound_kernel3 (c : Dev nD) (E : Set ℕ) (i : grid3.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__binarize_kernel i arg1 harg1 arg2 harg2) K := by
  simp only [cc3__binarize_kernel_eq_skeleton]; unfold cc3__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of the region on core c: the arrays as the region finds them; after the body at point t the
    input's buffer at its block and the output's at out3_1 of the input block; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- The input's current staging buffer holds its block at every point. -/
theorem before3_0 (c : Dev nD) (t : Fin cfg3.N) (d) : (dat3 V c).before 0 t d = iblk3 V c 0 t :=
  before3_0_of V (dat3 V c) (A_eq3 V c 0) (after3_0 V c) t d

theorem q_eq3 (c : Dev nD) (w : Fin cfg3.W) : (dat3 V c).q w = fullShare := rfl
theorem owed_eq3 (c : Dev nD) (j) : (dat3 V c).owed j = 0 := rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the triple applies; the invariant and the core's
    debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- Entering: the generator register and the scoped rest make the invariant at the first point. -/
theorem hin3 (c : Dev nD) : iprop((∃ r, prngReg c r) ∗ Pipeline.scopedRest spec3 c) ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Leaving: the invariant at the last point gives them back. -/
theorem hout3 (c : Dev nD) : (dat3 V c).Φ (Fin.last cfg3.N) ⊢ iprop((∃ r, prngReg c r) ∗ Pipeline.scopedRest spec3 c) := by
  rw [show (dat3 V c).Φ (Fin.last _) = Pipeline.ΦA spec3 c from rfl]; unfold Pipeline.ΦA
  iintro ⟨Hr, Hp⟩
  isplitl [Hp]; · iexact Hp
  iexact Hr

end Cert.Kernel.Hand

end
-- ==== Proof.BReg4.lean ====
/- Region 4 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is V's
    and whose body leaves the block in place: the window is fetched whole and is never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 512x4096 block: the one rectangle the body loads and stores through. -/
abbrev r4_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out4_1 (x0 : Vec F S512x4096 .f32) : Vec F S512x4096 .bf16 :=
  View.canon [⟨r4_0, k4_pay1 (View.ld x0 r4_0)⟩]

/-- The one store covers the buffer. -/
theorem cover4_1 (p0 : Vec F S512x4096 .bf16) (y : S512x4096.Idx) :
    ∃ pc ∈ ([⟨r4_0, p0⟩] : List (View.Piece (Elt F) S512x4096 .bf16)), y ∈ pc.1.set :=
  View.cover_of_tiled [⟨r4_0, p0⟩] S512x4096.size (by rfl) y

/-! ## The body's triple -/

set_option maxHeartbeats 1000000 in
/-- The kernel body on whole staging memrefs, the input's at contents x0 and the output's at anything, runs to the
    continuation holding the input's as it was and the output's at out4_1 x0. -/
theorem sound_kernel4 (c : Dev nD) (E : Set ℕ) (i : grid4.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__binarize_kernel i arg1 harg1 arg2 harg2) K := by
  simp only [cc4__binarize_kernel_eq_skeleton]; unfold cc4__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The pipeline's proof data -/

/-- The proof data of the region on core c: the arrays as the region finds them; after the body at point t the
    input's buffer at its block and the output's at out4_1 of the input block; the invariant is the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

theorem q_eq4 (c : Dev nD) (w : Fin cfg4.W) : (dat4 V c).q w = fullShare := rfl
theorem owed_eq4 (c : Dev nD) (j) : (dat4 V c).owed j = 0 := rfl

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's memref holds its block, so the triple applies; the invariant and the core's
    debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- Entering: the generator register and the scoped rest make the invariant at the first point. -/
theorem hin4 (c : Dev nD) : iprop((∃ r, prngReg c r) ∗ Pipeline.scopedRest spec4 c) ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- Leaving: the invariant at the last point gives them back. -/
theorem hout4 (c : Dev nD) : (dat4 V c).Φ (Fin.last cfg4.N) ⊢ iprop((∃ r, prngReg c r) ∗ Pipeline.scopedRest spec4 c) := by
  rw [show (dat4 V c).Φ (Fin.last _) = Pipeline.ΦA spec4 c from rfl]; unfold Pipeline.ΦA
  iintro ⟨Hr, Hp⟩
  isplitl [Hp]; · iexact Hp
  iexact Hr

end Cert.Kernel.Hand

end
-- ==== Proof.BReg5Runs.lean ====
/- Region 5 (the first matmul-with-statistics call), part 1: the body's two conditions in closed form over the
   4 x 4 x 4 grid (the innermost coordinate k is the point's number mod 4), where the two output windows are idle,
   and the body run once per control case on whole staging memrefs:
   k = 0      : the accumulator is zeroed, then the product of the two input blocks is added;
   k = 1, 2   : the product is added to what the point before left in the accumulator;
   k = 3      : the product is added, then the accumulator is copied to the z block and its column sums and
                column sums of squares are stored as the two rows of the statistics block.
   The accumulator is a scratch buffer carried from point to point. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's conditions -/

/-- The first conditional's condition: the innermost grid coordinate is 0. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- The second conditional's condition: the innermost grid coordinate is 3. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- Away from k = 3 both outputs are idle and not written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At k = 3 both outputs are stored into. -/
theorem liveAt5_2 : ∀ t : Fin cfg5.N, cond5_1 (grid5.coords t) → cfg5.idle 2 (grid5.coords t) = false := by decide +kernel
theorem liveAt5_3 : ∀ t : Fin cfg5.N, cond5_1 (grid5.coords t) → cfg5.idle 3 (grid5.coords t) = false := by decide +kernel

/-! ## The memrefs the body is called with -/

abbrev VO5_2 : View sig .tc .vmem S2048x1024 .f32 := (Memref.whole cc5_stg2_0 : Memref sig .tc .vmem S2048x1024 .f32).view
abbrev VO5_3 : View sig .tc .vmem S1x2x1024 .f32 := (Memref.whole cc5_stg3_0 : Memref sig .tc .vmem S1x2x1024 .f32).view
abbrev ms5_0 (t : Fin cfg5.N) : Memref sig .tc .vmem S2048x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x2x1024 .f32 := win5_3.stage (cfg5.slots t 3)
abbrev hs5_3 (t : Fin cfg5.N) : (ms5_3 t).IsWhole := hstage5_3 ((cfg5.slots t 3).cast nbuf5_3)
/-- The accumulator: a whole scoped buffer of the call's own. -/
abbrev scM5_0 : Memref sig .tc .vmem S2048x1024 .f32 := Memref.whole cc5_scratch0
abbrev VS5_0 : View sig .tc .vmem S2048x1024 .f32 := scM5_0.view

/-! ## The body, case by case -/

set_option maxHeartbeats 1000000 in
/-- k = 0. The inputs at their blocks, the two outputs at contents handed back untouched, the accumulator at anything:
    the body ends with the accumulator's stores written (the list is what the run finds). -/
noncomputable def kernelRun5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond5_0 i) (hc1 : ¬cond5_1 i)
    (x0 : Vec F S2048x1024 .bf16) (x1 : Vec F S1024x1024 .bf16) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__binary_matmul_stats_kernel i arg3 harg3 arg4 harg4 arg5 harg5 arg6 harg6 arg7 harg7) K } := by
  refine ⟨?_, fun xi2 xi3 E K => ?run⟩
  case run =>
    simp only [cc5__binary_matmul_stats_kernel_eq_skeleton]; unfold cc5__binary_matmul_stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 1, 2. As k = 0, but the accumulator is read before it is written: it comes in at the contents `xs0` the point
    before left. -/
noncomputable def kernelRun5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : ¬cond5_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__binary_matmul_stats_kernel i arg3 harg3 arg4 harg4 arg5 harg5 arg6 harg6 arg7 harg7) K } := by
  refine ⟨?_, fun xi2 xi3 E K => ?run⟩
  case run =>
    simp only [cc5__binary_matmul_stats_kernel_eq_skeleton]; unfold cc5__binary_matmul_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 3. The outputs come in at anything and end with the body's stores written. -/
noncomputable def kernelRun5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) :
    Σ' (L2 : List (View.Piece (Elt F) S2048x1024 .f32)) (L3 : List (View.Piece (Elt F) S1x2x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__binary_matmul_stats_kernel i arg3 harg3 arg4 harg4 arg5 harg5 arg6 harg6 arg7 harg7) K } := by
  refine ⟨?_, ?_, ?_, fun E K => ?run⟩
  case run =>
    simp only [cc5__binary_matmul_stats_kernel_eq_skeleton]; unfold cc5__binary_matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.Kernel.Hand

end
-- ==== Proof.BReg5.lean ====
/- Region 5, part 2: what the accumulator and the two output blocks hold after each grid point (by recursion on the
   point: at k = 0 the accumulator restarts from zero, otherwise it continues from the point before; the outputs are
   stored at k = 3 only), the proof data of the pipeline at given entry contents, and the body obligation.
   The invariant before a point holds the accumulator at what the point before left in it (at anything before the
   first point), every other scoped buffer unopened, and the generator register at some state. -/
import proofs.«139021_j54202487276022_2_alg».proof.Proof.BReg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves -/

/-- k = 0: the accumulator's stores cover it. -/
theorem scover5_A_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond5_0 i) (hc1 : ¬cond5_1 i)
    (x0 : Vec F S2048x1024 .bf16) (x1 : Vec F S1024x1024 .bf16) (y : S2048x1024.Idx) :
    ∃ pc ∈ (kernelRun5_A c i arg3 harg3 arg4 harg4 arg5 harg5 arg6 harg6 arg7 harg7 hc0 hc1 x0 x1).1, y ∈ pc.1.set :=
  View.cover_of_tiledL (kernelRun5_A c i arg3 harg3 arg4 harg4 arg5 harg5 arg6 harg6 arg7 harg7 hc0 hc1 x0 x1).1 S2048x1024.size (by sl_kernel_rfl) y
/-- What k = 0 leaves in the accumulator. -/
def sout5_A_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond5_0 i) (hc1 : ¬cond5_1 i)
    (x0 : Vec F S2048x1024 .bf16) (x1 : Vec F S1024x1024 .bf16) : Vec F S2048x1024 .f32 :=
  VS5_0.read (Elt F) (VS5_0.writes (Elt F) VS5_0.junk (kernelRun5_A c i arg3 harg3 arg4 harg4 arg5 harg5 arg6 harg6 arg7 harg7 hc0 hc1 x0 x1).1)

/-- k = 1, 2: the accumulator's store covers it. -/
theorem scover5_B_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : ¬cond5_1 i)
    (x0 : Vec F S2048x1024 .bf16) (x1 : Vec F S1024x1024 .bf16) (xs0 : Vec F S2048x1024 .f32) (y : S2048x1024.Idx) :
    ∃ pc ∈ (kernelRun5_B c i arg3 harg3 arg4 harg4 arg5 harg5 arg6 harg6 arg7 harg7 hc0 hc1 x0 x1 xs0).1, y ∈ pc.1.set :=
  View.cover_of_tiledL (kernelRun5_B c i arg3 harg3 arg4 harg4 arg5 harg5 arg6 harg6 arg7 harg7 hc0 hc1 x0 x1 xs0).1 S2048x1024.size (by sl_kernel_rfl) y
/-- What k = 1, 2 leave in the accumulator. -/
def sout5_B_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : ¬cond5_1 i)
    (x0 : Vec F S2048x1024 .bf16) (x1 : Vec F S1024x1024 .bf16) (xs0 : Vec F S2048x1024 .f32) : Vec F S2048x1024 .f32 :=
  VS5_0.read (Elt F) (VS5_0.writes (Elt F) VS5_0.junk (kernelRun5_B c i arg3 harg3 arg4 harg4 arg5 harg5 arg6 harg6 arg7 harg7 hc0 hc1 x0 x1 xs0).1)

/-- k = 3: the z block's store covers it, -/
theorem cover5_C_2 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) (y : S2048x1024.Idx) :
    ∃ pc ∈ (kernelRun5_C c i arg3 harg3 arg4 harg4 arg5 harg5 arg6 harg6 arg7 harg7 hc0 hc1 x0 x1 xs0).1, y ∈ pc.1.set :=
  View.cover_of_tiledL (kernelRun5_C c i arg3 harg3 arg4 harg4 arg5 harg5 arg6 harg6 arg7 harg7 hc0 hc1 x0 x1 xs0).1 S2048x1024.size (by sl_kernel_rfl) y
/-- what it leaves there; -/
def out5_C_2 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) : Vec F S2048x1024 .f32 :=
  VO5_2.read (Elt F) (VO5_2.writes (Elt F) VO5_2.junk (kernelRun5_C c i arg3 harg3 arg4 harg4 arg5 harg5 arg6 harg6 arg7 harg7 hc0 hc1 x0 x1 xs0).1)
/-- the two row stores tile the statistics block, -/
theorem cover5_C_3 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) (y : S1x2x1024.Idx) :
    ∃ pc ∈ (kernelRun5_C c i arg3 harg3 arg4 harg4 arg5 harg5 arg6 harg6 arg7 harg7 hc0 hc1 x0 x1 xs0).2.1, y ∈ pc.1.set :=
  View.cover_of_tiledL (kernelRun5_C c i arg3 harg3 arg4 harg4 arg5 harg5 arg6 harg6 arg7 harg7 hc0 hc1 x0 x1 xs0).2.1 S1x1x1024.size (by sl_kernel_rfl) y
/-- what they leave there; -/
def out5_C_3 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) : Vec F S1x2x1024 .f32 :=
  VO5_3.read (Elt F) (VO5_3.writes (Elt F) VO5_3.junk (kernelRun5_C c i arg3 harg3 arg4 harg4 arg5 harg5 arg6 harg6 arg7 harg7 hc0 hc1 x0 x1 xs0).2.1)
/-- the accumulator's store covers it, -/
theorem scover5_C_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) (y : S2048x1024.Idx) :
    ∃ pc ∈ (kernelRun5_C c i arg3 harg3 arg4 harg4 arg5 harg5 arg6 harg6 arg7 harg7 hc0 hc1 x0 x1 xs0).2.2.1, y ∈ pc.1.set :=
  View.cover_of_tiledL (kernelRun5_C c i arg3 harg3 arg4 harg4 arg5 harg5 arg6 harg6 arg7 harg7 hc0 hc1 x0 x1 xs0).2.2.1 S2048x1024.size (by sl_kernel_rfl) y
/-- and what it leaves there. -/
def sout5_C_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) : Vec F S2048x1024 .f32 :=
  VS5_0.read (Elt F) (VS5_0.writes (Elt F) VS5_0.junk (kernelRun5_C c i arg3 harg3 arg4 harg4 arg5 harg5 arg6 harg6 arg7 harg7 hc0 hc1 x0 x1 xs0).2.2.1)

/-! ## What the buffers hold after each point -/

/-- After the body at position `n`: the z block's buffer, the statistics block's buffer, the accumulator. Away from
    k = 3 the two output components are placeholders nothing consults (the windows are idle and not written back). -/
def outsAt5 (c : Dev nD) : (n : ℕ) → n < cfg5.N → Vec F S2048x1024 .f32 × Vec F S1x2x1024 .f32 × Vec F S2048x1024 .f32
  | 0, hn => (View.canon ([] : List (View.Piece (Elt F) S2048x1024 .f32)), View.canon ([] : List (View.Piece (Elt F) S1x2x1024 .f32)),
      sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 4 = 0 then
      (View.canon ([] : List (View.Piece (Elt F) S2048x1024 .f32)), View.canon ([] : List (View.Piece (Elt F) S1x2x1024 .f32)),
        sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩))
    else
      if h1 : (n + 1) % 4 = 3 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2,
         out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2,
         sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2)
      else
        (View.canon ([] : List (View.Piece (Elt F) S2048x1024 .f32)), View.canon ([] : List (View.Piece (Elt F) S1x2x1024 .f32)),
          sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.2)

/-- At a point with k = 0. -/
theorem outsAt5_A (c : Dev nD) (t : Fin cfg5.N) (h0 : t.val % 4 = 0) (h1 : ¬t.val % 4 = 3) :
    outsAt5 V c t.val t.isLt = (View.canon ([] : List (View.Piece (Elt F) S2048x1024 .f32)), View.canon ([] : List (View.Piece (Elt F) S1x2x1024 .f32)),
      sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans rfl

/-- At a point with k = 1 or 2: over what the point before left. -/
theorem outsAt5_B (c : Dev nD) (t : Fin cfg5.N) (h0 : ¬t.val % 4 = 0) (h1 : ¬t.val % 4 = 3) :
    outsAt5 V c t.val t.isLt = (View.canon ([] : List (View.Piece (Elt F) S2048x1024 .f32)), View.canon ([] : List (View.Piece (Elt F) S1x2x1024 .f32)),
      sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt5_C (c : Dev nD) (t : Fin cfg5.N) (h0 : ¬t.val % 4 = 0) (h1 : t.val % 4 = 3) :
    outsAt5 V c t.val t.isLt =
      (out5_C_2 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2,
       out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2,
       sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Every scoped buffer that is neither a staging buffer of this call nor its accumulator, at some contents. -/
abbrev rest5 (c : Dev nD) : sProp 𝕄 := Pipeline.scopedRestBut (Ix := Unit) (Name := ℕ) (U := UR sig nD τ) (Lvl := ℕ) (Val := Elt F) spec5 c [cc5_scratch0]

/-- The call's scoped rest with the accumulator as a whole memref owned at some contents. -/
theorem scopedRest5_owns (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d)) ∗ rest5 (F := F) c) := by
  rw [scopedRest5_split]; simp only [scM5_0, owns_whole]; rfl

/-- Before position `n`: the accumulator at what the point before left (at anything before the first point), the other
    scoped buffers unopened, the generator register at some state. -/
def PhiS5 (c : Dev nD) : (n : ℕ) → n ≤ cfg5.N → sProp 𝕄
  | 0, _ => iprop(iprop((∃ d, owns (c : Thread nD τ) scM5_0 fullShare d)) ∗ rest5 (F := F) c ∗ (∃ r, prngReg c r))
  | n + 1, hn => iprop(iprop(owns (c : Thread nD τ) scM5_0 fullShare ((outsAt5 V c n hn).2.2)) ∗ rest5 (F := F) c ∗ (∃ r, prngReg c r))

theorem PhiS5_zero (c : Dev nD) (n : ℕ) (h : n ≤ cfg5.N) (hz : n = 0) :
    PhiS5 V c n h = iprop(iprop((∃ d, owns (c : Thread nD τ) scM5_0 fullShare d)) ∗ rest5 (F := F) c ∗ (∃ r, prngReg c r)) := by
  subst hz; rfl
theorem PhiS5_succ (c : Dev nD) (n : ℕ) (hn : n < cfg5.N) :
    PhiS5 V c (n + 1) hn = iprop(iprop(owns (c : Thread nD τ) scM5_0 fullShare ((outsAt5 V c n hn).2.2)) ∗ rest5 (F := F) c ∗ (∃ r, prngReg c r)) := rfl
theorem PhiS5_pos (c : Dev nD) (n : ℕ) (h : n ≤ cfg5.N) (hz : n ≠ 0) :
    PhiS5 V c n h = iprop(iprop(owns (c : Thread nD τ) scM5_0 fullShare ((outsAt5 V c (n - 1) (by omega)).2.2)) ∗ rest5 (F := F) c ∗ (∃ r, prngReg c r)) := by
  cases n with
  | zero => exact absurd rfl hz
  | succ n => rfl

/-! ## The pipeline's proof data -/

/-- The proof data of pipeline 5 on core `c` at the entry contents `V`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

theorem q_eq5 (c : Dev nD) : (dat5 V c).q = fun _ => fullShare := rfl
theorem owed_eq5 (c : Dev nD) : (dat5 V c).owed = fun _ => 0 := rfl

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in; the
    invariant hands the body the accumulator at what the point before left and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h1 : t.val % 4 = 3
  · have h0 : ¬t.val % 4 = 0 := by omega
    have hz : t.val ≠ 0 := by omega
    rw [show (dat5 V c).leavesExact 2 t = owns (c : Thread nD τ) (ms5_2 t) fullShare ((dat5 V c).after 2 t) from by
      unfold Dat.leavesExact; rw [liveAt5_2 t ((hcond5_1 t).mpr h1)], after5_2]
    rw [show (dat5 V c).leavesExact 3 t = owns (c : Thread nD τ) (ms5_3 t) fullShare ((dat5 V c).after 3 t) from by
      unfold Dat.leavesExact; rw [liveAt5_3 t ((hcond5_1 t).mpr h1)], after5_3]
    rw [outsAt5_C V c t h0 h1]
    unfold out5_C_2 out5_C_3 sout5_C_0; (try dsimp only)
    rw [PhiS5_castSucc V c t, PhiS5_pos V c _ _ hz]
    iintro ⟨⟨HS0, Hr, Hg⟩, Ho, ⟨%d0, H0⟩, ⟨%d1, H1⟩, ⟨%d2, H2⟩, ⟨%d3, H3⟩⟩
    iapply ((kernelRun5_C c (grid5.coords t) _ _ _ _ _ _ _ _ _ _ (fun h => h0 ((hcond5_0 t).mp h)) ((hcond5_1 t).mpr h1) (iblk5 V c 0 t) (iblk5 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover5_C_0 c _ _ _ _ _ _ _ _ _ _ _ _ _ _ _ _)
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover5_C_2 c _ _ _ _ _ _ _ _ _ _ _ _ _ _ _ _)
    unfold owns; iexists _; isplitr
    swap; · iexact H3
    ipureintro; exact View.read_writes_of_cover _ _ _ _ _ (cover5_C_3 c _ _ _ _ _ _ _ _ _ _ _ _ _ _ _ _)
  · rw [Dat.leavesExact_idle (dat5 V c) 2 t (idleAt5_2 t (fun h => h1 ((hcond5_1 t).mp h))) (noFlush5_2 t (fun h => h1 ((hcond5_1 t).mp h)))]
    rw [Dat.leavesExact_idle (dat5 V c) 3 t (idleAt5_3 t (fun h => h1 ((hcond5_1 t).mp h))) (noFlush5_3 t (fun h => h1 ((hcond5_1 t).mp h)))]
    by_cases h0 : t.val % 4 = 0
    · rw [outsAt5_A V c t h0 h1]
      unfold sout5_A_0; (try dsimp only)
      by_cases hz : t.val = 0
      · rw [PhiS5_castSucc V c t, PhiS5_zero V c _ _ hz]
        iintro ⟨⟨HS0, Hr, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t)).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover5_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
      · rw [PhiS5_castSucc V c t, PhiS5_pos V c _ _ hz]
        iintro ⟨⟨HS0, Hr, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t)).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover5_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [outsAt5_B V c t h0 h1]
      unfold sout5_B_0; (try dsimp only)
      rw [PhiS5_castSucc V c t, PhiS5_pos V c _ _ hz]
      iintro ⟨⟨HS0, Hr, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover5_B_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with — the generator register at some state and the call's scoped rest — is the
    invariant before the first point: the accumulator is among the scoped rest, at some contents. -/
theorem hin5 (c : Dev nD) :
    iprop((∃ r, prngReg c r) ∗ (Pipeline.scopedRest (Ix := Unit) (Name := ℕ) (U := UR sig nD τ) (Lvl := ℕ) (Val := Elt F) spec5 c : sProp 𝕄)) ⊢ (dat5 V c).Φ 0 := by
  rw [show (dat5 V c).Φ 0 = PhiS5 V c 0 (Nat.zero_le _) from rfl, PhiS5_zero V c 0 _ rfl, scopedRest5_owns]
  iintro ⟨Hg, HS0, Hr⟩
  isplitl [HS0]; · iexact HS0
  isplitl [Hr]; · iexact Hr
  iexact Hg

/-- After the last point the invariant gives both back: the accumulator's contents are forgotten. -/
theorem hout5 (c : Dev nD) :
    (dat5 V c).Φ (Fin.last cfg5.N) ⊢ iprop((∃ r, prngReg c r) ∗ (Pipeline.scopedRest (Ix := Unit) (Name := ℕ) (U := UR sig nD τ) (Lvl := ℕ) (Val := Elt F) spec5 c : sProp 𝕄)) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), scopedRest5_owns]
  iintro ⟨HS0, Hr, Hg⟩
  isplitl [Hg]; · iexact Hg
  isplitl [HS0]; · iexists _; iexact HS0
  iexact Hr

end Region

end Cert.Kernel.Hand

end
-- ==== Proof.BReg6.lean ====
/- Region 6 of @main (one of the three normalize-and-sign kernels): the class-A half of its frame, at any float instance.
   The body loads the whole 1024x1024 block of pre-activations and the four 1x1024 rows (mean, variance, scale,
   shift) of its column block, computes scale * (z - mean) * rsqrt (variance + eps) + shift entry by entry, applies
   the sign function, and stores the whole 1024x1024 output block once; no value is carried from one grid point to
   the next. Everything here is stated at a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 1024 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, for any proof data whose array is V's
    and whose body leaves the block in place: the window is fetched whole and is never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 1024x1024 block: the rectangle the pre-activations are loaded through and the output stored through. -/
abbrev r6_0 : Rect S1024x1024 := Rect.unit (s := S1024x1024) ![0, 0] S1024x1024.size inb_S1024x1024_S1024x1024_0_0
/-- The whole 1x1024 row: the rectangle each of the four per-column rows is loaded through. -/
abbrev r6_1 : Rect S1x1024 := Rect.unit (s := S1x1024) ![0, 0] S1x1024.size inb_S1x1024_S1x1024_0_0

/-! ## What the body leaves in the output window's buffer -/

/-- The output staging buffer after the body, from the five input blocks: one store of the whole block, whose
    value is the normalize-and-sign payload of the loaded blocks. -/
def out6_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r6_0, k6_pay1 (View.ld x0 r6_0) (View.ld x1 r6_1) (View.ld x2 r6_1) (View.ld x3 r6_1) (View.ld x4 r6_1)⟩]

/-- The one store covers the buffer. -/
theorem cover6_5 (p0 : Vec F S1024x1024 .bf16) (y : S1024x1024.Idx) :
    ∃ pc ∈ ([⟨r6_0, p0⟩] : List (View.Piece (Elt F) S1024x1024 .bf16)), y ∈ pc.1.set :=
  View.cover_of_tiled [⟨r6_0, p0⟩] S1024x1024.size (by rfl) y

/-! ## The body's triple -/

set_option maxHeartbeats 1000000 in
/-- The kernel body on whole staging memrefs, the inputs' at contents x0 .. x4 and the output's at anything, runs to
    the continuation holding the inputs' as they were and the output's at out6_5 of the inputs'. -/
theorem sound_kernel6 (c : Dev nD) (E : Set ℕ) (i : grid6.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out6_5 x0 x1 x2 x3 x4)) -∗ K ⟨⟩))
      ⊢ wp frame (wpE (defs₀ (F := F)) Variants.none c none) E (cc6__bn_activate_kernel i arg2 harg2 arg3 harg3 arg4 harg4 arg5 harg5 arg6 harg6 arg7 harg7) K := by
  simp only [cc6__bn_activate_kernel_eq_skeleton]; unfold cc6__bn_activate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of the region on core c: the arrays as the region finds them; after the body at point t each
    input's buffer at its block and the output's at out6_5 of the input blocks; the invariant is the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

theorem q_eq6 (c : Dev nD) (w : Fin cfg6.W) : (dat6 V c).q w = fullShare := rfl
theorem owed_eq6 (c : Dev nD) (j) : (dat6 V c).owed j = 0 := rfl

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- Entering: the generator register and the scoped rest make the invariant at the first point. -/
theorem hin6 (c : Dev nD) : iprop((∃ r, prngReg c r) ∗ Pipeline.scopedRest spec6 c) ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- Leaving: the invariant at the last point gives them back. -/
theorem hout6 (c : Dev nD) : (dat6 V c).Φ (Fin.last cfg6.N) ⊢ iprop((∃ r, prngReg c r) ∗ Pipeline.scopedRest spec6 c) := by
  rw [show (dat6 V c).Φ (Fin.last _) = Pipeline.ΦA spec6 c from rfl]; unfold Pipeline.ΦA
  iintro ⟨Hr, Hp⟩
  isplitl [Hp]; · iexact Hp
  iexact Hr

end Cert.Kernel.Hand

end
-- ==== Proof.BReg7Runs.lean ====
/- Region 7 (the first matmul-with-statistics call), part 1: the body's two conditions in closed form over the
   4 x 4 x 4 grid (the innermost coordinate k is the point's number mod 4), where the two output windows are idle,
   and the body run once per control case on whole staging memrefs:
   k = 0      : the accumulator is zeroed, then the product of the two input blocks is added;
   k = 1, 2   : the product is added to what the point before left in the accumulator;
   k = 3      : the product is added, then the accumulator is copied to the z block and its column sums and
                column sums of squares are stored as the two rows of the statistics block.
   The accumulator is a scratch buffer carried from point to point. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's conditions -/

/-- The first conditional's condition: the innermost grid coordinate is 0. -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- The second conditional's condition: the innermost grid coordinate is 3. -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Away from k = 3 both outputs are idle and not written back. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
/-- At k = 3 both outputs are stored into. -/
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## The memrefs the body is called with -/

abbrev VO7_2 : View sig .tc .vmem S2048x1024 .f32 := (Memref.whole cc7_stg2_0 : Memref sig .tc .vmem S2048x1024 .f32).view
abbrev VO7_3 : View sig .tc .vmem S1x2x1024 .f32 := (Memref.whole cc7_stg3_0 : Memref sig .tc .vmem S1x2x1024 .f32).view
abbrev ms7_0 (t : Fin cfg7.N) : Memref sig .tc .vmem S2048x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x1024 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x1024 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x2x1024 .f32 := win7_3.stage (cfg7.slots t 3)
abbrev hs7_3 (t : Fin cfg7.N) : (ms7_3 t).IsWhole := hstage7_3 ((cfg7.slots t 3).cast nbuf7_3)
/-- The accumulator: a whole scoped buffer of the call's own. -/
abbrev scM7_0 : Memref sig .tc .vmem S2048x1024 .f32 := Memref.whole cc7_scratch0
abbrev VS7_0 : View sig .tc .vmem S2048x1024 .f32 := scM7_0.view

/-! ## The body, case by case -/

set_option maxHeartbeats 1000000 in
/-- k = 0. The inputs at their blocks, the two outputs at contents handed back untouched, the accumulator at anything:
    the body ends with the accumulator's stores written (the list is what the run finds). -/
noncomputable def kernelRun7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond7_0 i) (hc1 : ¬cond7_1 i)
    (x0 : Vec F S2048x1024 .bf16) (x1 : Vec F S1024x1024 .bf16) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__binary_matmul_stats_kernel i arg3 harg3 arg4 harg4 arg5 harg5 arg6 harg6 arg7 harg7) K } := by
  refine ⟨?_, fun xi2 xi3 E K => ?run⟩
  case run =>
    simp only [cc7__binary_matmul_stats_kernel_eq_skeleton]; unfold cc7__binary_matmul_stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 1, 2. As k = 0, but the accumulator is read before it is written: it comes in at the contents `xs0` the point
    before left. -/
noncomputable def kernelRun7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : ¬cond7_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__binary_matmul_stats_kernel i arg3 harg3 arg4 harg4 arg5 harg5 arg6 harg6 arg7 harg7) K } := by
  refine ⟨?_, fun xi2 xi3 E K => ?run⟩
  case run =>
    simp only [cc7__binary_matmul_stats_kernel_eq_skeleton]; unfold cc7__binary_matmul_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 3. The outputs come in at anything and end with the body's stores written. -/
noncomputable def kernelRun7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) :
    Σ' (L2 : List (View.Piece (Elt F) S2048x1024 .f32)) (L3 : List (View.Piece (Elt F) S1x2x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc7__binary_matmul_stats_kernel i arg3 harg3 arg4 harg4 arg5 harg5 arg6 harg6 arg7 harg7) K } := by
  refine ⟨?_, ?_, ?_, fun E K => ?run⟩
  case run =>
    simp only [cc7__binary_matmul_stats_kernel_eq_skeleton]; unfold cc7__binary_matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.Kernel.Hand

end
-- ==== Proof.BReg7.lean ====
/- Region 7, part 2: what the accumulator and the two output blocks hold after each grid point (by recursion on the
   point: at k = 0 the accumulator restarts from zero, otherwise it continues from the point before; the outputs are
   stored at k = 3 only), the proof data of the pipeline at given entry contents, and the body obligation.
   The invariant before a point holds the accumulator at what the point before left in it (at anything before the
   first point), every other scoped buffer unopened, and the generator register at some state. -/
import proofs.«139021_j54202487276022_2_alg».proof.Proof.BReg7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves -/

/-- k = 0: the accumulator's stores cover it. -/
theorem scover7_A_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond7_0 i) (hc1 : ¬cond7_1 i)
    (x0 : Vec F S2048x1024 .bf16) (x1 : Vec F S1024x1024 .bf16) (y : S2048x1024.Idx) :
    ∃ pc ∈ (kernelRun7_A c i arg3 harg3 arg4 harg4 arg5 harg5 arg6 harg6 arg7 harg7 hc0 hc1 x0 x1).1, y ∈ pc.1.set :=
  View.cover_of_tiledL (kernelRun7_A c i arg3 harg3 arg4 harg4 arg5 harg5 arg6 harg6 arg7 harg7 hc0 hc1 x0 x1).1 S2048x1024.size (by sl_kernel_rfl) y
/-- What k = 0 leaves in the accumulator. -/
def sout7_A_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond7_0 i) (hc1 : ¬cond7_1 i)
    (x0 : Vec F S2048x1024 .bf16) (x1 : Vec F S1024x1024 .bf16) : Vec F S2048x1024 .f32 :=
  VS7_0.read (Elt F) (VS7_0.writes (Elt F) VS7_0.junk (kernelRun7_A c i arg3 harg3 arg4 harg4 arg5 harg5 arg6 harg6 arg7 harg7 hc0 hc1 x0 x1).1)

/-- k = 1, 2: the accumulator's store covers it. -/
theorem scover7_B_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : ¬cond7_1 i)
    (x0 : Vec F S2048x1024 .bf16) (x1 : Vec F S1024x1024 .bf16) (xs0 : Vec F S2048x1024 .f32) (y : S2048x1024.Idx) :
    ∃ pc ∈ (kernelRun7_B c i arg3 harg3 arg4 harg4 arg5 harg5 arg6 harg6 arg7 harg7 hc0 hc1 x0 x1 xs0).1, y ∈ pc.1.set :=
  View.cover_of_tiledL (kernelRun7_B c i arg3 harg3 arg4 harg4 arg5 harg5 arg6 harg6 arg7 harg7 hc0 hc1 x0 x1 xs0).1 S2048x1024.size (by sl_kernel_rfl) y
/-- What k = 1, 2 leave in the accumulator. -/
def sout7_B_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : ¬cond7_1 i)
    (x0 : Vec F S2048x1024 .bf16) (x1 : Vec F S1024x1024 .bf16) (xs0 : Vec F S2048x1024 .f32) : Vec F S2048x1024 .f32 :=
  VS7_0.read (Elt F) (VS7_0.writes (Elt F) VS7_0.junk (kernelRun7_B c i arg3 harg3 arg4 harg4 arg5 harg5 arg6 harg6 arg7 harg7 hc0 hc1 x0 x1 xs0).1)

/-- k = 3: the z block's store covers it, -/
theorem cover7_C_2 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) (y : S2048x1024.Idx) :
    ∃ pc ∈ (kernelRun7_C c i arg3 harg3 arg4 harg4 arg5 harg5 arg6 harg6 arg7 harg7 hc0 hc1 x0 x1 xs0).1, y ∈ pc.1.set :=
  View.cover_of_tiledL (kernelRun7_C c i arg3 harg3 arg4 harg4 arg5 harg5 arg6 harg6 arg7 harg7 hc0 hc1 x0 x1 xs0).1 S2048x1024.size (by sl_kernel_rfl) y
/-- what it leaves there; -/
def out7_C_2 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) : Vec F S2048x1024 .f32 :=
  VO7_2.read (Elt F) (VO7_2.writes (Elt F) VO7_2.junk (kernelRun7_C c i arg3 harg3 arg4 harg4 arg5 harg5 arg6 harg6 arg7 harg7 hc0 hc1 x0 x1 xs0).1)
/-- the two row stores tile the statistics block, -/
theorem cover7_C_3 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) (y : S1x2x1024.Idx) :
    ∃ pc ∈ (kernelRun7_C c i arg3 harg3 arg4 harg4 arg5 harg5 arg6 harg6 arg7 harg7 hc0 hc1 x0 x1 xs0).2.1, y ∈ pc.1.set :=
  View.cover_of_tiledL (kernelRun7_C c i arg3 harg3 arg4 harg4 arg5 harg5 arg6 harg6 arg7 harg7 hc0 hc1 x0 x1 xs0).2.1 S1x1x1024.size (by sl_kernel_rfl) y
/-- what they leave there; -/
def out7_C_3 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) : Vec F S1x2x1024 .f32 :=
  VO7_3.read (Elt F) (VO7_3.writes (Elt F) VO7_3.junk (kernelRun7_C c i arg3 harg3 arg4 harg4 arg5 harg5 arg6 harg6 arg7 harg7 hc0 hc1 x0 x1 xs0).2.1)
/-- the accumulator's store covers it, -/
theorem scover7_C_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) (y : S2048x1024.Idx) :
    ∃ pc ∈ (kernelRun7_C c i arg3 harg3 arg4 harg4 arg5 harg5 arg6 harg6 arg7 harg7 hc0 hc1 x0 x1 xs0).2.2.1, y ∈ pc.1.set :=
  View.cover_of_tiledL (kernelRun7_C c i arg3 harg3 arg4 harg4 arg5 harg5 arg6 harg6 arg7 harg7 hc0 hc1 x0 x1 xs0).2.2.1 S2048x1024.size (by sl_kernel_rfl) y
/-- and what it leaves there. -/
def sout7_C_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) : Vec F S2048x1024 .f32 :=
  VS7_0.read (Elt F) (VS7_0.writes (Elt F) VS7_0.junk (kernelRun7_C c i arg3 harg3 arg4 harg4 arg5 harg5 arg6 harg6 arg7 harg7 hc0 hc1 x0 x1 xs0).2.2.1)

/-! ## What the buffers hold after each point -/

/-- After the body at position `n`: the z block's buffer, the statistics block's buffer, the accumulator. Away from
    k = 3 the two output components are placeholders nothing consults (the windows are idle and not written back). -/
def outsAt7 (c : Dev nD) : (n : ℕ) → n < cfg7.N → Vec F S2048x1024 .f32 × Vec F S1x2x1024 .f32 × Vec F S2048x1024 .f32
  | 0, hn => (View.canon ([] : List (View.Piece (Elt F) S2048x1024 .f32)), View.canon ([] : List (View.Piece (Elt F) S1x2x1024 .f32)),
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 4 = 0 then
      (View.canon ([] : List (View.Piece (Elt F) S2048x1024 .f32)), View.canon ([] : List (View.Piece (Elt F) S1x2x1024 .f32)),
        sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => (fun h => by (try dsimp only at h); omega) ((hcond7_1 ⟨n + 1, hn⟩).mp h)) (iblk7 V c 0 ⟨n + 1, hn⟩) (iblk7 V c 1 ⟨n + 1, hn⟩))
    else
      if h1 : (n + 1) % 4 = 3 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2,
         out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2,
         sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2)
      else
        (View.canon ([] : List (View.Piece (Elt F) S2048x1024 .f32)), View.canon ([] : List (View.Piece (Elt F) S1x2x1024 .f32)),
          sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2)

/-- At a point with k = 0. -/
theorem outsAt7_A (c : Dev nD) (t : Fin cfg7.N) (h0 : t.val % 4 = 0) (h1 : ¬t.val % 4 = 3) :
    outsAt7 V c t.val t.isLt = (View.canon ([] : List (View.Piece (Elt F) S2048x1024 .f32)), View.canon ([] : List (View.Piece (Elt F) S1x2x1024 .f32)),
      sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans rfl

/-- At a point with k = 1 or 2: over what the point before left. -/
theorem outsAt7_B (c : Dev nD) (t : Fin cfg7.N) (h0 : ¬t.val % 4 = 0) (h1 : ¬t.val % 4 = 3) :
    outsAt7 V c t.val t.isLt = (View.canon ([] : List (View.Piece (Elt F) S2048x1024 .f32)), View.canon ([] : List (View.Piece (Elt F) S1x2x1024 .f32)),
      sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt7_C (c : Dev nD) (t : Fin cfg7.N) (h0 : ¬t.val % 4 = 0) (h1 : t.val % 4 = 3) :
    outsAt7 V c t.val t.isLt =
      (out7_C_2 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2,
       out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2,
       sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Every scoped buffer that is neither a staging buffer of this call nor its accumulator, at some contents. -/
abbrev rest7 (c : Dev nD) : sProp 𝕄 := Pipeline.scopedRestBut (Ix := Unit) (Name := ℕ) (U := UR sig nD τ) (Lvl := ℕ) (Val := Elt F) spec7 c [cc7_scratch0]

/-- The call's scoped rest with the accumulator as a whole memref owned at some contents. -/
theorem scopedRest7_owns (c : Dev nD) :
    (Pipeline.scopedRest (Ix := Unit) (Name := ℕ) (U := UR sig nD τ) (Lvl := ℕ) (Val := Elt F) spec7 c : sProp 𝕄)
      = iprop(iprop((∃ d, owns (c : Thread nD τ) scM7_0 fullShare d)) ∗ rest7 (F := F) c) := by
  rw [scopedRest7_split]; simp only [scM7_0, owns_whole]; rfl

/-- Before position `n`: the accumulator at what the point before left (at anything before the first point), the other
    scoped buffers unopened, the generator register at some state. -/
def PhiS7 (c : Dev nD) : (n : ℕ) → n ≤ cfg7.N → sProp 𝕄
  | 0, _ => iprop(iprop((∃ d, owns (c : Thread nD τ) scM7_0 fullShare d)) ∗ rest7 (F := F) c ∗ (∃ r, prngReg c r))
  | n + 1, hn => iprop(iprop(owns (c : Thread nD τ) scM7_0 fullShare ((outsAt7 V c n hn).2.2)) ∗ rest7 (F := F) c ∗ (∃ r, prngReg c r))

theorem PhiS7_zero (c : Dev nD) (n : ℕ) (h : n ≤ cfg7.N) (hz : n = 0) :
    PhiS7 V c n h = iprop(iprop((∃ d, owns (c : Thread nD τ) scM7_0 fullShare d)) ∗ rest7 (F := F) c ∗ (∃ r, prngReg c r)) := by
  subst hz; rfl
theorem PhiS7_succ (c : Dev nD) (n : ℕ) (hn : n < cfg7.N) :
    PhiS7 V c (n + 1) hn = iprop(iprop(owns (c : Thread nD τ) scM7_0 fullShare ((outsAt7 V c n hn).2.2)) ∗ rest7 (F := F) c ∗ (∃ r, prngReg c r)) := rfl
theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2)) ∗ rest7 (F := F) c ∗ (∃ r, prngReg c r)) := by
  cases n with
  | zero => exact absurd rfl hz
  | succ n => rfl

/-! ## The pipeline's proof data -/

/-- The proof data of pipeline 7 on core `c` at the entry contents `V`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem after7_3 (c : Dev nD) (t : Fin cfg7.N) : (dat7 V c).after 3 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem q_eq7 (c : Dev nD) : (dat7 V c).q = fun _ => fullShare := rfl
theorem owed_eq7 (c : Dev nD) : (dat7 V c).owed = fun _ => 0 := rfl

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' memrefs hold their blocks; the closed forms say which case the point is in; the
    invariant hands the body the accumulator at what the point before left and takes it back at this point's. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 64 := lt_of_lt_of_eq t.isLt (show cfg7.N = 64 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h1 : t.val % 4 = 3
  · have h0 : ¬t.val % 4 = 0 := by omega
    have hz : t.val ≠ 0 := by omega
    rw [show (dat7 V c).leavesExact 2 t = owns (c : Thread nD τ) (ms7_2 t) fullShare ((dat7 V c).after 2 t) from by
      unfold Dat.leavesExact; rw [liveAt7_2 t ((hcond7_1 t).mpr h1)], after7_2]
    rw [show (dat7 V c).leavesExact 3 t = owns (c : Thread nD τ) (ms7_3 t) fullShare ((dat7 V c).after 3 t) from by
      unfold Dat.leavesExact; rw [liveAt7_3 t ((hcond7_1 t).mpr h1)], after7_3]
    rw [outsAt7_C V c t h0 h1]
    unfold out7_C_2 out7_C_3 sout7_C_0; (try dsimp only)
    rw [PhiS7_castSucc V c t, PhiS7_pos V c _ _ hz]
    iintro ⟨⟨HS0, Hr, Hg⟩, Ho, ⟨%d0, H0⟩, ⟨%d1, H1⟩, ⟨%d2, H2⟩, ⟨%d3, H3⟩⟩
    iapply ((kernelRun7_C c (grid7.coords t) _ _ _ _ _ _ _ _ _ _ (fun h => h0 ((hcond7_0 t).mp h)) ((hcond7_1 t).mpr h1) (iblk7 V c 0 t) (iblk7 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover7_C_0 c _ _ _ _ _ _ _ _ _ _ _ _ _ _ _ _)
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_C_2 c _ _ _ _ _ _ _ _ _ _ _ _ _ _ _ _)
    unfold owns; iexists _; isplitr
    swap; · iexact H3
    ipureintro; exact View.read_writes_of_cover _ _ _ _ _ (cover7_C_3 c _ _ _ _ _ _ _ _ _ _ _ _ _ _ _ _)
  · rw [Dat.leavesExact_idle (dat7 V c) 2 t (idleAt7_2 t (fun h => h1 ((hcond7_1 t).mp h))) (noFlush7_2 t (fun h => h1 ((hcond7_1 t).mp h)))]
    rw [Dat.leavesExact_idle (dat7 V c) 3 t (idleAt7_3 t (fun h => h1 ((hcond7_1 t).mp h))) (noFlush7_3 t (fun h => h1 ((hcond7_1 t).mp h)))]
    by_cases h0 : t.val % 4 = 0
    · rw [outsAt7_A V c t h0 h1]
      unfold sout7_A_0; (try dsimp only)
      by_cases hz : t.val = 0
      · rw [PhiS7_castSucc V c t, PhiS7_zero V c _ _ hz]
        iintro ⟨⟨HS0, Hr, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t)).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover7_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
      · rw [PhiS7_castSucc V c t, PhiS7_pos V c _ _ hz]
        iintro ⟨⟨HS0, Hr, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t)).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover7_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [outsAt7_B V c t h0 h1]
      unfold sout7_B_0; (try dsimp only)
      rw [PhiS7_castSucc V c t, PhiS7_pos V c _ _ hz]
      iintro ⟨⟨HS0, Hr, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover7_B_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with — the generator register at some state and the call's scoped rest — is the
    invariant before the first point: the accumulator is among the scoped rest, at some contents. -/
theorem hin7 (c : Dev nD) :
    iprop((∃ r, prngReg c r) ∗ (Pipeline.scopedRest (Ix := Unit) (Name := ℕ) (U := UR sig nD τ) (Lvl := ℕ) (Val := Elt F) spec7 c : sProp 𝕄)) ⊢ (dat7 V c).Φ 0 := by
  rw [show (dat7 V c).Φ 0 = PhiS7 V c 0 (Nat.zero_le _) from rfl, PhiS7_zero V c 0 _ rfl, scopedRest7_owns]
  iintro ⟨Hg, HS0, Hr⟩
  isplitl [HS0]; · iexact HS0
  isplitl [Hr]; · iexact Hr
  iexact Hg

/-- After the last point the invariant gives both back: the accumulator's contents are forgotten. -/
theorem hout7 (c : Dev nD) :
    (dat7 V c).Φ (Fin.last cfg7.N) ⊢ iprop((∃ r, prngReg c r) ∗ (Pipeline.scopedRest (Ix := Unit) (Name := ℕ) (U := UR sig nD τ) (Lvl := ℕ) (Val := Elt F) spec7 c : sProp 𝕄)) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 64 := N_7; omega), scopedRest7_owns]
  iintro ⟨HS0, Hr, Hg⟩
  isplitl [Hg]; · iexact Hg
  isplitl [HS0]; · iexists _; iexact HS0
  iexact Hr

end Region

end Cert.Kernel.Hand

end
-- ==== Proof.BReg8.lean ====
/- Region 8 of @main (one of the three normalize-and-sign kernels): the class-A half of its frame, at any float instance.
   The body loads the whole 1024x1024 block of pre-activations and the four 1x1024 rows (mean, variance, scale,
   shift) of its column block, computes scale * (z - mean) * rsqrt (variance + eps) + shift entry by entry, applies
   the sign function, and stores the whole 1024x1024 output block once; no value is carried from one grid point to
   the next. Everything here is stated at a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 1024 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input window's current staging buffer holds its block at every point, for any proof data whose array is V's
    and whose body leaves the block in place: the window is fetched whole and is never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 1024x1024 block: the rectangle the pre-activations are loaded through and the output stored through. -/
abbrev r8_0 : Rect S1024x1024 := Rect.unit (s := S1024x1024) ![0, 0] S1024x1024.size inb_S1024x1024_S1024x1024_0_0
/-- The whole 1x1024 row: the rectangle each of the four per-column rows is loaded through. -/
abbrev r8_1 : Rect S1x1024 := Rect.unit (s := S1x1024) ![0, 0] S1x1024.size inb_S1x1024_S1x1024_0_0

/-! ## What the body leaves in the output window's buffer -/

/-- The output staging buffer after the body, from the five input blocks: one store of the whole block, whose
    value is the normalize-and-sign payload of the loaded blocks. -/
def out8_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r8_0, k8_pay1 (View.ld x0 r8_0) (View.ld x1 r8_1) (View.ld x2 r8_1) (View.ld x3 r8_1) (View.ld x4 r8_1)⟩]

/-- The one store covers the buffer. -/
theorem cover8_5 (p0 : Vec F S1024x1024 .bf16) (y : S1024x1024.Idx) :
    ∃ pc ∈ ([⟨r8_0, p0⟩] : List (View.Piece (Elt F) S1024x1024 .bf16)), y ∈ pc.1.set :=
  View.cover_of_tiled [⟨r8_0, p0⟩] S1024x1024.size (by rfl) y

/-! ## The body's triple -/

set_option maxHeartbeats 1000000 in
/-- The kernel body on whole staging memrefs, the inputs' at contents x0 .. x4 and the output's at anything, runs to
    the continuation holding the inputs' as they were and the output's at out8_5 of the inputs'. -/
theorem sound_kernel8 (c : Dev nD) (E : Set ℕ) (i : grid8.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8_5 x0 x1 x2 x3 x4)) -∗ K ⟨⟩))
      ⊢ wp frame (wpE (defs₀ (F := F)) Variants.none c none) E (cc8__bn_activate_kernel i arg2 harg2 arg3 harg3 arg4 harg4 arg5 harg5 arg6 harg6 arg7 harg7) K := by
  simp only [cc8__bn_activate_kernel_eq_skeleton]; unfold cc8__bn_activate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the region on core c: the arrays as the region finds them; after the body at point t each
    input's buffer at its block and the output's at out8_5 of the input blocks; the invariant is the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

theorem q_eq8 (c : Dev nD) (w : Fin cfg8.W) : (dat8 V c).q w = fullShare := rfl
theorem owed_eq8 (c : Dev nD) (j) : (dat8 V c).owed j = 0 := rfl

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- Entering: the generator register and the scoped rest make the invariant at the first point. -/
theorem hin8 (c : Dev nD) : iprop((∃ r, prngReg c r) ∗ Pipeline.scopedRest spec8 c) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant at the last point gives them back. -/
theorem hout8 (c : Dev nD) : (dat8 V c).Φ (Fin.last cfg8.N) ⊢ iprop((∃ r, prngReg c r) ∗ Pipeline.scopedRest spec8 c) := by
  rw [show (dat8 V c).Φ (Fin.last _) = Pipeline.ΦA spec8 c from rfl]; unfold Pipeline.ΦA
  iintro ⟨Hr, Hp⟩
  isplitl [Hp]; · iexact Hp
  iexact Hr

end Cert.Kernel.Hand

end
-- ==== Proof.BReg9Runs.lean ====
/- Region 9 (the first matmul-with-statistics call), part 1: the body's two conditions in closed form over the
   4 x 4 x 4 grid (the innermost coordinate k is the point's number mod 4), where the two output windows are idle,
   and the body run once per control case on whole staging memrefs:
   k = 0      : the accumulator is zeroed, then the product of the two input blocks is added;
   k = 1, 2   : the product is added to what the point before left in the accumulator;
   k = 3      : the product is added, then the accumulator is copied to the z block and its column sums and
                column sums of squares are stored as the two rows of the statistics block.
   The accumulator is a scratch buffer carried from point to point. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's conditions -/

/-- The first conditional's condition: the innermost grid coordinate is 0. -/
abbrev cond9_0 (i : grid9.Coords) : Prop := (Scalar.cmpi .ne (Scalar.extui (Scalar.cmpi .eq (BitVec.ofNat 32 (i 2).val) 0#32)) 0#32) = 1#1
theorem hcond9_0 : ∀ t : Fin cfg9.N, cond9_0 (grid9.coords t) ↔ t.val % 4 = 0 :=
  (by decide +kernel : ∀ t : Fin grid9.N, cond9_0 (grid9.coords t) ↔ t.val % 4 = 0)

/-- The second conditional's condition: the innermost grid coordinate is 3. -/
abbrev cond9_1 (i : grid9.Coords) : Prop := k9_cond2 i = 1#1
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
/-- Away from k = 3 both outputs are idle and not written back. -/
theorem idleAt9_2 : ∀ t : Fin cfg9.N, ¬cond9_1 (grid9.coords t) → cfg9.idle 2 (grid9.coords t) = true := by decide +kernel
theorem noFlush9_2 : ∀ t : Fin cfg9.N, ¬cond9_1 (grid9.coords t) → (cfg9.win 2).flush t = false := by decide +kernel
theorem idleAt9_3 : ∀ t : Fin cfg9.N, ¬cond9_1 (grid9.coords t) → cfg9.idle 3 (grid9.coords t) = true := by decide +kernel
theorem noFlush9_3 : ∀ t : Fin cfg9.N, ¬cond9_1 (grid9.coords t) → (cfg9.win 3).flush t = false := by decide +kernel
/-- At k = 3 both outputs are stored into. -/
theorem liveAt9_2 : ∀ t : Fin cfg9.N, cond9_1 (grid9.coords t) → cfg9.idle 2 (grid9.coords t) = false := by decide +kernel
theorem liveAt9_3 : ∀ t : Fin cfg9.N, cond9_1 (grid9.coords t) → cfg9.idle 3 (grid9.coords t) = false := by decide +kernel

/-! ## The memrefs the body is called with -/

abbrev VO9_2 : View sig .tc .vmem S2048x1024 .f32 := (Memref.whole cc9_stg2_0 : Memref sig .tc .vmem S2048x1024 .f32).view
abbrev VO9_3 : View sig .tc .vmem S1x2x1024 .f32 := (Memref.whole cc9_stg3_0 : Memref sig .tc .vmem S1x2x1024 .f32).view
abbrev ms9_0 (t : Fin cfg9.N) : Memref sig .tc .vmem S2048x1024 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x1024 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x1024 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x2x1024 .f32 := win9_3.stage (cfg9.slots t 3)
abbrev hs9_3 (t : Fin cfg9.N) : (ms9_3 t).IsWhole := hstage9_3 ((cfg9.slots t 3).cast nbuf9_3)
/-- The accumulator: a whole scoped buffer of the call's own. -/
abbrev scM9_0 : Memref sig .tc .vmem S2048x1024 .f32 := Memref.whole cc9_scratch0
abbrev VS9_0 : View sig .tc .vmem S2048x1024 .f32 := scM9_0.view

/-! ## The body, case by case -/

set_option maxHeartbeats 1000000 in
/-- k = 0. The inputs at their blocks, the two outputs at contents handed back untouched, the accumulator at anything:
    the body ends with the accumulator's stores written (the list is what the run finds). -/
noncomputable def kernelRun9_A (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond9_0 i) (hc1 : ¬cond9_1 i)
    (x0 : Vec F S2048x1024 .bf16) (x1 : Vec F S1024x1024 .bf16) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__binary_matmul_stats_kernel i arg3 harg3 arg4 harg4 arg5 harg5 arg6 harg6 arg7 harg7) K } := by
  refine ⟨?_, fun xi2 xi3 E K => ?run⟩
  case run =>
    simp only [cc9__binary_matmul_stats_kernel_eq_skeleton]; unfold cc9__binary_matmul_stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 1, 2. As k = 0, but the accumulator is read before it is written: it comes in at the contents `xs0` the point
    before left. -/
noncomputable def kernelRun9_B (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : ¬cond9_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__binary_matmul_stats_kernel i arg3 harg3 arg4 harg4 arg5 harg5 arg6 harg6 arg7 harg7) K } := by
  refine ⟨?_, fun xi2 xi3 E K => ?run⟩
  case run =>
    simp only [cc9__binary_matmul_stats_kernel_eq_skeleton]; unfold cc9__binary_matmul_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 3. The outputs come in at anything and end with the body's stores written. -/
noncomputable def kernelRun9_C (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) :
    Σ' (L2 : List (View.Piece (Elt F) S2048x1024 .f32)) (L3 : List (View.Piece (Elt F) S1x2x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc9__binary_matmul_stats_kernel i arg3 harg3 arg4 harg4 arg5 harg5 arg6 harg6 arg7 harg7) K } := by
  refine ⟨?_, ?_, ?_, fun E K => ?run⟩
  case run =>
    simp only [cc9__binary_matmul_stats_kernel_eq_skeleton]; unfold cc9__binary_matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.Kernel.Hand

end
-- ==== Proof.BReg9.lean ====
/- Region 9, part 2: what the accumulator and the two output blocks hold after each grid point (by recursion on the
   point: at k = 0 the accumulator restarts from zero, otherwise it continues from the point before; the outputs are
   stored at k = 3 only), the proof data of the pipeline at given entry contents, and the body obligation.
   The invariant before a point holds the accumulator at what the point before left in it (at anything before the
   first point), every other scoped buffer unopened, and the generator register at some state. -/
import proofs.«139021_j54202487276022_2_alg».proof.Proof.BReg9Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What each case leaves -/

/-- k = 0: the accumulator's stores cover it. -/
theorem scover9_A_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond9_0 i) (hc1 : ¬cond9_1 i)
    (x0 : Vec F S2048x1024 .bf16) (x1 : Vec F S1024x1024 .bf16) (y : S2048x1024.Idx) :
    ∃ pc ∈ (kernelRun9_A c i arg3 harg3 arg4 harg4 arg5 harg5 arg6 harg6 arg7 harg7 hc0 hc1 x0 x1).1, y ∈ pc.1.set :=
  View.cover_of_tiledL (kernelRun9_A c i arg3 harg3 arg4 harg4 arg5 harg5 arg6 harg6 arg7 harg7 hc0 hc1 x0 x1).1 S2048x1024.size (by sl_kernel_rfl) y
/-- What k = 0 leaves in the accumulator. -/
def sout9_A_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond9_0 i) (hc1 : ¬cond9_1 i)
    (x0 : Vec F S2048x1024 .bf16) (x1 : Vec F S1024x1024 .bf16) : Vec F S2048x1024 .f32 :=
  VS9_0.read (Elt F) (VS9_0.writes (Elt F) VS9_0.junk (kernelRun9_A c i arg3 harg3 arg4 harg4 arg5 harg5 arg6 harg6 arg7 harg7 hc0 hc1 x0 x1).1)

/-- k = 1, 2: the accumulator's store covers it. -/
theorem scover9_B_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : ¬cond9_1 i)
    (x0 : Vec F S2048x1024 .bf16) (x1 : Vec F S1024x1024 .bf16) (xs0 : Vec F S2048x1024 .f32) (y : S2048x1024.Idx) :
    ∃ pc ∈ (kernelRun9_B c i arg3 harg3 arg4 harg4 arg5 harg5 arg6 harg6 arg7 harg7 hc0 hc1 x0 x1 xs0).1, y ∈ pc.1.set :=
  View.cover_of_tiledL (kernelRun9_B c i arg3 harg3 arg4 harg4 arg5 harg5 arg6 harg6 arg7 harg7 hc0 hc1 x0 x1 xs0).1 S2048x1024.size (by sl_kernel_rfl) y
/-- What k = 1, 2 leave in the accumulator. -/
def sout9_B_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : ¬cond9_1 i)
    (x0 : Vec F S2048x1024 .bf16) (x1 : Vec F S1024x1024 .bf16) (xs0 : Vec F S2048x1024 .f32) : Vec F S2048x1024 .f32 :=
  VS9_0.read (Elt F) (VS9_0.writes (Elt F) VS9_0.junk (kernelRun9_B c i arg3 harg3 arg4 harg4 arg5 harg5 arg6 harg6 arg7 harg7 hc0 hc1 x0 x1 xs0).1)

/-- k = 3: the z block's store covers it, -/
theorem cover9_C_2 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) (y : S2048x1024.Idx) :
    ∃ pc ∈ (kernelRun9_C c i arg3 harg3 arg4 harg4 arg5 harg5 arg6 harg6 arg7 harg7 hc0 hc1 x0 x1 xs0).1, y ∈ pc.1.set :=
  View.cover_of_tiledL (kernelRun9_C c i arg3 harg3 arg4 harg4 arg5 harg5 arg6 harg6 arg7 harg7 hc0 hc1 x0 x1 xs0).1 S2048x1024.size (by sl_kernel_rfl) y
/-- what it leaves there; -/
def out9_C_2 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) : Vec F S2048x1024 .f32 :=
  VO9_2.read (Elt F) (VO9_2.writes (Elt F) VO9_2.junk (kernelRun9_C c i arg3 harg3 arg4 harg4 arg5 harg5 arg6 harg6 arg7 harg7 hc0 hc1 x0 x1 xs0).1)
/-- the two row stores tile the statistics block, -/
theorem cover9_C_3 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) (y : S1x2x1024.Idx) :
    ∃ pc ∈ (kernelRun9_C c i arg3 harg3 arg4 harg4 arg5 harg5 arg6 harg6 arg7 harg7 hc0 hc1 x0 x1 xs0).2.1, y ∈ pc.1.set :=
  View.cover_of_tiledL (kernelRun9_C c i arg3 harg3 arg4 harg4 arg5 harg5 arg6 harg6 arg7 harg7 hc0 hc1 x0 x1 xs0).2.1 S1x1x1024.size (by sl_kernel_rfl) y
/-- what they leave there; -/
def out9_C_3 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) : Vec F S1x2x1024 .f32 :=
  VO9_3.read (Elt F) (VO9_3.writes (Elt F) VO9_3.junk (kernelRun9_C c i arg3 harg3 arg4 harg4 arg5 harg5 arg6 harg6 arg7 harg7 hc0 hc1 x0 x1 xs0).2.1)
/-- the accumulator's store covers it, -/
theorem scover9_C_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) (y : S2048x1024.Idx) :
    ∃ pc ∈ (kernelRun9_C c i arg3 harg3 arg4 harg4 arg5 harg5 arg6 harg6 arg7 harg7 hc0 hc1 x0 x1 xs0).2.2.1, y ∈ pc.1.set :=
  View.cover_of_tiledL (kernelRun9_C c i arg3 harg3 arg4 harg4 arg5 harg5 arg6 harg6 arg7 harg7 hc0 hc1 x0 x1 xs0).2.2.1 S2048x1024.size (by sl_kernel_rfl) y
/-- and what it leaves there. -/
def sout9_C_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) : Vec F S2048x1024 .f32 :=
  VS9_0.read (Elt F) (VS9_0.writes (Elt F) VS9_0.junk (kernelRun9_C c i arg3 harg3 arg4 harg4 arg5 harg5 arg6 harg6 arg7 harg7 hc0 hc1 x0 x1 xs0).2.2.1)

/-! ## What the buffers hold after each point -/

/-- After the body at position `n`: the z block's buffer, the statistics block's buffer, the accumulator. Away from
    k = 3 the two output components are placeholders nothing consults (the windows are idle and not written back). -/
def outsAt9 (c : Dev nD) : (n : ℕ) → n < cfg9.N → Vec F S2048x1024 .f32 × Vec F S1x2x1024 .f32 × Vec F S2048x1024 .f32
  | 0, hn => (View.canon ([] : List (View.Piece (Elt F) S2048x1024 .f32)), View.canon ([] : List (View.Piece (Elt F) S1x2x1024 .f32)),
      sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩))
  | n + 1, hn =>
    if h0 : (n + 1) % 4 = 0 then
      (View.canon ([] : List (View.Piece (Elt F) S2048x1024 .f32)), View.canon ([] : List (View.Piece (Elt F) S1x2x1024 .f32)),
        sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => (fun h => by (try dsimp only at h); omega) ((hcond9_1 ⟨n + 1, hn⟩).mp h)) (iblk9 V c 0 ⟨n + 1, hn⟩) (iblk9 V c 1 ⟨n + 1, hn⟩))
    else
      if h1 : (n + 1) % 4 = 3 then
        (out9_C_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2.2,
         out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2.2,
         sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2.2)
      else
        (View.canon ([] : List (View.Piece (Elt F) S2048x1024 .f32)), View.canon ([] : List (View.Piece (Elt F) S1x2x1024 .f32)),
          sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (outsAt9 c n (Nat.lt_of_succ_lt hn)).2.2)

/-- At a point with k = 0. -/
theorem outsAt9_A (c : Dev nD) (t : Fin cfg9.N) (h0 : t.val % 4 = 0) (h1 : ¬t.val % 4 = 3) :
    outsAt9 V c t.val t.isLt = (View.canon ([] : List (View.Piece (Elt F) S2048x1024 .f32)), View.canon ([] : List (View.Piece (Elt F) S1x2x1024 .f32)),
      sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t)) := by
  obtain ⟨n, hn⟩ := t
  cases n with
  | zero => exact rfl
  | succ n => exact (dif_pos h0).trans rfl

/-- At a point with k = 1 or 2: over what the point before left. -/
theorem outsAt9_B (c : Dev nD) (t : Fin cfg9.N) (h0 : ¬t.val % 4 = 0) (h1 : ¬t.val % 4 = 3) :
    outsAt9 V c t.val t.isLt = (View.canon ([] : List (View.Piece (Elt F) S2048x1024 .f32)), View.canon ([] : List (View.Piece (Elt F) S1x2x1024 .f32)),
      sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt9_C (c : Dev nD) (t : Fin cfg9.N) (h0 : ¬t.val % 4 = 0) (h1 : t.val % 4 = 3) :
    outsAt9 V c t.val t.isLt =
      (out9_C_2 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2.2,
       out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2.2,
       sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Every scoped buffer that is neither a staging buffer of this call nor its accumulator, at some contents. -/
abbrev rest9 (c : Dev nD) : sProp 𝕄 := Pipeline.scopedRestBut (Ix := Unit) (Name := ℕ) (U := UR sig nD τ) (Lvl := ℕ) (Val := Elt F) spec9 c [cc9_scratch0]

/-- The call's scoped rest with the accumulator as a whole memref owned at some contents. -/
theorem scopedRest9_owns (c : Dev nD) :
    (Pipeline.scopedRest (Ix := Unit) (Name := ℕ) (U := UR sig nD τ) (Lvl := ℕ) (Val := Elt F) spec9 c : sProp 𝕄)
      = iprop(iprop((∃ d, owns (c : Thread nD τ) scM9_0 fullShare d)) ∗ rest9 (F := F) c) := by
  rw [scopedRest9_split]; simp only [scM9_0, owns_whole]; rfl

/-- Before position `n`: the accumulator at what the point before left (at anything before the first point), the other
    scoped buffers unopened, the generator register at some state. -/
def PhiS9 (c : Dev nD) : (n : ℕ) → n ≤ cfg9.N → sProp 𝕄
  | 0, _ => iprop(iprop((∃ d, owns (c : Thread nD τ) scM9_0 fullShare d)) ∗ rest9 (F := F) c ∗ (∃ r, prngReg c r))
  | n + 1, hn => iprop(iprop(owns (c : Thread nD τ) scM9_0 fullShare ((outsAt9 V c n hn).2.2)) ∗ rest9 (F := F) c ∗ (∃ r, prngReg c r))

theorem PhiS9_zero (c : Dev nD) (n : ℕ) (h : n ≤ cfg9.N) (hz : n = 0) :
    PhiS9 V c n h = iprop(iprop((∃ d, owns (c : Thread nD τ) scM9_0 fullShare d)) ∗ rest9 (F := F) c ∗ (∃ r, prngReg c r)) := by
  subst hz; rfl
theorem PhiS9_succ (c : Dev nD) (n : ℕ) (hn : n < cfg9.N) :
    PhiS9 V c (n + 1) hn = iprop(iprop(owns (c : Thread nD τ) scM9_0 fullShare ((outsAt9 V c n hn).2.2)) ∗ rest9 (F := F) c ∗ (∃ r, prngReg c r)) := rfl
theorem PhiS9_pos (c : Dev nD) (n : ℕ) (h : n ≤ cfg9.N) (hz : n ≠ 0) :
    PhiS9 V c n h = iprop(iprop(owns (c : Thread nD τ) scM9_0 fullShare ((outsAt9 V c (n - 1) (by omega)).2.2)) ∗ rest9 (F := F) c ∗ (∃ r, prngReg c r)) := by
  cases n with
  | zero => exact absurd rfl hz
  | succ n => rfl

/-! ## The pipeline's proof data -/

/-- The proof data of pipeline 9 on core `c` at the entry contents `V`. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
    | ⟨3, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem after9_3 (c : Dev nD) (t : Fin cfg9.N) : (dat9 V c).after 3 t = (outsAt9 V c t.val t.isLt).2.1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

theorem q_eq9 (c : Dev nD) : (dat9 V c).q = fun _ => fullShare := rfl
theorem owed_eq9 (c : Dev nD) : (dat9 V c).owed = fun _ => 0 := rfl

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' memrefs hold their blocks; the closed forms say which case the point is in; the
    invariant hands the body the accumulator at what the point before left and takes it back at this point's. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  by_cases h1 : t.val % 4 = 3
  · have h0 : ¬t.val % 4 = 0 := by omega
    have hz : t.val ≠ 0 := by omega
    rw [show (dat9 V c).leavesExact 2 t = owns (c : Thread nD τ) (ms9_2 t) fullShare ((dat9 V c).after 2 t) from by
      unfold Dat.leavesExact; rw [liveAt9_2 t ((hcond9_1 t).mpr h1)], after9_2]
    rw [show (dat9 V c).leavesExact 3 t = owns (c : Thread nD τ) (ms9_3 t) fullShare ((dat9 V c).after 3 t) from by
      unfold Dat.leavesExact; rw [liveAt9_3 t ((hcond9_1 t).mpr h1)], after9_3]
    rw [outsAt9_C V c t h0 h1]
    unfold out9_C_2 out9_C_3 sout9_C_0; (try dsimp only)
    rw [PhiS9_castSucc V c t, PhiS9_pos V c _ _ hz]
    iintro ⟨⟨HS0, Hr, Hg⟩, Ho, ⟨%d0, H0⟩, ⟨%d1, H1⟩, ⟨%d2, H2⟩, ⟨%d3, H3⟩⟩
    iapply ((kernelRun9_C c (grid9.coords t) _ _ _ _ _ _ _ _ _ _ (fun h => h0 ((hcond9_0 t).mp h)) ((hcond9_1 t).mpr h1) (iblk9 V c 0 t) (iblk9 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover9_C_0 c _ _ _ _ _ _ _ _ _ _ _ _ _ _ _ _)
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover9_C_2 c _ _ _ _ _ _ _ _ _ _ _ _ _ _ _ _)
    unfold owns; iexists _; isplitr
    swap; · iexact H3
    ipureintro; exact View.read_writes_of_cover _ _ _ _ _ (cover9_C_3 c _ _ _ _ _ _ _ _ _ _ _ _ _ _ _ _)
  · rw [Dat.leavesExact_idle (dat9 V c) 2 t (idleAt9_2 t (fun h => h1 ((hcond9_1 t).mp h))) (noFlush9_2 t (fun h => h1 ((hcond9_1 t).mp h)))]
    rw [Dat.leavesExact_idle (dat9 V c) 3 t (idleAt9_3 t (fun h => h1 ((hcond9_1 t).mp h))) (noFlush9_3 t (fun h => h1 ((hcond9_1 t).mp h)))]
    by_cases h0 : t.val % 4 = 0
    · rw [outsAt9_A V c t h0 h1]
      unfold sout9_A_0; (try dsimp only)
      by_cases hz : t.val = 0
      · rw [PhiS9_castSucc V c t, PhiS9_zero V c _ _ hz]
        iintro ⟨⟨HS0, Hr, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t)).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover9_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
      · rw [PhiS9_castSucc V c t, PhiS9_pos V c _ _ hz]
        iintro ⟨⟨HS0, Hr, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t)).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover9_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [outsAt9_B V c t h0 h1]
      unfold sout9_B_0; (try dsimp only)
      rw [PhiS9_castSucc V c t, PhiS9_pos V c _ _ hz]
      iintro ⟨⟨HS0, Hr, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover9_B_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the region is entered with — the generator register at some state and the call's scoped rest — is the
    invariant before the first point: the accumulator is among the scoped rest, at some contents. -/
theorem hin9 (c : Dev nD) :
    iprop((∃ r, prngReg c r) ∗ (Pipeline.scopedRest (Ix := Unit) (Name := ℕ) (U := UR sig nD τ) (Lvl := ℕ) (Val := Elt F) spec9 c : sProp 𝕄)) ⊢ (dat9 V c).Φ 0 := by
  rw [show (dat9 V c).Φ 0 = PhiS9 V c 0 (Nat.zero_le _) from rfl, PhiS9_zero V c 0 _ rfl, scopedRest9_owns]
  iintro ⟨Hg, HS0, Hr⟩
  isplitl [HS0]; · iexact HS0
  isplitl [Hr]; · iexact Hr
  iexact Hg

/-- After the last point the invariant gives both back: the accumulator's contents are forgotten. -/
theorem hout9 (c : Dev nD) :
    (dat9 V c).Φ (Fin.last cfg9.N) ⊢ iprop((∃ r, prngReg c r) ∗ (Pipeline.scopedRest (Ix := Unit) (Name := ℕ) (U := UR sig nD τ) (Lvl := ℕ) (Val := Elt F) spec9 c : sProp 𝕄)) := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 64 := N_9; omega), scopedRest9_owns]
  iintro ⟨HS0, Hr, Hg⟩
  isplitl [Hg]; · iexact Hg
  isplitl [HS0]; · iexists _; iexact HS0
  iexact Hr

end Region

end Cert.Kernel.Hand

end
-- ==== Proof.BReg10.lean ====
/- Region 10 of @main (one of the three normalize-and-sign kernels): the class-A half of its frame, at any float instance.
   The body loads the whole 1024x1024 block of pre-activations and the four 1x1024 rows (mean, variance, scale,
   shift) of its column block, computes scale * (z - mean) * rsqrt (variance + eps) + shift entry by entry, applies
   the sign function, and stores the whole 1024x1024 output block once; no value is carried from one grid point to
   the next. Everything here is stated at a parameter V, the TensorCore's buffer contents when the region is entered. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 1024 entries recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each input window's current staging buffer holds its block at every point, for any proof data whose array is V's
    and whose body leaves the block in place: the window is fetched whole and is never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The whole 1024x1024 block: the rectangle the pre-activations are loaded through and the output stored through. -/
abbrev r10_0 : Rect S1024x1024 := Rect.unit (s := S1024x1024) ![0, 0] S1024x1024.size inb_S1024x1024_S1024x1024_0_0
/-- The whole 1x1024 row: the rectangle each of the four per-column rows is loaded through. -/
abbrev r10_1 : Rect S1x1024 := Rect.unit (s := S1x1024) ![0, 0] S1x1024.size inb_S1x1024_S1x1024_0_0

/-! ## What the body leaves in the output window's buffer -/

/-- The output staging buffer after the body, from the five input blocks: one store of the whole block, whose
    value is the normalize-and-sign payload of the loaded blocks. -/
def out10_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r10_0, k10_pay1 (View.ld x0 r10_0) (View.ld x1 r10_1) (View.ld x2 r10_1) (View.ld x3 r10_1) (View.ld x4 r10_1)⟩]

/-- The one store covers the buffer. -/
theorem cover10_5 (p0 : Vec F S1024x1024 .bf16) (y : S1024x1024.Idx) :
    ∃ pc ∈ ([⟨r10_0, p0⟩] : List (View.Piece (Elt F) S1024x1024 .bf16)), y ∈ pc.1.set :=
  View.cover_of_tiled [⟨r10_0, p0⟩] S1024x1024.size (by rfl) y

/-! ## The body's triple -/

set_option maxHeartbeats 1000000 in
/-- The kernel body on whole staging memrefs, the inputs' at contents x0 .. x4 and the output's at anything, runs to
    the continuation holding the inputs' as they were and the output's at out10_5 of the inputs'. -/
theorem sound_kernel10 (c : Dev nD) (E : Set ℕ) (i : grid10.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out10_5 x0 x1 x2 x3 x4)) -∗ K ⟨⟩))
      ⊢ wp frame (wpE (defs₀ (F := F)) Variants.none c none) E (cc10__bn_activate_kernel i arg2 harg2 arg3 harg3 arg4 harg4 arg5 harg5 arg6 harg6 arg7 harg7) K := by
  simp only [cc10__bn_activate_kernel_eq_skeleton]; unfold cc10__bn_activate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of the region on core c: the arrays as the region finds them; after the body at point t each
    input's buffer at its block and the output's at out10_5 of the input blocks; the invariant is the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

theorem q_eq10 (c : Dev nD) (w : Fin cfg10.W) : (dat10 V c).q w = fullShare := rfl
theorem owed_eq10 (c : Dev nD) (j) : (dat10 V c).owed j = 0 := rfl

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so the triple applies; the invariant and the
    core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's two ends -/

/-- Entering: the generator register and the scoped rest make the invariant at the first point. -/
theorem hin10 (c : Dev nD) : iprop((∃ r, prngReg c r) ∗ Pipeline.scopedRest spec10 c) ⊢ (dat10 V c).Φ 0 := by
  rw [show (dat10 V c).Φ 0 = Pipeline.ΦA spec10 c from rfl]; unfold Pipeline.ΦA
  iintro ⟨Hp, Hr⟩
  isplitl [Hr]; · iexact Hr
  iexact Hp

/-- Leaving: the invariant at the last point gives them back. -/
theorem hout10 (c : Dev nD) : (dat10 V c).Φ (Fin.last cfg10.N) ⊢ iprop((∃ r, prngReg c r) ∗ Pipeline.scopedRest spec10 c) := by
  rw [show (dat10 V c).Φ (Fin.last _) = Pipeline.ΦA spec10 c from rfl]; unfold Pipeline.ΦA
  iintro ⟨Hr, Hp⟩
  isplitl [Hp]; · iexact Hp
  iexact Hr

end Cert.Kernel.Hand

end
-- ==== Proof.BReg11Runs.lean ====
/- Region 11 (the last matmul), part 1: the grid is 16 x 1 x 1, so the innermost coordinate is 0 at every point and
   both of the body's conditions hold everywhere: the accumulator is zeroed, the product of the two input blocks is
   added, and the accumulator is copied to the output block, all at one point. The body run on whole staging memrefs. -/
import proofs.«139021_j54202487276022_2_alg».proof.Proof.Gen.Kernel.Launch
import proofs.«139021_j54202487276022_2_alg».proof.Proof.Gen.Kernel.Skeleton
import proofs.«139021_j54202487276022_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's conditions: both hold at every point -/

abbrev cond11_0 (i : grid11.Coords) : Prop := (Scalar.cmpi .ne (Scalar.extui (Scalar.cmpi .eq (BitVec.ofNat 32 (i 2).val) 0#32)) 0#32) = 1#1
theorem hcond11_0 : ∀ t : Fin cfg11.N, cond11_0 (grid11.coords t) :=
  (by decide +kernel : ∀ t : Fin grid11.N, cond11_0 (grid11.coords t))
abbrev cond11_1 (i : grid11.Coords) : Prop := k11_cond2 i = 1#1
theorem hcond11_1 : ∀ t : Fin cfg11.N, cond11_1 (grid11.coords t) :=
  (by decide +kernel : ∀ t : Fin grid11.N, cond11_1 (grid11.coords t))

/-- No window is idle anywhere. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel

/-! ## The memrefs the body is called with -/

abbrev VO11_2 : View sig .tc .vmem S512x1024 .f32 := (Memref.whole cc11_stg2_0 : Memref sig .tc .vmem S512x1024 .f32).view
abbrev ms11_0 (t : Fin cfg11.N) : Memref sig .tc .vmem S512x4096 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x4096 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S512x1024 .f32 := win11_2.stage (cfg11.slots t 2)
abbrev hs11_2 (t : Fin cfg11.N) : (ms11_2 t).IsWhole := hstage11_2 ((cfg11.slots t 2).cast nbuf11_2)
abbrev scM11_0 : Memref sig .tc .vmem S512x1024 .f32 := Memref.whole cc11_scratch0

/-! ## The body -/

set_option maxHeartbeats 1000000 in
/-- The inputs at their blocks, the output and the accumulator at anything: the body ends with the output's store
    written (the list is what the run finds) and the accumulator at some contents. -/
noncomputable def kernelRun11 (c : Dev nD) (i : grid11.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (hc0 : cond11_0 i) (hc1 : cond11_1 i)
    (x0 : Vec F S512x4096 .bf16) (x1 : Vec F S1024x4096 .bf16) :
    { L2 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ d, owns (c : Thread nD τ) arg6 fullShare d)) -∗ K ⟨⟩))
          ⊢ wp frame (wpE (defs₀ (F := F)) Variants.none c none) E (cc11__binary_matmul_kernel i arg3 harg3 arg4 harg4 arg5 harg5 arg6 harg6) K } := by
  refine ⟨?_, fun E K => ?run⟩
  case run =>
    simp only [cc11__binary_matmul_kernel_eq_skeleton]; unfold cc11__binary_matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexists _; isplitr
    swap; · iexact HS0
    ipureintro; rfl

end Cert.Kernel.Hand

end
-- ==== Proof.BReg11.lean ====
/- Region 11, part 2: what the output block holds after the body at a point, the proof data of the pipeline at given
   entry contents, and the body obligation. The accumulator is written before it is read at every point, so the
   invariant holds it at some contents, beside every other scoped buffer unopened and the generator register. -/
import proofs.«139021_j54202487276022_2_alg».proof.Proof.BReg11Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (the second input's
    block index never moves: it is fetched once). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## What the body leaves in the output block -/

/-- The output's store covers its block, -/
theorem cover11_2 (c : Dev nD) (i : grid11.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (hc0 : cond11_0 i) (hc1 : cond11_1 i)
    (x0 : Vec F S512x4096 .bf16) (x1 : Vec F S1024x4096 .bf16) (y : S512x1024.Idx) :
    ∃ pc ∈ (kernelRun11 c i arg3 harg3 arg4 harg4 arg5 harg5 arg6 harg6 hc0 hc1 x0 x1).1, y ∈ pc.1.set :=
  View.cover_of_tiledL (kernelRun11 c i arg3 harg3 arg4 harg4 arg5 harg5 arg6 harg6 hc0 hc1 x0 x1).1 S512x1024.size (by sl_kernel_rfl) y
/-- and what it leaves there. -/
def out11_2 (c : Dev nD) (i : grid11.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (hc0 : cond11_0 i) (hc1 : cond11_1 i)
    (x0 : Vec F S512x4096 .bf16) (x1 : Vec F S1024x4096 .bf16) : Vec F S512x1024 .f32 :=
  VO11_2.read (Elt F) (VO11_2.writes (Elt F) VO11_2.junk (kernelRun11 c i arg3 harg3 arg4 harg4 arg5 harg5 arg6 harg6 hc0 hc1 x0 x1).1)

/-- The output block after the body at point `t`. -/
def outAt11 (c : Dev nD) (t : Fin cfg11.N) : Vec F S512x1024 .f32 :=
  out11_2 c (grid11.coords t) (ms11_0 t) (hs11_0 t) (ms11_1 t) (hs11_1 t) (ms11_2 t) (hs11_2 t) scM11_0 (Memref.isWhole_whole _) (hcond11_0 t) (hcond11_1 t) (iblk11 V c 0 t) (iblk11 V c 1 t)

/-! ## The invariant -/

/-- Every scoped buffer that is neither a staging buffer of this call nor its accumulator, at some contents. -/
abbrev rest11 (c : Dev nD) : sProp 𝕄 := Pipeline.scopedRestBut (Ix := Unit) (Name := ℕ) (U := UR sig nD τ) (Lvl := ℕ) (Val := Elt F) spec11 c [cc11_scratch0]

/-- The call's scoped rest with the accumulator as a whole memref owned at some contents. -/
theorem scopedRest11_owns (c : Dev nD) :
    (Pipeline.scopedRest (Ix := Unit) (Name := ℕ) (U := UR sig nD τ) (Lvl := ℕ) (Val := Elt F) spec11 c : sProp 𝕄)
      = iprop(iprop((∃ d, owns (c : Thread nD τ) scM11_0 fullShare d)) ∗ rest11 (F := F) c) := by
  rw [scopedRest11_split]; simp only [scM11_0, owns_whole]; rfl

/-- The accumulator at some contents, the other scoped buffers unopened, the generator register at some state. -/
def Phi11 (c : Dev nD) : sProp 𝕄 :=
  iprop(iprop((∃ d, owns (c : Thread nD τ) scM11_0 fullShare d)) ∗ rest11 (F := F) c ∗ (∃ r, prngReg c r))

/-! ## The pipeline's proof data -/

/-- The proof data of pipeline 11 on core `c` at the entry contents `V`. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => outAt11 V c t
  Φ _ := Phi11 (F := F) c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = outAt11 V c t := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

theorem q_eq11 (c : Dev nD) : (dat11 V c).q = fun _ => fullShare := rfl
theorem owed_eq11 (c : Dev nD) : (dat11 V c).owed = fun _ => 0 := rfl

/-! ## The body obligation -/

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point: the inputs' memrefs hold their blocks, both conditions hold, and the run applies; the
    invariant lends the accumulator and takes it back at whatever the body left. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = Phi11 (F := F) c from rfl, show (dat11 V c).Φ t.castSucc = Phi11 (F := F) c from rfl]
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  unfold outAt11 out11_2 Phi11
  iintro ⟨⟨HS0, Hr, Hg⟩, Ho, ⟨%d0, H0⟩, ⟨%d1, H1⟩, ⟨%d2, H2⟩⟩
  iapply ((kernelRun11 c (grid11.coords t) _ _ _ _ _ _ _ _ (hcond11_0 t) (hcond11_1 t) (iblk11 V c 0 t) (iblk11 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hr Hg]
  · isplitl [HS0]; · iexact HS0
    isplitl [Hr]; · iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover11_2 c _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the region is entered with — the generator register at some state and the call's scoped rest — is the
    invariant: the accumulator is among the scoped rest, at some contents. -/
theorem hin11 (c : Dev nD) :
    iprop((∃ r, prngReg c r) ∗ (Pipeline.scopedRest (Ix := Unit) (Name := ℕ) (U := UR sig nD τ) (Lvl := ℕ) (Val := Elt F) spec11 c : sProp 𝕄)) ⊢ (dat11 V c).Φ 0 := by
  rw [show (dat11 V c).Φ 0 = Phi11 (F := F) c from rfl, scopedRest11_owns]; unfold Phi11
  iintro ⟨Hg, HS0, Hr⟩
  isplitl [HS0]; · iexact HS0
  isplitl [Hr]; · iexact Hr
  iexact Hg

/-- And the invariant gives both back. -/
theorem hout11 (c : Dev nD) :
    (dat11 V c).Φ (Fin.last cfg11.N) ⊢ iprop((∃ r, prngReg c r) ∗ (Pipeline.scopedRest (Ix := Unit) (Name := ℕ) (U := UR sig nD τ) (Lvl := ℕ) (Val := Elt F) spec11 c : sProp 𝕄)) := by
  rw [show (dat11 V c).Φ (Fin.last cfg11.N) = Phi11 (F := F) c from rfl, scopedRest11_owns]; unfold Phi11
  iintro ⟨HS0, Hr, Hg⟩
  isplitl [Hg]; · iexact Hg
  isplitl [HS0]; · iexact HS0
  iexact Hr

end Region

end Cert.Kernel.Hand

end
-- ==== Proof.BRunFold.lean ====
/- The run of @main, first part: the contents of every TensorCore buffer at each boundary between two items of
   @main, as a fold from the launch memory. @main is eighteen items: twelve kernel regions and six stretches of host
   operations. A host stretch takes the contents to what its operations compute from them; a region takes each of its
   windows' arrays to what its write-backs leave and every other buffer to itself. Each step comes with a frame
   lemma (a buffer the step does not write keeps its contents), so that any buffer can be walked back through the
   fold; the eleven argument arrays walk back to the launch memory. Stated at any instance of the word-level operations. -/
import proofs.«139021_j54202487276022_2_alg».proof.Proof.Gen.Kernel.Regions
import proofs.«139021_j54202487276022_2_alg».proof.Proof.BReg0
import proofs.«139021_j54202487276022_2_alg».proof.Proof.BReg1
import proofs.«139021_j54202487276022_2_alg».proof.Proof.BReg2
import proofs.«139021_j54202487276022_2_alg».proof.Proof.BReg3
import proofs.«139021_j54202487276022_2_alg».proof.Proof.BReg4
import proofs.«139021_j54202487276022_2_alg».proof.Proof.BReg5
import proofs.«139021_j54202487276022_2_alg».proof.Proof.BReg6
import proofs.«139021_j54202487276022_2_alg».proof.Proof.BReg7
import proofs.«139021_j54202487276022_2_alg».proof.Proof.BReg8
import proofs.«139021_j54202487276022_2_alg».proof.Proof.BReg9
import proofs.«139021_j54202487276022_2_alg».proof.Proof.BReg10
import proofs.«139021_j54202487276022_2_alg».proof.Proof.BReg11
import Idealize.ShloMosaic.Lib.Pipeline.RegionsLoop
import Idealize.ShloMosaic.Lib.Pipeline.FrameSuffix

-- deciding membership among the 188 buffer references recurses past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit (item 0): its windows' arrays at what the pipeline leaves (an input as entered, an output with
    its write-backs folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the exit each array of the region holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- A buffer that is no output array of region 0 keeps its contents: an input window's array is never written,
    and a buffer no window names bypasses the region. -/
theorem W1_of (c : Dev nD) (b : Ref sig .tc) (h : b ∉ ([main_v0] : List (Ref sig .tc))) :
    W1 m ρ c (Proc.devRef .tc b) = W0 m ρ c (Proc.devRef .tc b) := by
  by_cases hb : ∀ w, Pipeline.arrRef spec0 w ≠ b
  · exact W1_of_ne m ρ c b hb
  · obtain ⟨w, rfl⟩ := not_forall_not.mp hb
    match w with
    | ⟨0, _⟩ => exact (W1_arr m ρ c 0).trans (((dat0 (V0 m ρ) c).arrAt_in 0 rfl _).trans (A_eq0 (V0 m ρ) c 0))
    | ⟨1, _⟩ => exact absurd (show (main_v0 : Ref sig .tc) ∈ ([main_v0] : List (Ref sig .tc)) from by decide) h

/-- At region 1's exit (item 1): its windows' arrays at what the pipeline leaves (an input as entered, an output with
    its write-backs folded in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At the exit each array of the region holds what the pipeline leaves, and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- A buffer that is no output array of region 1 keeps its contents: an input window's array is never written,
    and a buffer no window names bypasses the region. -/
theorem W2_of (c : Dev nD) (b : Ref sig .tc) (h : b ∉ ([main_v1] : List (Ref sig .tc))) :
    W2 m ρ c (Proc.devRef .tc b) = W1 m ρ c (Proc.devRef .tc b) := by
  by_cases hb : ∀ w, Pipeline.arrRef spec1 w ≠ b
  · exact W2_of_ne m ρ c b hb
  · obtain ⟨w, rfl⟩ := not_forall_not.mp hb
    match w with
    | ⟨0, _⟩ => exact (W2_arr m ρ c 0).trans (((dat1 (V1 m ρ) c).arrAt_in 0 rfl _).trans (A_eq1 (V1 m ρ) c 0))
    | ⟨1, _⟩ => exact absurd (show (main_v1 : Ref sig .tc) ∈ ([main_v1] : List (Ref sig .tc)) from by decide) h

/-- At region 2's exit (item 2): its windows' arrays at what the pipeline leaves (an input as entered, an output with
    its write-backs folded in), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At the exit each array of the region holds what the pipeline leaves, and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- A buffer that is no output array of region 2 keeps its contents: an input window's array is never written,
    and a buffer no window names bypasses the region. -/
theorem W3_of (c : Dev nD) (b : Ref sig .tc) (h : b ∉ ([main_v2] : List (Ref sig .tc))) :
    W3 m ρ c (Proc.devRef .tc b) = W2 m ρ c (Proc.devRef .tc b) := by
  by_cases hb : ∀ w, Pipeline.arrRef spec2 w ≠ b
  · exact W3_of_ne m ρ c b hb
  · obtain ⟨w, rfl⟩ := not_forall_not.mp hb
    match w with
    | ⟨0, _⟩ => exact (W3_arr m ρ c 0).trans (((dat2 (V2 m ρ) c).arrAt_in 0 rfl _).trans (A_eq2 (V2 m ρ) c 0))
    | ⟨1, _⟩ => exact absurd (show (main_v2 : Ref sig .tc) ∈ ([main_v2] : List (Ref sig .tc)) from by decide) h

/-- At region 3's exit (item 3): its windows' arrays at what the pipeline leaves (an input as entered, an output with
    its write-backs folded in), every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
/-- At the exit each array of the region holds what the pipeline leaves, and every other buffer what it held at entry. -/
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- A buffer that is no output array of region 3 keeps its contents: an input window's array is never written,
    and a buffer no window names bypasses the region. -/
theorem W4_of (c : Dev nD) (b : Ref sig .tc) (h : b ∉ ([main_v3] : List (Ref sig .tc))) :
    W4 m ρ c (Proc.devRef .tc b) = W3 m ρ c (Proc.devRef .tc b) := by
  by_cases hb : ∀ w, Pipeline.arrRef spec3 w ≠ b
  · exact W4_of_ne m ρ c b hb
  · obtain ⟨w, rfl⟩ := not_forall_not.mp hb
    match w with
    | ⟨0, _⟩ => exact (W4_arr m ρ c 0).trans (((dat3 (V3 m ρ) c).arrAt_in 0 rfl _).trans (A_eq3 (V3 m ρ) c 0))
    | ⟨1, _⟩ => exact absurd (show (main_v3 : Ref sig .tc) ∈ ([main_v3] : List (Ref sig .tc)) from by decide) h

/-- After the host stretch hostOps4 (item 4). -/
abbrev W5 : Dev nD → Valuation τ sig (Elt F) := fun c => StableHlo.after hostOps4 (W4 m ρ c)
/-- The same read at the TensorCore's references. -/
abbrev V5 : (c : Dev nD) → (b : Ref sig .tc) → Buf (Elt F) ((c : Thread nD τ).loc b) := fun c b => W5 m ρ c b
/-- A buffer the stretch does not write keeps its contents. -/
theorem W5_of (c : Dev nD) (b : Ref sig .tc) (h : b ∉ hostOps4_W) :
    W5 m ρ c (Proc.devRef .tc b) = W4 m ρ c (Proc.devRef .tc b) :=
  StableHlo.after_of_writes_sub hostOps4 _ hostOps4_writes h

/-- After the host stretch hostOps4_1 (item 5). -/
abbrev W6 : Dev nD → Valuation τ sig (Elt F) := fun c => StableHlo.after hostOps4_1 (W5 m ρ c)
/-- The same read at the TensorCore's references. -/
abbrev V6 : (c : Dev nD) → (b : Ref sig .tc) → Buf (Elt F) ((c : Thread nD τ).loc b) := fun c b => W6 m ρ c b
/-- A buffer the stretch does not write keeps its contents. -/
theorem W6_of (c : Dev nD) (b : Ref sig .tc) (h : b ∉ hostOps4_1_W) :
    W6 m ρ c (Proc.devRef .tc b) = W5 m ρ c (Proc.devRef .tc b) :=
  StableHlo.after_of_writes_sub hostOps4_1 _ hostOps4_1_writes h

/-- At region 4's exit (item 6): its windows' arrays at what the pipeline leaves (an input as entered, an output with
    its write-backs folded in), every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- The same read at the TensorCore's references. -/
abbrev V7 : (c : Dev nD) → (b : Ref sig .tc) → Buf (Elt F) ((c : Thread nD τ).loc b) := fun c b => W7 m ρ c b
/-- At the exit each array of the region holds what the pipeline leaves, and every other buffer what it held at entry. -/
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)
/-- A buffer that is no output array of region 4 keeps its contents: an input window's array is never written,
    and a buffer no window names bypasses the region. -/
theorem W7_of (c : Dev nD) (b : Ref sig .tc) (h : b ∉ ([main_v5] : List (Ref sig .tc))) :
    W7 m ρ c (Proc.devRef .tc b) = W6 m ρ c (Proc.devRef .tc b) := by
  by_cases hb : ∀ w, Pipeline.arrRef spec4 w ≠ b
  · exact W7_of_ne m ρ c b hb
  · obtain ⟨w, rfl⟩ := not_forall_not.mp hb
    match w with
    | ⟨0, _⟩ => exact (W7_arr m ρ c 0).trans (((dat4 (V6 m ρ) c).arrAt_in 0 rfl _).trans (A_eq4 (V6 m ρ) c 0))
    | ⟨1, _⟩ => exact absurd (show (main_v5 : Ref sig .tc) ∈ ([main_v5] : List (Ref sig .tc)) from by decide) h

/-- At region 5's exit (item 7): its windows' arrays at what the pipeline leaves (an input as entered, an output with
    its write-backs folded in), every other buffer as entered. -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- The same read at the TensorCore's references. -/
abbrev V8 : (c : Dev nD) → (b : Ref sig .tc) → Buf (Elt F) ((c : Thread nD τ).loc b) := fun c b => W8 m ρ c b
/-- At the exit each array of the region holds what the pipeline leaves, and every other buffer what it held at entry. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
/-- A buffer that is no output array of region 5 keeps its contents: an input window's array is never written,
    and a buffer no window names bypasses the region. -/
theorem W8_of (c : Dev nD) (b : Ref sig .tc) (h : b ∉ ([main_v6_0, main_v6_1] : List (Ref sig .tc))) :
    W8 m ρ c (Proc.devRef .tc b) = W7 m ρ c (Proc.devRef .tc b) := by
  by_cases hb : ∀ w, Pipeline.arrRef spec5 w ≠ b
  · exact W8_of_ne m ρ c b hb
  · obtain ⟨w, rfl⟩ := not_forall_not.mp hb
    match w with
    | ⟨0, _⟩ => exact (W8_arr m ρ c 0).trans (((dat5 (V7 m ρ) c).arrAt_in 0 rfl _).trans (A_eq5 (V7 m ρ) c 0))
    | ⟨1, _⟩ => exact (W8_arr m ρ c 1).trans (((dat5 (V7 m ρ) c).arrAt_in 1 rfl _).trans (A_eq5 (V7 m ρ) c 1))
    | ⟨2, _⟩ => exact absurd (show (main_v6_0 : Ref sig .tc) ∈ ([main_v6_0, main_v6_1] : List (Ref sig .tc)) from by decide) h
    | ⟨3, _⟩ => exact absurd (show (main_v6_1 : Ref sig .tc) ∈ ([main_v6_0, main_v6_1] : List (Ref sig .tc)) from by decide) h

/-- After the host stretch hostOps6 (item 8). -/
abbrev W9 : Dev nD → Valuation τ sig (Elt F) := fun c => StableHlo.after hostOps6 (W8 m ρ c)
/-- The same read at the TensorCore's references. -/
abbrev V9 : (c : Dev nD) → (b : Ref sig .tc) → Buf (Elt F) ((c : Thread nD τ).loc b) := fun c b => W9 m ρ c b
/-- A buffer the stretch does not write keeps its contents. -/
theorem W9_of (c : Dev nD) (b : Ref sig .tc) (h : b ∉ hostOps6_W) :
    W9 m ρ c (Proc.devRef .tc b) = W8 m ρ c (Proc.devRef .tc b) :=
  StableHlo.after_of_writes_sub hostOps6 _ hostOps6_writes h

/-- At region 6's exit (item 9): its windows' arrays at what the pipeline leaves (an input as entered, an output with
    its write-backs folded in), every other buffer as entered. -/
def W10 (c : Dev nD) : Valuation τ sig (Elt F) :=
  Pipeline.withArrays spec6 c (W9 m ρ c) fun w => (dat6 (V9 m ρ) c).arrAt w cfg6.N
theorem W10_arr (c : Dev nD) (w : Fin cfg6.W) :
    W10 m ρ c (Proc.devRef .tc (Pipeline.arrRef spec6 w)) = (dat6 (V9 m ρ) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m ρ c (Proc.devRef .tc b) = W9 m ρ c (Proc.devRef .tc b) := by
  unfold W10; exact Pipeline.withArrays_of_ne spec6 c _ _ b hb
/-- The same read at the TensorCore's references. -/
abbrev V10 : (c : Dev nD) → (b : Ref sig .tc) → Buf (Elt F) ((c : Thread nD τ).loc b) := fun c b => W10 m ρ c b
/-- At the exit each array of the region holds what the pipeline leaves, and every other buffer what it held at entry. -/
theorem hF6 (c : Dev nD) (w : Fin cfg6.W) : (dat6 (V9 m ρ) c).arrAt w cfg6.N = V10 m ρ c (Pipeline.arrRef spec6 w) :=
  (W10_arr m ρ c w).symm
theorem hrest6 (c : Dev nD) : ∀ b, b ∉ Finset.univ.image (Pipeline.arrRef spec6) → V10 m ρ c b = V9 m ρ c b :=
  fun b hb => W10_of_ne m ρ c b fun w e => hb (Finset.mem_image.mpr ⟨w, Finset.mem_univ _, e⟩)
/-- A buffer that is no output array of region 6 keeps its contents: an input window's array is never written,
    and a buffer no window names bypasses the region. -/
theorem W10_of (c : Dev nD) (b : Ref sig .tc) (h : b ∉ ([main_v25] : List (Ref sig .tc))) :
    W10 m ρ c (Proc.devRef .tc b) = W9 m ρ c (Proc.devRef .tc b) := by
  by_cases hb : ∀ w, Pipeline.arrRef spec6 w ≠ b
  · exact W10_of_ne m ρ c b hb
  · obtain ⟨w, rfl⟩ := not_forall_not.mp hb
    match w with
    | ⟨0, _⟩ => exact (W10_arr m ρ c 0).trans (((dat6 (V9 m ρ) c).arrAt_in 0 rfl _).trans (A_eq6 (V9 m ρ) c 0))
    | ⟨1, _⟩ => exact (W10_arr m ρ c 1).trans (((dat6 (V9 m ρ) c).arrAt_in 1 rfl _).trans (A_eq6 (V9 m ρ) c 1))
    | ⟨2, _⟩ => exact (W10_arr m ρ c 2).trans (((dat6 (V9 m ρ) c).arrAt_in 2 rfl _).trans (A_eq6 (V9 m ρ) c 2))
    | ⟨3, _⟩ => exact (W10_arr m ρ c 3).trans (((dat6 (V9 m ρ) c).arrAt_in 3 rfl _).trans (A_eq6 (V9 m ρ) c 3))
    | ⟨4, _⟩ => exact (W10_arr m ρ c 4).trans (((dat6 (V9 m ρ) c).arrAt_in 4 rfl _).trans (A_eq6 (V9 m ρ) c 4))
    | ⟨5, _⟩ => exact absurd (show (main_v25 : Ref sig .tc) ∈ ([main_v25] : List (Ref sig .tc)) from by decide) h

/-- At region 7's exit (item 10): its windows' arrays at what the pipeline leaves (an input as entered, an output with
    its write-backs folded in), every other buffer as entered. -/
def W11 (c : Dev nD) : Valuation τ sig (Elt F) :=
  Pipeline.withArrays spec7 c (W10 m ρ c) fun w => (dat7 (V10 m ρ) c).arrAt w cfg7.N
theorem W11_arr (c : Dev nD) (w : Fin cfg7.W) :
    W11 m ρ c (Proc.devRef .tc (Pipeline.arrRef spec7 w)) = (dat7 (V10 m ρ) c).arrAt w cfg7.N := by
  unfold W11; exact Pipeline.withArrays_arr spec7 launch7.win.arr_inj c _ _ w
theorem W11_of_ne (c : Dev nD) (b : Ref sig .tc) (hb : ∀ w, Pipeline.arrRef spec7 w ≠ b) :
    W11 m ρ c (Proc.devRef .tc b) = W10 m ρ c (Proc.devRef .tc b) := by
  unfold W11; exact Pipeline.withArrays_of_ne spec7 c _ _ b hb
/-- The same read at the TensorCore's references. -/
abbrev V11 : (c : Dev nD) → (b : Ref sig .tc) → Buf (Elt F) ((c : Thread nD τ).loc b) := fun c b => W11 m ρ c b
/-- At the exit each array of the region holds what the pipeline leaves, and every other buffer what it held at entry. -/
theorem hF7 (c : Dev nD) (w : Fin cfg7.W) : (dat7 (V10 m ρ) c).arrAt w cfg7.N = V11 m ρ c (Pipeline.arrRef spec7 w) :=
  (W11_arr m ρ c w).symm
theorem hrest7 (c : Dev nD) : ∀ b, b ∉ Finset.univ.image (Pipeline.arrRef spec7) → V11 m ρ c b = V10 m ρ c b :=
  fun b hb => W11_of_ne m ρ c b fun w e => hb (Finset.mem_image.mpr ⟨w, Finset.mem_univ _, e⟩)
/-- A buffer that is no output array of region 7 keeps its contents: an input window's array is never written,
    and a buffer no window names bypasses the region. -/
theorem W11_of (c : Dev nD) (b : Ref sig .tc) (h : b ∉ ([main_v26_0, main_v26_1] : List (Ref sig .tc))) :
    W11 m ρ c (Proc.devRef .tc b) = W10 m ρ c (Proc.devRef .tc b) := by
  by_cases hb : ∀ w, Pipeline.arrRef spec7 w ≠ b
  · exact W11_of_ne m ρ c b hb
  · obtain ⟨w, rfl⟩ := not_forall_not.mp hb
    match w with
    | ⟨0, _⟩ => exact (W11_arr m ρ c 0).trans (((dat7 (V10 m ρ) c).arrAt_in 0 rfl _).trans (A_eq7 (V10 m ρ) c 0))
    | ⟨1, _⟩ => exact (W11_arr m ρ c 1).trans (((dat7 (V10 m ρ) c).arrAt_in 1 rfl _).trans (A_eq7 (V10 m ρ) c 1))
    | ⟨2, _⟩ => exact absurd (show (main_v26_0 : Ref sig .tc) ∈ ([main_v26_0, main_v26_1] : List (Ref sig .tc)) from by decide) h
    | ⟨3, _⟩ => exact absurd (show (main_v26_1 : Ref sig .tc) ∈ ([main_v26_0, main_v26_1] : List (Ref sig .tc)) from by decide) h

/-- After the host stretch hostOps8 (item 11). -/
abbrev W12 : Dev nD → Valuation τ sig (Elt F) := fun c => StableHlo.after hostOps8 (W11 m ρ c)
/-- The same read at the TensorCore's references. -/
abbrev V12 : (c : Dev nD) → (b : Ref sig .tc) → Buf (Elt F) ((c : Thread nD τ).loc b) := fun c b => W12 m ρ c b
/-- A buffer the stretch does not write keeps its contents. -/
theorem W12_of (c : Dev nD) (b : Ref sig .tc) (h : b ∉ hostOps8_W) :
    W12 m ρ c (Proc.devRef .tc b) = W11 m ρ c (Proc.devRef .tc b) :=
  StableHlo.after_of_writes_sub hostOps8 _ hostOps8_writes h

/-- At region 8's exit (item 12): its windows' arrays at what the pipeline leaves (an input as entered, an output with
    its write-backs folded in), every other buffer as entered. -/
def W13 (c : Dev nD) : Valuation τ sig (Elt F) :=
  Pipeline.withArrays spec8 c (W12 m ρ c) fun w => (dat8 (V12 m ρ) c).arrAt w cfg8.N
theorem W13_arr (c : Dev nD) (w : Fin cfg8.W) :
    W13 m ρ c (Proc.devRef .tc (Pipeline.arrRef spec8 w)) = (dat8 (V12 m ρ) c).arrAt w cfg8.N := by
  unfold W13; exact Pipeline.withArrays_arr spec8 launch8.win.arr_inj c _ _ w
theorem W13_of_ne (c : Dev nD) (b : Ref sig .tc) (hb : ∀ w, Pipeline.arrRef spec8 w ≠ b) :
    W13 m ρ c (Proc.devRef .tc b) = W12 m ρ c (Proc.devRef .tc b) := by
  unfold W13; exact Pipeline.withArrays_of_ne spec8 c _ _ b hb
/-- The same read at the TensorCore's references. -/
abbrev V13 : (c : Dev nD) → (b : Ref sig .tc) → Buf (Elt F) ((c : Thread nD τ).loc b) := fun c b => W13 m ρ c b
/-- At the exit each array of the region holds what the pipeline leaves, and every other buffer what it held at entry. -/
theorem hF8 (c : Dev nD) (w : Fin cfg8.W) : (dat8 (V12 m ρ) c).arrAt w cfg8.N = V13 m ρ c (Pipeline.arrRef spec8 w) :=
  (W13_arr m ρ c w).symm
theorem hrest8 (c : Dev nD) : ∀ b, b ∉ Finset.univ.image (Pipeline.arrRef spec8) → V13 m ρ c b = V12 m ρ c b :=
  fun b hb => W13_of_ne m ρ c b fun w e => hb (Finset.mem_image.mpr ⟨w, Finset.mem_univ _, e⟩)
/-- A buffer that is no output array of region 8 keeps its contents: an input window's array is never written,
    and a buffer no window names bypasses the region. -/
theorem W13_of (c : Dev nD) (b : Ref sig .tc) (h : b ∉ ([main_v45] : List (Ref sig .tc))) :
    W13 m ρ c (Proc.devRef .tc b) = W12 m ρ c (Proc.devRef .tc b) := by
  by_cases hb : ∀ w, Pipeline.arrRef spec8 w ≠ b
  · exact W13_of_ne m ρ c b hb
  · obtain ⟨w, rfl⟩ := not_forall_not.mp hb
    match w with
    | ⟨0, _⟩ => exact (W13_arr m ρ c 0).trans (((dat8 (V12 m ρ) c).arrAt_in 0 rfl _).trans (A_eq8 (V12 m ρ) c 0))
    | ⟨1, _⟩ => exact (W13_arr m ρ c 1).trans (((dat8 (V12 m ρ) c).arrAt_in 1 rfl _).trans (A_eq8 (V12 m ρ) c 1))
    | ⟨2, _⟩ => exact (W13_arr m ρ c 2).trans (((dat8 (V12 m ρ) c).arrAt_in 2 rfl _).trans (A_eq8 (V12 m ρ) c 2))
    | ⟨3, _⟩ => exact (W13_arr m ρ c 3).trans (((dat8 (V12 m ρ) c).arrAt_in 3 rfl _).trans (A_eq8 (V12 m ρ) c 3))
    | ⟨4, _⟩ => exact (W13_arr m ρ c 4).trans (((dat8 (V12 m ρ) c).arrAt_in 4 rfl _).trans (A_eq8 (V12 m ρ) c 4))
    | ⟨5, _⟩ => exact absurd (show (main_v45 : Ref sig .tc) ∈ ([main_v45] : List (Ref sig .tc)) from by decide) h

/-- At region 9's exit (item 13): its windows' arrays at what the pipeline leaves (an input as entered, an output with
    its write-backs folded in), every other buffer as entered. -/
def W14 (c : Dev nD) : Valuation τ sig (Elt F) :=
  Pipeline.withArrays spec9 c (W13 m ρ c) fun w => (dat9 (V13 m ρ) c).arrAt w cfg9.N
theorem W14_arr (c : Dev nD) (w : Fin cfg9.W) :
    W14 m ρ c (Proc.devRef .tc (Pipeline.arrRef spec9 w)) = (dat9 (V13 m ρ) c).arrAt w cfg9.N := by
  unfold W14; exact Pipeline.withArrays_arr spec9 launch9.win.arr_inj c _ _ w
theorem W14_of_ne (c : Dev nD) (b : Ref sig .tc) (hb : ∀ w, Pipeline.arrRef spec9 w ≠ b) :
    W14 m ρ c (Proc.devRef .tc b) = W13 m ρ c (Proc.devRef .tc b) := by
  unfold W14; exact Pipeline.withArrays_of_ne spec9 c _ _ b hb
/-- The same read at the TensorCore's references. -/
abbrev V14 : (c : Dev nD) → (b : Ref sig .tc) → Buf (Elt F) ((c : Thread nD τ).loc b) := fun c b => W14 m ρ c b
/-- At the exit each array of the region holds what the pipeline leaves, and every other buffer what it held at entry. -/
theorem hF9 (c : Dev nD) (w : Fin cfg9.W) : (dat9 (V13 m ρ) c).arrAt w cfg9.N = V14 m ρ c (Pipeline.arrRef spec9 w) :=
  (W14_arr m ρ c w).symm
theorem hrest9 (c : Dev nD) : ∀ b, b ∉ Finset.univ.image (Pipeline.arrRef spec9) → V14 m ρ c b = V13 m ρ c b :=
  fun b hb => W14_of_ne m ρ c b fun w e => hb (Finset.mem_image.mpr ⟨w, Finset.mem_univ _, e⟩)
/-- A buffer that is no output array of region 9 keeps its contents: an input window's array is never written,
    and a buffer no window names bypasses the region. -/
theorem W14_of (c : Dev nD) (b : Ref sig .tc) (h : b ∉ ([main_v46_0, main_v46_1] : List (Ref sig .tc))) :
    W14 m ρ c (Proc.devRef .tc b) = W13 m ρ c (Proc.devRef .tc b) := by
  by_cases hb : ∀ w, Pipeline.arrRef spec9 w ≠ b
  · exact W14_of_ne m ρ c b hb
  · obtain ⟨w, rfl⟩ := not_forall_not.mp hb
    match w with
    | ⟨0, _⟩ => exact (W14_arr m ρ c 0).trans (((dat9 (V13 m ρ) c).arrAt_in 0 rfl _).trans (A_eq9 (V13 m ρ) c 0))
    | ⟨1, _⟩ => exact (W14_arr m ρ c 1).trans (((dat9 (V13 m ρ) c).arrAt_in 1 rfl _).trans (A_eq9 (V13 m ρ) c 1))
    | ⟨2, _⟩ => exact absurd (show (main_v46_0 : Ref sig .tc) ∈ ([main_v46_0, main_v46_1] : List (Ref sig .tc)) from by decide) h
    | ⟨3, _⟩ => exact absurd (show (main_v46_1 : Ref sig .tc) ∈ ([main_v46_0, main_v46_1] : List (Ref sig .tc)) from by decide) h

/-- After the host stretch hostOps10 (item 14). -/
abbrev W15 : Dev nD → Valuation τ sig (Elt F) := fun c => StableHlo.after hostOps10 (W14 m ρ c)
/-- The same read at the TensorCore's references. -/
abbrev V15 : (c : Dev nD) → (b : Ref sig .tc) → Buf (Elt F) ((c : Thread nD τ).loc b) := fun c b => W15 m ρ c b
/-- A buffer the stretch does not write keeps its contents. -/
theorem W15_of (c : Dev nD) (b : Ref sig .tc) (h : b ∉ hostOps10_W) :
    W15 m ρ c (Proc.devRef .tc b) = W14 m ρ c (Proc.devRef .tc b) :=
  StableHlo.after_of_writes_sub hostOps10 _ hostOps10_writes h

/-- At region 10's exit (item 15): its windows' arrays at what the pipeline leaves (an input as entered, an output with
    its write-backs folded in), every other buffer as entered. -/
def W16 (c : Dev nD) : Valuation τ sig (Elt F) :=
  Pipeline.withArrays spec10 c (W15 m ρ c) fun w => (dat10 (V15 m ρ) c).arrAt w cfg10.N
theorem W16_arr (c : Dev nD) (w : Fin cfg10.W) :
    W16 m ρ c (Proc.devRef .tc (Pipeline.arrRef spec10 w)) = (dat10 (V15 m ρ) c).arrAt w cfg10.N := by
  unfold W16; exact Pipeline.withArrays_arr spec10 launch10.win.arr_inj c _ _ w
theorem W16_of_ne (c : Dev nD) (b : Ref sig .tc) (hb : ∀ w, Pipeline.arrRef spec10 w ≠ b) :
    W16 m ρ c (Proc.devRef .tc b) = W15 m ρ c (Proc.devRef .tc b) := by
  unfold W16; exact Pipeline.withArrays_of_ne spec10 c _ _ b hb
/-- The same read at the TensorCore's references. -/
abbrev V16 : (c : Dev nD) → (b : Ref sig .tc) → Buf (Elt F) ((c : Thread nD τ).loc b) := fun c b => W16 m ρ c b
/-- At the exit each array of the region holds what the pipeline leaves, and every other buffer what it held at entry. -/
theorem hF10 (c : Dev nD) (w : Fin cfg10.W) : (dat10 (V15 m ρ) c).arrAt w cfg10.N = V16 m ρ c (Pipeline.arrRef spec10 w) :=
  (W16_arr m ρ c w).symm
theorem hrest10 (c : Dev nD) : ∀ b, b ∉ Finset.univ.image (Pipeline.arrRef spec10) → V16 m ρ c b = V15 m ρ c b :=
  fun b hb => W16_of_ne m ρ c b fun w e => hb (Finset.mem_image.mpr ⟨w, Finset.mem_univ _, e⟩)
/-- A buffer that is no output array of region 10 keeps its contents: an input window's array is never written,
    and a buffer no window names bypasses the region. -/
theorem W16_of (c : Dev nD) (b : Ref sig .tc) (h : b ∉ ([main_v65] : List (Ref sig .tc))) :
    W16 m ρ c (Proc.devRef .tc b) = W15 m ρ c (Proc.devRef .tc b) := by
  by_cases hb : ∀ w, Pipeline.arrRef spec10 w ≠ b
  · exact W16_of_ne m ρ c b hb
  · obtain ⟨w, rfl⟩ := not_forall_not.mp hb
    match w with
    | ⟨0, _⟩ => exact (W16_arr m ρ c 0).trans (((dat10 (V15 m ρ) c).arrAt_in 0 rfl _).trans (A_eq10 (V15 m ρ) c 0))
    | ⟨1, _⟩ => exact (W16_arr m ρ c 1).trans (((dat10 (V15 m ρ) c).arrAt_in 1 rfl _).trans (A_eq10 (V15 m ρ) c 1))
    | ⟨2, _⟩ => exact (W16_arr m ρ c 2).trans (((dat10 (V15 m ρ) c).arrAt_in 2 rfl _).trans (A_eq10 (V15 m ρ) c 2))
    | ⟨3, _⟩ => exact (W16_arr m ρ c 3).trans (((dat10 (V15 m ρ) c).arrAt_in 3 rfl _).trans (A_eq10 (V15 m ρ) c 3))
    | ⟨4, _⟩ => exact (W16_arr m ρ c 4).trans (((dat10 (V15 m ρ) c).arrAt_in 4 rfl _).trans (A_eq10 (V15 m ρ) c 4))
    | ⟨5, _⟩ => exact absurd (show (main_v65 : Ref sig .tc) ∈ ([main_v65] : List (Ref sig .tc)) from by decide) h

/-- At region 11's exit (item 16): its windows' arrays at what the pipeline leaves (an input as entered, an output with
    its write-backs folded in), every other buffer as entered. -/
def W17 (c : Dev nD) : Valuation τ sig (Elt F) :=
  Pipeline.withArrays spec11 c (W16 m ρ c) fun w => (dat11 (V16 m ρ) c).arrAt w cfg11.N
theorem W17_arr (c : Dev nD) (w : Fin cfg11.W) :
    W17 m ρ c (Proc.devRef .tc (Pipeline.arrRef spec11 w)) = (dat11 (V16 m ρ) c).arrAt w cfg11.N := by
  unfold W17; exact Pipeline.withArrays_arr spec11 launch11.win.arr_inj c _ _ w
theorem W17_of_ne (c : Dev nD) (b : Ref sig .tc) (hb : ∀ w, Pipeline.arrRef spec11 w ≠ b) :
    W17 m ρ c (Proc.devRef .tc b) = W16 m ρ c (Proc.devRef .tc b) := by
  unfold W17; exact Pipeline.withArrays_of_ne spec11 c _ _ b hb
/-- The same read at the TensorCore's references. -/
abbrev V17 : (c : Dev nD) → (b : Ref sig .tc) → Buf (Elt F) ((c : Thread nD τ).loc b) := fun c b => W17 m ρ c b
/-- At the exit each array of the region holds what the pipeline leaves, and every other buffer what it held at entry. -/
theorem hF11 (c : Dev nD) (w : Fin cfg11.W) : (dat11 (V16 m ρ) c).arrAt w cfg11.N = V17 m ρ c (Pipeline.arrRef spec11 w) :=
  (W17_arr m ρ c w).symm
theorem hrest11 (c : Dev nD) : ∀ b, b ∉ Finset.univ.image (Pipeline.arrRef spec11) → V17 m ρ c b = V16 m ρ c b :=
  fun b hb => W17_of_ne m ρ c b fun w e => hb (Finset.mem_image.mpr ⟨w, Finset.mem_univ _, e⟩)
/-- A buffer that is no output array of region 11 keeps its contents: an input window's array is never written,
    and a buffer no window names bypasses the region. -/
theorem W17_of (c : Dev nD) (b : Ref sig .tc) (h : b ∉ ([main_v66] : List (Ref sig .tc))) :
    W17 m ρ c (Proc.devRef .tc b) = W16 m ρ c (Proc.devRef .tc b) := by
  by_cases hb : ∀ w, Pipeline.arrRef spec11 w ≠ b
  · exact W17_of_ne m ρ c b hb
  · obtain ⟨w, rfl⟩ := not_forall_not.mp hb
    match w with
    | ⟨0, _⟩ => exact (W17_arr m ρ c 0).trans (((dat11 (V16 m ρ) c).arrAt_in 0 rfl _).trans (A_eq11 (V16 m ρ) c 0))
    | ⟨1, _⟩ => exact (W17_arr m ρ c 1).trans (((dat11 (V16 m ρ) c).arrAt_in 1 rfl _).trans (A_eq11 (V16 m ρ) c 1))
    | ⟨2, _⟩ => exact absurd (show (main_v66 : Ref sig .tc) ∈ ([main_v66] : List (Ref sig .tc)) from by decide) h

/-- After the host stretch hostOps12 (item 17). -/
abbrev W18 : Dev nD → Valuation τ sig (Elt F) := fun c => StableHlo.after hostOps12 (W17 m ρ c)
/-- The same read at the TensorCore's references. -/
abbrev V18 : (c : Dev nD) → (b : Ref sig .tc) → Buf (Elt F) ((c : Thread nD τ).loc b) := fun c b => W18 m ρ c b
/-- A buffer the stretch does not write keeps its contents. -/
theorem W18_of (c : Dev nD) (b : Ref sig .tc) (h : b ∉ hostOps12_W) :
    W18 m ρ c (Proc.devRef .tc b) = W17 m ρ c (Proc.devRef .tc b) :=
  StableHlo.after_of_writes_sub hostOps12 _ hostOps12_writes h

end Cert.Kernel.Hand

end
-- ==== Proof.BRunSegs.lean ====
/- The run of @main, second part: every item as a segment over one thread state. Between two items core c holds
   every unscoped buffer whole at the boundary's contents, its generator register at some state, and owes nothing. A
   host stretch runs over the unscoped buffers. A region splits its windows' arrays out of the unscoped buffers, hands
   the generator register and the scoped buffers to its invariant, and at its exit puts the arrays back at what its
   write-backs leave. Stated at any instance of the word-level operations. -/
import proofs.«139021_j54202487276022_2_alg».proof.Proof.BRunFold
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents: a literal match, so that the pinned
    configuration at a numeral reduces to the printed one. -/
def pdats : (p : Fin 12) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V6 m ρ) c
  | ⟨5, _⟩ => fun c => dat5 (V7 m ρ) c
  | ⟨6, _⟩ => fun c => dat6 (V9 m ρ) c
  | ⟨7, _⟩ => fun c => dat7 (V10 m ρ) c
  | ⟨8, _⟩ => fun c => dat8 (V12 m ρ) c
  | ⟨9, _⟩ => fun c => dat9 (V13 m ρ) c
  | ⟨10, _⟩ => fun c => dat10 (V15 m ρ) c
  | ⟨11, _⟩ => fun c => dat11 (V16 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the stretch's result from W, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W18 m ρ c) ∗ ∃ r, prngReg c r)

/-! ## The regions as segments

In each region the invariant's two ends are first restated over the region's own proof data: the family's member at
the region's numeral is that proof data by unfolding the match, which the separation-logic steps do not do by themselves. -/

-- applying a library lemma stated over the pinned configuration unifies with it only when unification may unfold plain
-- definitions in a metavariable's type
set_option backward.isDefEq.respectTransparency.types false in
/-- Region 0 over the thread state: entered from every unscoped buffer at W0, left at W1. Its arrays are split out
    of the unscoped buffers and put back at the exit contents; the generator register and the scoped buffers go into
    the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    change _ ⊢ (dat0 (V0 m ρ) c).Φ 0
    iintro ⟨Hp, -, Hr⟩
    iapply h
    isplitl [Hp]; · iexact Hp
    iexact Hr
  hout c := by
    rw [Pipeline.ownSems0_none]
    have h := hout0 (V0 m ρ) c
    change (dat0 (V0 m ρ) c).Φ (Fin.last cfg0.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 1 over the thread state: entered from every unscoped buffer at W1, left at W2. Its arrays are split out
    of the unscoped buffers and put back at the exit contents; the generator register and the scoped buffers go into
    the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V1 m ρ) c
    change _ ⊢ (dat1 (V1 m ρ) c).Φ 0
    iintro ⟨Hp, -, Hr⟩
    iapply h
    isplitl [Hp]; · iexact Hp
    iexact Hr
  hout c := by
    rw [Pipeline.ownSems0_none]
    have h := hout1 (V1 m ρ) c
    change (dat1 (V1 m ρ) c).Φ (Fin.last cfg1.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 2 over the thread state: entered from every unscoped buffer at W2, left at W3. Its arrays are split out
    of the unscoped buffers and put back at the exit contents; the generator register and the scoped buffers go into
    the region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V2 m ρ) c
    change _ ⊢ (dat2 (V2 m ρ) c).Φ 0
    iintro ⟨Hp, -, Hr⟩
    iapply h
    isplitl [Hp]; · iexact Hp
    iexact Hr
  hout c := by
    rw [Pipeline.ownSems0_none]
    have h := hout2 (V2 m ρ) c
    change (dat2 (V2 m ρ) c).Φ (Fin.last cfg2.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 3 over the thread state: entered from every unscoped buffer at W3, left at W4. Its arrays are split out
    of the unscoped buffers and put back at the exit contents; the generator register and the scoped buffers go into
    the region's invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V3 m ρ) c
    change _ ⊢ (dat3 (V3 m ρ) c).Φ 0
    iintro ⟨Hp, -, Hr⟩
    iapply h
    isplitl [Hp]; · iexact Hp
    iexact Hr
  hout c := by
    rw [Pipeline.ownSems0_none]
    have h := hout3 (V3 m ρ) c
    change (dat3 (V3 m ρ) c).Φ (Fin.last cfg3.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 4 over the thread state: entered from every unscoped buffer at W6, left at W7. Its arrays are split out
    of the unscoped buffers and put back at the exit contents; the generator register and the scoped buffers go into
    the region's invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V6 m ρ) c
    change _ ⊢ (dat4 (V6 m ρ) c).Φ 0
    iintro ⟨Hp, -, Hr⟩
    iapply h
    isplitl [Hp]; · iexact Hp
    iexact Hr
  hout c := by
    rw [Pipeline.ownSems0_none]
    have h := hout4 (V6 m ρ) c
    change (dat4 (V6 m ρ) c).Φ (Fin.last cfg4.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 5 over the thread state: entered from every unscoped buffer at W7, left at W8. Its arrays are split out
    of the unscoped buffers and put back at the exit contents; the generator register and the scoped buffers go into
    the region's invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin5 (V7 m ρ) c
    change _ ⊢ (dat5 (V7 m ρ) c).Φ 0
    iintro ⟨Hp, -, Hr⟩
    iapply h
    isplitl [Hp]; · iexact Hp
    iexact Hr
  hout c := by
    rw [Pipeline.ownSems0_none]
    have h := hout5 (V7 m ρ) c
    change (dat5 (V7 m ρ) c).Φ (Fin.last cfg5.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 6 over the thread state: entered from every unscoped buffer at W9, left at W10. Its arrays are split out
    of the unscoped buffers and put back at the exit contents; the generator register and the scoped buffers go into
    the region's invariant and come back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V9 m ρ) c).loose
  hwaits := Pipeline.hwaits_of_owed_zero _ _ _ _ L lv 6 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec6 c (V9 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin6 (V9 m ρ) c
    change _ ⊢ (dat6 (V9 m ρ) c).Φ 0
    iintro ⟨Hp, -, Hr⟩
    iapply h
    isplitl [Hp]; · iexact Hp
    iexact Hr
  hout c := by
    rw [Pipeline.ownSems0_none]
    have h := hout6 (V9 m ρ) c
    change (dat6 (V9 m ρ) c).Φ (Fin.last cfg6.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V9 m ρ c) (V10 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 7 over the thread state: entered from every unscoped buffer at W10, left at W11. Its arrays are split out
    of the unscoped buffers and put back at the exit contents; the generator register and the scoped buffers go into
    the region's invariant and come back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V10 m ρ) c).loose
  hwaits := Pipeline.hwaits_of_owed_zero _ _ _ _ L lv 7 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec7 c (V10 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin7 (V10 m ρ) c
    change _ ⊢ (dat7 (V10 m ρ) c).Φ 0
    iintro ⟨Hp, -, Hr⟩
    iapply h
    isplitl [Hp]; · iexact Hp
    iexact Hr
  hout c := by
    rw [Pipeline.ownSems0_none]
    have h := hout7 (V10 m ρ) c
    change (dat7 (V10 m ρ) c).Φ (Fin.last cfg7.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V10 m ρ c) (V11 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 8 over the thread state: entered from every unscoped buffer at W12, left at W13. Its arrays are split out
    of the unscoped buffers and put back at the exit contents; the generator register and the scoped buffers go into
    the region's invariant and come back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V12 m ρ) c).loose
  hwaits := Pipeline.hwaits_of_owed_zero _ _ _ _ L lv 8 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec8 c (V12 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin8 (V12 m ρ) c
    change _ ⊢ (dat8 (V12 m ρ) c).Φ 0
    iintro ⟨Hp, -, Hr⟩
    iapply h
    isplitl [Hp]; · iexact Hp
    iexact Hr
  hout c := by
    rw [Pipeline.ownSems0_none]
    have h := hout8 (V12 m ρ) c
    change (dat8 (V12 m ρ) c).Φ (Fin.last cfg8.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V12 m ρ c) (V13 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 9 over the thread state: entered from every unscoped buffer at W13, left at W14. Its arrays are split out
    of the unscoped buffers and put back at the exit contents; the generator register and the scoped buffers go into
    the region's invariant and come back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V13 m ρ) c).loose
  hwaits := Pipeline.hwaits_of_owed_zero _ _ _ _ L lv 9 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec9 c (V13 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin9 (V13 m ρ) c
    change _ ⊢ (dat9 (V13 m ρ) c).Φ 0
    iintro ⟨Hp, -, Hr⟩
    iapply h
    isplitl [Hp]; · iexact Hp
    iexact Hr
  hout c := by
    rw [Pipeline.ownSems0_none]
    have h := hout9 (V13 m ρ) c
    change (dat9 (V13 m ρ) c).Φ (Fin.last cfg9.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V13 m ρ c) (V14 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 10 over the thread state: entered from every unscoped buffer at W15, left at W16. Its arrays are split out
    of the unscoped buffers and put back at the exit contents; the generator register and the scoped buffers go into
    the region's invariant and come back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V15 m ρ) c).loose
  hwaits := Pipeline.hwaits_of_owed_zero _ _ _ _ L lv 10 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec10 c (V15 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin10 (V15 m ρ) c
    change _ ⊢ (dat10 (V15 m ρ) c).Φ 0
    iintro ⟨Hp, -, Hr⟩
    iapply h
    isplitl [Hp]; · iexact Hp
    iexact Hr
  hout c := by
    rw [Pipeline.ownSems0_none]
    have h := hout10 (V15 m ρ) c
    change (dat10 (V15 m ρ) c).Φ (Fin.last cfg10.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V15 m ρ c) (V16 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 11 over the thread state: entered from every unscoped buffer at W16, left at W17. Its arrays are split out
    of the unscoped buffers and put back at the exit contents; the generator register and the scoped buffers go into
    the region's invariant and come back; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V16 m ρ) c).loose
  hwaits := Pipeline.hwaits_of_owed_zero _ _ _ _ L lv 11 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec11 c (V16 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin11 (V16 m ρ) c
    change _ ⊢ (dat11 (V16 m ρ) c).Φ 0
    iintro ⟨Hp, -, Hr⟩
    iapply h
    isplitl [Hp]; · iexact Hp
    iexact Hr
  hout c := by
    rw [Pipeline.ownSems0_none]
    have h := hout11 (V16 m ρ) c
    change (dat11 (V16 m ρ) c).Φ (Fin.last cfg11.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V16 m ρ c) (V17 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BRunArgs.lean ====
/- The run of @main: the argument arrays end as launched. No host operation writes an argument and no region has one
   as an output, so the fold of buffer contents, read at an argument's buffer, walks back step by step to the launch
   memory. Stated at any instance of the word-level operations. -/
import proofs.«139021_j54202487276022_2_alg».proof.Proof.BRunFold

-- deciding membership among the 188 buffer references recurses past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! ## The arguments end as launched

No host operation writes an argument and no region has one as an output, so the fold at an argument's buffer walks
back to the launch memory. -/

theorem W18_main_arg0 (c : Dev nD) : W18 m ρ c (Proc.devRef .tc main_arg0) = m ((c : Thread nD τ).loc main_arg0) :=
  (W18_of m ρ c main_arg0 (by decide)).trans <|
  (W17_of m ρ c main_arg0 (by decide)).trans <|
  (W16_of m ρ c main_arg0 (by decide)).trans <|
  (W15_of m ρ c main_arg0 (by decide)).trans <|
  (W14_of m ρ c main_arg0 (by decide)).trans <|
  (W13_of m ρ c main_arg0 (by decide)).trans <|
  (W12_of m ρ c main_arg0 (by decide)).trans <|
  (W11_of m ρ c main_arg0 (by decide)).trans <|
  (W10_of m ρ c main_arg0 (by decide)).trans <|
  (W9_of m ρ c main_arg0 (by decide)).trans <|
  (W8_of m ρ c main_arg0 (by decide)).trans <|
  (W7_of m ρ c main_arg0 (by decide)).trans <|
  (W6_of m ρ c main_arg0 (by decide)).trans <|
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide))

theorem W18_main_arg1 (c : Dev nD) : W18 m ρ c (Proc.devRef .tc main_arg1) = m ((c : Thread nD τ).loc main_arg1) :=
  (W18_of m ρ c main_arg1 (by decide)).trans <|
  (W17_of m ρ c main_arg1 (by decide)).trans <|
  (W16_of m ρ c main_arg1 (by decide)).trans <|
  (W15_of m ρ c main_arg1 (by decide)).trans <|
  (W14_of m ρ c main_arg1 (by decide)).trans <|
  (W13_of m ρ c main_arg1 (by decide)).trans <|
  (W12_of m ρ c main_arg1 (by decide)).trans <|
  (W11_of m ρ c main_arg1 (by decide)).trans <|
  (W10_of m ρ c main_arg1 (by decide)).trans <|
  (W9_of m ρ c main_arg1 (by decide)).trans <|
  (W8_of m ρ c main_arg1 (by decide)).trans <|
  (W7_of m ρ c main_arg1 (by decide)).trans <|
  (W6_of m ρ c main_arg1 (by decide)).trans <|
  (W5_of m ρ c main_arg1 (by decide)).trans <|
  (W4_of m ρ c main_arg1 (by decide)).trans <|
  (W3_of m ρ c main_arg1 (by decide)).trans <|
  (W2_of m ρ c main_arg1 (by decide)).trans <|
  (W1_of m ρ c main_arg1 (by decide))

theorem W18_main_arg2 (c : Dev nD) : W18 m ρ c (Proc.devRef .tc main_arg2) = m ((c : Thread nD τ).loc main_arg2) :=
  (W18_of m ρ c main_arg2 (by decide)).trans <|
  (W17_of m ρ c main_arg2 (by decide)).trans <|
  (W16_of m ρ c main_arg2 (by decide)).trans <|
  (W15_of m ρ c main_arg2 (by decide)).trans <|
  (W14_of m ρ c main_arg2 (by decide)).trans <|
  (W13_of m ρ c main_arg2 (by decide)).trans <|
  (W12_of m ρ c main_arg2 (by decide)).trans <|
  (W11_of m ρ c main_arg2 (by decide)).trans <|
  (W10_of m ρ c main_arg2 (by decide)).trans <|
  (W9_of m ρ c main_arg2 (by decide)).trans <|
  (W8_of m ρ c main_arg2 (by decide)).trans <|
  (W7_of m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide))

theorem W18_main_arg3 (c : Dev nD) : W18 m ρ c (Proc.devRef .tc main_arg3) = m ((c : Thread nD τ).loc main_arg3) :=
  (W18_of m ρ c main_arg3 (by decide)).trans <|
  (W17_of m ρ c main_arg3 (by decide)).trans <|
  (W16_of m ρ c main_arg3 (by decide)).trans <|
  (W15_of m ρ c main_arg3 (by decide)).trans <|
  (W14_of m ρ c main_arg3 (by decide)).trans <|
  (W13_of m ρ c main_arg3 (by decide)).trans <|
  (W12_of m ρ c main_arg3 (by decide)).trans <|
  (W11_of m ρ c main_arg3 (by decide)).trans <|
  (W10_of m ρ c main_arg3 (by decide)).trans <|
  (W9_of m ρ c main_arg3 (by decide)).trans <|
  (W8_of m ρ c main_arg3 (by decide)).trans <|
  (W7_of m ρ c main_arg3 (by decide)).trans <|
  (W6_of m ρ c main_arg3 (by decide)).trans <|
  (W5_of m ρ c main_arg3 (by decide)).trans <|
  (W4_of m ρ c main_arg3 (by decide)).trans <|
  (W3_of m ρ c main_arg3 (by decide)).trans <|
  (W2_of m ρ c main_arg3 (by decide)).trans <|
  (W1_of m ρ c main_arg3 (by decide))

theorem W18_main_arg4 (c : Dev nD) : W18 m ρ c (Proc.devRef .tc main_arg4) = m ((c : Thread nD τ).loc main_arg4) :=
  (W18_of m ρ c main_arg4 (by decide)).trans <|
  (W17_of m ρ c main_arg4 (by decide)).trans <|
  (W16_of m ρ c main_arg4 (by decide)).trans <|
  (W15_of m ρ c main_arg4 (by decide)).trans <|
  (W14_of m ρ c main_arg4 (by decide)).trans <|
  (W13_of m ρ c main_arg4 (by decide)).trans <|
  (W12_of m ρ c main_arg4 (by decide)).trans <|
  (W11_of m ρ c main_arg4 (by decide)).trans <|
  (W10_of m ρ c main_arg4 (by decide)).trans <|
  (W9_of m ρ c main_arg4 (by decide)).trans <|
  (W8_of m ρ c main_arg4 (by decide)).trans <|
  (W7_of m ρ c main_arg4 (by decide)).trans <|
  (W6_of m ρ c main_arg4 (by decide)).trans <|
  (W5_of m ρ c main_arg4 (by decide)).trans <|
  (W4_of m ρ c main_arg4 (by decide)).trans <|
  (W3_of m ρ c main_arg4 (by decide)).trans <|
  (W2_of m ρ c main_arg4 (by decide)).trans <|
  (W1_of m ρ c main_arg4 (by decide))

theorem W18_main_arg5 (c : Dev nD) : W18 m ρ c (Proc.devRef .tc main_arg5) = m ((c : Thread nD τ).loc main_arg5) :=
  (W18_of m ρ c main_arg5 (by decide)).trans <|
  (W17_of m ρ c main_arg5 (by decide)).trans <|
  (W16_of m ρ c main_arg5 (by decide)).trans <|
  (W15_of m ρ c main_arg5 (by decide)).trans <|
  (W14_of m ρ c main_arg5 (by decide)).trans <|
  (W13_of m ρ c main_arg5 (by decide)).trans <|
  (W12_of m ρ c main_arg5 (by decide)).trans <|
  (W11_of m ρ c main_arg5 (by decide)).trans <|
  (W10_of m ρ c main_arg5 (by decide)).trans <|
  (W9_of m ρ c main_arg5 (by decide)).trans <|
  (W8_of m ρ c main_arg5 (by decide)).trans <|
  (W7_of m ρ c main_arg5 (by decide)).trans <|
  (W6_of m ρ c main_arg5 (by decide)).trans <|
  (W5_of m ρ c main_arg5 (by decide)).trans <|
  (W4_of m ρ c main_arg5 (by decide)).trans <|
  (W3_of m ρ c main_arg5 (by decide)).trans <|
  (W2_of m ρ c main_arg5 (by decide)).trans <|
  (W1_of m ρ c main_arg5 (by decide))

theorem W18_main_arg6 (c : Dev nD) : W18 m ρ c (Proc.devRef .tc main_arg6) = m ((c : Thread nD τ).loc main_arg6) :=
  (W18_of m ρ c main_arg6 (by decide)).trans <|
  (W17_of m ρ c main_arg6 (by decide)).trans <|
  (W16_of m ρ c main_arg6 (by decide)).trans <|
  (W15_of m ρ c main_arg6 (by decide)).trans <|
  (W14_of m ρ c main_arg6 (by decide)).trans <|
  (W13_of m ρ c main_arg6 (by decide)).trans <|
  (W12_of m ρ c main_arg6 (by decide)).trans <|
  (W11_of m ρ c main_arg6 (by decide)).trans <|
  (W10_of m ρ c main_arg6 (by decide)).trans <|
  (W9_of m ρ c main_arg6 (by decide)).trans <|
  (W8_of m ρ c main_arg6 (by decide)).trans <|
  (W7_of m ρ c main_arg6 (by decide)).trans <|
  (W6_of m ρ c main_arg6 (by decide)).trans <|
  (W5_of m ρ c main_arg6 (by decide)).trans <|
  (W4_of m ρ c main_arg6 (by decide)).trans <|
  (W3_of m ρ c main_arg6 (by decide)).trans <|
  (W2_of m ρ c main_arg6 (by decide)).trans <|
  (W1_of m ρ c main_arg6 (by decide))

theorem W18_main_arg7 (c : Dev nD) : W18 m ρ c (Proc.devRef .tc main_arg7) = m ((c : Thread nD τ).loc main_arg7) :=
  (W18_of m ρ c main_arg7 (by decide)).trans <|
  (W17_of m ρ c main_arg7 (by decide)).trans <|
  (W16_of m ρ c main_arg7 (by decide)).trans <|
  (W15_of m ρ c main_arg7 (by decide)).trans <|
  (W14_of m ρ c main_arg7 (by decide)).trans <|
  (W13_of m ρ c main_arg7 (by decide)).trans <|
  (W12_of m ρ c main_arg7 (by decide)).trans <|
  (W11_of m ρ c main_arg7 (by decide)).trans <|
  (W10_of m ρ c main_arg7 (by decide)).trans <|
  (W9_of m ρ c main_arg7 (by decide)).trans <|
  (W8_of m ρ c main_arg7 (by decide)).trans <|
  (W7_of m ρ c main_arg7 (by decide)).trans <|
  (W6_of m ρ c main_arg7 (by decide)).trans <|
  (W5_of m ρ c main_arg7 (by decide)).trans <|
  (W4_of m ρ c main_arg7 (by decide)).trans <|
  (W3_of m ρ c main_arg7 (by decide)).trans <|
  (W2_of m ρ c main_arg7 (by decide)).trans <|
  (W1_of m ρ c main_arg7 (by decide))

theorem W18_main_arg8 (c : Dev nD) : W18 m ρ c (Proc.devRef .tc main_arg8) = m ((c : Thread nD τ).loc main_arg8) :=
  (W18_of m ρ c main_arg8 (by decide)).trans <|
  (W17_of m ρ c main_arg8 (by decide)).trans <|
  (W16_of m ρ c main_arg8 (by decide)).trans <|
  (W15_of m ρ c main_arg8 (by decide)).trans <|
  (W14_of m ρ c main_arg8 (by decide)).trans <|
  (W13_of m ρ c main_arg8 (by decide)).trans <|
  (W12_of m ρ c main_arg8 (by decide)).trans <|
  (W11_of m ρ c main_arg8 (by decide)).trans <|
  (W10_of m ρ c main_arg8 (by decide)).trans <|
  (W9_of m ρ c main_arg8 (by decide)).trans <|
  (W8_of m ρ c main_arg8 (by decide)).trans <|
  (W7_of m ρ c main_arg8 (by decide)).trans <|
  (W6_of m ρ c main_arg8 (by decide)).trans <|
  (W5_of m ρ c main_arg8 (by decide)).trans <|
  (W4_of m ρ c main_arg8 (by decide)).trans <|
  (W3_of m ρ c main_arg8 (by decide)).trans <|
  (W2_of m ρ c main_arg8 (by decide)).trans <|
  (W1_of m ρ c main_arg8 (by decide))

theorem W18_main_arg9 (c : Dev nD) : W18 m ρ c (Proc.devRef .tc main_arg9) = m ((c : Thread nD τ).loc main_arg9) :=
  (W18_of m ρ c main_arg9 (by decide)).trans <|
  (W17_of m ρ c main_arg9 (by decide)).trans <|
  (W16_of m ρ c main_arg9 (by decide)).trans <|
  (W15_of m ρ c main_arg9 (by decide)).trans <|
  (W14_of m ρ c main_arg9 (by decide)).trans <|
  (W13_of m ρ c main_arg9 (by decide)).trans <|
  (W12_of m ρ c main_arg9 (by decide)).trans <|
  (W11_of m ρ c main_arg9 (by decide)).trans <|
  (W10_of m ρ c main_arg9 (by decide)).trans <|
  (W9_of m ρ c main_arg9 (by decide)).trans <|
  (W8_of m ρ c main_arg9 (by decide)).trans <|
  (W7_of m ρ c main_arg9 (by decide)).trans <|
  (W6_of m ρ c main_arg9 (by decide)).trans <|
  (W5_of m ρ c main_arg9 (by decide)).trans <|
  (W4_of m ρ c main_arg9 (by decide)).trans <|
  (W3_of m ρ c main_arg9 (by decide)).trans <|
  (W2_of m ρ c main_arg9 (by decide)).trans <|
  (W1_of m ρ c main_arg9 (by decide))

theorem W18_main_arg10 (c : Dev nD) : W18 m ρ c (Proc.devRef .tc main_arg10) = m ((c : Thread nD τ).loc main_arg10) :=
  (W18_of m ρ c main_arg10 (by decide)).trans <|
  (W17_of m ρ c main_arg10 (by decide)).trans <|
  (W16_of m ρ c main_arg10 (by decide)).trans <|
  (W15_of m ρ c main_arg10 (by decide)).trans <|
  (W14_of m ρ c main_arg10 (by decide)).trans <|
  (W13_of m ρ c main_arg10 (by decide)).trans <|
  (W12_of m ρ c main_arg10 (by decide)).trans <|
  (W11_of m ρ c main_arg10 (by decide)).trans <|
  (W10_of m ρ c main_arg10 (by decide)).trans <|
  (W9_of m ρ c main_arg10 (by decide)).trans <|
  (W8_of m ρ c main_arg10 (by decide)).trans <|
  (W7_of m ρ c main_arg10 (by decide)).trans <|
  (W6_of m ρ c main_arg10 (by decide)).trans <|
  (W5_of m ρ c main_arg10 (by decide)).trans <|
  (W4_of m ρ c main_arg10 (by decide)).trans <|
  (W3_of m ρ c main_arg10 (by decide)).trans <|
  (W2_of m ρ c main_arg10 (by decide)).trans <|
  (W1_of m ρ c main_arg10 (by decide))

end Cert.Kernel.Hand

end
-- ==== Proof.BRun.lean ====
/- The run of @main, last part: @main is the run of its eighteen segments, and the launch theorem for a list of
   segments gives the whole run: from any memory with zero counters every weakly fair execution of @main on the
   TensorCores terminates, nothing faults, and in every final state each unscoped buffer holds the last boundary's
   contents W18. The frame claim (every argument array ends as launched) is the corollary at the eleven argument
   buffers. Stated at any instance of the word-level operations. -/
import proofs.«139021_j54202487276022_2_alg».proof.Proof.BRunSegs
import proofs.«139021_j54202487276022_2_alg».proof.Proof.BRunArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 18 segments in order: a region per kernel call, a host segment per stretch from its boundary's contents. -/
abbrev segs : List (Pipeline.Seg (pcfgs (F := F)) adm (pdats m ρ) () defs₀ 𝒱₀ L lv) :=
  [ .region (reg0 m ρ),
    .region (reg1 m ρ),
    .region (reg2 m ρ),
    .region (reg3 m ρ),
    .host (hseg hostOps4 hostOps4_sub hostOps4_fresh (W4 m ρ)),
    .host (hseg hostOps4_1 hostOps4_1_sub hostOps4_1_fresh (W5 m ρ)),
    .region (reg4 m ρ),
    .region (reg5 m ρ),
    .host (hseg hostOps6 hostOps6_sub hostOps6_fresh (W8 m ρ)),
    .region (reg6 m ρ),
    .region (reg7 m ρ),
    .host (hseg hostOps8 hostOps8_sub hostOps8_fresh (W11 m ρ)),
    .region (reg8 m ρ),
    .region (reg9 m ρ),
    .host (hseg hostOps10 hostOps10_sub hostOps10_fresh (W14 m ρ)),
    .region (reg10 m ρ),
    .region (reg11 m ρ),
    .host (hseg hostOps12 hostOps12_sub hostOps12_fresh (W17 m ρ)) ]

/-- @main is the run of the segments: @main is the chain of its items, and the segments' run unfolds to the same chain. -/
theorem main_run (c : Dev nD) : main (F := F) c = Pipeline.Seg.run (segs m ρ) := by
  rewrite [main_chain c, Pipeline.Seg.run_eq_chain]
  rfl

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and every final state has each unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W18 m ρ c b) :=
  Pipeline.θ_run_regions_kit (pcfgs (F := F)) adm (pdats m ρ) () cellOf_inj emb₁ defs₀ 𝒱₀ L lv m ρ main (segs m ρ)
    (fun c Q => by rewrite [main_run m ρ c]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      -- each item is entered from what the item before it left: the same thread state, up to unfolding the segments
      refine ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
        fun c => ?_, fun c => ?_⟩
      · change iprop(StableHlo.held (c : Thread nD τ) (Pipeline.ucRefs τ sig) (W17 m ρ c) ∗ R c)
          ⊢ iprop(StableHlo.held (c : Thread nD τ) (Pipeline.ucRefs τ sig) (W17 m ρ c) ∗ R c)
        exact .rfl
      -- the last state is the buffers and the generator register beside the debts, at nothing: a re-association
      · change iprop(StableHlo.held (c : Thread nD τ) (Pipeline.ucRefs τ sig) (W18 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun _ h => h)

/-- THE RUN, READ AT THE RESULT AND THE ARGUMENTS: every weakly fair execution of @main terminates, nothing faulting,
    and every final state has the result buffer at the last boundary's contents and the eleven argument arrays as
    launched. Each of these buffers is unscoped, so the run gives it at W18; an argument's walks back to the launch
    memory. -/
theorem run_out : θ_run defs (onTc (τ := τ) (main (F := F))) ⟨m, fun _ => 0, ρ⟩ (fun r => ∀ c : Dev nD,
      r.2.mem ((c.tc : Thread nD τ).loc main_v67) = W18 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v67 (by decide)),
     (h c _ (mem_uc main_arg0 (by decide))).trans (W18_main_arg0 m ρ c),
     (h c _ (mem_uc main_arg1 (by decide))).trans (W18_main_arg1 m ρ c),
     (h c _ (mem_uc main_arg2 (by decide))).trans (W18_main_arg2 m ρ c),
     (h c _ (mem_uc main_arg3 (by decide))).trans (W18_main_arg3 m ρ c),
     (h c _ (mem_uc main_arg4 (by decide))).trans (W18_main_arg4 m ρ c),
     (h c _ (mem_uc main_arg5 (by decide))).trans (W18_main_arg5 m ρ c),
     (h c _ (mem_uc main_arg6 (by decide))).trans (W18_main_arg6 m ρ c),
     (h c _ (mem_uc main_arg7 (by decide))).trans (W18_main_arg7 m ρ c),
     (h c _ (mem_uc main_arg8 (by decide))).trans (W18_main_arg8 m ρ c),
     (h c _ (mem_uc main_arg9 (by decide))).trans (W18_main_arg9 m ρ c),
     (h c _ (mem_uc main_arg10 (by decide))).trans (W18_main_arg10 m ρ c)⟩) (run_all m ρ)

/-- THE FRAME: every weakly fair execution of @main terminates, nothing faulting, and every final state has the eleven
    argument arrays as launched: the run read at the result and the arguments, the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_out m ρ)

end Cert.Kernel.Hand

end
-- ==== Proof.IReg0.lean ====
/- Region 0 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's
    and whose body leaves the block in place: the window is fetched whole and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512x4096 block: the one rectangle the body loads and stores through. -/
abbrev r0_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out0_1 (x0 : Vec F S512x4096 .f32) : Vec F S512x4096 .bf16 :=
  View.canon [⟨r0_0, k0_pay1 (View.ld x0 r0_0)⟩]

/-- The one store covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- The kernel body on whole staging memrefs, the input's at contents x0 and the output's at anything, runs to the
    continuation holding the input's as it was and the output's at out0_1 x0. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core c: the arrays as the region finds them; after the body at point t the
    input's buffer at its block and the output's at out0_1 of the input block; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

theorem q_eq0 (c : Dev nD) (w : Fin cfg0.W) : (dat0 V c).q w = fullShare := rfl
theorem owed_eq0 (c : Dev nD) (j) : (dat0 V c).owed j = 0 := rfl

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest make the invariant at the first point. -/
theorem hin0 (c : Dev nD) : iprop((∃ r, prngReg c r) ∗ Pipeline.scopedRest spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Leaving: the invariant at the last point gives them back. -/
theorem hout0 (c : Dev nD) : (dat0 V c).Φ (Fin.last cfg0.N) ⊢ iprop((∃ r, prngReg c r) ∗ Pipeline.scopedRest spec0 c) := by
  rw [show (dat0 V c).Φ (Fin.last _) = Pipeline.ΦA spec0 c from rfl]; unfold Pipeline.ΦA
  iintro ⟨Hr, Hp⟩
  isplitl [Hp]; · iexact Hp
  iexact Hr

end Cert.KernelIdeal.Hand

end
-- ==== Proof.IReg1.lean ====
/- Region 1 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is V's
    and whose body leaves the block in place: the window is fetched whole and is never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 512x4096 block: the one rectangle the body loads and stores through. -/
abbrev r1_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out1_1 (x0 : Vec F S512x4096 .f32) : Vec F S512x4096 .bf16 :=
  View.canon [⟨r1_0, k1_pay1 (View.ld x0 r1_0)⟩]

/-- The one store covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-! ## The body's triple -/

set_option maxHeartbeats 1000000 in
/-- The kernel body on whole staging memrefs, the input's at contents x0 and the output's at anything, runs to the
    continuation holding the input's as it was and the output's at out1_1 x0. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__binarize_kernel i arg1 harg1 arg2 harg2) K := by
  simp only [cc1__binarize_kernel_eq_skeleton]; unfold cc1__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the region on core c: the arrays as the region finds them; after the body at point t the
    input's buffer at its block and the output's at out1_1 of the input block; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

theorem q_eq1 (c : Dev nD) (w : Fin cfg1.W) : (dat1 V c).q w = fullShare := rfl
theorem owed_eq1 (c : Dev nD) (j) : (dat1 V c).owed j = 0 := rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering: the generator register and the scoped rest make the invariant at the first point. -/
theorem hin1 (c : Dev nD) : iprop((∃ r, prngReg c r) ∗ Pipeline.scopedRest spec1 c) ⊢ (dat1 V c).Φ 0 := by
  rw [show (dat1 V c).Φ 0 = Pipeline.ΦA spec1 c from rfl]; unfold Pipeline.ΦA
  iintro ⟨Hp, Hr⟩
  isplitl [Hr]; · iexact Hr
  iexact Hp

/-- Leaving: the invariant at the last point gives them back. -/
theorem hout1 (c : Dev nD) : (dat1 V c).Φ (Fin.last cfg1.N) ⊢ iprop((∃ r, prngReg c r) ∗ Pipeline.scopedRest spec1 c) := by
  rw [show (dat1 V c).Φ (Fin.last _) = Pipeline.ΦA spec1 c from rfl]; unfold Pipeline.ΦA
  iintro ⟨Hr, Hp⟩
  isplitl [Hp]; · iexact Hp
  iexact Hr

end Cert.KernelIdeal.Hand

end
-- ==== Proof.IReg2.lean ====
/- Region 2 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is V's
    and whose body leaves the block in place: the window is fetched whole and is never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 512x4096 block: the one rectangle the body loads and stores through. -/
abbrev r2_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out2_1 (x0 : Vec F S512x4096 .f32) : Vec F S512x4096 .bf16 :=
  View.canon [⟨r2_0, k2_pay1 (View.ld x0 r2_0)⟩]

/-- The one store covers the buffer. -/
theorem cover2_1 (p0 : Vec F S512x4096 .bf16) (y : S512x4096.Idx) :
    ∃ pc ∈ ([⟨r2_0, p0⟩] : List (View.Piece (Elt F) S512x4096 .bf16)), y ∈ pc.1.set :=
  View.cover_of_tiled [⟨r2_0, p0⟩] S512x4096.size (by rfl) y

/-! ## The body's triple -/

set_option maxHeartbeats 1000000 in
/-- The kernel body on whole staging memrefs, the input's at contents x0 and the output's at anything, runs to the
    continuation holding the input's as it was and the output's at out2_1 x0. -/
theorem sound_kernel2 (c : Dev nD) (E : Set ℕ) (i : grid2.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__binarize_kernel i arg1 harg1 arg2 harg2) K := by
  simp only [cc2__binarize_kernel_eq_skeleton]; unfold cc2__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of the region on core c: the arrays as the region finds them; after the body at point t the
    input's buffer at its block and the output's at out2_1 of the input block; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

theorem q_eq2 (c : Dev nD) (w : Fin cfg2.W) : (dat2 V c).q w = fullShare := rfl
theorem owed_eq2 (c : Dev nD) (j) : (dat2 V c).owed j = 0 := rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the triple applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- Entering: the generator register and the scoped rest make the invariant at the first point. -/
theorem hin2 (c : Dev nD) : iprop((∃ r, prngReg c r) ∗ Pipeline.scopedRest spec2 c) ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Leaving: the invariant at the last point gives them back. -/
theorem hout2 (c : Dev nD) : (dat2 V c).Φ (Fin.last cfg2.N) ⊢ iprop((∃ r, prngReg c r) ∗ Pipeline.scopedRest spec2 c) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand

end
-- ==== Proof.IReg3.lean ====
/- Region 3 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is V's
    and whose body leaves the block in place: the window is fetched whole and is never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 512x4096 block: the one rectangle the body loads and stores through. -/
abbrev r3_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out3_1 (x0 : Vec F S512x4096 .f32) : Vec F S512x4096 .bf16 :=
  View.canon [⟨r3_0, k3_pay1 (View.ld x0 r3_0)⟩]

/-- The one store covers the buffer. -/
theorem cover3_1 (p0 : Vec F S512x4096 .bf16) (y : S512x4096.Idx) :
    ∃ pc ∈ ([⟨r3_0, p0⟩] : List (View.Piece (Elt F) S512x4096 .bf16)), y ∈ pc.1.set :=
  View.cover_of_tiled [⟨r3_0, p0⟩] S512x4096.size (by rfl) y

/-! ## The body's triple -/

set_option maxHeartbeats 1000000 in
/-- The kernel body on whole staging memrefs, the input's at contents x0 and the output's at anything, runs to the
    continuation holding the input's as it was and the output's at out3_1 x0. -/
theorem sound_kernel3 (c : Dev nD) (E : Set ℕ) (i : grid3.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__binarize_kernel i arg1 harg1 arg2 harg2) K := by
  simp only [cc3__binarize_kernel_eq_skeleton]; unfold cc3__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of the region on core c: the arrays as the region finds them; after the body at point t the
    input's buffer at its block and the output's at out3_1 of the input block; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- The input's current staging buffer holds its block at every point. -/
theorem before3_0 (c : Dev nD) (t : Fin cfg3.N) (d) : (dat3 V c).before 0 t d = iblk3 V c 0 t :=
  before3_0_of V (dat3 V c) (A_eq3 V c 0) (after3_0 V c) t d

theorem q_eq3 (c : Dev nD) (w : Fin cfg3.W) : (dat3 V c).q w = fullShare := rfl
theorem owed_eq3 (c : Dev nD) (j) : (dat3 V c).owed j = 0 := rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the triple applies; the invariant and the core's
    debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- Entering: the generator register and the scoped rest make the invariant at the first point. -/
theorem hin3 (c : Dev nD) : iprop((∃ r, prngReg c r) ∗ Pipeline.scopedRest spec3 c) ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Leaving: the invariant at the last point gives them back. -/
theorem hout3 (c : Dev nD) : (dat3 V c).Φ (Fin.last cfg3.N) ⊢ iprop((∃ r, prngReg c r) ∗ Pipeline.scopedRest spec3 c) := by
  rw [show (dat3 V c).Φ (Fin.last _) = Pipeline.ΦA spec3 c from rfl]; unfold Pipeline.ΦA
  iintro ⟨Hr, Hp⟩
  isplitl [Hp]; · iexact Hp
  iexact Hr

end Cert.KernelIdeal.Hand

end
-- ==== Proof.IReg4.lean ====
/- Region 4 of @main (one of the five sign kernels): the class-A half of its frame, at any float instance. The body loads the whole 512x4096 input block, applies the sign function entry by entry, and stores the
   whole 512x4096 output block once; no value is carried from one grid point to the next. Everything here is stated at
   a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 512 and 4096 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is V's
    and whose body leaves the block in place: the window is fetched whole and is never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 512x4096 block: the one rectangle the body loads and stores through. -/
abbrev r4_0 : Rect S512x4096 := Rect.unit (s := S512x4096) ![0, 0] S512x4096.size inb_S512x4096_S512x4096_0_0

/-! ## What the body leaves in the output window's buffer -/

/-- The output staging buffer after the body, from the input block: one store of the whole block, whose value is
    the sign payload of the loaded block. -/
def out4_1 (x0 : Vec F S512x4096 .f32) : Vec F S512x4096 .bf16 :=
  View.canon [⟨r4_0, k4_pay1 (View.ld x0 r4_0)⟩]

/-- The one store covers the buffer. -/
theorem cover4_1 (p0 : Vec F S512x4096 .bf16) (y : S512x4096.Idx) :
    ∃ pc ∈ ([⟨r4_0, p0⟩] : List (View.Piece (Elt F) S512x4096 .bf16)), y ∈ pc.1.set :=
  View.cover_of_tiled [⟨r4_0, p0⟩] S512x4096.size (by rfl) y

/-! ## The body's triple -/

set_option maxHeartbeats 1000000 in
/-- The kernel body on whole staging memrefs, the input's at contents x0 and the output's at anything, runs to the
    continuation holding the input's as it was and the output's at out4_1 x0. -/
theorem sound_kernel4 (c : Dev nD) (E : Set ℕ) (i : grid4.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__binarize_kernel i arg1 harg1 arg2 harg2) K := by
  simp only [cc4__binarize_kernel_eq_skeleton]; unfold cc4__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The pipeline's proof data -/

/-- The proof data of the region on core c: the arrays as the region finds them; after the body at point t the
    input's buffer at its block and the output's at out4_1 of the input block; the invariant is the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

theorem q_eq4 (c : Dev nD) (w : Fin cfg4.W) : (dat4 V c).q w = fullShare := rfl
theorem owed_eq4 (c : Dev nD) (j) : (dat4 V c).owed j = 0 := rfl

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's memref holds its block, so the triple applies; the invariant and the core's
    debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- Entering: the generator register and the scoped rest make the invariant at the first point. -/
theorem hin4 (c : Dev nD) : iprop((∃ r, prngReg c r) ∗ Pipeline.scopedRest spec4 c) ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- Leaving: the invariant at the last point gives them back. -/
theorem hout4 (c : Dev nD) : (dat4 V c).Φ (Fin.last cfg4.N) ⊢ iprop((∃ r, prngReg c r) ∗ Pipeline.scopedRest spec4 c) := by
  rw [show (dat4 V c).Φ (Fin.last _) = Pipeline.ΦA spec4 c from rfl]; unfold Pipeline.ΦA
  iintro ⟨Hr, Hp⟩
  isplitl [Hp]; · iexact Hp
  iexact Hr

end Cert.KernelIdeal.Hand

end
-- ==== Proof.IReg5Runs.lean ====
/- Region 5 (the first matmul-with-statistics call), part 1: the body's two conditions in closed form over the
   4 x 4 x 4 grid (the innermost coordinate k is the point's number mod 4), where the two output windows are idle,
   and the body run once per control case on whole staging memrefs:
   k = 0      : the accumulator is zeroed, then the product of the two input blocks is added;
   k = 1, 2   : the product is added to what the point before left in the accumulator;
   k = 3      : the product is added, then the accumulator is copied to the z block and its column sums and
                column sums of squares are stored as the two rows of the statistics block.
   The accumulator is a scratch buffer carried from point to point. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions -/

/-- The first conditional's condition: the innermost grid coordinate is 0. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- The second conditional's condition: the innermost grid coordinate is 3. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- Away from k = 3 both outputs are idle and not written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At k = 3 both outputs are stored into. -/
theorem liveAt5_2 : ∀ t : Fin cfg5.N, cond5_1 (grid5.coords t) → cfg5.idle 2 (grid5.coords t) = false := by decide +kernel
theorem liveAt5_3 : ∀ t : Fin cfg5.N, cond5_1 (grid5.coords t) → cfg5.idle 3 (grid5.coords t) = false := by decide +kernel

/-! ## The memrefs the body is called with -/

abbrev VO5_2 : View sig .tc .vmem S2048x1024 .f32 := (Memref.whole cc5_stg2_0 : Memref sig .tc .vmem S2048x1024 .f32).view
abbrev VO5_3 : View sig .tc .vmem S1x2x1024 .f32 := (Memref.whole cc5_stg3_0 : Memref sig .tc .vmem S1x2x1024 .f32).view
abbrev ms5_0 (t : Fin cfg5.N) : Memref sig .tc .vmem S2048x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x2x1024 .f32 := win5_3.stage (cfg5.slots t 3)
abbrev hs5_3 (t : Fin cfg5.N) : (ms5_3 t).IsWhole := hstage5_3 ((cfg5.slots t 3).cast nbuf5_3)
/-- The accumulator: a whole scoped buffer of the call's own. -/
abbrev scM5_0 : Memref sig .tc .vmem S2048x1024 .f32 := Memref.whole cc5_scratch0
abbrev VS5_0 : View sig .tc .vmem S2048x1024 .f32 := scM5_0.view

/-! ## The body, case by case -/

set_option maxHeartbeats 1000000 in
/-- k = 0. The inputs at their blocks, the two outputs at contents handed back untouched, the accumulator at anything:
    the body ends with the accumulator's stores written (the list is what the run finds). -/
noncomputable def kernelRun5_A (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond5_0 i) (hc1 : ¬cond5_1 i)
    (x0 : Vec F S2048x1024 .bf16) (x1 : Vec F S1024x1024 .bf16) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__binary_matmul_stats_kernel i arg3 harg3 arg4 harg4 arg5 harg5 arg6 harg6 arg7 harg7) K } := by
  refine ⟨?_, fun xi2 xi3 E K => ?run⟩
  case run =>
    simp only [cc5__binary_matmul_stats_kernel_eq_skeleton]; unfold cc5__binary_matmul_stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 1, 2. As k = 0, but the accumulator is read before it is written: it comes in at the contents `xs0` the point
    before left. -/
noncomputable def kernelRun5_B (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : ¬cond5_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__binary_matmul_stats_kernel i arg3 harg3 arg4 harg4 arg5 harg5 arg6 harg6 arg7 harg7) K } := by
  refine ⟨?_, fun xi2 xi3 E K => ?run⟩
  case run =>
    simp only [cc5__binary_matmul_stats_kernel_eq_skeleton]; unfold cc5__binary_matmul_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 3. The outputs come in at anything and end with the body's stores written. -/
noncomputable def kernelRun5_C (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) :
    Σ' (L2 : List (View.Piece (Elt F) S2048x1024 .f32)) (L3 : List (View.Piece (Elt F) S1x2x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__binary_matmul_stats_kernel i arg3 harg3 arg4 harg4 arg5 harg5 arg6 harg6 arg7 harg7) K } := by
  refine ⟨?_, ?_, ?_, fun E K => ?run⟩
  case run =>
    simp only [cc5__binary_matmul_stats_kernel_eq_skeleton]; unfold cc5__binary_matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.KernelIdeal.Hand

end
-- ==== Proof.IReg5.lean ====
/- Region 5, part 2: what the accumulator and the two output blocks hold after each grid point (by recursion on the
   point: at k = 0 the accumulator restarts from zero, otherwise it continues from the point before; the outputs are
   stored at k = 3 only), the proof data of the pipeline at given entry contents, and the body obligation.
   The invariant before a point holds the accumulator at what the point before left in it (at anything before the
   first point), every other scoped buffer unopened, and the generator register at some state. -/
import proofs.«139021_j54202487276022_2_alg».proof.Proof.IReg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves -/

/-- k = 0: the accumulator's stores cover it. -/
theorem scover5_A_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond5_0 i) (hc1 : ¬cond5_1 i)
    (x0 : Vec F S2048x1024 .bf16) (x1 : Vec F S1024x1024 .bf16) (y : S2048x1024.Idx) :
    ∃ pc ∈ (kernelRun5_A c i arg3 harg3 arg4 harg4 arg5 harg5 arg6 harg6 arg7 harg7 hc0 hc1 x0 x1).1, y ∈ pc.1.set :=
  View.cover_of_tiledL (kernelRun5_A c i arg3 harg3 arg4 harg4 arg5 harg5 arg6 harg6 arg7 harg7 hc0 hc1 x0 x1).1 S2048x1024.size (by sl_kernel_rfl) y
/-- What k = 0 leaves in the accumulator. -/
def sout5_A_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond5_0 i) (hc1 : ¬cond5_1 i)
    (x0 : Vec F S2048x1024 .bf16) (x1 : Vec F S1024x1024 .bf16) : Vec F S2048x1024 .f32 :=
  VS5_0.read (Elt F) (VS5_0.writes (Elt F) VS5_0.junk (kernelRun5_A c i arg3 harg3 arg4 harg4 arg5 harg5 arg6 harg6 arg7 harg7 hc0 hc1 x0 x1).1)

/-- k = 1, 2: the accumulator's store covers it. -/
theorem scover5_B_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : ¬cond5_1 i)
    (x0 : Vec F S2048x1024 .bf16) (x1 : Vec F S1024x1024 .bf16) (xs0 : Vec F S2048x1024 .f32) (y : S2048x1024.Idx) :
    ∃ pc ∈ (kernelRun5_B c i arg3 harg3 arg4 harg4 arg5 harg5 arg6 harg6 arg7 harg7 hc0 hc1 x0 x1 xs0).1, y ∈ pc.1.set :=
  View.cover_of_tiledL (kernelRun5_B c i arg3 harg3 arg4 harg4 arg5 harg5 arg6 harg6 arg7 harg7 hc0 hc1 x0 x1 xs0).1 S2048x1024.size (by sl_kernel_rfl) y
/-- What k = 1, 2 leave in the accumulator. -/
def sout5_B_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : ¬cond5_1 i)
    (x0 : Vec F S2048x1024 .bf16) (x1 : Vec F S1024x1024 .bf16) (xs0 : Vec F S2048x1024 .f32) : Vec F S2048x1024 .f32 :=
  VS5_0.read (Elt F) (VS5_0.writes (Elt F) VS5_0.junk (kernelRun5_B c i arg3 harg3 arg4 harg4 arg5 harg5 arg6 harg6 arg7 harg7 hc0 hc1 x0 x1 xs0).1)

/-- k = 3: the z block's store covers it, -/
theorem cover5_C_2 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) (y : S2048x1024.Idx) :
    ∃ pc ∈ (kernelRun5_C c i arg3 harg3 arg4 harg4 arg5 harg5 arg6 harg6 arg7 harg7 hc0 hc1 x0 x1 xs0).1, y ∈ pc.1.set :=
  View.cover_of_tiledL (kernelRun5_C c i arg3 harg3 arg4 harg4 arg5 harg5 arg6 harg6 arg7 harg7 hc0 hc1 x0 x1 xs0).1 S2048x1024.size (by sl_kernel_rfl) y
/-- what it leaves there; -/
def out5_C_2 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) : Vec F S2048x1024 .f32 :=
  VO5_2.read (Elt F) (VO5_2.writes (Elt F) VO5_2.junk (kernelRun5_C c i arg3 harg3 arg4 harg4 arg5 harg5 arg6 harg6 arg7 harg7 hc0 hc1 x0 x1 xs0).1)
/-- the two row stores tile the statistics block, -/
theorem cover5_C_3 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) (y : S1x2x1024.Idx) :
    ∃ pc ∈ (kernelRun5_C c i arg3 harg3 arg4 harg4 arg5 harg5 arg6 harg6 arg7 harg7 hc0 hc1 x0 x1 xs0).2.1, y ∈ pc.1.set :=
  View.cover_of_tiledL (kernelRun5_C c i arg3 harg3 arg4 harg4 arg5 harg5 arg6 harg6 arg7 harg7 hc0 hc1 x0 x1 xs0).2.1 S1x1x1024.size (by sl_kernel_rfl) y
/-- what they leave there; -/
def out5_C_3 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) : Vec F S1x2x1024 .f32 :=
  VO5_3.read (Elt F) (VO5_3.writes (Elt F) VO5_3.junk (kernelRun5_C c i arg3 harg3 arg4 harg4 arg5 harg5 arg6 harg6 arg7 harg7 hc0 hc1 x0 x1 xs0).2.1)
/-- the accumulator's store covers it, -/
theorem scover5_C_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) (y : S2048x1024.Idx) :
    ∃ pc ∈ (kernelRun5_C c i arg3 harg3 arg4 harg4 arg5 harg5 arg6 harg6 arg7 harg7 hc0 hc1 x0 x1 xs0).2.2.1, y ∈ pc.1.set :=
  View.cover_of_tiledL (kernelRun5_C c i arg3 harg3 arg4 harg4 arg5 harg5 arg6 harg6 arg7 harg7 hc0 hc1 x0 x1 xs0).2.2.1 S2048x1024.size (by sl_kernel_rfl) y
/-- and what it leaves there. -/
def sout5_C_0 (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i)
    (x0 : Vec F S2048x1024 .bf16) (x1 : Vec F S1024x1024 .bf16) (xs0 : Vec F S2048x1024 .f32) : Vec F S2048x1024 .f32 :=
  VS5_0.read (Elt F) (VS5_0.writes (Elt F) VS5_0.junk (kernelRun5_C c i arg3 harg3 arg4 harg4 arg5 harg5 arg6 harg6 arg7 harg7 hc0 hc1 x0 x1 xs0).2.2.1)

/-! ## What the buffers hold after each point -/

/-- After the body at position `n`: the z block's buffer, the statistics block's buffer, the accumulator. Away from
    k = 3 the two output components are placeholders nothing consults (the windows are idle and not written back). -/
def outsAt5 (c : Dev nD) : (n : ℕ) → n < cfg5.N → Vec F S2048x1024 .f32 × Vec F S1x2x1024 .f32 × Vec F S2048x1024 .f32
  | 0, hn => (View.canon ([] : List (View.Piece (Elt F) S2048x1024 .f32)), View.canon ([] : List (View.Piece (Elt F) S1x2x1024 .f32)),
      sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 4 = 0 then
      (View.canon ([] : List (View.Piece (Elt F) S2048x1024 .f32)), View.canon ([] : List (View.Piece (Elt F) S1x2x1024 .f32)),
        sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩))
    else
      if h1 : (n + 1) % 4 = 3 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2,
         out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2,
         sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.2)
      else
        (View.canon ([] : List (View.Piece (Elt F) S2048x1024 .f32)), View.canon ([] : List (View.Piece (Elt F) S1x2x1024 .f32)),
          sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.2)

/-- At a point with k = 0. -/
theorem outsAt5_A (c : Dev nD) (t : Fin cfg5.N) (h0 : t.val % 4 = 0) (h1 : ¬t.val % 4 = 3) :
    outsAt5 V c t.val t.isLt = (View.canon ([] : List (View.Piece (Elt F) S2048x1024 .f32)), View.canon ([] : List (View.Piece (Elt F) S1x2x1024 .f32)),
      sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans rfl

/-- At a point with k = 1 or 2: over what the point before left. -/
theorem outsAt5_B (c : Dev nD) (t : Fin cfg5.N) (h0 : ¬t.val % 4 = 0) (h1 : ¬t.val % 4 = 3) :
    outsAt5 V c t.val t.isLt = (View.canon ([] : List (View.Piece (Elt F) S2048x1024 .f32)), View.canon ([] : List (View.Piece (Elt F) S1x2x1024 .f32)),
      sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt5_C (c : Dev nD) (t : Fin cfg5.N) (h0 : ¬t.val % 4 = 0) (h1 : t.val % 4 = 3) :
    outsAt5 V c t.val t.isLt =
      (out5_C_2 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2,
       out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2,
       sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Every scoped buffer that is neither a staging buffer of this call nor its accumulator, at some contents. -/
abbrev rest5 (c : Dev nD) : sProp 𝕄 := Pipeline.scopedRestBut (Ix := Unit) (Name := ℕ) (U := UR sig nD τ) (Lvl := ℕ) (Val := Elt F) spec5 c [cc5_scratch0]

/-- The call's scoped rest with the accumulator as a whole memref owned at some contents. -/
theorem scopedRest5_owns (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d)) ∗ rest5 (F := F) c) := by
  rw [scopedRest5_split]; simp only [scM5_0, owns_whole]; rfl

/-- Before position `n`: the accumulator at what the point before left (at anything before the first point), the other
    scoped buffers unopened, the generator register at some state. -/
def PhiS5 (c : Dev nD) : (n : ℕ) → n ≤ cfg5.N → sProp 𝕄
  | 0, _ => iprop(iprop((∃ d, owns (c : Thread nD τ) scM5_0 fullShare d)) ∗ rest5 (F := F) c ∗ (∃ r, prngReg c r))
  | n + 1, hn => iprop(iprop(owns (c : Thread nD τ) scM5_0 fullShare ((outsAt5 V c n hn).2.2)) ∗ rest5 (F := F) c ∗ (∃ r, prngReg c r))

theorem PhiS5_zero (c : Dev nD) (n : ℕ) (h : n ≤ cfg5.N) (hz : n = 0) :
    PhiS5 V c n h = iprop(iprop((∃ d, owns (c : Thread nD τ) scM5_0 fullShare d)) ∗ rest5 (F := F) c ∗ (∃ r, prngReg c r)) := by
  subst hz; rfl
theorem PhiS5_succ (c : Dev nD) (n : ℕ) (hn : n < cfg5.N) :
    PhiS5 V c (n + 1) hn = iprop(iprop(owns (c : Thread nD τ) scM5_0 fullShare ((outsAt5 V c n hn).2.2)) ∗ rest5 (F := F) c ∗ (∃ r, prngReg c r)) := rfl
theorem PhiS5_pos (c : Dev nD) (n : ℕ) (h : n ≤ cfg5.N) (hz : n ≠ 0) :
    PhiS5 V c n h = iprop(iprop(owns (c : Thread nD τ) scM5_0 fullShare ((outsAt5 V c (n - 1) (by omega)).2.2)) ∗ rest5 (F := F) c ∗ (∃ r, prngReg c r)) := by
  cases n with
  | zero => exact absurd rfl hz
  | succ n => rfl

/-! ## The pipeline's proof data -/

/-- The proof data of pipeline 5 on core `c` at the entry contents `V`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

theorem q_eq5 (c : Dev nD) : (dat5 V c).q = fun _ => fullShare := rfl
theorem owed_eq5 (c : Dev nD) : (dat5 V c).owed = fun _ => 0 := rfl

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in; the
    invariant hands the body the accumulator at what the point before left and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h1 : t.val % 4 = 3
  · have h0 : ¬t.val % 4 = 0 := by omega
    have hz : t.val ≠ 0 := by omega
    rw [show (dat5 V c).leavesExact 2 t = owns (c : Thread nD τ) (ms5_2 t) fullShare ((dat5 V c).after 2 t) from by
      unfold Dat.leavesExact; rw [liveAt5_2 t ((hcond5_1 t).mpr h1)], after5_2]
    rw [show (dat5 V c).leavesExact 3 t = owns (c : Thread nD τ) (ms5_3 t) fullShare ((dat5 V c).after 3 t) from by
      unfold Dat.leavesExact; rw [liveAt5_3 t ((hcond5_1 t).mpr h1)], after5_3]
    rw [outsAt5_C V c t h0 h1]
    unfold out5_C_2 out5_C_3 sout5_C_0; (try dsimp only)
    rw [PhiS5_castSucc V c t, PhiS5_pos V c _ _ hz]
    iintro ⟨⟨HS0, Hr, Hg⟩, Ho, ⟨%d0, H0⟩, ⟨%d1, H1⟩, ⟨%d2, H2⟩, ⟨%d3, H3⟩⟩
    iapply ((kernelRun5_C c (grid5.coords t) _ _ _ _ _ _ _ _ _ _ (fun h => h0 ((hcond5_0 t).mp h)) ((hcond5_1 t).mpr h1) (iblk5 V c 0 t) (iblk5 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover5_C_0 c _ _ _ _ _ _ _ _ _ _ _ _ _ _ _ _)
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover5_C_2 c _ _ _ _ _ _ _ _ _ _ _ _ _ _ _ _)
    unfold owns; iexists _; isplitr
    swap; · iexact H3
    ipureintro; exact View.read_writes_of_cover _ _ _ _ _ (cover5_C_3 c _ _ _ _ _ _ _ _ _ _ _ _ _ _ _ _)
  · rw [Dat.leavesExact_idle (dat5 V c) 2 t (idleAt5_2 t (fun h => h1 ((hcond5_1 t).mp h))) (noFlush5_2 t (fun h => h1 ((hcond5_1 t).mp h)))]
    rw [Dat.leavesExact_idle (dat5 V c) 3 t (idleAt5_3 t (fun h => h1 ((hcond5_1 t).mp h))) (noFlush5_3 t (fun h => h1 ((hcond5_1 t).mp h)))]
    by_cases h0 : t.val % 4 = 0
    · rw [outsAt5_A V c t h0 h1]
      unfold sout5_A_0; (try dsimp only)
      by_cases hz : t.val = 0
      · rw [PhiS5_castSucc V c t, PhiS5_zero V c _ _ hz]
        iintro ⟨⟨HS0, Hr, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t)).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover5_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
      · rw [PhiS5_castSucc V c t, PhiS5_pos V c _ _ hz]
        iintro ⟨⟨HS0, Hr, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t)).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover5_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [outsAt5_B V c t h0 h1]
      unfold sout5_B_0; (try dsimp only)
      rw [PhiS5_castSucc V c t, PhiS5_pos V c _ _ hz]
      iintro ⟨⟨HS0, Hr, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover5_B_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with — the generator register at some state and the call's scoped rest — is the
    invariant before the first point: the accumulator is among the scoped rest, at some contents. -/
theorem hin5 (c : Dev nD) :
    iprop((∃ r, prngReg c r) ∗ (Pipeline.scopedRest (Ix := Unit) (Name := ℕ) (U := UR sig nD τ) (Lvl := ℕ) (Val := Elt F) spec5 c : sProp 𝕄)) ⊢ (dat5 V c).Φ 0 := by
  rw [show (dat5 V c).Φ 0 = PhiS5 V c 0 (Nat.zero_le _) from rfl, PhiS5_zero V c 0 _ rfl, scopedRest5_owns]
  iintro ⟨Hg, HS0, Hr⟩
  isplitl [HS0]; · iexact HS0
  isplitl [Hr]; · iexact Hr
  iexact Hg

/-- After the last point the invariant gives both back: the accumulator's contents are forgotten. -/
theorem hout5 (c : Dev nD) :
    (dat5 V c).Φ (Fin.last cfg5.N) ⊢ iprop((∃ r, prngReg c r) ∗ (Pipeline.scopedRest (Ix := Unit) (Name := ℕ) (U := UR sig nD τ) (Lvl := ℕ) (Val := Elt F) spec5 c : sProp 𝕄)) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), scopedRest5_owns]
  iintro ⟨HS0, Hr, Hg⟩
  isplitl [Hg]; · iexact Hg
  isplitl [HS0]; · iexists _; iexact HS0
  iexact Hr

end Region

end Cert.KernelIdeal.Hand

end
-- ==== Proof.IReg6.lean ====
/- Region 6 of @main (one of the three normalize-and-sign kernels): the class-A half of its frame, at any float instance.
   The body loads the whole 1024x1024 block of pre-activations and the four 1x1024 rows (mean, variance, scale,
   shift) of its column block, computes scale * (z - mean) * rsqrt (variance + eps) + shift entry by entry, applies
   the sign function, and stores the whole 1024x1024 output block once; no value is carried from one grid point to
   the next. Everything here is stated at a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 1024 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, for any proof data whose array is V's
    and whose body leaves the block in place: the window is fetched whole and is never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 1024x1024 block: the rectangle the pre-activations are loaded through and the output stored through. -/
abbrev r6_0 : Rect S1024x1024 := Rect.unit (s := S1024x1024) ![0, 0] S1024x1024.size inb_S1024x1024_S1024x1024_0_0
/-- The whole 1x1024 row: the rectangle each of the four per-column rows is loaded through. -/
abbrev r6_1 : Rect S1x1024 := Rect.unit (s := S1x1024) ![0, 0] S1x1024.size inb_S1x1024_S1x1024_0_0

/-! ## What the body leaves in the output window's buffer -/

/-- The output staging buffer after the body, from the five input blocks: one store of the whole block, whose
    value is the normalize-and-sign payload of the loaded blocks. -/
def out6_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r6_0, k6_pay1 (View.ld x0 r6_0) (View.ld x1 r6_1) (View.ld x2 r6_1) (View.ld x3 r6_1) (View.ld x4 r6_1)⟩]

/-- The one store covers the buffer. -/
theorem cover6_5 (p0 : Vec F S1024x1024 .bf16) (y : S1024x1024.Idx) :
    ∃ pc ∈ ([⟨r6_0, p0⟩] : List (View.Piece (Elt F) S1024x1024 .bf16)), y ∈ pc.1.set :=
  View.cover_of_tiled [⟨r6_0, p0⟩] S1024x1024.size (by rfl) y

/-! ## The body's triple -/

set_option maxHeartbeats 1000000 in
/-- The kernel body on whole staging memrefs, the inputs' at contents x0 .. x4 and the output's at anything, runs to
    the continuation holding the inputs' as they were and the output's at out6_5 of the inputs'. -/
theorem sound_kernel6 (c : Dev nD) (E : Set ℕ) (i : grid6.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out6_5 x0 x1 x2 x3 x4)) -∗ K ⟨⟩))
      ⊢ wp frame (wpE (defs₀ (F := F)) Variants.none c none) E (cc6__bn_activate_kernel i arg2 harg2 arg3 harg3 arg4 harg4 arg5 harg5 arg6 harg6 arg7 harg7) K := by
  simp only [cc6__bn_activate_kernel_eq_skeleton]; unfold cc6__bn_activate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of the region on core c: the arrays as the region finds them; after the body at point t each
    input's buffer at its block and the output's at out6_5 of the input blocks; the invariant is the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

theorem q_eq6 (c : Dev nD) (w : Fin cfg6.W) : (dat6 V c).q w = fullShare := rfl
theorem owed_eq6 (c : Dev nD) (j) : (dat6 V c).owed j = 0 := rfl

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- Entering: the generator register and the scoped rest make the invariant at the first point. -/
theorem hin6 (c : Dev nD) : iprop((∃ r, prngReg c r) ∗ Pipeline.scopedRest spec6 c) ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- Leaving: the invariant at the last point gives them back. -/
theorem hout6 (c : Dev nD) : (dat6 V c).Φ (Fin.last cfg6.N) ⊢ iprop((∃ r, prngReg c r) ∗ Pipeline.scopedRest spec6 c) := by
  rw [show (dat6 V c).Φ (Fin.last _) = Pipeline.ΦA spec6 c from rfl]; unfold Pipeline.ΦA
  iintro ⟨Hr, Hp⟩
  isplitl [Hp]; · iexact Hp
  iexact Hr

end Cert.KernelIdeal.Hand

end
-- ==== Proof.IReg7Runs.lean ====
/- Region 7 (the first matmul-with-statistics call), part 1: the body's two conditions in closed form over the
   4 x 4 x 4 grid (the innermost coordinate k is the point's number mod 4), where the two output windows are idle,
   and the body run once per control case on whole staging memrefs:
   k = 0      : the accumulator is zeroed, then the product of the two input blocks is added;
   k = 1, 2   : the product is added to what the point before left in the accumulator;
   k = 3      : the product is added, then the accumulator is copied to the z block and its column sums and
                column sums of squares are stored as the two rows of the statistics block.
   The accumulator is a scratch buffer carried from point to point. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions -/

/-- The first conditional's condition: the innermost grid coordinate is 0. -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- The second conditional's condition: the innermost grid coordinate is 3. -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Away from k = 3 both outputs are idle and not written back. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
/-- At k = 3 both outputs are stored into. -/
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## The memrefs the body is called with -/

abbrev VO7_2 : View sig .tc .vmem S2048x1024 .f32 := (Memref.whole cc7_stg2_0 : Memref sig .tc .vmem S2048x1024 .f32).view
abbrev VO7_3 : View sig .tc .vmem S1x2x1024 .f32 := (Memref.whole cc7_stg3_0 : Memref sig .tc .vmem S1x2x1024 .f32).view
abbrev ms7_0 (t : Fin cfg7.N) : Memref sig .tc .vmem S2048x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x1024 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x1024 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x2x1024 .f32 := win7_3.stage (cfg7.slots t 3)
abbrev hs7_3 (t : Fin cfg7.N) : (ms7_3 t).IsWhole := hstage7_3 ((cfg7.slots t 3).cast nbuf7_3)
/-- The accumulator: a whole scoped buffer of the call's own. -/
abbrev scM7_0 : Memref sig .tc .vmem S2048x1024 .f32 := Memref.whole cc7_scratch0
abbrev VS7_0 : View sig .tc .vmem S2048x1024 .f32 := scM7_0.view

/-! ## The body, case by case -/

set_option maxHeartbeats 1000000 in
/-- k = 0. The inputs at their blocks, the two outputs at contents handed back untouched, the accumulator at anything:
    the body ends with the accumulator's stores written (the list is what the run finds). -/
noncomputable def kernelRun7_A (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond7_0 i) (hc1 : ¬cond7_1 i)
    (x0 : Vec F S2048x1024 .bf16) (x1 : Vec F S1024x1024 .bf16) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__binary_matmul_stats_kernel i arg3 harg3 arg4 harg4 arg5 harg5 arg6 harg6 arg7 harg7) K } := by
  refine ⟨?_, fun xi2 xi3 E K => ?run⟩
  case run =>
    simp only [cc7__binary_matmul_stats_kernel_eq_skeleton]; unfold cc7__binary_matmul_stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 1, 2. As k = 0, but the accumulator is read before it is written: it comes in at the contents `xs0` the point
    before left. -/
noncomputable def kernelRun7_B (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : ¬cond7_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__binary_matmul_stats_kernel i arg3 harg3 arg4 harg4 arg5 harg5 arg6 harg6 arg7 harg7) K } := by
  refine ⟨?_, fun xi2 xi3 E K => ?run⟩
  case run =>
    simp only [cc7__binary_matmul_stats_kernel_eq_skeleton]; unfold cc7__binary_matmul_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 3. The outputs come in at anything and end with the body's stores written. -/
noncomputable def kernelRun7_C (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) :
    Σ' (L2 : List (View.Piece (Elt F) S2048x1024 .f32)) (L3 : List (View.Piece (Elt F) S1x2x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc7__binary_matmul_stats_kernel i arg3 harg3 arg4 harg4 arg5 harg5 arg6 harg6 arg7 harg7) K } := by
  refine ⟨?_, ?_, ?_, fun E K => ?run⟩
  case run =>
    simp only [cc7__binary_matmul_stats_kernel_eq_skeleton]; unfold cc7__binary_matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.KernelIdeal.Hand

end
-- ==== Proof.IReg7.lean ====
/- Region 7, part 2: what the accumulator and the two output blocks hold after each grid point (by recursion on the
   point: at k = 0 the accumulator restarts from zero, otherwise it continues from the point before; the outputs are
   stored at k = 3 only), the proof data of the pipeline at given entry contents, and the body obligation.
   The invariant before a point holds the accumulator at what the point before left in it (at anything before the
   first point), every other scoped buffer unopened, and the generator register at some state. -/
import proofs.«139021_j54202487276022_2_alg».proof.Proof.IReg7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves -/

/-- k = 0: the accumulator's stores cover it. -/
theorem scover7_A_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond7_0 i) (hc1 : ¬cond7_1 i)
    (x0 : Vec F S2048x1024 .bf16) (x1 : Vec F S1024x1024 .bf16) (y : S2048x1024.Idx) :
    ∃ pc ∈ (kernelRun7_A c i arg3 harg3 arg4 harg4 arg5 harg5 arg6 harg6 arg7 harg7 hc0 hc1 x0 x1).1, y ∈ pc.1.set :=
  View.cover_of_tiledL (kernelRun7_A c i arg3 harg3 arg4 harg4 arg5 harg5 arg6 harg6 arg7 harg7 hc0 hc1 x0 x1).1 S2048x1024.size (by sl_kernel_rfl) y
/-- What k = 0 leaves in the accumulator. -/
def sout7_A_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond7_0 i) (hc1 : ¬cond7_1 i)
    (x0 : Vec F S2048x1024 .bf16) (x1 : Vec F S1024x1024 .bf16) : Vec F S2048x1024 .f32 :=
  VS7_0.read (Elt F) (VS7_0.writes (Elt F) VS7_0.junk (kernelRun7_A c i arg3 harg3 arg4 harg4 arg5 harg5 arg6 harg6 arg7 harg7 hc0 hc1 x0 x1).1)

/-- k = 1, 2: the accumulator's store covers it. -/
theorem scover7_B_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : ¬cond7_1 i)
    (x0 : Vec F S2048x1024 .bf16) (x1 : Vec F S1024x1024 .bf16) (xs0 : Vec F S2048x1024 .f32) (y : S2048x1024.Idx) :
    ∃ pc ∈ (kernelRun7_B c i arg3 harg3 arg4 harg4 arg5 harg5 arg6 harg6 arg7 harg7 hc0 hc1 x0 x1 xs0).1, y ∈ pc.1.set :=
  View.cover_of_tiledL (kernelRun7_B c i arg3 harg3 arg4 harg4 arg5 harg5 arg6 harg6 arg7 harg7 hc0 hc1 x0 x1 xs0).1 S2048x1024.size (by sl_kernel_rfl) y
/-- What k = 1, 2 leave in the accumulator. -/
def sout7_B_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : ¬cond7_1 i)
    (x0 : Vec F S2048x1024 .bf16) (x1 : Vec F S1024x1024 .bf16) (xs0 : Vec F S2048x1024 .f32) : Vec F S2048x1024 .f32 :=
  VS7_0.read (Elt F) (VS7_0.writes (Elt F) VS7_0.junk (kernelRun7_B c i arg3 harg3 arg4 harg4 arg5 harg5 arg6 harg6 arg7 harg7 hc0 hc1 x0 x1 xs0).1)

/-- k = 3: the z block's store covers it, -/
theorem cover7_C_2 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) (y : S2048x1024.Idx) :
    ∃ pc ∈ (kernelRun7_C c i arg3 harg3 arg4 harg4 arg5 harg5 arg6 harg6 arg7 harg7 hc0 hc1 x0 x1 xs0).1, y ∈ pc.1.set :=
  View.cover_of_tiledL (kernelRun7_C c i arg3 harg3 arg4 harg4 arg5 harg5 arg6 harg6 arg7 harg7 hc0 hc1 x0 x1 xs0).1 S2048x1024.size (by sl_kernel_rfl) y
/-- what it leaves there; -/
def out7_C_2 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) : Vec F S2048x1024 .f32 :=
  VO7_2.read (Elt F) (VO7_2.writes (Elt F) VO7_2.junk (kernelRun7_C c i arg3 harg3 arg4 harg4 arg5 harg5 arg6 harg6 arg7 harg7 hc0 hc1 x0 x1 xs0).1)
/-- the two row stores tile the statistics block, -/
theorem cover7_C_3 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) (y : S1x2x1024.Idx) :
    ∃ pc ∈ (kernelRun7_C c i arg3 harg3 arg4 harg4 arg5 harg5 arg6 harg6 arg7 harg7 hc0 hc1 x0 x1 xs0).2.1, y ∈ pc.1.set :=
  View.cover_of_tiledL (kernelRun7_C c i arg3 harg3 arg4 harg4 arg5 harg5 arg6 harg6 arg7 harg7 hc0 hc1 x0 x1 xs0).2.1 S1x1x1024.size (by sl_kernel_rfl) y
/-- what they leave there; -/
def out7_C_3 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) : Vec F S1x2x1024 .f32 :=
  VO7_3.read (Elt F) (VO7_3.writes (Elt F) VO7_3.junk (kernelRun7_C c i arg3 harg3 arg4 harg4 arg5 harg5 arg6 harg6 arg7 harg7 hc0 hc1 x0 x1 xs0).2.1)
/-- the accumulator's store covers it, -/
theorem scover7_C_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) (y : S2048x1024.Idx) :
    ∃ pc ∈ (kernelRun7_C c i arg3 harg3 arg4 harg4 arg5 harg5 arg6 harg6 arg7 harg7 hc0 hc1 x0 x1 xs0).2.2.1, y ∈ pc.1.set :=
  View.cover_of_tiledL (kernelRun7_C c i arg3 harg3 arg4 harg4 arg5 harg5 arg6 harg6 arg7 harg7 hc0 hc1 x0 x1 xs0).2.2.1 S2048x1024.size (by sl_kernel_rfl) y
/-- and what it leaves there. -/
def sout7_C_0 (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i)
    (x0 : Vec F S2048x1024 .bf16) (x1 : Vec F S1024x1024 .bf16) (xs0 : Vec F S2048x1024 .f32) : Vec F S2048x1024 .f32 :=
  VS7_0.read (Elt F) (VS7_0.writes (Elt F) VS7_0.junk (kernelRun7_C c i arg3 harg3 arg4 harg4 arg5 harg5 arg6 harg6 arg7 harg7 hc0 hc1 x0 x1 xs0).2.2.1)

/-! ## What the buffers hold after each point -/

/-- After the body at position `n`: the z block's buffer, the statistics block's buffer, the accumulator. Away from
    k = 3 the two output components are placeholders nothing consults (the windows are idle and not written back). -/
def outsAt7 (c : Dev nD) : (n : ℕ) → n < cfg7.N → Vec F S2048x1024 .f32 × Vec F S1x2x1024 .f32 × Vec F S2048x1024 .f32
  | 0, hn => (View.canon ([] : List (View.Piece (Elt F) S2048x1024 .f32)), View.canon ([] : List (View.Piece (Elt F) S1x2x1024 .f32)),
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 4 = 0 then
      (View.canon ([] : List (View.Piece (Elt F) S2048x1024 .f32)), View.canon ([] : List (View.Piece (Elt F) S1x2x1024 .f32)),
        sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => (fun h => by (try dsimp only at h); omega) ((hcond7_1 ⟨n + 1, hn⟩).mp h)) (iblk7 V c 0 ⟨n + 1, hn⟩) (iblk7 V c 1 ⟨n + 1, hn⟩))
    else
      if h1 : (n + 1) % 4 = 3 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2,
         out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2,
         sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.2)
      else
        (View.canon ([] : List (View.Piece (Elt F) S2048x1024 .f32)), View.canon ([] : List (View.Piece (Elt F) S1x2x1024 .f32)),
          sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.2)

/-- At a point with k = 0. -/
theorem outsAt7_A (c : Dev nD) (t : Fin cfg7.N) (h0 : t.val % 4 = 0) (h1 : ¬t.val % 4 = 3) :
    outsAt7 V c t.val t.isLt = (View.canon ([] : List (View.Piece (Elt F) S2048x1024 .f32)), View.canon ([] : List (View.Piece (Elt F) S1x2x1024 .f32)),
      sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans rfl

/-- At a point with k = 1 or 2: over what the point before left. -/
theorem outsAt7_B (c : Dev nD) (t : Fin cfg7.N) (h0 : ¬t.val % 4 = 0) (h1 : ¬t.val % 4 = 3) :
    outsAt7 V c t.val t.isLt = (View.canon ([] : List (View.Piece (Elt F) S2048x1024 .f32)), View.canon ([] : List (View.Piece (Elt F) S1x2x1024 .f32)),
      sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt7_C (c : Dev nD) (t : Fin cfg7.N) (h0 : ¬t.val % 4 = 0) (h1 : t.val % 4 = 3) :
    outsAt7 V c t.val t.isLt =
      (out7_C_2 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2,
       out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2,
       sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Every scoped buffer that is neither a staging buffer of this call nor its accumulator, at some contents. -/
abbrev rest7 (c : Dev nD) : sProp 𝕄 := Pipeline.scopedRestBut (Ix := Unit) (Name := ℕ) (U := UR sig nD τ) (Lvl := ℕ) (Val := Elt F) spec7 c [cc7_scratch0]

/-- The call's scoped rest with the accumulator as a whole memref owned at some contents. -/
theorem scopedRest7_owns (c : Dev nD) :
    (Pipeline.scopedRest (Ix := Unit) (Name := ℕ) (U := UR sig nD τ) (Lvl := ℕ) (Val := Elt F) spec7 c : sProp 𝕄)
      = iprop(iprop((∃ d, owns (c : Thread nD τ) scM7_0 fullShare d)) ∗ rest7 (F := F) c) := by
  rw [scopedRest7_split]; simp only [scM7_0, owns_whole]; rfl

/-- Before position `n`: the accumulator at what the point before left (at anything before the first point), the other
    scoped buffers unopened, the generator register at some state. -/
def PhiS7 (c : Dev nD) : (n : ℕ) → n ≤ cfg7.N → sProp 𝕄
  | 0, _ => iprop(iprop((∃ d, owns (c : Thread nD τ) scM7_0 fullShare d)) ∗ rest7 (F := F) c ∗ (∃ r, prngReg c r))
  | n + 1, hn => iprop(iprop(owns (c : Thread nD τ) scM7_0 fullShare ((outsAt7 V c n hn).2.2)) ∗ rest7 (F := F) c ∗ (∃ r, prngReg c r))

theorem PhiS7_zero (c : Dev nD) (n : ℕ) (h : n ≤ cfg7.N) (hz : n = 0) :
    PhiS7 V c n h = iprop(iprop((∃ d, owns (c : Thread nD τ) scM7_0 fullShare d)) ∗ rest7 (F := F) c ∗ (∃ r, prngReg c r)) := by
  subst hz; rfl
theorem PhiS7_succ (c : Dev nD) (n : ℕ) (hn : n < cfg7.N) :
    PhiS7 V c (n + 1) hn = iprop(iprop(owns (c : Thread nD τ) scM7_0 fullShare ((outsAt7 V c n hn).2.2)) ∗ rest7 (F := F) c ∗ (∃ r, prngReg c r)) := rfl
theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2)) ∗ rest7 (F := F) c ∗ (∃ r, prngReg c r)) := by
  cases n with
  | zero => exact absurd rfl hz
  | succ n => rfl

/-! ## The pipeline's proof data -/

/-- The proof data of pipeline 7 on core `c` at the entry contents `V`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem after7_3 (c : Dev nD) (t : Fin cfg7.N) : (dat7 V c).after 3 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem q_eq7 (c : Dev nD) : (dat7 V c).q = fun _ => fullShare := rfl
theorem owed_eq7 (c : Dev nD) : (dat7 V c).owed = fun _ => 0 := rfl

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' memrefs hold their blocks; the closed forms say which case the point is in; the
    invariant hands the body the accumulator at what the point before left and takes it back at this point's. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 64 := lt_of_lt_of_eq t.isLt (show cfg7.N = 64 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h1 : t.val % 4 = 3
  · have h0 : ¬t.val % 4 = 0 := by omega
    have hz : t.val ≠ 0 := by omega
    rw [show (dat7 V c).leavesExact 2 t = owns (c : Thread nD τ) (ms7_2 t) fullShare ((dat7 V c).after 2 t) from by
      unfold Dat.leavesExact; rw [liveAt7_2 t ((hcond7_1 t).mpr h1)], after7_2]
    rw [show (dat7 V c).leavesExact 3 t = owns (c : Thread nD τ) (ms7_3 t) fullShare ((dat7 V c).after 3 t) from by
      unfold Dat.leavesExact; rw [liveAt7_3 t ((hcond7_1 t).mpr h1)], after7_3]
    rw [outsAt7_C V c t h0 h1]
    unfold out7_C_2 out7_C_3 sout7_C_0; (try dsimp only)
    rw [PhiS7_castSucc V c t, PhiS7_pos V c _ _ hz]
    iintro ⟨⟨HS0, Hr, Hg⟩, Ho, ⟨%d0, H0⟩, ⟨%d1, H1⟩, ⟨%d2, H2⟩, ⟨%d3, H3⟩⟩
    iapply ((kernelRun7_C c (grid7.coords t) _ _ _ _ _ _ _ _ _ _ (fun h => h0 ((hcond7_0 t).mp h)) ((hcond7_1 t).mpr h1) (iblk7 V c 0 t) (iblk7 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover7_C_0 c _ _ _ _ _ _ _ _ _ _ _ _ _ _ _ _)
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_C_2 c _ _ _ _ _ _ _ _ _ _ _ _ _ _ _ _)
    unfold owns; iexists _; isplitr
    swap; · iexact H3
    ipureintro; exact View.read_writes_of_cover _ _ _ _ _ (cover7_C_3 c _ _ _ _ _ _ _ _ _ _ _ _ _ _ _ _)
  · rw [Dat.leavesExact_idle (dat7 V c) 2 t (idleAt7_2 t (fun h => h1 ((hcond7_1 t).mp h))) (noFlush7_2 t (fun h => h1 ((hcond7_1 t).mp h)))]
    rw [Dat.leavesExact_idle (dat7 V c) 3 t (idleAt7_3 t (fun h => h1 ((hcond7_1 t).mp h))) (noFlush7_3 t (fun h => h1 ((hcond7_1 t).mp h)))]
    by_cases h0 : t.val % 4 = 0
    · rw [outsAt7_A V c t h0 h1]
      unfold sout7_A_0; (try dsimp only)
      by_cases hz : t.val = 0
      · rw [PhiS7_castSucc V c t, PhiS7_zero V c _ _ hz]
        iintro ⟨⟨HS0, Hr, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t)).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover7_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
      · rw [PhiS7_castSucc V c t, PhiS7_pos V c _ _ hz]
        iintro ⟨⟨HS0, Hr, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t)).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover7_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [outsAt7_B V c t h0 h1]
      unfold sout7_B_0; (try dsimp only)
      rw [PhiS7_castSucc V c t, PhiS7_pos V c _ _ hz]
      iintro ⟨⟨HS0, Hr, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover7_B_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with — the generator register at some state and the call's scoped rest — is the
    invariant before the first point: the accumulator is among the scoped rest, at some contents. -/
theorem hin7 (c : Dev nD) :
    iprop((∃ r, prngReg c r) ∗ (Pipeline.scopedRest (Ix := Unit) (Name := ℕ) (U := UR sig nD τ) (Lvl := ℕ) (Val := Elt F) spec7 c : sProp 𝕄)) ⊢ (dat7 V c).Φ 0 := by
  rw [show (dat7 V c).Φ 0 = PhiS7 V c 0 (Nat.zero_le _) from rfl, PhiS7_zero V c 0 _ rfl, scopedRest7_owns]
  iintro ⟨Hg, HS0, Hr⟩
  isplitl [HS0]; · iexact HS0
  isplitl [Hr]; · iexact Hr
  iexact Hg

/-- After the last point the invariant gives both back: the accumulator's contents are forgotten. -/
theorem hout7 (c : Dev nD) :
    (dat7 V c).Φ (Fin.last cfg7.N) ⊢ iprop((∃ r, prngReg c r) ∗ (Pipeline.scopedRest (Ix := Unit) (Name := ℕ) (U := UR sig nD τ) (Lvl := ℕ) (Val := Elt F) spec7 c : sProp 𝕄)) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 64 := N_7; omega), scopedRest7_owns]
  iintro ⟨HS0, Hr, Hg⟩
  isplitl [Hg]; · iexact Hg
  isplitl [HS0]; · iexists _; iexact HS0
  iexact Hr

end Region

end Cert.KernelIdeal.Hand

end
-- ==== Proof.IReg8.lean ====
/- Region 8 of @main (one of the three normalize-and-sign kernels): the class-A half of its frame, at any float instance.
   The body loads the whole 1024x1024 block of pre-activations and the four 1x1024 rows (mean, variance, scale,
   shift) of its column block, computes scale * (z - mean) * rsqrt (variance + eps) + shift entry by entry, applies
   the sign function, and stores the whole 1024x1024 output block once; no value is carried from one grid point to
   the next. Everything here is stated at a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 1024 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input window's current staging buffer holds its block at every point, for any proof data whose array is V's
    and whose body leaves the block in place: the window is fetched whole and is never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 1024x1024 block: the rectangle the pre-activations are loaded through and the output stored through. -/
abbrev r8_0 : Rect S1024x1024 := Rect.unit (s := S1024x1024) ![0, 0] S1024x1024.size inb_S1024x1024_S1024x1024_0_0
/-- The whole 1x1024 row: the rectangle each of the four per-column rows is loaded through. -/
abbrev r8_1 : Rect S1x1024 := Rect.unit (s := S1x1024) ![0, 0] S1x1024.size inb_S1x1024_S1x1024_0_0

/-! ## What the body leaves in the output window's buffer -/

/-- The output staging buffer after the body, from the five input blocks: one store of the whole block, whose
    value is the normalize-and-sign payload of the loaded blocks. -/
def out8_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r8_0, k8_pay1 (View.ld x0 r8_0) (View.ld x1 r8_1) (View.ld x2 r8_1) (View.ld x3 r8_1) (View.ld x4 r8_1)⟩]

/-- The one store covers the buffer. -/
theorem cover8_5 (p0 : Vec F S1024x1024 .bf16) (y : S1024x1024.Idx) :
    ∃ pc ∈ ([⟨r8_0, p0⟩] : List (View.Piece (Elt F) S1024x1024 .bf16)), y ∈ pc.1.set :=
  View.cover_of_tiled [⟨r8_0, p0⟩] S1024x1024.size (by rfl) y

/-! ## The body's triple -/

set_option maxHeartbeats 1000000 in
/-- The kernel body on whole staging memrefs, the inputs' at contents x0 .. x4 and the output's at anything, runs to
    the continuation holding the inputs' as they were and the output's at out8_5 of the inputs'. -/
theorem sound_kernel8 (c : Dev nD) (E : Set ℕ) (i : grid8.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8_5 x0 x1 x2 x3 x4)) -∗ K ⟨⟩))
      ⊢ wp frame (wpE (defs₀ (F := F)) Variants.none c none) E (cc8__bn_activate_kernel i arg2 harg2 arg3 harg3 arg4 harg4 arg5 harg5 arg6 harg6 arg7 harg7) K := by
  simp only [cc8__bn_activate_kernel_eq_skeleton]; unfold cc8__bn_activate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the region on core c: the arrays as the region finds them; after the body at point t each
    input's buffer at its block and the output's at out8_5 of the input blocks; the invariant is the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

theorem q_eq8 (c : Dev nD) (w : Fin cfg8.W) : (dat8 V c).q w = fullShare := rfl
theorem owed_eq8 (c : Dev nD) (j) : (dat8 V c).owed j = 0 := rfl

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- Entering: the generator register and the scoped rest make the invariant at the first point. -/
theorem hin8 (c : Dev nD) : iprop((∃ r, prngReg c r) ∗ Pipeline.scopedRest spec8 c) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant at the last point gives them back. -/
theorem hout8 (c : Dev nD) : (dat8 V c).Φ (Fin.last cfg8.N) ⊢ iprop((∃ r, prngReg c r) ∗ Pipeline.scopedRest spec8 c) := by
  rw [show (dat8 V c).Φ (Fin.last _) = Pipeline.ΦA spec8 c from rfl]; unfold Pipeline.ΦA
  iintro ⟨Hr, Hp⟩
  isplitl [Hp]; · iexact Hp
  iexact Hr

end Cert.KernelIdeal.Hand

end
-- ==== Proof.IReg9Runs.lean ====
/- Region 9 (the first matmul-with-statistics call), part 1: the body's two conditions in closed form over the
   4 x 4 x 4 grid (the innermost coordinate k is the point's number mod 4), where the two output windows are idle,
   and the body run once per control case on whole staging memrefs:
   k = 0      : the accumulator is zeroed, then the product of the two input blocks is added;
   k = 1, 2   : the product is added to what the point before left in the accumulator;
   k = 3      : the product is added, then the accumulator is copied to the z block and its column sums and
                column sums of squares are stored as the two rows of the statistics block.
   The accumulator is a scratch buffer carried from point to point. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions -/

/-- The first conditional's condition: the innermost grid coordinate is 0. -/
abbrev cond9_0 (i : grid9.Coords) : Prop := (Scalar.cmpi .ne (Scalar.extui (Scalar.cmpi .eq (BitVec.ofNat 32 (i 2).val) 0#32)) 0#32) = 1#1
theorem hcond9_0 : ∀ t : Fin cfg9.N, cond9_0 (grid9.coords t) ↔ t.val % 4 = 0 :=
  (by decide +kernel : ∀ t : Fin grid9.N, cond9_0 (grid9.coords t) ↔ t.val % 4 = 0)

/-- The second conditional's condition: the innermost grid coordinate is 3. -/
abbrev cond9_1 (i : grid9.Coords) : Prop := k9_cond2 i = 1#1
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
/-- Away from k = 3 both outputs are idle and not written back. -/
theorem idleAt9_2 : ∀ t : Fin cfg9.N, ¬cond9_1 (grid9.coords t) → cfg9.idle 2 (grid9.coords t) = true := by decide +kernel
theorem noFlush9_2 : ∀ t : Fin cfg9.N, ¬cond9_1 (grid9.coords t) → (cfg9.win 2).flush t = false := by decide +kernel
theorem idleAt9_3 : ∀ t : Fin cfg9.N, ¬cond9_1 (grid9.coords t) → cfg9.idle 3 (grid9.coords t) = true := by decide +kernel
theorem noFlush9_3 : ∀ t : Fin cfg9.N, ¬cond9_1 (grid9.coords t) → (cfg9.win 3).flush t = false := by decide +kernel
/-- At k = 3 both outputs are stored into. -/
theorem liveAt9_2 : ∀ t : Fin cfg9.N, cond9_1 (grid9.coords t) → cfg9.idle 2 (grid9.coords t) = false := by decide +kernel
theorem liveAt9_3 : ∀ t : Fin cfg9.N, cond9_1 (grid9.coords t) → cfg9.idle 3 (grid9.coords t) = false := by decide +kernel

/-! ## The memrefs the body is called with -/

abbrev VO9_2 : View sig .tc .vmem S2048x1024 .f32 := (Memref.whole cc9_stg2_0 : Memref sig .tc .vmem S2048x1024 .f32).view
abbrev VO9_3 : View sig .tc .vmem S1x2x1024 .f32 := (Memref.whole cc9_stg3_0 : Memref sig .tc .vmem S1x2x1024 .f32).view
abbrev ms9_0 (t : Fin cfg9.N) : Memref sig .tc .vmem S2048x1024 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x1024 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x1024 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x2x1024 .f32 := win9_3.stage (cfg9.slots t 3)
abbrev hs9_3 (t : Fin cfg9.N) : (ms9_3 t).IsWhole := hstage9_3 ((cfg9.slots t 3).cast nbuf9_3)
/-- The accumulator: a whole scoped buffer of the call's own. -/
abbrev scM9_0 : Memref sig .tc .vmem S2048x1024 .f32 := Memref.whole cc9_scratch0
abbrev VS9_0 : View sig .tc .vmem S2048x1024 .f32 := scM9_0.view

/-! ## The body, case by case -/

set_option maxHeartbeats 1000000 in
/-- k = 0. The inputs at their blocks, the two outputs at contents handed back untouched, the accumulator at anything:
    the body ends with the accumulator's stores written (the list is what the run finds). -/
noncomputable def kernelRun9_A (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond9_0 i) (hc1 : ¬cond9_1 i)
    (x0 : Vec F S2048x1024 .bf16) (x1 : Vec F S1024x1024 .bf16) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__binary_matmul_stats_kernel i arg3 harg3 arg4 harg4 arg5 harg5 arg6 harg6 arg7 harg7) K } := by
  refine ⟨?_, fun xi2 xi3 E K => ?run⟩
  case run =>
    simp only [cc9__binary_matmul_stats_kernel_eq_skeleton]; unfold cc9__binary_matmul_stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 1, 2. As k = 0, but the accumulator is read before it is written: it comes in at the contents `xs0` the point
    before left. -/
noncomputable def kernelRun9_B (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : ¬cond9_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .f32) (xi3 : Vec F S1x2x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__binary_matmul_stats_kernel i arg3 harg3 arg4 harg4 arg5 harg5 arg6 harg6 arg7 harg7) K } := by
  refine ⟨?_, fun xi2 xi3 E K => ?run⟩
  case run =>
    simp only [cc9__binary_matmul_stats_kernel_eq_skeleton]; unfold cc9__binary_matmul_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- k = 3. The outputs come in at anything and end with the body's stores written. -/
noncomputable def kernelRun9_C (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) :
    Σ' (L2 : List (View.Piece (Elt F) S2048x1024 .f32)) (L3 : List (View.Piece (Elt F) S1x2x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc9__binary_matmul_stats_kernel i arg3 harg3 arg4 harg4 arg5 harg5 arg6 harg6 arg7 harg7) K } := by
  refine ⟨?_, ?_, ?_, fun E K => ?run⟩
  case run =>
    simp only [cc9__binary_matmul_stats_kernel_eq_skeleton]; unfold cc9__binary_matmul_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.KernelIdeal.Hand

end
-- ==== Proof.IReg9.lean ====
/- Region 9, part 2: what the accumulator and the two output blocks hold after each grid point (by recursion on the
   point: at k = 0 the accumulator restarts from zero, otherwise it continues from the point before; the outputs are
   stored at k = 3 only), the proof data of the pipeline at given entry contents, and the body obligation.
   The invariant before a point holds the accumulator at what the point before left in it (at anything before the
   first point), every other scoped buffer unopened, and the generator register at some state. -/
import proofs.«139021_j54202487276022_2_alg».proof.Proof.IReg9Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What each case leaves -/

/-- k = 0: the accumulator's stores cover it. -/
theorem scover9_A_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond9_0 i) (hc1 : ¬cond9_1 i)
    (x0 : Vec F S2048x1024 .bf16) (x1 : Vec F S1024x1024 .bf16) (y : S2048x1024.Idx) :
    ∃ pc ∈ (kernelRun9_A c i arg3 harg3 arg4 harg4 arg5 harg5 arg6 harg6 arg7 harg7 hc0 hc1 x0 x1).1, y ∈ pc.1.set :=
  View.cover_of_tiledL (kernelRun9_A c i arg3 harg3 arg4 harg4 arg5 harg5 arg6 harg6 arg7 harg7 hc0 hc1 x0 x1).1 S2048x1024.size (by sl_kernel_rfl) y
/-- What k = 0 leaves in the accumulator. -/
def sout9_A_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond9_0 i) (hc1 : ¬cond9_1 i)
    (x0 : Vec F S2048x1024 .bf16) (x1 : Vec F S1024x1024 .bf16) : Vec F S2048x1024 .f32 :=
  VS9_0.read (Elt F) (VS9_0.writes (Elt F) VS9_0.junk (kernelRun9_A c i arg3 harg3 arg4 harg4 arg5 harg5 arg6 harg6 arg7 harg7 hc0 hc1 x0 x1).1)

/-- k = 1, 2: the accumulator's store covers it. -/
theorem scover9_B_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : ¬cond9_1 i)
    (x0 : Vec F S2048x1024 .bf16) (x1 : Vec F S1024x1024 .bf16) (xs0 : Vec F S2048x1024 .f32) (y : S2048x1024.Idx) :
    ∃ pc ∈ (kernelRun9_B c i arg3 harg3 arg4 harg4 arg5 harg5 arg6 harg6 arg7 harg7 hc0 hc1 x0 x1 xs0).1, y ∈ pc.1.set :=
  View.cover_of_tiledL (kernelRun9_B c i arg3 harg3 arg4 harg4 arg5 harg5 arg6 harg6 arg7 harg7 hc0 hc1 x0 x1 xs0).1 S2048x1024.size (by sl_kernel_rfl) y
/-- What k = 1, 2 leave in the accumulator. -/
def sout9_B_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : ¬cond9_1 i)
    (x0 : Vec F S2048x1024 .bf16) (x1 : Vec F S1024x1024 .bf16) (xs0 : Vec F S2048x1024 .f32) : Vec F S2048x1024 .f32 :=
  VS9_0.read (Elt F) (VS9_0.writes (Elt F) VS9_0.junk (kernelRun9_B c i arg3 harg3 arg4 harg4 arg5 harg5 arg6 harg6 arg7 harg7 hc0 hc1 x0 x1 xs0).1)

/-- k = 3: the z block's store covers it, -/
theorem cover9_C_2 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) (y : S2048x1024.Idx) :
    ∃ pc ∈ (kernelRun9_C c i arg3 harg3 arg4 harg4 arg5 harg5 arg6 harg6 arg7 harg7 hc0 hc1 x0 x1 xs0).1, y ∈ pc.1.set :=
  View.cover_of_tiledL (kernelRun9_C c i arg3 harg3 arg4 harg4 arg5 harg5 arg6 harg6 arg7 harg7 hc0 hc1 x0 x1 xs0).1 S2048x1024.size (by sl_kernel_rfl) y
/-- what it leaves there; -/
def out9_C_2 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) : Vec F S2048x1024 .f32 :=
  VO9_2.read (Elt F) (VO9_2.writes (Elt F) VO9_2.junk (kernelRun9_C c i arg3 harg3 arg4 harg4 arg5 harg5 arg6 harg6 arg7 harg7 hc0 hc1 x0 x1 xs0).1)
/-- the two row stores tile the statistics block, -/
theorem cover9_C_3 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) (y : S1x2x1024.Idx) :
    ∃ pc ∈ (kernelRun9_C c i arg3 harg3 arg4 harg4 arg5 harg5 arg6 harg6 arg7 harg7 hc0 hc1 x0 x1 xs0).2.1, y ∈ pc.1.set :=
  View.cover_of_tiledL (kernelRun9_C c i arg3 harg3 arg4 harg4 arg5 harg5 arg6 harg6 arg7 harg7 hc0 hc1 x0 x1 xs0).2.1 S1x1x1024.size (by sl_kernel_rfl) y
/-- what they leave there; -/
def out9_C_3 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) : Vec F S1x2x1024 .f32 :=
  VO9_3.read (Elt F) (VO9_3.writes (Elt F) VO9_3.junk (kernelRun9_C c i arg3 harg3 arg4 harg4 arg5 harg5 arg6 harg6 arg7 harg7 hc0 hc1 x0 x1 xs0).2.1)
/-- the accumulator's store covers it, -/
theorem scover9_C_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) (y : S2048x1024.Idx) :
    ∃ pc ∈ (kernelRun9_C c i arg3 harg3 arg4 harg4 arg5 harg5 arg6 harg6 arg7 harg7 hc0 hc1 x0 x1 xs0).2.2.1, y ∈ pc.1.set :=
  View.cover_of_tiledL (kernelRun9_C c i arg3 harg3 arg4 harg4 arg5 harg5 arg6 harg6 arg7 harg7 hc0 hc1 x0 x1 xs0).2.2.1 S2048x1024.size (by sl_kernel_rfl) y
/-- and what it leaves there. -/
def sout9_C_0 (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i)
    (x0 : Vec F S2048x1024 .bf16) (x1 : Vec F S1024x1024 .bf16) (xs0 : Vec F S2048x1024 .f32) : Vec F S2048x1024 .f32 :=
  VS9_0.read (Elt F) (VS9_0.writes (Elt F) VS9_0.junk (kernelRun9_C c i arg3 harg3 arg4 harg4 arg5 harg5 arg6 harg6 arg7 harg7 hc0 hc1 x0 x1 xs0).2.2.1)

/-! ## What the buffers hold after each point -/

/-- After the body at position `n`: the z block's buffer, the statistics block's buffer, the accumulator. Away from
    k = 3 the two output components are placeholders nothing consults (the windows are idle and not written back). -/
def outsAt9 (c : Dev nD) : (n : ℕ) → n < cfg9.N → Vec F S2048x1024 .f32 × Vec F S1x2x1024 .f32 × Vec F S2048x1024 .f32
  | 0, hn => (View.canon ([] : List (View.Piece (Elt F) S2048x1024 .f32)), View.canon ([] : List (View.Piece (Elt F) S1x2x1024 .f32)),
      sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩))
  | n + 1, hn =>
    if h0 : (n + 1) % 4 = 0 then
      (View.canon ([] : List (View.Piece (Elt F) S2048x1024 .f32)), View.canon ([] : List (View.Piece (Elt F) S1x2x1024 .f32)),
        sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => (fun h => by (try dsimp only at h); omega) ((hcond9_1 ⟨n + 1, hn⟩).mp h)) (iblk9 V c 0 ⟨n + 1, hn⟩) (iblk9 V c 1 ⟨n + 1, hn⟩))
    else
      if h1 : (n + 1) % 4 = 3 then
        (out9_C_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2.2,
         out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2.2,
         sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2.2)
      else
        (View.canon ([] : List (View.Piece (Elt F) S2048x1024 .f32)), View.canon ([] : List (View.Piece (Elt F) S1x2x1024 .f32)),
          sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (outsAt9 c n (Nat.lt_of_succ_lt hn)).2.2)

/-- At a point with k = 0. -/
theorem outsAt9_A (c : Dev nD) (t : Fin cfg9.N) (h0 : t.val % 4 = 0) (h1 : ¬t.val % 4 = 3) :
    outsAt9 V c t.val t.isLt = (View.canon ([] : List (View.Piece (Elt F) S2048x1024 .f32)), View.canon ([] : List (View.Piece (Elt F) S1x2x1024 .f32)),
      sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t)) := by
  obtain ⟨n, hn⟩ := t
  cases n with
  | zero => exact rfl
  | succ n => exact (dif_pos h0).trans rfl

/-- At a point with k = 1 or 2: over what the point before left. -/
theorem outsAt9_B (c : Dev nD) (t : Fin cfg9.N) (h0 : ¬t.val % 4 = 0) (h1 : ¬t.val % 4 = 3) :
    outsAt9 V c t.val t.isLt = (View.canon ([] : List (View.Piece (Elt F) S2048x1024 .f32)), View.canon ([] : List (View.Piece (Elt F) S1x2x1024 .f32)),
      sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt9_C (c : Dev nD) (t : Fin cfg9.N) (h0 : ¬t.val % 4 = 0) (h1 : t.val % 4 = 3) :
    outsAt9 V c t.val t.isLt =
      (out9_C_2 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2.2,
       out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2.2,
       sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Every scoped buffer that is neither a staging buffer of this call nor its accumulator, at some contents. -/
abbrev rest9 (c : Dev nD) : sProp 𝕄 := Pipeline.scopedRestBut (Ix := Unit) (Name := ℕ) (U := UR sig nD τ) (Lvl := ℕ) (Val := Elt F) spec9 c [cc9_scratch0]

/-- The call's scoped rest with the accumulator as a whole memref owned at some contents. -/
theorem scopedRest9_owns (c : Dev nD) :
    (Pipeline.scopedRest (Ix := Unit) (Name := ℕ) (U := UR sig nD τ) (Lvl := ℕ) (Val := Elt F) spec9 c : sProp 𝕄)
      = iprop(iprop((∃ d, owns (c : Thread nD τ) scM9_0 fullShare d)) ∗ rest9 (F := F) c) := by
  rw [scopedRest9_split]; simp only [scM9_0, owns_whole]; rfl

/-- Before position `n`: the accumulator at what the point before left (at anything before the first point), the other
    scoped buffers unopened, the generator register at some state. -/
def PhiS9 (c : Dev nD) : (n : ℕ) → n ≤ cfg9.N → sProp 𝕄
  | 0, _ => iprop(iprop((∃ d, owns (c : Thread nD τ) scM9_0 fullShare d)) ∗ rest9 (F := F) c ∗ (∃ r, prngReg c r))
  | n + 1, hn => iprop(iprop(owns (c : Thread nD τ) scM9_0 fullShare ((outsAt9 V c n hn).2.2)) ∗ rest9 (F := F) c ∗ (∃ r, prngReg c r))

theorem PhiS9_zero (c : Dev nD) (n : ℕ) (h : n ≤ cfg9.N) (hz : n = 0) :
    PhiS9 V c n h = iprop(iprop((∃ d, owns (c : Thread nD τ) scM9_0 fullShare d)) ∗ rest9 (F := F) c ∗ (∃ r, prngReg c r)) := by
  subst hz; rfl
theorem PhiS9_succ (c : Dev nD) (n : ℕ) (hn : n < cfg9.N) :
    PhiS9 V c (n + 1) hn = iprop(iprop(owns (c : Thread nD τ) scM9_0 fullShare ((outsAt9 V c n hn).2.2)) ∗ rest9 (F := F) c ∗ (∃ r, prngReg c r)) := rfl
theorem PhiS9_pos (c : Dev nD) (n : ℕ) (h : n ≤ cfg9.N) (hz : n ≠ 0) :
    PhiS9 V c n h = iprop(iprop(owns (c : Thread nD τ) scM9_0 fullShare ((outsAt9 V c (n - 1) (by omega)).2.2)) ∗ rest9 (F := F) c ∗ (∃ r, prngReg c r)) := by
  cases n with
  | zero => exact absurd rfl hz
  | succ n => rfl

/-! ## The pipeline's proof data -/

/-- The proof data of pipeline 9 on core `c` at the entry contents `V`. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
    | ⟨3, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem after9_3 (c : Dev nD) (t : Fin cfg9.N) : (dat9 V c).after 3 t = (outsAt9 V c t.val t.isLt).2.1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

theorem q_eq9 (c : Dev nD) : (dat9 V c).q = fun _ => fullShare := rfl
theorem owed_eq9 (c : Dev nD) : (dat9 V c).owed = fun _ => 0 := rfl

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' memrefs hold their blocks; the closed forms say which case the point is in; the
    invariant hands the body the accumulator at what the point before left and takes it back at this point's. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  by_cases h1 : t.val % 4 = 3
  · have h0 : ¬t.val % 4 = 0 := by omega
    have hz : t.val ≠ 0 := by omega
    rw [show (dat9 V c).leavesExact 2 t = owns (c : Thread nD τ) (ms9_2 t) fullShare ((dat9 V c).after 2 t) from by
      unfold Dat.leavesExact; rw [liveAt9_2 t ((hcond9_1 t).mpr h1)], after9_2]
    rw [show (dat9 V c).leavesExact 3 t = owns (c : Thread nD τ) (ms9_3 t) fullShare ((dat9 V c).after 3 t) from by
      unfold Dat.leavesExact; rw [liveAt9_3 t ((hcond9_1 t).mpr h1)], after9_3]
    rw [outsAt9_C V c t h0 h1]
    unfold out9_C_2 out9_C_3 sout9_C_0; (try dsimp only)
    rw [PhiS9_castSucc V c t, PhiS9_pos V c _ _ hz]
    iintro ⟨⟨HS0, Hr, Hg⟩, Ho, ⟨%d0, H0⟩, ⟨%d1, H1⟩, ⟨%d2, H2⟩, ⟨%d3, H3⟩⟩
    iapply ((kernelRun9_C c (grid9.coords t) _ _ _ _ _ _ _ _ _ _ (fun h => h0 ((hcond9_0 t).mp h)) ((hcond9_1 t).mpr h1) (iblk9 V c 0 t) (iblk9 V c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover9_C_0 c _ _ _ _ _ _ _ _ _ _ _ _ _ _ _ _)
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover9_C_2 c _ _ _ _ _ _ _ _ _ _ _ _ _ _ _ _)
    unfold owns; iexists _; isplitr
    swap; · iexact H3
    ipureintro; exact View.read_writes_of_cover _ _ _ _ _ (cover9_C_3 c _ _ _ _ _ _ _ _ _ _ _ _ _ _ _ _)
  · rw [Dat.leavesExact_idle (dat9 V c) 2 t (idleAt9_2 t (fun h => h1 ((hcond9_1 t).mp h))) (noFlush9_2 t (fun h => h1 ((hcond9_1 t).mp h)))]
    rw [Dat.leavesExact_idle (dat9 V c) 3 t (idleAt9_3 t (fun h => h1 ((hcond9_1 t).mp h))) (noFlush9_3 t (fun h => h1 ((hcond9_1 t).mp h)))]
    by_cases h0 : t.val % 4 = 0
    · rw [outsAt9_A V c t h0 h1]
      unfold sout9_A_0; (try dsimp only)
      by_cases hz : t.val = 0
      · rw [PhiS9_castSucc V c t, PhiS9_zero V c _ _ hz]
        iintro ⟨⟨HS0, Hr, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t)).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover9_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
      · rw [PhiS9_castSucc V c t, PhiS9_pos V c _ _ hz]
        iintro ⟨⟨HS0, Hr, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t)).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0]
          · unfold owns; iexists _; isplitr
            swap; · iexact HS0
            ipureintro; exact View.read_writes_of_cover _ _ _ _ _ (scover9_A_0 c _ _ _ _ _ _ _ _ _ _ _ _ _ _ _)
          isplitl [Hr]; · iexact Hr
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [outsAt9_B V c t h0 h1]
      unfold sout9_B_0; (try dsimp only)
      rw [PhiS9_castSucc V c t, PhiS9_pos V c _ _ hz]
      iintro ⟨⟨HS0, Hr, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover9_B_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the region is entered with — the generator register at some state and the call's scoped rest — is the
    invariant before the first point: the accumulator is among the scoped rest, at some contents. -/
theorem hin9 (c : Dev nD) :
    iprop((∃ r, prngReg c r) ∗ (Pipeline.scopedRest (Ix := Unit) (Name := ℕ) (U := UR sig nD τ) (Lvl := ℕ) (Val := Elt F) spec9 c : sProp 𝕄)) ⊢ (dat9 V c).Φ 0 := by
  rw [show (dat9 V c).Φ 0 = PhiS9 V c 0 (Nat.zero_le _) from rfl, PhiS9_zero V c 0 _ rfl, scopedRest9_owns]
  iintro ⟨Hg, HS0, Hr⟩
  isplitl [HS0]; · iexact HS0
  isplitl [Hr]; · iexact Hr
  iexact Hg

/-- After the last point the invariant gives both back: the accumulator's contents are forgotten. -/
theorem hout9 (c : Dev nD) :
    (dat9 V c).Φ (Fin.last cfg9.N) ⊢ iprop((∃ r, prngReg c r) ∗ (Pipeline.scopedRest (Ix := Unit) (Name := ℕ) (U := UR sig nD τ) (Lvl := ℕ) (Val := Elt F) spec9 c : sProp 𝕄)) := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 64 := N_9; omega), scopedRest9_owns]
  iintro ⟨HS0, Hr, Hg⟩
  isplitl [Hg]; · iexact Hg
  isplitl [HS0]; · iexists _; iexact HS0
  iexact Hr

end Region

end Cert.KernelIdeal.Hand

end
-- ==== Proof.IReg10.lean ====
/- Region 10 of @main (one of the three normalize-and-sign kernels): the class-A half of its frame, at any float instance.
   The body loads the whole 1024x1024 block of pre-activations and the four 1x1024 rows (mean, variance, scale,
   shift) of its column block, computes scale * (z - mean) * rsqrt (variance + eps) + shift entry by entry, applies
   the sign function, and stores the whole 1024x1024 output block once; no value is carried from one grid point to
   the next. Everything here is stated at a parameter V, the TensorCore's buffer contents when the region is entered. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of 1024 entries recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each input window's current staging buffer holds its block at every point, for any proof data whose array is V's
    and whose body leaves the block in place: the window is fetched whole and is never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The whole 1024x1024 block: the rectangle the pre-activations are loaded through and the output stored through. -/
abbrev r10_0 : Rect S1024x1024 := Rect.unit (s := S1024x1024) ![0, 0] S1024x1024.size inb_S1024x1024_S1024x1024_0_0
/-- The whole 1x1024 row: the rectangle each of the four per-column rows is loaded through. -/
abbrev r10_1 : Rect S1x1024 := Rect.unit (s := S1x1024) ![0, 0] S1x1024.size inb_S1x1024_S1x1024_0_0

/-! ## What the body leaves in the output window's buffer -/

/-- The output staging buffer after the body, from the five input blocks: one store of the whole block, whose
    value is the normalize-and-sign payload of the loaded blocks. -/
def out10_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r10_0, k10_pay1 (View.ld x0 r10_0) (View.ld x1 r10_1) (View.ld x2 r10_1) (View.ld x3 r10_1) (View.ld x4 r10_1)⟩]

/-- The one store covers the buffer. -/
theorem cover10_5 (p0 : Vec F S1024x1024 .bf16) (y : S1024x1024.Idx) :
    ∃ pc ∈ ([⟨r10_0, p0⟩] : List (View.Piece (Elt F) S1024x1024 .bf16)), y ∈ pc.1.set :=
  View.cover_of_tiled [⟨r10_0, p0⟩] S1024x1024.size (by rfl) y

/-! ## The body's triple -/

set_option maxHeartbeats 1000000 in
/-- The kernel body on whole staging memrefs, the inputs' at contents x0 .. x4 and the output's at anything, runs to
    the continuation holding the inputs' as they were and the output's at out10_5 of the inputs'. -/
theorem sound_kernel10 (c : Dev nD) (E : Set ℕ) (i : grid10.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out10_5 x0 x1 x2 x3 x4)) -∗ K ⟨⟩))
      ⊢ wp frame (wpE (defs₀ (F := F)) Variants.none c none) E (cc10__bn_activate_kernel i arg2 harg2 arg3 harg3 arg4 harg4 arg5 harg5 arg6 harg6 arg7 harg7) K := by
  simp only [cc10__bn_activate_kernel_eq_skeleton]; unfold cc10__bn_activate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of the region on core c: the arrays as the region finds them; after the body at point t each
    input's buffer at its block and the output's at out10_5 of the input blocks; the invariant is the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

theorem q_eq10 (c : Dev nD) (w : Fin cfg10.W) : (dat10 V c).q w = fullShare := rfl
theorem owed_eq10 (c : Dev nD) (j) : (dat10 V c).owed j = 0 := rfl

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so the triple applies; the invariant and the
    core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's two ends -/

/-- Entering: the generator register and the scoped rest make the invariant at the first point. -/
theorem hin10 (c : Dev nD) : iprop((∃ r, prngReg c r) ∗ Pipeline.scopedRest spec10 c) ⊢ (dat10 V c).Φ 0 := by
  rw [show (dat10 V c).Φ 0 = Pipeline.ΦA spec10 c from rfl]; unfold Pipeline.ΦA
  iintro ⟨Hp, Hr⟩
  isplitl [Hr]; · iexact Hr
  iexact Hp

/-- Leaving: the invariant at the last point gives them back. -/
theorem hout10 (c : Dev nD) : (dat10 V c).Φ (Fin.last cfg10.N) ⊢ iprop((∃ r, prngReg c r) ∗ Pipeline.scopedRest spec10 c) := by
  rw [show (dat10 V c).Φ (Fin.last _) = Pipeline.ΦA spec10 c from rfl]; unfold Pipeline.ΦA
  iintro ⟨Hr, Hp⟩
  isplitl [Hp]; · iexact Hp
  iexact Hr

end Cert.KernelIdeal.Hand

end
-- ==== Proof.IReg11Runs.lean ====
/- Region 11 (the last matmul), part 1: the grid is 16 x 1 x 1, so the innermost coordinate is 0 at every point and
   both of the body's conditions hold everywhere: the accumulator is zeroed, the product of the two input blocks is
   added, and the accumulator is copied to the output block, all at one point. The body run on whole staging memrefs. -/
import proofs.«139021_j54202487276022_2_alg».proof.Proof.Gen.KernelIdeal.Launch
import proofs.«139021_j54202487276022_2_alg».proof.Proof.Gen.KernelIdeal.Skeleton
import proofs.«139021_j54202487276022_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions: both hold at every point -/

abbrev cond11_0 (i : grid11.Coords) : Prop := (Scalar.cmpi .ne (Scalar.extui (Scalar.cmpi .eq (BitVec.ofNat 32 (i 2).val) 0#32)) 0#32) = 1#1
theorem hcond11_0 : ∀ t : Fin cfg11.N, cond11_0 (grid11.coords t) :=
  (by decide +kernel : ∀ t : Fin grid11.N, cond11_0 (grid11.coords t))
abbrev cond11_1 (i : grid11.Coords) : Prop := k11_cond2 i = 1#1
theorem hcond11_1 : ∀ t : Fin cfg11.N, cond11_1 (grid11.coords t) :=
  (by decide +kernel : ∀ t : Fin grid11.N, cond11_1 (grid11.coords t))

/-- No window is idle anywhere. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel

/-! ## The memrefs the body is called with -/

abbrev VO11_2 : View sig .tc .vmem S512x1024 .f32 := (Memref.whole cc11_stg2_0 : Memref sig .tc .vmem S512x1024 .f32).view
abbrev ms11_0 (t : Fin cfg11.N) : Memref sig .tc .vmem S512x4096 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x4096 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S512x1024 .f32 := win11_2.stage (cfg11.slots t 2)
abbrev hs11_2 (t : Fin cfg11.N) : (ms11_2 t).IsWhole := hstage11_2 ((cfg11.slots t 2).cast nbuf11_2)
abbrev scM11_0 : Memref sig .tc .vmem S512x1024 .f32 := Memref.whole cc11_scratch0

/-! ## The body -/

set_option maxHeartbeats 1000000 in
/-- The inputs at their blocks, the output and the accumulator at anything: the body ends with the output's store
    written (the list is what the run finds) and the accumulator at some contents. -/
noncomputable def kernelRun11 (c : Dev nD) (i : grid11.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (hc0 : cond11_0 i) (hc1 : cond11_1 i)
    (x0 : Vec F S512x4096 .bf16) (x1 : Vec F S1024x4096 .bf16) :
    { L2 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ d, owns (c : Thread nD τ) arg6 fullShare d)) -∗ K ⟨⟩))
          ⊢ wp frame (wpE (defs₀ (F := F)) Variants.none c none) E (cc11__binary_matmul_kernel i arg3 harg3 arg4 harg4 arg5 harg5 arg6 harg6) K } := by
  refine ⟨?_, fun E K => ?run⟩
  case run =>
    simp only [cc11__binary_matmul_kernel_eq_skeleton]; unfold cc11__binary_matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexists _; isplitr
    swap; · iexact HS0
    ipureintro; rfl

end Cert.KernelIdeal.Hand

end
-- ==== Proof.IReg11.lean ====
/- Region 11, part 2: what the output block holds after the body at a point, the proof data of the pipeline at given
   entry contents, and the body obligation. The accumulator is written before it is read at every point, so the
   invariant holds it at some contents, beside every other scoped buffer unopened and the generator register. -/
import proofs.«139021_j54202487276022_2_alg».proof.Proof.IReg11Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (the second input's
    block index never moves: it is fetched once). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## What the body leaves in the output block -/

/-- The output's store covers its block, -/
theorem cover11_2 (c : Dev nD) (i : grid11.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (hc0 : cond11_0 i) (hc1 : cond11_1 i)
    (x0 : Vec F S512x4096 .bf16) (x1 : Vec F S1024x4096 .bf16) (y : S512x1024.Idx) :
    ∃ pc ∈ (kernelRun11 c i arg3 harg3 arg4 harg4 arg5 harg5 arg6 harg6 hc0 hc1 x0 x1).1, y ∈ pc.1.set :=
  View.cover_of_tiledL (kernelRun11 c i arg3 harg3 arg4 harg4 arg5 harg5 arg6 harg6 hc0 hc1 x0 x1).1 S512x1024.size (by sl_kernel_rfl) y
/-- and what it leaves there. -/
def out11_2 (c : Dev nD) (i : grid11.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (hc0 : cond11_0 i) (hc1 : cond11_1 i)
    (x0 : Vec F S512x4096 .bf16) (x1 : Vec F S1024x4096 .bf16) : Vec F S512x1024 .f32 :=
  VO11_2.read (Elt F) (VO11_2.writes (Elt F) VO11_2.junk (kernelRun11 c i arg3 harg3 arg4 harg4 arg5 harg5 arg6 harg6 hc0 hc1 x0 x1).1)

/-- The output block after the body at point `t`. -/
def outAt11 (c : Dev nD) (t : Fin cfg11.N) : Vec F S512x1024 .f32 :=
  out11_2 c (grid11.coords t) (ms11_0 t) (hs11_0 t) (ms11_1 t) (hs11_1 t) (ms11_2 t) (hs11_2 t) scM11_0 (Memref.isWhole_whole _) (hcond11_0 t) (hcond11_1 t) (iblk11 V c 0 t) (iblk11 V c 1 t)

/-! ## The invariant -/

/-- Every scoped buffer that is neither a staging buffer of this call nor its accumulator, at some contents. -/
abbrev rest11 (c : Dev nD) : sProp 𝕄 := Pipeline.scopedRestBut (Ix := Unit) (Name := ℕ) (U := UR sig nD τ) (Lvl := ℕ) (Val := Elt F) spec11 c [cc11_scratch0]

/-- The call's scoped rest with the accumulator as a whole memref owned at some contents. -/
theorem scopedRest11_owns (c : Dev nD) :
    (Pipeline.scopedRest (Ix := Unit) (Name := ℕ) (U := UR sig nD τ) (Lvl := ℕ) (Val := Elt F) spec11 c : sProp 𝕄)
      = iprop(iprop((∃ d, owns (c : Thread nD τ) scM11_0 fullShare d)) ∗ rest11 (F := F) c) := by
  rw [scopedRest11_split]; simp only [scM11_0, owns_whole]; rfl

/-- The accumulator at some contents, the other scoped buffers unopened, the generator register at some state. -/
def Phi11 (c : Dev nD) : sProp 𝕄 :=
  iprop(iprop((∃ d, owns (c : Thread nD τ) scM11_0 fullShare d)) ∗ rest11 (F := F) c ∗ (∃ r, prngReg c r))

/-! ## The pipeline's proof data -/

/-- The proof data of pipeline 11 on core `c` at the entry contents `V`. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => outAt11 V c t
  Φ _ := Phi11 (F := F) c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = outAt11 V c t := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

theorem q_eq11 (c : Dev nD) : (dat11 V c).q = fun _ => fullShare := rfl
theorem owed_eq11 (c : Dev nD) : (dat11 V c).owed = fun _ => 0 := rfl

/-! ## The body obligation -/

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point: the inputs' memrefs hold their blocks, both conditions hold, and the run applies; the
    invariant lends the accumulator and takes it back at whatever the body left. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = Phi11 (F := F) c from rfl, show (dat11 V c).Φ t.castSucc = Phi11 (F := F) c from rfl]
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  unfold outAt11 out11_2 Phi11
  iintro ⟨⟨HS0, Hr, Hg⟩, Ho, ⟨%d0, H0⟩, ⟨%d1, H1⟩, ⟨%d2, H2⟩⟩
  iapply ((kernelRun11 c (grid11.coords t) _ _ _ _ _ _ _ _ (hcond11_0 t) (hcond11_1 t) (iblk11 V c 0 t) (iblk11 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hr Hg]
  · isplitl [HS0]; · iexact HS0
    isplitl [Hr]; · iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover11_2 c _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the region is entered with — the generator register at some state and the call's scoped rest — is the
    invariant: the accumulator is among the scoped rest, at some contents. -/
theorem hin11 (c : Dev nD) :
    iprop((∃ r, prngReg c r) ∗ (Pipeline.scopedRest (Ix := Unit) (Name := ℕ) (U := UR sig nD τ) (Lvl := ℕ) (Val := Elt F) spec11 c : sProp 𝕄)) ⊢ (dat11 V c).Φ 0 := by
  rw [show (dat11 V c).Φ 0 = Phi11 (F := F) c from rfl, scopedRest11_owns]; unfold Phi11
  iintro ⟨Hg, HS0, Hr⟩
  isplitl [HS0]; · iexact HS0
  isplitl [Hr]; · iexact Hr
  iexact Hg

/-- And the invariant gives both back. -/
theorem hout11 (c : Dev nD) :
    (dat11 V c).Φ (Fin.last cfg11.N) ⊢ iprop((∃ r, prngReg c r) ∗ (Pipeline.scopedRest (Ix := Unit) (Name := ℕ) (U := UR sig nD τ) (Lvl := ℕ) (Val := Elt F) spec11 c : sProp 𝕄)) := by
  rw [show (dat11 V c).Φ (Fin.last cfg11.N) = Phi11 (F := F) c from rfl, scopedRest11_owns]; unfold Phi11
  iintro ⟨HS0, Hr, Hg⟩
  isplitl [Hg]; · iexact Hg
  isplitl [HS0]; · iexact HS0
  iexact Hr

end Region

end Cert.KernelIdeal.Hand

end
-- ==== Proof.IRunFold.lean ====
/- The run of @main, first part: the contents of every TensorCore buffer at each boundary between two items of
   @main, as a fold from the launch memory. @main is eighteen items: twelve kernel regions and six stretches of host
   operations. A host stretch takes the contents to what its operations compute from them; a region takes each of its
   windows' arrays to what its write-backs leave and every other buffer to itself. Each step comes with a frame
   lemma (a buffer the step does not write keeps its contents), so that any buffer can be walked back through the
   fold; the eleven argument arrays walk back to the launch memory. Stated at any float instance. -/
import proofs.«139021_j54202487276022_2_alg».proof.Proof.Gen.KernelIdeal.Regions
import proofs.«139021_j54202487276022_2_alg».proof.Proof.IReg0
import proofs.«139021_j54202487276022_2_alg».proof.Proof.IReg1
import proofs.«139021_j54202487276022_2_alg».proof.Proof.IReg2
import proofs.«139021_j54202487276022_2_alg».proof.Proof.IReg3
import proofs.«139021_j54202487276022_2_alg».proof.Proof.IReg4
import proofs.«139021_j54202487276022_2_alg».proof.Proof.IReg5
import proofs.«139021_j54202487276022_2_alg».proof.Proof.IReg6
import proofs.«139021_j54202487276022_2_alg».proof.Proof.IReg7
import proofs.«139021_j54202487276022_2_alg».proof.Proof.IReg8
import proofs.«139021_j54202487276022_2_alg».proof.Proof.IReg9
import proofs.«139021_j54202487276022_2_alg».proof.Proof.IReg10
import proofs.«139021_j54202487276022_2_alg».proof.Proof.IReg11
import Idealize.ShloMosaic.Lib.Pipeline.RegionsLoop
import Idealize.ShloMosaic.Lib.Pipeline.FrameSuffix

-- deciding membership among the 188 buffer references recurses past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit (item 0): its windows' arrays at what the pipeline leaves (an input as entered, an output with
    its write-backs folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the exit each array of the region holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- A buffer that is no output array of region 0 keeps its contents: an input window's array is never written,
    and a buffer no window names bypasses the region. -/
theorem W1_of (c : Dev nD) (b : Ref sig .tc) (h : b ∉ ([main_v0] : List (Ref sig .tc))) :
    W1 m ρ c (Proc.devRef .tc b) = W0 m ρ c (Proc.devRef .tc b) := by
  by_cases hb : ∀ w, Pipeline.arrRef spec0 w ≠ b
  · exact W1_of_ne m ρ c b hb
  · obtain ⟨w, rfl⟩ := not_forall_not.mp hb
    match w with
    | ⟨0, _⟩ => exact (W1_arr m ρ c 0).trans (((dat0 (V0 m ρ) c).arrAt_in 0 rfl _).trans (A_eq0 (V0 m ρ) c 0))
    | ⟨1, _⟩ => exact absurd (show (main_v0 : Ref sig .tc) ∈ ([main_v0] : List (Ref sig .tc)) from by decide) h

/-- At region 1's exit (item 1): its windows' arrays at what the pipeline leaves (an input as entered, an output with
    its write-backs folded in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At the exit each array of the region holds what the pipeline leaves, and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- A buffer that is no output array of region 1 keeps its contents: an input window's array is never written,
    and a buffer no window names bypasses the region. -/
theorem W2_of (c : Dev nD) (b : Ref sig .tc) (h : b ∉ ([main_v1] : List (Ref sig .tc))) :
    W2 m ρ c (Proc.devRef .tc b) = W1 m ρ c (Proc.devRef .tc b) := by
  by_cases hb : ∀ w, Pipeline.arrRef spec1 w ≠ b
  · exact W2_of_ne m ρ c b hb
  · obtain ⟨w, rfl⟩ := not_forall_not.mp hb
    match w with
    | ⟨0, _⟩ => exact (W2_arr m ρ c 0).trans (((dat1 (V1 m ρ) c).arrAt_in 0 rfl _).trans (A_eq1 (V1 m ρ) c 0))
    | ⟨1, _⟩ => exact absurd (show (main_v1 : Ref sig .tc) ∈ ([main_v1] : List (Ref sig .tc)) from by decide) h

/-- At region 2's exit (item 2): its windows' arrays at what the pipeline leaves (an input as entered, an output with
    its write-backs folded in), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At the exit each array of the region holds what the pipeline leaves, and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- A buffer that is no output array of region 2 keeps its contents: an input window's array is never written,
    and a buffer no window names bypasses the region. -/
theorem W3_of (c : Dev nD) (b : Ref sig .tc) (h : b ∉ ([main_v2] : List (Ref sig .tc))) :
    W3 m ρ c (Proc.devRef .tc b) = W2 m ρ c (Proc.devRef .tc b) := by
  by_cases hb : ∀ w, Pipeline.arrRef spec2 w ≠ b
  · exact W3_of_ne m ρ c b hb
  · obtain ⟨w, rfl⟩ := not_forall_not.mp hb
    match w with
    | ⟨0, _⟩ => exact (W3_arr m ρ c 0).trans (((dat2 (V2 m ρ) c).arrAt_in 0 rfl _).trans (A_eq2 (V2 m ρ) c 0))
    | ⟨1, _⟩ => exact absurd (show (main_v2 : Ref sig .tc) ∈ ([main_v2] : List (Ref sig .tc)) from by decide) h

/-- At region 3's exit (item 3): its windows' arrays at what the pipeline leaves (an input as entered, an output with
    its write-backs folded in), every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
/-- At the exit each array of the region holds what the pipeline leaves, and every other buffer what it held at entry. -/
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- A buffer that is no output array of region 3 keeps its contents: an input window's array is never written,
    and a buffer no window names bypasses the region. -/
theorem W4_of (c : Dev nD) (b : Ref sig .tc) (h : b ∉ ([main_v3] : List (Ref sig .tc))) :
    W4 m ρ c (Proc.devRef .tc b) = W3 m ρ c (Proc.devRef .tc b) := by
  by_cases hb : ∀ w, Pipeline.arrRef spec3 w ≠ b
  · exact W4_of_ne m ρ c b hb
  · obtain ⟨w, rfl⟩ := not_forall_not.mp hb
    match w with
    | ⟨0, _⟩ => exact (W4_arr m ρ c 0).trans (((dat3 (V3 m ρ) c).arrAt_in 0 rfl _).trans (A_eq3 (V3 m ρ) c 0))
    | ⟨1, _⟩ => exact absurd (show (main_v3 : Ref sig .tc) ∈ ([main_v3] : List (Ref sig .tc)) from by decide) h

/-- After the host stretch hostOps4 (item 4). -/
abbrev W5 : Dev nD → Valuation τ sig (Elt F) := fun c => StableHlo.after hostOps4 (W4 m ρ c)
/-- The same read at the TensorCore's references. -/
abbrev V5 : (c : Dev nD) → (b : Ref sig .tc) → Buf (Elt F) ((c : Thread nD τ).loc b) := fun c b => W5 m ρ c b
/-- A buffer the stretch does not write keeps its contents. -/
theorem W5_of (c : Dev nD) (b : Ref sig .tc) (h : b ∉ hostOps4_W) :
    W5 m ρ c (Proc.devRef .tc b) = W4 m ρ c (Proc.devRef .tc b) :=
  StableHlo.after_of_writes_sub hostOps4 _ hostOps4_writes h

/-- After the host stretch hostOps4_1 (item 5). -/
abbrev W6 : Dev nD → Valuation τ sig (Elt F) := fun c => StableHlo.after hostOps4_1 (W5 m ρ c)
/-- The same read at the TensorCore's references. -/
abbrev V6 : (c : Dev nD) → (b : Ref sig .tc) → Buf (Elt F) ((c : Thread nD τ).loc b) := fun c b => W6 m ρ c b
/-- A buffer the stretch does not write keeps its contents. -/
theorem W6_of (c : Dev nD) (b : Ref sig .tc) (h : b ∉ hostOps4_1_W) :
    W6 m ρ c (Proc.devRef .tc b) = W5 m ρ c (Proc.devRef .tc b) :=
  StableHlo.after_of_writes_sub hostOps4_1 _ hostOps4_1_writes h

/-- At region 4's exit (item 6): its windows' arrays at what the pipeline leaves (an input as entered, an output with
    its write-backs folded in), every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- The same read at the TensorCore's references. -/
abbrev V7 : (c : Dev nD) → (b : Ref sig .tc) → Buf (Elt F) ((c : Thread nD τ).loc b) := fun c b => W7 m ρ c b
/-- At the exit each array of the region holds what the pipeline leaves, and every other buffer what it held at entry. -/
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)
/-- A buffer that is no output array of region 4 keeps its contents: an input window's array is never written,
    and a buffer no window names bypasses the region. -/
theorem W7_of (c : Dev nD) (b : Ref sig .tc) (h : b ∉ ([main_v5] : List (Ref sig .tc))) :
    W7 m ρ c (Proc.devRef .tc b) = W6 m ρ c (Proc.devRef .tc b) := by
  by_cases hb : ∀ w, Pipeline.arrRef spec4 w ≠ b
  · exact W7_of_ne m ρ c b hb
  · obtain ⟨w, rfl⟩ := not_forall_not.mp hb
    match w with
    | ⟨0, _⟩ => exact (W7_arr m ρ c 0).trans (((dat4 (V6 m ρ) c).arrAt_in 0 rfl _).trans (A_eq4 (V6 m ρ) c 0))
    | ⟨1, _⟩ => exact absurd (show (main_v5 : Ref sig .tc) ∈ ([main_v5] : List (Ref sig .tc)) from by decide) h

/-- At region 5's exit (item 7): its windows' arrays at what the pipeline leaves (an input as entered, an output with
    its write-backs folded in), every other buffer as entered. -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- The same read at the TensorCore's references. -/
abbrev V8 : (c : Dev nD) → (b : Ref sig .tc) → Buf (Elt F) ((c : Thread nD τ).loc b) := fun c b => W8 m ρ c b
/-- At the exit each array of the region holds what the pipeline leaves, and every other buffer what it held at entry. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
/-- A buffer that is no output array of region 5 keeps its contents: an input window's array is never written,
    and a buffer no window names bypasses the region. -/
theorem W8_of (c : Dev nD) (b : Ref sig .tc) (h : b ∉ ([main_v6_0, main_v6_1] : List (Ref sig .tc))) :
    W8 m ρ c (Proc.devRef .tc b) = W7 m ρ c (Proc.devRef .tc b) := by
  by_cases hb : ∀ w, Pipeline.arrRef spec5 w ≠ b
  · exact W8_of_ne m ρ c b hb
  · obtain ⟨w, rfl⟩ := not_forall_not.mp hb
    match w with
    | ⟨0, _⟩ => exact (W8_arr m ρ c 0).trans (((dat5 (V7 m ρ) c).arrAt_in 0 rfl _).trans (A_eq5 (V7 m ρ) c 0))
    | ⟨1, _⟩ => exact (W8_arr m ρ c 1).trans (((dat5 (V7 m ρ) c).arrAt_in 1 rfl _).trans (A_eq5 (V7 m ρ) c 1))
    | ⟨2, _⟩ => exact absurd (show (main_v6_0 : Ref sig .tc) ∈ ([main_v6_0, main_v6_1] : List (Ref sig .tc)) from by decide) h
    | ⟨3, _⟩ => exact absurd (show (main_v6_1 : Ref sig .tc) ∈ ([main_v6_0, main_v6_1] : List (Ref sig .tc)) from by decide) h

/-- After the host stretch hostOps6 (item 8). -/
abbrev W9 : Dev nD → Valuation τ sig (Elt F) := fun c => StableHlo.after hostOps6 (W8 m ρ c)
/-- The same read at the TensorCore's references. -/
abbrev V9 : (c : Dev nD) → (b : Ref sig .tc) → Buf (Elt F) ((c : Thread nD τ).loc b) := fun c b => W9 m ρ c b
/-- A buffer the stretch does not write keeps its contents. -/
theorem W9_of (c : Dev nD) (b : Ref sig .tc) (h : b ∉ hostOps6_W) :
    W9 m ρ c (Proc.devRef .tc b) = W8 m ρ c (Proc.devRef .tc b) :=
  StableHlo.after_of_writes_sub hostOps6 _ hostOps6_writes h

/-- At region 6's exit (item 9): its windows' arrays at what the pipeline leaves (an input as entered, an output with
    its write-backs folded in), every other buffer as entered. -/
def W10 (c : Dev nD) : Valuation τ sig (Elt F) :=
  Pipeline.withArrays spec6 c (W9 m ρ c) fun w => (dat6 (V9 m ρ) c).arrAt w cfg6.N
theorem W10_arr (c : Dev nD) (w : Fin cfg6.W) :
    W10 m ρ c (Proc.devRef .tc (Pipeline.arrRef spec6 w)) = (dat6 (V9 m ρ) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m ρ c (Proc.devRef .tc b) = W9 m ρ c (Proc.devRef .tc b) := by
  unfold W10; exact Pipeline.withArrays_of_ne spec6 c _ _ b hb
/-- The same read at the TensorCore's references. -/
abbrev V10 : (c : Dev nD) → (b : Ref sig .tc) → Buf (Elt F) ((c : Thread nD τ).loc b) := fun c b => W10 m ρ c b
/-- At the exit each array of the region holds what the pipeline leaves, and every other buffer what it held at entry. -/
theorem hF6 (c : Dev nD) (w : Fin cfg6.W) : (dat6 (V9 m ρ) c).arrAt w cfg6.N = V10 m ρ c (Pipeline.arrRef spec6 w) :=
  (W10_arr m ρ c w).symm
theorem hrest6 (c : Dev nD) : ∀ b, b ∉ Finset.univ.image (Pipeline.arrRef spec6) → V10 m ρ c b = V9 m ρ c b :=
  fun b hb => W10_of_ne m ρ c b fun w e => hb (Finset.mem_image.mpr ⟨w, Finset.mem_univ _, e⟩)
/-- A buffer that is no output array of region 6 keeps its contents: an input window's array is never written,
    and a buffer no window names bypasses the region. -/
theorem W10_of (c : Dev nD) (b : Ref sig .tc) (h : b ∉ ([main_v25] : List (Ref sig .tc))) :
    W10 m ρ c (Proc.devRef .tc b) = W9 m ρ c (Proc.devRef .tc b) := by
  by_cases hb : ∀ w, Pipeline.arrRef spec6 w ≠ b
  · exact W10_of_ne m ρ c b hb
  · obtain ⟨w, rfl⟩ := not_forall_not.mp hb
    match w with
    | ⟨0, _⟩ => exact (W10_arr m ρ c 0).trans (((dat6 (V9 m ρ) c).arrAt_in 0 rfl _).trans (A_eq6 (V9 m ρ) c 0))
    | ⟨1, _⟩ => exact (W10_arr m ρ c 1).trans (((dat6 (V9 m ρ) c).arrAt_in 1 rfl _).trans (A_eq6 (V9 m ρ) c 1))
    | ⟨2, _⟩ => exact (W10_arr m ρ c 2).trans (((dat6 (V9 m ρ) c).arrAt_in 2 rfl _).trans (A_eq6 (V9 m ρ) c 2))
    | ⟨3, _⟩ => exact (W10_arr m ρ c 3).trans (((dat6 (V9 m ρ) c).arrAt_in 3 rfl _).trans (A_eq6 (V9 m ρ) c 3))
    | ⟨4, _⟩ => exact (W10_arr m ρ c 4).trans (((dat6 (V9 m ρ) c).arrAt_in 4 rfl _).trans (A_eq6 (V9 m ρ) c 4))
    | ⟨5, _⟩ => exact absurd (show (main_v25 : Ref sig .tc) ∈ ([main_v25] : List (Ref sig .tc)) from by decide) h

/-- At region 7's exit (item 10): its windows' arrays at what the pipeline leaves (an input as entered, an output with
    its write-backs folded in), every other buffer as entered. -/
def W11 (c : Dev nD) : Valuation τ sig (Elt F) :=
  Pipeline.withArrays spec7 c (W10 m ρ c) fun w => (dat7 (V10 m ρ) c).arrAt w cfg7.N
theorem W11_arr (c : Dev nD) (w : Fin cfg7.W) :
    W11 m ρ c (Proc.devRef .tc (Pipeline.arrRef spec7 w)) = (dat7 (V10 m ρ) c).arrAt w cfg7.N := by
  unfold W11; exact Pipeline.withArrays_arr spec7 launch7.win.arr_inj c _ _ w
theorem W11_of_ne (c : Dev nD) (b : Ref sig .tc) (hb : ∀ w, Pipeline.arrRef spec7 w ≠ b) :
    W11 m ρ c (Proc.devRef .tc b) = W10 m ρ c (Proc.devRef .tc b) := by
  unfold W11; exact Pipeline.withArrays_of_ne spec7 c _ _ b hb
/-- The same read at the TensorCore's references. -/
abbrev V11 : (c : Dev nD) → (b : Ref sig .tc) → Buf (Elt F) ((c : Thread nD τ).loc b) := fun c b => W11 m ρ c b
/-- At the exit each array of the region holds what the pipeline leaves, and every other buffer what it held at entry. -/
theorem hF7 (c : Dev nD) (w : Fin cfg7.W) : (dat7 (V10 m ρ) c).arrAt w cfg7.N = V11 m ρ c (Pipeline.arrRef spec7 w) :=
  (W11_arr m ρ c w).symm
theorem hrest7 (c : Dev nD) : ∀ b, b ∉ Finset.univ.image (Pipeline.arrRef spec7) → V11 m ρ c b = V10 m ρ c b :=
  fun b hb => W11_of_ne m ρ c b fun w e => hb (Finset.mem_image.mpr ⟨w, Finset.mem_univ _, e⟩)
/-- A buffer that is no output array of region 7 keeps its contents: an input window's array is never written,
    and a buffer no window names bypasses the region. -/
theorem W11_of (c : Dev nD) (b : Ref sig .tc) (h : b ∉ ([main_v26_0, main_v26_1] : List (Ref sig .tc))) :
    W11 m ρ c (Proc.devRef .tc b) = W10 m ρ c (Proc.devRef .tc b) := by
  by_cases hb : ∀ w, Pipeline.arrRef spec7 w ≠ b
  · exact W11_of_ne m ρ c b hb
  · obtain ⟨w, rfl⟩ := not_forall_not.mp hb
    match w with
    | ⟨0, _⟩ => exact (W11_arr m ρ c 0).trans (((dat7 (V10 m ρ) c).arrAt_in 0 rfl _).trans (A_eq7 (V10 m ρ) c 0))
    | ⟨1, _⟩ => exact (W11_arr m ρ c 1).trans (((dat7 (V10 m ρ) c).arrAt_in 1 rfl _).trans (A_eq7 (V10 m ρ) c 1))
    | ⟨2, _⟩ => exact absurd (show (main_v26_0 : Ref sig .tc) ∈ ([main_v26_0, main_v26_1] : List (Ref sig .tc)) from by decide) h
    | ⟨3, _⟩ => exact absurd (show (main_v26_1 : Ref sig .tc) ∈ ([main_v26_0, main_v26_1] : List (Ref sig .tc)) from by decide) h

/-- After the host stretch hostOps8 (item 11). -/
abbrev W12 : Dev nD → Valuation τ sig (Elt F) := fun c => StableHlo.after hostOps8 (W11 m ρ c)
/-- The same read at the TensorCore's references. -/
abbrev V12 : (c : Dev nD) → (b : Ref sig .tc) → Buf (Elt F) ((c : Thread nD τ).loc b) := fun c b => W12 m ρ c b
/-- A buffer the stretch does not write keeps its contents. -/
theorem W12_of (c : Dev nD) (b : Ref sig .tc) (h : b ∉ hostOps8_W) :
    W12 m ρ c (Proc.devRef .tc b) = W11 m ρ c (Proc.devRef .tc b) :=
  StableHlo.after_of_writes_sub hostOps8 _ hostOps8_writes h

/-- At region 8's exit (item 12): its windows' arrays at what the pipeline leaves (an input as entered, an output with
    its write-backs folded in), every other buffer as entered. -/
def W13 (c : Dev nD) : Valuation τ sig (Elt F) :=
  Pipeline.withArrays spec8 c (W12 m ρ c) fun w => (dat8 (V12 m ρ) c).arrAt w cfg8.N
theorem W13_arr (c : Dev nD) (w : Fin cfg8.W) :
    W13 m ρ c (Proc.devRef .tc (Pipeline.arrRef spec8 w)) = (dat8 (V12 m ρ) c).arrAt w cfg8.N := by
  unfold W13; exact Pipeline.withArrays_arr spec8 launch8.win.arr_inj c _ _ w
theorem W13_of_ne (c : Dev nD) (b : Ref sig .tc) (hb : ∀ w, Pipeline.arrRef spec8 w ≠ b) :
    W13 m ρ c (Proc.devRef .tc b) = W12 m ρ c (Proc.devRef .tc b) := by
  unfold W13; exact Pipeline.withArrays_of_ne spec8 c _ _ b hb
/-- The same read at the TensorCore's references. -/
abbrev V13 : (c : Dev nD) → (b : Ref sig .tc) → Buf (Elt F) ((c : Thread nD τ).loc b) := fun c b => W13 m ρ c b
/-- At the exit each array of the region holds what the pipeline leaves, and every other buffer what it held at entry. -/
theorem hF8 (c : Dev nD) (w : Fin cfg8.W) : (dat8 (V12 m ρ) c).arrAt w cfg8.N = V13 m ρ c (Pipeline.arrRef spec8 w) :=
  (W13_arr m ρ c w).symm
theorem hrest8 (c : Dev nD) : ∀ b, b ∉ Finset.univ.image (Pipeline.arrRef spec8) → V13 m ρ c b = V12 m ρ c b :=
  fun b hb => W13_of_ne m ρ c b fun w e => hb (Finset.mem_image.mpr ⟨w, Finset.mem_univ _, e⟩)
/-- A buffer that is no output array of region 8 keeps its contents: an input window's array is never written,
    and a buffer no window names bypasses the region. -/
theorem W13_of (c : Dev nD) (b : Ref sig .tc) (h : b ∉ ([main_v45] : List (Ref sig .tc))) :
    W13 m ρ c (Proc.devRef .tc b) = W12 m ρ c (Proc.devRef .tc b) := by
  by_cases hb : ∀ w, Pipeline.arrRef spec8 w ≠ b
  · exact W13_of_ne m ρ c b hb
  · obtain ⟨w, rfl⟩ := not_forall_not.mp hb
    match w with
    | ⟨0, _⟩ => exact (W13_arr m ρ c 0).trans (((dat8 (V12 m ρ) c).arrAt_in 0 rfl _).trans (A_eq8 (V12 m ρ) c 0))
    | ⟨1, _⟩ => exact (W13_arr m ρ c 1).trans (((dat8 (V12 m ρ) c).arrAt_in 1 rfl _).trans (A_eq8 (V12 m ρ) c 1))
    | ⟨2, _⟩ => exact (W13_arr m ρ c 2).trans (((dat8 (V12 m ρ) c).arrAt_in 2 rfl _).trans (A_eq8 (V12 m ρ) c 2))
    | ⟨3, _⟩ => exact (W13_arr m ρ c 3).trans (((dat8 (V12 m ρ) c).arrAt_in 3 rfl _).trans (A_eq8 (V12 m ρ) c 3))
    | ⟨4, _⟩ => exact (W13_arr m ρ c 4).trans (((dat8 (V12 m ρ) c).arrAt_in 4 rfl _).trans (A_eq8 (V12 m ρ) c 4))
    | ⟨5, _⟩ => exact absurd (show (main_v45 : Ref sig .tc) ∈ ([main_v45] : List (Ref sig .tc)) from by decide) h

/-- At region 9's exit (item 13): its windows' arrays at what the pipeline leaves (an input as entered, an output with
    its write-backs folded in), every other buffer as entered. -/
def W14 (c : Dev nD) : Valuation τ sig (Elt F) :=
  Pipeline.withArrays spec9 c (W13 m ρ c) fun w => (dat9 (V13 m ρ) c).arrAt w cfg9.N
theorem W14_arr (c : Dev nD) (w : Fin cfg9.W) :
    W14 m ρ c (Proc.devRef .tc (Pipeline.arrRef spec9 w)) = (dat9 (V13 m ρ) c).arrAt w cfg9.N := by
  unfold W14; exact Pipeline.withArrays_arr spec9 launch9.win.arr_inj c _ _ w
theorem W14_of_ne (c : Dev nD) (b : Ref sig .tc) (hb : ∀ w, Pipeline.arrRef spec9 w ≠ b) :
    W14 m ρ c (Proc.devRef .tc b) = W13 m ρ c (Proc.devRef .tc b) := by
  unfold W14; exact Pipeline.withArrays_of_ne spec9 c _ _ b hb
/-- The same read at the TensorCore's references. -/
abbrev V14 : (c : Dev nD) → (b : Ref sig .tc) → Buf (Elt F) ((c : Thread nD τ).loc b) := fun c b => W14 m ρ c b
/-- At the exit each array of the region holds what the pipeline leaves, and every other buffer what it held at entry. -/
theorem hF9 (c : Dev nD) (w : Fin cfg9.W) : (dat9 (V13 m ρ) c).arrAt w cfg9.N = V14 m ρ c (Pipeline.arrRef spec9 w) :=
  (W14_arr m ρ c w).symm
theorem hrest9 (c : Dev nD) : ∀ b, b ∉ Finset.univ.image (Pipeline.arrRef spec9) → V14 m ρ c b = V13 m ρ c b :=
  fun b hb => W14_of_ne m ρ c b fun w e => hb (Finset.mem_image.mpr ⟨w, Finset.mem_univ _, e⟩)
/-- A buffer that is no output array of region 9 keeps its contents: an input window's array is never written,
    and a buffer no window names bypasses the region. -/
theorem W14_of (c : Dev nD) (b : Ref sig .tc) (h : b ∉ ([main_v46_0, main_v46_1] : List (Ref sig .tc))) :
    W14 m ρ c (Proc.devRef .tc b) = W13 m ρ c (Proc.devRef .tc b) := by
  by_cases hb : ∀ w, Pipeline.arrRef spec9 w ≠ b
  · exact W14_of_ne m ρ c b hb
  · obtain ⟨w, rfl⟩ := not_forall_not.mp hb
    match w with
    | ⟨0, _⟩ => exact (W14_arr m ρ c 0).trans (((dat9 (V13 m ρ) c).arrAt_in 0 rfl _).trans (A_eq9 (V13 m ρ) c 0))
    | ⟨1, _⟩ => exact (W14_arr m ρ c 1).trans (((dat9 (V13 m ρ) c).arrAt_in 1 rfl _).trans (A_eq9 (V13 m ρ) c 1))
    | ⟨2, _⟩ => exact absurd (show (main_v46_0 : Ref sig .tc) ∈ ([main_v46_0, main_v46_1] : List (Ref sig .tc)) from by decide) h
    | ⟨3, _⟩ => exact absurd (show (main_v46_1 : Ref sig .tc) ∈ ([main_v46_0, main_v46_1] : List (Ref sig .tc)) from by decide) h

/-- After the host stretch hostOps10 (item 14). -/
abbrev W15 : Dev nD → Valuation τ sig (Elt F) := fun c => StableHlo.after hostOps10 (W14 m ρ c)
/-- The same read at the TensorCore's references. -/
abbrev V15 : (c : Dev nD) → (b : Ref sig .tc) → Buf (Elt F) ((c : Thread nD τ).loc b) := fun c b => W15 m ρ c b
/-- A buffer the stretch does not write keeps its contents. -/
theorem W15_of (c : Dev nD) (b : Ref sig .tc) (h : b ∉ hostOps10_W) :
    W15 m ρ c (Proc.devRef .tc b) = W14 m ρ c (Proc.devRef .tc b) :=
  StableHlo.after_of_writes_sub hostOps10 _ hostOps10_writes h

/-- At region 10's exit (item 15): its windows' arrays at what the pipeline leaves (an input as entered, an output with
    its write-backs folded in), every other buffer as entered. -/
def W16 (c : Dev nD) : Valuation τ sig (Elt F) :=
  Pipeline.withArrays spec10 c (W15 m ρ c) fun w => (dat10 (V15 m ρ) c).arrAt w cfg10.N
theorem W16_arr (c : Dev nD) (w : Fin cfg10.W) :
    W16 m ρ c (Proc.devRef .tc (Pipeline.arrRef spec10 w)) = (dat10 (V15 m ρ) c).arrAt w cfg10.N := by
  unfold W16; exact Pipeline.withArrays_arr spec10 launch10.win.arr_inj c _ _ w
theorem W16_of_ne (c : Dev nD) (b : Ref sig .tc) (hb : ∀ w, Pipeline.arrRef spec10 w ≠ b) :
    W16 m ρ c (Proc.devRef .tc b) = W15 m ρ c (Proc.devRef .tc b) := by
  unfold W16; exact Pipeline.withArrays_of_ne spec10 c _ _ b hb
/-- The same read at the TensorCore's references. -/
abbrev V16 : (c : Dev nD) → (b : Ref sig .tc) → Buf (Elt F) ((c : Thread nD τ).loc b) := fun c b => W16 m ρ c b
/-- At the exit each array of the region holds what the pipeline leaves, and every other buffer what it held at entry. -/
theorem hF10 (c : Dev nD) (w : Fin cfg10.W) : (dat10 (V15 m ρ) c).arrAt w cfg10.N = V16 m ρ c (Pipeline.arrRef spec10 w) :=
  (W16_arr m ρ c w).symm
theorem hrest10 (c : Dev nD) : ∀ b, b ∉ Finset.univ.image (Pipeline.arrRef spec10) → V16 m ρ c b = V15 m ρ c b :=
  fun b hb => W16_of_ne m ρ c b fun w e => hb (Finset.mem_image.mpr ⟨w, Finset.mem_univ _, e⟩)
/-- A buffer that is no output array of region 10 keeps its contents: an input window's array is never written,
    and a buffer no window names bypasses the region. -/
theorem W16_of (c : Dev nD) (b : Ref sig .tc) (h : b ∉ ([main_v65] : List (Ref sig .tc))) :
    W16 m ρ c (Proc.devRef .tc b) = W15 m ρ c (Proc.devRef .tc b) := by
  by_cases hb : ∀ w, Pipeline.arrRef spec10 w ≠ b
  · exact W16_of_ne m ρ c b hb
  · obtain ⟨w, rfl⟩ := not_forall_not.mp hb
    match w with
    | ⟨0, _⟩ => exact (W16_arr m ρ c 0).trans (((dat10 (V15 m ρ) c).arrAt_in 0 rfl _).trans (A_eq10 (V15 m ρ) c 0))
    | ⟨1, _⟩ => exact (W16_arr m ρ c 1).trans (((dat10 (V15 m ρ) c).arrAt_in 1 rfl _).trans (A_eq10 (V15 m ρ) c 1))
    | ⟨2, _⟩ => exact (W16_arr m ρ c 2).trans (((dat10 (V15 m ρ) c).arrAt_in 2 rfl _).trans (A_eq10 (V15 m ρ) c 2))
    | ⟨3, _⟩ => exact (W16_arr m ρ c 3).trans (((dat10 (V15 m ρ) c).arrAt_in 3 rfl _).trans (A_eq10 (V15 m ρ) c 3))
    | ⟨4, _⟩ => exact (W16_arr m ρ c 4).trans (((dat10 (V15 m ρ) c).arrAt_in 4 rfl _).trans (A_eq10 (V15 m ρ) c 4))
    | ⟨5, _⟩ => exact absurd (show (main_v65 : Ref sig .tc) ∈ ([main_v65] : List (Ref sig .tc)) from by decide) h

/-- At region 11's exit (item 16): its windows' arrays at what the pipeline leaves (an input as entered, an output with
    its write-backs folded in), every other buffer as entered. -/
def W17 (c : Dev nD) : Valuation τ sig (Elt F) :=
  Pipeline.withArrays spec11 c (W16 m ρ c) fun w => (dat11 (V16 m ρ) c).arrAt w cfg11.N
theorem W17_arr (c : Dev nD) (w : Fin cfg11.W) :
    W17 m ρ c (Proc.devRef .tc (Pipeline.arrRef spec11 w)) = (dat11 (V16 m ρ) c).arrAt w cfg11.N := by
  unfold W17; exact Pipeline.withArrays_arr spec11 launch11.win.arr_inj c _ _ w
theorem W17_of_ne (c : Dev nD) (b : Ref sig .tc) (hb : ∀ w, Pipeline.arrRef spec11 w ≠ b) :
    W17 m ρ c (Proc.devRef .tc b) = W16 m ρ c (Proc.devRef .tc b) := by
  unfold W17; exact Pipeline.withArrays_of_ne spec11 c _ _ b hb
/-- The same read at the TensorCore's references. -/
abbrev V17 : (c : Dev nD) → (b : Ref sig .tc) → Buf (Elt F) ((c : Thread nD τ).loc b) := fun c b => W17 m ρ c b
/-- At the exit each array of the region holds what the pipeline leaves, and every other buffer what it held at entry. -/
theorem hF11 (c : Dev nD) (w : Fin cfg11.W) : (dat11 (V16 m ρ) c).arrAt w cfg11.N = V17 m ρ c (Pipeline.arrRef spec11 w) :=
  (W17_arr m ρ c w).symm
theorem hrest11 (c : Dev nD) : ∀ b, b ∉ Finset.univ.image (Pipeline.arrRef spec11) → V17 m ρ c b = V16 m ρ c b :=
  fun b hb => W17_of_ne m ρ c b fun w e => hb (Finset.mem_image.mpr ⟨w, Finset.mem_univ _, e⟩)
/-- A buffer that is no output array of region 11 keeps its contents: an input window's array is never written,
    and a buffer no window names bypasses the region. -/
theorem W17_of (c : Dev nD) (b : Ref sig .tc) (h : b ∉ ([main_v66] : List (Ref sig .tc))) :
    W17 m ρ c (Proc.devRef .tc b) = W16 m ρ c (Proc.devRef .tc b) := by
  by_cases hb : ∀ w, Pipeline.arrRef spec11 w ≠ b
  · exact W17_of_ne m ρ c b hb
  · obtain ⟨w, rfl⟩ := not_forall_not.mp hb
    match w with
    | ⟨0, _⟩ => exact (W17_arr m ρ c 0).trans (((dat11 (V16 m ρ) c).arrAt_in 0 rfl _).trans (A_eq11 (V16 m ρ) c 0))
    | ⟨1, _⟩ => exact (W17_arr m ρ c 1).trans (((dat11 (V16 m ρ) c).arrAt_in 1 rfl _).trans (A_eq11 (V16 m ρ) c 1))
    | ⟨2, _⟩ => exact absurd (show (main_v66 : Ref sig .tc) ∈ ([main_v66] : List (Ref sig .tc)) from by decide) h

/-- After the host stretch hostOps12 (item 17). -/
abbrev W18 : Dev nD → Valuation τ sig (Elt F) := fun c => StableHlo.after hostOps12 (W17 m ρ c)
/-- The same read at the TensorCore's references. -/
abbrev V18 : (c : Dev nD) → (b : Ref sig .tc) → Buf (Elt F) ((c : Thread nD τ).loc b) := fun c b => W18 m ρ c b
/-- A buffer the stretch does not write keeps its contents. -/
theorem W18_of (c : Dev nD) (b : Ref sig .tc) (h : b ∉ hostOps12_W) :
    W18 m ρ c (Proc.devRef .tc b) = W17 m ρ c (Proc.devRef .tc b) :=
  StableHlo.after_of_writes_sub hostOps12 _ hostOps12_writes h

end Cert.KernelIdeal.Hand

end
-- ==== Proof.IRunSegs.lean ====
/- The run of @main, second part: every item as a segment over one thread state. Between two items core c holds
   every unscoped buffer whole at the boundary's contents, its generator register at some state, and owes nothing. A
   host stretch runs over the unscoped buffers. A region splits its windows' arrays out of the unscoped buffers, hands
   the generator register and the scoped buffers to its invariant, and at its exit puts the arrays back at what its
   write-backs leave. Stated at any float instance. -/
import proofs.«139021_j54202487276022_2_alg».proof.Proof.IRunFold
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents: a literal match, so that the pinned
    configuration at a numeral reduces to the printed one. -/
def pdats : (p : Fin 12) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V6 m ρ) c
  | ⟨5, _⟩ => fun c => dat5 (V7 m ρ) c
  | ⟨6, _⟩ => fun c => dat6 (V9 m ρ) c
  | ⟨7, _⟩ => fun c => dat7 (V10 m ρ) c
  | ⟨8, _⟩ => fun c => dat8 (V12 m ρ) c
  | ⟨9, _⟩ => fun c => dat9 (V13 m ρ) c
  | ⟨10, _⟩ => fun c => dat10 (V15 m ρ) c
  | ⟨11, _⟩ => fun c => dat11 (V16 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the stretch's result from W, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W18 m ρ c) ∗ ∃ r, prngReg c r)

/-! ## The regions as segments

In each region the invariant's two ends are first restated over the region's own proof data: the family's member at
the region's numeral is that proof data by unfolding the match, which the separation-logic steps do not do by themselves. -/

-- applying a library lemma stated over the pinned configuration unifies with it only when unification may unfold plain
-- definitions in a metavariable's type
set_option backward.isDefEq.respectTransparency.types false in
/-- Region 0 over the thread state: entered from every unscoped buffer at W0, left at W1. Its arrays are split out
    of the unscoped buffers and put back at the exit contents; the generator register and the scoped buffers go into
    the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    change _ ⊢ (dat0 (V0 m ρ) c).Φ 0
    iintro ⟨Hp, -, Hr⟩
    iapply h
    isplitl [Hp]; · iexact Hp
    iexact Hr
  hout c := by
    rw [Pipeline.ownSems0_none]
    have h := hout0 (V0 m ρ) c
    change (dat0 (V0 m ρ) c).Φ (Fin.last cfg0.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 1 over the thread state: entered from every unscoped buffer at W1, left at W2. Its arrays are split out
    of the unscoped buffers and put back at the exit contents; the generator register and the scoped buffers go into
    the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V1 m ρ) c
    change _ ⊢ (dat1 (V1 m ρ) c).Φ 0
    iintro ⟨Hp, -, Hr⟩
    iapply h
    isplitl [Hp]; · iexact Hp
    iexact Hr
  hout c := by
    rw [Pipeline.ownSems0_none]
    have h := hout1 (V1 m ρ) c
    change (dat1 (V1 m ρ) c).Φ (Fin.last cfg1.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 2 over the thread state: entered from every unscoped buffer at W2, left at W3. Its arrays are split out
    of the unscoped buffers and put back at the exit contents; the generator register and the scoped buffers go into
    the region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V2 m ρ) c
    change _ ⊢ (dat2 (V2 m ρ) c).Φ 0
    iintro ⟨Hp, -, Hr⟩
    iapply h
    isplitl [Hp]; · iexact Hp
    iexact Hr
  hout c := by
    rw [Pipeline.ownSems0_none]
    have h := hout2 (V2 m ρ) c
    change (dat2 (V2 m ρ) c).Φ (Fin.last cfg2.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 3 over the thread state: entered from every unscoped buffer at W3, left at W4. Its arrays are split out
    of the unscoped buffers and put back at the exit contents; the generator register and the scoped buffers go into
    the region's invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V3 m ρ) c
    change _ ⊢ (dat3 (V3 m ρ) c).Φ 0
    iintro ⟨Hp, -, Hr⟩
    iapply h
    isplitl [Hp]; · iexact Hp
    iexact Hr
  hout c := by
    rw [Pipeline.ownSems0_none]
    have h := hout3 (V3 m ρ) c
    change (dat3 (V3 m ρ) c).Φ (Fin.last cfg3.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 4 over the thread state: entered from every unscoped buffer at W6, left at W7. Its arrays are split out
    of the unscoped buffers and put back at the exit contents; the generator register and the scoped buffers go into
    the region's invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V6 m ρ) c
    change _ ⊢ (dat4 (V6 m ρ) c).Φ 0
    iintro ⟨Hp, -, Hr⟩
    iapply h
    isplitl [Hp]; · iexact Hp
    iexact Hr
  hout c := by
    rw [Pipeline.ownSems0_none]
    have h := hout4 (V6 m ρ) c
    change (dat4 (V6 m ρ) c).Φ (Fin.last cfg4.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 5 over the thread state: entered from every unscoped buffer at W7, left at W8. Its arrays are split out
    of the unscoped buffers and put back at the exit contents; the generator register and the scoped buffers go into
    the region's invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin5 (V7 m ρ) c
    change _ ⊢ (dat5 (V7 m ρ) c).Φ 0
    iintro ⟨Hp, -, Hr⟩
    iapply h
    isplitl [Hp]; · iexact Hp
    iexact Hr
  hout c := by
    rw [Pipeline.ownSems0_none]
    have h := hout5 (V7 m ρ) c
    change (dat5 (V7 m ρ) c).Φ (Fin.last cfg5.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 6 over the thread state: entered from every unscoped buffer at W9, left at W10. Its arrays are split out
    of the unscoped buffers and put back at the exit contents; the generator register and the scoped buffers go into
    the region's invariant and come back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V9 m ρ) c).loose
  hwaits := Pipeline.hwaits_of_owed_zero _ _ _ _ L lv 6 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec6 c (V9 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin6 (V9 m ρ) c
    change _ ⊢ (dat6 (V9 m ρ) c).Φ 0
    iintro ⟨Hp, -, Hr⟩
    iapply h
    isplitl [Hp]; · iexact Hp
    iexact Hr
  hout c := by
    rw [Pipeline.ownSems0_none]
    have h := hout6 (V9 m ρ) c
    change (dat6 (V9 m ρ) c).Φ (Fin.last cfg6.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V9 m ρ c) (V10 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 7 over the thread state: entered from every unscoped buffer at W10, left at W11. Its arrays are split out
    of the unscoped buffers and put back at the exit contents; the generator register and the scoped buffers go into
    the region's invariant and come back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V10 m ρ) c).loose
  hwaits := Pipeline.hwaits_of_owed_zero _ _ _ _ L lv 7 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec7 c (V10 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin7 (V10 m ρ) c
    change _ ⊢ (dat7 (V10 m ρ) c).Φ 0
    iintro ⟨Hp, -, Hr⟩
    iapply h
    isplitl [Hp]; · iexact Hp
    iexact Hr
  hout c := by
    rw [Pipeline.ownSems0_none]
    have h := hout7 (V10 m ρ) c
    change (dat7 (V10 m ρ) c).Φ (Fin.last cfg7.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V10 m ρ c) (V11 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 8 over the thread state: entered from every unscoped buffer at W12, left at W13. Its arrays are split out
    of the unscoped buffers and put back at the exit contents; the generator register and the scoped buffers go into
    the region's invariant and come back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V12 m ρ) c).loose
  hwaits := Pipeline.hwaits_of_owed_zero _ _ _ _ L lv 8 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec8 c (V12 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin8 (V12 m ρ) c
    change _ ⊢ (dat8 (V12 m ρ) c).Φ 0
    iintro ⟨Hp, -, Hr⟩
    iapply h
    isplitl [Hp]; · iexact Hp
    iexact Hr
  hout c := by
    rw [Pipeline.ownSems0_none]
    have h := hout8 (V12 m ρ) c
    change (dat8 (V12 m ρ) c).Φ (Fin.last cfg8.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V12 m ρ c) (V13 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 9 over the thread state: entered from every unscoped buffer at W13, left at W14. Its arrays are split out
    of the unscoped buffers and put back at the exit contents; the generator register and the scoped buffers go into
    the region's invariant and come back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V13 m ρ) c).loose
  hwaits := Pipeline.hwaits_of_owed_zero _ _ _ _ L lv 9 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec9 c (V13 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin9 (V13 m ρ) c
    change _ ⊢ (dat9 (V13 m ρ) c).Φ 0
    iintro ⟨Hp, -, Hr⟩
    iapply h
    isplitl [Hp]; · iexact Hp
    iexact Hr
  hout c := by
    rw [Pipeline.ownSems0_none]
    have h := hout9 (V13 m ρ) c
    change (dat9 (V13 m ρ) c).Φ (Fin.last cfg9.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V13 m ρ c) (V14 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 10 over the thread state: entered from every unscoped buffer at W15, left at W16. Its arrays are split out
    of the unscoped buffers and put back at the exit contents; the generator register and the scoped buffers go into
    the region's invariant and come back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V15 m ρ) c).loose
  hwaits := Pipeline.hwaits_of_owed_zero _ _ _ _ L lv 10 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec10 c (V15 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin10 (V15 m ρ) c
    change _ ⊢ (dat10 (V15 m ρ) c).Φ 0
    iintro ⟨Hp, -, Hr⟩
    iapply h
    isplitl [Hp]; · iexact Hp
    iexact Hr
  hout c := by
    rw [Pipeline.ownSems0_none]
    have h := hout10 (V15 m ρ) c
    change (dat10 (V15 m ρ) c).Φ (Fin.last cfg10.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V15 m ρ c) (V16 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 11 over the thread state: entered from every unscoped buffer at W16, left at W17. Its arrays are split out
    of the unscoped buffers and put back at the exit contents; the generator register and the scoped buffers go into
    the region's invariant and come back; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V16 m ρ) c).loose
  hwaits := Pipeline.hwaits_of_owed_zero _ _ _ _ L lv 11 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec11 c (V16 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin11 (V16 m ρ) c
    change _ ⊢ (dat11 (V16 m ρ) c).Φ 0
    iintro ⟨Hp, -, Hr⟩
    iapply h
    isplitl [Hp]; · iexact Hp
    iexact Hr
  hout c := by
    rw [Pipeline.ownSems0_none]
    have h := hout11 (V16 m ρ) c
    change (dat11 (V16 m ρ) c).Φ (Fin.last cfg11.N) ⊢ _
    iintro HΦ
    ihave H := h $$ HΦ
    icases H with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V16 m ρ c) (V17 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IRunArgs.lean ====
/- The run of @main: the argument arrays end as launched. No host operation writes an argument and no region has one
   as an output, so the fold of buffer contents, read at an argument's buffer, walks back step by step to the launch
   memory. Stated at any float instance. -/
import proofs.«139021_j54202487276022_2_alg».proof.Proof.IRunFold

-- deciding membership among the 188 buffer references recurses past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arguments end as launched

No host operation writes an argument and no region has one as an output, so the fold at an argument's buffer walks
back to the launch memory. -/

theorem W18_main_arg0 (c : Dev nD) : W18 m ρ c (Proc.devRef .tc main_arg0) = m ((c : Thread nD τ).loc main_arg0) :=
  (W18_of m ρ c main_arg0 (by decide)).trans <|
  (W17_of m ρ c main_arg0 (by decide)).trans <|
  (W16_of m ρ c main_arg0 (by decide)).trans <|
  (W15_of m ρ c main_arg0 (by decide)).trans <|
  (W14_of m ρ c main_arg0 (by decide)).trans <|
  (W13_of m ρ c main_arg0 (by decide)).trans <|
  (W12_of m ρ c main_arg0 (by decide)).trans <|
  (W11_of m ρ c main_arg0 (by decide)).trans <|
  (W10_of m ρ c main_arg0 (by decide)).trans <|
  (W9_of m ρ c main_arg0 (by decide)).trans <|
  (W8_of m ρ c main_arg0 (by decide)).trans <|
  (W7_of m ρ c main_arg0 (by decide)).trans <|
  (W6_of m ρ c main_arg0 (by decide)).trans <|
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide))

theorem W18_main_arg1 (c : Dev nD) : W18 m ρ c (Proc.devRef .tc main_arg1) = m ((c : Thread nD τ).loc main_arg1) :=
  (W18_of m ρ c main_arg1 (by decide)).trans <|
  (W17_of m ρ c main_arg1 (by decide)).trans <|
  (W16_of m ρ c main_arg1 (by decide)).trans <|
  (W15_of m ρ c main_arg1 (by decide)).trans <|
  (W14_of m ρ c main_arg1 (by decide)).trans <|
  (W13_of m ρ c main_arg1 (by decide)).trans <|
  (W12_of m ρ c main_arg1 (by decide)).trans <|
  (W11_of m ρ c main_arg1 (by decide)).trans <|
  (W10_of m ρ c main_arg1 (by decide)).trans <|
  (W9_of m ρ c main_arg1 (by decide)).trans <|
  (W8_of m ρ c main_arg1 (by decide)).trans <|
  (W7_of m ρ c main_arg1 (by decide)).trans <|
  (W6_of m ρ c main_arg1 (by decide)).trans <|
  (W5_of m ρ c main_arg1 (by decide)).trans <|
  (W4_of m ρ c main_arg1 (by decide)).trans <|
  (W3_of m ρ c main_arg1 (by decide)).trans <|
  (W2_of m ρ c main_arg1 (by decide)).trans <|
  (W1_of m ρ c main_arg1 (by decide))

theorem W18_main_arg2 (c : Dev nD) : W18 m ρ c (Proc.devRef .tc main_arg2) = m ((c : Thread nD τ).loc main_arg2) :=
  (W18_of m ρ c main_arg2 (by decide)).trans <|
  (W17_of m ρ c main_arg2 (by decide)).trans <|
  (W16_of m ρ c main_arg2 (by decide)).trans <|
  (W15_of m ρ c main_arg2 (by decide)).trans <|
  (W14_of m ρ c main_arg2 (by decide)).trans <|
  (W13_of m ρ c main_arg2 (by decide)).trans <|
  (W12_of m ρ c main_arg2 (by decide)).trans <|
  (W11_of m ρ c main_arg2 (by decide)).trans <|
  (W10_of m ρ c main_arg2 (by decide)).trans <|
  (W9_of m ρ c main_arg2 (by decide)).trans <|
  (W8_of m ρ c main_arg2 (by decide)).trans <|
  (W7_of m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide))

theorem W18_main_arg3 (c : Dev nD) : W18 m ρ c (Proc.devRef .tc main_arg3) = m ((c : Thread nD τ).loc main_arg3) :=
  (W18_of m ρ c main_arg3 (by decide)).trans <|
  (W17_of m ρ c main_arg3 (by decide)).trans <|
  (W16_of m ρ c main_arg3 (by decide)).trans <|
  (W15_of m ρ c main_arg3 (by decide)).trans <|
  (W14_of m ρ c main_arg3 (by decide)).trans <|
  (W13_of m ρ c main_arg3 (by decide)).trans <|
  (W12_of m ρ c main_arg3 (by decide)).trans <|
  (W11_of m ρ c main_arg3 (by decide)).trans <|
  (W10_of m ρ c main_arg3 (by decide)).trans <|
  (W9_of m ρ c main_arg3 (by decide)).trans <|
  (W8_of m ρ c main_arg3 (by decide)).trans <|
  (W7_of m ρ c main_arg3 (by decide)).trans <|
  (W6_of m ρ c main_arg3 (by decide)).trans <|
  (W5_of m ρ c main_arg3 (by decide)).trans <|
  (W4_of m ρ c main_arg3 (by decide)).trans <|
  (W3_of m ρ c main_arg3 (by decide)).trans <|
  (W2_of m ρ c main_arg3 (by decide)).trans <|
  (W1_of m ρ c main_arg3 (by decide))

theorem W18_main_arg4 (c : Dev nD) : W18 m ρ c (Proc.devRef .tc main_arg4) = m ((c : Thread nD τ).loc main_arg4) :=
  (W18_of m ρ c main_arg4 (by decide)).trans <|
  (W17_of m ρ c main_arg4 (by decide)).trans <|
  (W16_of m ρ c main_arg4 (by decide)).trans <|
  (W15_of m ρ c main_arg4 (by decide)).trans <|
  (W14_of m ρ c main_arg4 (by decide)).trans <|
  (W13_of m ρ c main_arg4 (by decide)).trans <|
  (W12_of m ρ c main_arg4 (by decide)).trans <|
  (W11_of m ρ c main_arg4 (by decide)).trans <|
  (W10_of m ρ c main_arg4 (by decide)).trans <|
  (W9_of m ρ c main_arg4 (by decide)).trans <|
  (W8_of m ρ c main_arg4 (by decide)).trans <|
  (W7_of m ρ c main_arg4 (by decide)).trans <|
  (W6_of m ρ c main_arg4 (by decide)).trans <|
  (W5_of m ρ c main_arg4 (by decide)).trans <|
  (W4_of m ρ c main_arg4 (by decide)).trans <|
  (W3_of m ρ c main_arg4 (by decide)).trans <|
  (W2_of m ρ c main_arg4 (by decide)).trans <|
  (W1_of m ρ c main_arg4 (by decide))

theorem W18_main_arg5 (c : Dev nD) : W18 m ρ c (Proc.devRef .tc main_arg5) = m ((c : Thread nD τ).loc main_arg5) :=
  (W18_of m ρ c main_arg5 (by decide)).trans <|
  (W17_of m ρ c main_arg5 (by decide)).trans <|
  (W16_of m ρ c main_arg5 (by decide)).trans <|
  (W15_of m ρ c main_arg5 (by decide)).trans <|
  (W14_of m ρ c main_arg5 (by decide)).trans <|
  (W13_of m ρ c main_arg5 (by decide)).trans <|
  (W12_of m ρ c main_arg5 (by decide)).trans <|
  (W11_of m ρ c main_arg5 (by decide)).trans <|
  (W10_of m ρ c main_arg5 (by decide)).trans <|
  (W9_of m ρ c main_arg5 (by decide)).trans <|
  (W8_of m ρ c main_arg5 (by decide)).trans <|
  (W7_of m ρ c main_arg5 (by decide)).trans <|
  (W6_of m ρ c main_arg5 (by decide)).trans <|
  (W5_of m ρ c main_arg5 (by decide)).trans <|
  (W4_of m ρ c main_arg5 (by decide)).trans <|
  (W3_of m ρ c main_arg5 (by decide)).trans <|
  (W2_of m ρ c main_arg5 (by decide)).trans <|
  (W1_of m ρ c main_arg5 (by decide))

theorem W18_main_arg6 (c : Dev nD) : W18 m ρ c (Proc.devRef .tc main_arg6) = m ((c : Thread nD τ).loc main_arg6) :=
  (W18_of m ρ c main_arg6 (by decide)).trans <|
  (W17_of m ρ c main_arg6 (by decide)).trans <|
  (W16_of m ρ c main_arg6 (by decide)).trans <|
  (W15_of m ρ c main_arg6 (by decide)).trans <|
  (W14_of m ρ c main_arg6 (by decide)).trans <|
  (W13_of m ρ c main_arg6 (by decide)).trans <|
  (W12_of m ρ c main_arg6 (by decide)).trans <|
  (W11_of m ρ c main_arg6 (by decide)).trans <|
  (W10_of m ρ c main_arg6 (by decide)).trans <|
  (W9_of m ρ c main_arg6 (by decide)).trans <|
  (W8_of m ρ c main_arg6 (by decide)).trans <|
  (W7_of m ρ c main_arg6 (by decide)).trans <|
  (W6_of m ρ c main_arg6 (by decide)).trans <|
  (W5_of m ρ c main_arg6 (by decide)).trans <|
  (W4_of m ρ c main_arg6 (by decide)).trans <|
  (W3_of m ρ c main_arg6 (by decide)).trans <|
  (W2_of m ρ c main_arg6 (by decide)).trans <|
  (W1_of m ρ c main_arg6 (by decide))

theorem W18_main_arg7 (c : Dev nD) : W18 m ρ c (Proc.devRef .tc main_arg7) = m ((c : Thread nD τ).loc main_arg7) :=
  (W18_of m ρ c main_arg7 (by decide)).trans <|
  (W17_of m ρ c main_arg7 (by decide)).trans <|
  (W16_of m ρ c main_arg7 (by decide)).trans <|
  (W15_of m ρ c main_arg7 (by decide)).trans <|
  (W14_of m ρ c main_arg7 (by decide)).trans <|
  (W13_of m ρ c main_arg7 (by decide)).trans <|
  (W12_of m ρ c main_arg7 (by decide)).trans <|
  (W11_of m ρ c main_arg7 (by decide)).trans <|
  (W10_of m ρ c main_arg7 (by decide)).trans <|
  (W9_of m ρ c main_arg7 (by decide)).trans <|
  (W8_of m ρ c main_arg7 (by decide)).trans <|
  (W7_of m ρ c main_arg7 (by decide)).trans <|
  (W6_of m ρ c main_arg7 (by decide)).trans <|
  (W5_of m ρ c main_arg7 (by decide)).trans <|
  (W4_of m ρ c main_arg7 (by decide)).trans <|
  (W3_of m ρ c main_arg7 (by decide)).trans <|
  (W2_of m ρ c main_arg7 (by decide)).trans <|
  (W1_of m ρ c main_arg7 (by decide))

theorem W18_main_arg8 (c : Dev nD) : W18 m ρ c (Proc.devRef .tc main_arg8) = m ((c : Thread nD τ).loc main_arg8) :=
  (W18_of m ρ c main_arg8 (by decide)).trans <|
  (W17_of m ρ c main_arg8 (by decide)).trans <|
  (W16_of m ρ c main_arg8 (by decide)).trans <|
  (W15_of m ρ c main_arg8 (by decide)).trans <|
  (W14_of m ρ c main_arg8 (by decide)).trans <|
  (W13_of m ρ c main_arg8 (by decide)).trans <|
  (W12_of m ρ c main_arg8 (by decide)).trans <|
  (W11_of m ρ c main_arg8 (by decide)).trans <|
  (W10_of m ρ c main_arg8 (by decide)).trans <|
  (W9_of m ρ c main_arg8 (by decide)).trans <|
  (W8_of m ρ c main_arg8 (by decide)).trans <|
  (W7_of m ρ c main_arg8 (by decide)).trans <|
  (W6_of m ρ c main_arg8 (by decide)).trans <|
  (W5_of m ρ c main_arg8 (by decide)).trans <|
  (W4_of m ρ c main_arg8 (by decide)).trans <|
  (W3_of m ρ c main_arg8 (by decide)).trans <|
  (W2_of m ρ c main_arg8 (by decide)).trans <|
  (W1_of m ρ c main_arg8 (by decide))

theorem W18_main_arg9 (c : Dev nD) : W18 m ρ c (Proc.devRef .tc main_arg9) = m ((c : Thread nD τ).loc main_arg9) :=
  (W18_of m ρ c main_arg9 (by decide)).trans <|
  (W17_of m ρ c main_arg9 (by decide)).trans <|
  (W16_of m ρ c main_arg9 (by decide)).trans <|
  (W15_of m ρ c main_arg9 (by decide)).trans <|
  (W14_of m ρ c main_arg9 (by decide)).trans <|
  (W13_of m ρ c main_arg9 (by decide)).trans <|
  (W12_of m ρ c main_arg9 (by decide)).trans <|
  (W11_of m ρ c main_arg9 (by decide)).trans <|
  (W10_of m ρ c main_arg9 (by decide)).trans <|
  (W9_of m ρ c main_arg9 (by decide)).trans <|
  (W8_of m ρ c main_arg9 (by decide)).trans <|
  (W7_of m ρ c main_arg9 (by decide)).trans <|
  (W6_of m ρ c main_arg9 (by decide)).trans <|
  (W5_of m ρ c main_arg9 (by decide)).trans <|
  (W4_of m ρ c main_arg9 (by decide)).trans <|
  (W3_of m ρ c main_arg9 (by decide)).trans <|
  (W2_of m ρ c main_arg9 (by decide)).trans <|
  (W1_of m ρ c main_arg9 (by decide))

theorem W18_main_arg10 (c : Dev nD) : W18 m ρ c (Proc.devRef .tc main_arg10) = m ((c : Thread nD τ).loc main_arg10) :=
  (W18_of m ρ c main_arg10 (by decide)).trans <|
  (W17_of m ρ c main_arg10 (by decide)).trans <|
  (W16_of m ρ c main_arg10 (by decide)).trans <|
  (W15_of m ρ c main_arg10 (by decide)).trans <|
  (W14_of m ρ c main_arg10 (by decide)).trans <|
  (W13_of m ρ c main_arg10 (by decide)).trans <|
  (W12_of m ρ c main_arg10 (by decide)).trans <|
  (W11_of m ρ c main_arg10 (by decide)).trans <|
  (W10_of m ρ c main_arg10 (by decide)).trans <|
  (W9_of m ρ c main_arg10 (by decide)).trans <|
  (W8_of m ρ c main_arg10 (by decide)).trans <|
  (W7_of m ρ c main_arg10 (by decide)).trans <|
  (W6_of m ρ c main_arg10 (by decide)).trans <|
  (W5_of m ρ c main_arg10 (by decide)).trans <|
  (W4_of m ρ c main_arg10 (by decide)).trans <|
  (W3_of m ρ c main_arg10 (by decide)).trans <|
  (W2_of m ρ c main_arg10 (by decide)).trans <|
  (W1_of m ρ c main_arg10 (by decide))

end Cert.KernelIdeal.Hand

end
-- ==== Proof.IRun.lean ====
/- The run of @main, last part: @main is the run of its eighteen segments, and the launch theorem for a list of
   segments gives the whole run: from any memory with zero counters every weakly fair execution of @main on the
   TensorCores terminates, nothing faults, and in every final state each unscoped buffer holds the last boundary's
   contents W18. The frame claim (every argument array ends as launched) is the corollary at the eleven argument
   buffers. Stated at any float instance. -/
import proofs.«139021_j54202487276022_2_alg».proof.Proof.IRunSegs
import proofs.«139021_j54202487276022_2_alg».proof.Proof.IRunArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 18 segments in order: a region per kernel call, a host segment per stretch from its boundary's contents. -/
abbrev segs : List (Pipeline.Seg (pcfgs (F := F)) adm (pdats m ρ) () defs₀ 𝒱₀ L lv) :=
  [ .region (reg0 m ρ),
    .region (reg1 m ρ),
    .region (reg2 m ρ),
    .region (reg3 m ρ),
    .host (hseg hostOps4 hostOps4_sub hostOps4_fresh (W4 m ρ)),
    .host (hseg hostOps4_1 hostOps4_1_sub hostOps4_1_fresh (W5 m ρ)),
    .region (reg4 m ρ),
    .region (reg5 m ρ),
    .host (hseg hostOps6 hostOps6_sub hostOps6_fresh (W8 m ρ)),
    .region (reg6 m ρ),
    .region (reg7 m ρ),
    .host (hseg hostOps8 hostOps8_sub hostOps8_fresh (W11 m ρ)),
    .region (reg8 m ρ),
    .region (reg9 m ρ),
    .host (hseg hostOps10 hostOps10_sub hostOps10_fresh (W14 m ρ)),
    .region (reg10 m ρ),
    .region (reg11 m ρ),
    .host (hseg hostOps12 hostOps12_sub hostOps12_fresh (W17 m ρ)) ]

/-- @main is the run of the segments: @main is the chain of its items, and the segments' run unfolds to the same chain. -/
theorem main_run (c : Dev nD) : main (F := F) c = Pipeline.Seg.run (segs m ρ) := by
  rewrite [main_chain c, Pipeline.Seg.run_eq_chain]
  rfl

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and every final state has each unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W18 m ρ c b) :=
  Pipeline.θ_run_regions_kit (pcfgs (F := F)) adm (pdats m ρ) () cellOf_inj emb₁ defs₀ 𝒱₀ L lv m ρ main (segs m ρ)
    (fun c Q => by rewrite [main_run m ρ c]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      -- each item is entered from what the item before it left: the same thread state, up to unfolding the segments
      refine ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
        fun c => ?_, fun c => ?_⟩
      · change iprop(StableHlo.held (c : Thread nD τ) (Pipeline.ucRefs τ sig) (W17 m ρ c) ∗ R c)
          ⊢ iprop(StableHlo.held (c : Thread nD τ) (Pipeline.ucRefs τ sig) (W17 m ρ c) ∗ R c)
        exact .rfl
      -- the last state is the buffers and the generator register beside the debts, at nothing: a re-association
      · change iprop(StableHlo.held (c : Thread nD τ) (Pipeline.ucRefs τ sig) (W18 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun _ h => h)

/-- THE RUN, READ AT THE RESULT AND THE ARGUMENTS: every weakly fair execution of @main terminates, nothing faulting,
    and every final state has the result buffer at the last boundary's contents and the eleven argument arrays as
    launched. Each of these buffers is unscoped, so the run gives it at W18; an argument's walks back to the launch
    memory. -/
theorem run_out : θ_run defs (onTc (τ := τ) (main (F := F))) ⟨m, fun _ => 0, ρ⟩ (fun r => ∀ c : Dev nD,
      r.2.mem ((c.tc : Thread nD τ).loc main_v67) = W18 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v67 (by decide)),
     (h c _ (mem_uc main_arg0 (by decide))).trans (W18_main_arg0 m ρ c),
     (h c _ (mem_uc main_arg1 (by decide))).trans (W18_main_arg1 m ρ c),
     (h c _ (mem_uc main_arg2 (by decide))).trans (W18_main_arg2 m ρ c),
     (h c _ (mem_uc main_arg3 (by decide))).trans (W18_main_arg3 m ρ c),
     (h c _ (mem_uc main_arg4 (by decide))).trans (W18_main_arg4 m ρ c),
     (h c _ (mem_uc main_arg5 (by decide))).trans (W18_main_arg5 m ρ c),
     (h c _ (mem_uc main_arg6 (by decide))).trans (W18_main_arg6 m ρ c),
     (h c _ (mem_uc main_arg7 (by decide))).trans (W18_main_arg7 m ρ c),
     (h c _ (mem_uc main_arg8 (by decide))).trans (W18_main_arg8 m ρ c),
     (h c _ (mem_uc main_arg9 (by decide))).trans (W18_main_arg9 m ρ c),
     (h c _ (mem_uc main_arg10 (by decide))).trans (W18_main_arg10 m ρ c)⟩) (run_all m ρ)

/-- THE FRAME: every weakly fair execution of @main terminates, nothing faulting, and every final state has the eleven
    argument arrays as launched: the run read at the result and the arguments, the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_out m ρ)

end Cert.KernelIdeal.Hand

end
-- ==== Proof.ROps.lean ====
/-
  The reference program's host operations as literal lists: one list per layer (49 operations: the two
  binarizations, the transpose, the product, the column mean, the variance function's 22 operations written in
  at its call over the call's buffers, the normalisation and the binarization) and one for the head (4 operations).
-/
import proofs.«139021_j54202487276022_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

abbrev opsL1 : List (HloOp τ sig (Elt F)) :=
  [ StableHlo.unary main_arg0 main_v0 (Host.sign : (⟨S8192x4096, .f32⟩ : BufTy).Contents (Elt F) → (⟨S8192x4096, .f32⟩ : BufTy).Contents (Elt F)),
    StableHlo.unary main_arg1 main_v1 (Host.sign : (⟨S4096x4096, .f32⟩ : BufTy).Contents (Elt F) → (⟨S4096x4096, .f32⟩ : BufTy).Contents (Elt F)),
    StableHlo.unary main_v1 main_v2 ((transpose S4096x4096 [1, 0] · transposes_S4096x4096_S4096x4096_1_0) : (⟨S4096x4096, .f32⟩ : BufTy).Contents (Elt F) → (⟨S4096x4096, .f32⟩ : BufTy).Contents (Elt F)),
    StableHlo.binary main_v0 main_v2 main_v3 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst (constant S_ .f32 0x00000000#32),
    StableHlo.binary main_v3 main_cst main_v4 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_0 (constant S_ .f32 0x46000000#32),
    StableHlo.unary main_cst_0 main_v5 (broadcastInDim S4096 ![] bcast_S_S4096 : (⟨S_, .f32⟩ : BufTy).Contents (Elt F) → (⟨S4096, .f32⟩ : BufTy).Contents (Elt F)),
    StableHlo.binary main_v4 main_v5 main_v6 (Host.divf : (⟨S4096, .f32⟩ : BufTy).Contents (Elt F) → (⟨S4096, .f32⟩ : BufTy).Contents (Elt F) → (⟨S4096, .f32⟩ : BufTy).Contents (Elt F)),
    StableHlo.nullary main_c (constantI S_ 32 0#32),
    StableHlo.TRef.nullary main_call0.cst (constant S_ .f32 0x00000000#32),
    StableHlo.TRef.binary (StableHlo.TRef.of main_v3 : StableHlo.TRef sig ⟨S8192x4096, .f32⟩) main_call0.cst main_call0.v0 (fun x v => Host.reduceAdd x v reducesTo_S8192x4096_S4096_d0 h_S_),
    StableHlo.TRef.unary main_call0.v0 main_call0.v1 (broadcastInDim S1x4096 ![1] bcast_S4096_S1x4096_1),
    StableHlo.TRef.nullary main_call0.cst_0 (constant S_ .f32 0x46000000#32),
    StableHlo.TRef.unary main_call0.cst_0 main_call0.v2 (broadcastInDim S1x4096 ![] bcast_S_S1x4096),
    StableHlo.TRef.binary main_call0.v1 main_call0.v2 main_call0.v3 Host.divf,
    StableHlo.TRef.unary main_call0.v3 main_call0.v4 (broadcastInDim S8192x4096 ![0, 1] bcast_S1x4096_S8192x4096_0_1),
    StableHlo.TRef.binary (StableHlo.TRef.of main_v3 : StableHlo.TRef sig ⟨S8192x4096, .f32⟩) main_call0.v4 main_call0.v5 subf,
    StableHlo.TRef.binary main_call0.v5 main_call0.v5 main_call0.v6 mulf,
    StableHlo.TRef.unary (StableHlo.TRef.of main_c : StableHlo.TRef sig ⟨S_, .i32⟩) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x4096_S4096_d0 h_S_),
    StableHlo.TRef.unary main_call0.v8 main_call0.v10 (broadcastInDim S4096 ![] bcast_S_S4096),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4096 ![] bcast_S_S4096),
    StableHlo.TRef.ternary main_call0.v12 main_call0.v11 main_call0.call0.v1 main_call0.call0.v2 (fun p a b => select (broadcastInDim S4096 ![] bcast_S_S4096 p) a b),
    StableHlo.unary main_v6 main_v8 (broadcastInDim S1x4096 ![1] bcast_S4096_S1x4096_1 : (⟨S4096, .f32⟩ : BufTy).Contents (Elt F) → (⟨S1x4096, .f32⟩ : BufTy).Contents (Elt F)),
    StableHlo.unary main_v8 main_v9 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v3 main_v9 main_v10 (subf : (⟨S8192x4096, .f32⟩ : BufTy).Contents (Elt F) → (⟨S8192x4096, .f32⟩ : BufTy).Contents (Elt F) → (⟨S8192x4096, .f32⟩ : BufTy).Contents (Elt F)),
    StableHlo.unary main_arg2 main_v11 (broadcastInDim S1x4096 ![1] bcast_S4096_S1x4096_1 : (⟨S4096, .f32⟩ : BufTy).Contents (Elt F) → (⟨S1x4096, .f32⟩ : BufTy).Contents (Elt F)),
    StableHlo.unary main_v11 main_v12 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v12 main_v10 main_v13 (mulf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x3727C5AC#32),
    StableHlo.unary main_cst_1 main_v14 (broadcastInDim S4096 ![] bcast_S_S4096 : (⟨S_, .f32⟩ : BufTy).Contents (Elt F) → (⟨S4096, .f32⟩ : BufTy).Contents (Elt F)),
    StableHlo.binary main_v7 main_v14 main_v15 (addf : (⟨S4096, .f32⟩ : BufTy).Contents (Elt F) → (⟨S4096, .f32⟩ : BufTy).Contents (Elt F) → (⟨S4096, .f32⟩ : BufTy).Contents (Elt F)),
    StableHlo.unary main_v15 main_v16 (Host.rsqrt : (⟨S4096, .f32⟩ : BufTy).Contents (Elt F) → (⟨S4096, .f32⟩ : BufTy).Contents (Elt F)),
    StableHlo.unary main_v16 main_v17 (broadcastInDim S1x4096 ![1] bcast_S4096_S1x4096_1 : (⟨S4096, .f32⟩ : BufTy).Contents (Elt F) → (⟨S1x4096, .f32⟩ : BufTy).Contents (Elt F)),
    StableHlo.unary main_v17 main_v18 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v13 main_v18 main_v19 (mulf : (⟨S8192x4096, .f32⟩ : BufTy).Contents (Elt F) → (⟨S8192x4096, .f32⟩ : BufTy).Contents (Elt F) → (⟨S8192x4096, .f32⟩ : BufTy).Contents (Elt F)),
    StableHlo.unary main_arg3 main_v20 (broadcastInDim S1x4096 ![1] bcast_S4096_S1x4096_1 : (⟨S4096, .f32⟩ : BufTy).Contents (Elt F) → (⟨S1x4096, .f32⟩ : BufTy).Contents (Elt F)),
    StableHlo.unary main_v20 main_v21 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v19 main_v21 main_v22 (addf : (⟨S8192x4096, .f32⟩ : BufTy).Contents (Elt F) → (⟨S8192x4096, .f32⟩ : BufTy).Contents (Elt F) → (⟨S8192x4096, .f32⟩ : BufTy).Contents (Elt F)),
    StableHlo.unary main_v22 main_v23 (Host.sign : (⟨S8192x4096, .f32⟩ : BufTy).Contents (Elt F) → (⟨S8192x4096, .f32⟩ : BufTy).Contents (Elt F)) ]

theorem opsL1_sub : (opsL1 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub ..⟩

abbrev opsL2 : List (HloOp τ sig (Elt F)) :=
  [ StableHlo.unary main_v23 main_v24 (Host.sign : (⟨S8192x4096, .f32⟩ : BufTy).Contents (Elt F) → (⟨S8192x4096, .f32⟩ : BufTy).Contents (Elt F)),
    StableHlo.unary main_arg4 main_v25 (Host.sign : (⟨S4096x4096, .f32⟩ : BufTy).Contents (Elt F) → (⟨S4096x4096, .f32⟩ : BufTy).Contents (Elt F)),
    StableHlo.unary main_v25 main_v26 ((transpose S4096x4096 [1, 0] · transposes_S4096x4096_S4096x4096_1_0) : (⟨S4096x4096, .f32⟩ : BufTy).Contents (Elt F) → (⟨S4096x4096, .f32⟩ : BufTy).Contents (Elt F)),
    StableHlo.binary main_v24 main_v26 main_v27 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst_2 (constant S_ .f32 0x00000000#32),
    StableHlo.binary main_v27 main_cst_2 main_v28 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_3 (constant S_ .f32 0x46000000#32),
    StableHlo.unary main_cst_3 main_v29 (broadcastInDim S4096 ![] bcast_S_S4096 : (⟨S_, .f32⟩ : BufTy).Contents (Elt F) → (⟨S4096, .f32⟩ : BufTy).Contents (Elt F)),
    StableHlo.binary main_v28 main_v29 main_v30 (Host.divf : (⟨S4096, .f32⟩ : BufTy).Contents (Elt F) → (⟨S4096, .f32⟩ : BufTy).Contents (Elt F) → (⟨S4096, .f32⟩ : BufTy).Contents (Elt F)),
    StableHlo.nullary main_c_4 (constantI S_ 32 0#32),
    StableHlo.TRef.nullary main_call1.cst (constant S_ .f32 0x00000000#32),
    StableHlo.TRef.binary (StableHlo.TRef.of main_v27 : StableHlo.TRef sig ⟨S8192x4096, .f32⟩) main_call1.cst main_call1.v0 (fun x v => Host.reduceAdd x v reducesTo_S8192x4096_S4096_d0 h_S_),
    StableHlo.TRef.unary main_call1.v0 main_call1.v1 (broadcastInDim S1x4096 ![1] bcast_S4096_S1x4096_1),
    StableHlo.TRef.nullary main_call1.cst_0 (constant S_ .f32 0x46000000#32),
    StableHlo.TRef.unary main_call1.cst_0 main_call1.v2 (broadcastInDim S1x4096 ![] bcast_S_S1x4096),
    StableHlo.TRef.binary main_call1.v1 main_call1.v2 main_call1.v3 Host.divf,
    StableHlo.TRef.unary main_call1.v3 main_call1.v4 (broadcastInDim S8192x4096 ![0, 1] bcast_S1x4096_S8192x4096_0_1),
    StableHlo.TRef.binary (StableHlo.TRef.of main_v27 : StableHlo.TRef sig ⟨S8192x4096, .f32⟩) main_call1.v4 main_call1.v5 subf,
    StableHlo.TRef.binary main_call1.v5 main_call1.v5 main_call1.v6 mulf,
    StableHlo.TRef.unary (StableHlo.TRef.of main_c_4 : StableHlo.TRef sig ⟨S_, .i32⟩) main_call1.v7 (sitofp .f32),
    StableHlo.TRef.nullary main_call1.cst_1 (constant S_ .f32 0x46000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x4096_S4096_d0 h_S_),
    StableHlo.TRef.unary main_call1.v8 main_call1.v10 (broadcastInDim S4096 ![] bcast_S_S4096),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S4096 ![] bcast_S_S4096),
    StableHlo.TRef.ternary main_call1.v12 main_call1.v11 main_call1.call0.v1 main_call1.call0.v2 (fun p a b => select (broadcastInDim S4096 ![] bcast_S_S4096 p) a b),
    StableHlo.unary main_v30 main_v32 (broadcastInDim S1x4096 ![1] bcast_S4096_S1x4096_1 : (⟨S4096, .f32⟩ : BufTy).Contents (Elt F) → (⟨S1x4096, .f32⟩ : BufTy).Contents (Elt F)),
    StableHlo.unary main_v32 main_v33 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v27 main_v33 main_v34 (subf : (⟨S8192x4096, .f32⟩ : BufTy).Contents (Elt F) → (⟨S8192x4096, .f32⟩ : BufTy).Contents (Elt F) → (⟨S8192x4096, .f32⟩ : BufTy).Contents (Elt F)),
    StableHlo.unary main_arg5 main_v35 (broadcastInDim S1x4096 ![1] bcast_S4096_S1x4096_1 : (⟨S4096, .f32⟩ : BufTy).Contents (Elt F) → (⟨S1x4096, .f32⟩ : BufTy).Contents (Elt F)),
    StableHlo.unary main_v35 main_v36 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v36 main_v34 main_v37 (mulf : (⟨S8192x4096, .f32⟩ : BufTy).Contents (Elt F) → (⟨S8192x4096, .f32⟩ : BufTy).Contents (Elt F) → (⟨S8192x4096, .f32⟩ : BufTy).Contents (Elt F)),
    StableHlo.nullary main_cst_5 (constant S_ .f32 0x3727C5AC#32),
    StableHlo.unary main_cst_5 main_v38 (broadcastInDim S4096 ![] bcast_S_S4096 : (⟨S_, .f32⟩ : BufTy).Contents (Elt F) → (⟨S4096, .f32⟩ : BufTy).Contents (Elt F)),
    StableHlo.binary main_v31 main_v38 main_v39 (addf : (⟨S4096, .f32⟩ : BufTy).Contents (Elt F) → (⟨S4096, .f32⟩ : BufTy).Contents (Elt F) → (⟨S4096, .f32⟩ : BufTy).Contents (Elt F)),
    StableHlo.unary main_v39 main_v40 (Host.rsqrt : (⟨S4096, .f32⟩ : BufTy).Contents (Elt F) → (⟨S4096, .f32⟩ : BufTy).Contents (Elt F)),
    StableHlo.unary main_v40 main_v41 (broadcastInDim S1x4096 ![1] bcast_S4096_S1x4096_1 : (⟨S4096, .f32⟩ : BufTy).Contents (Elt F) → (⟨S1x4096, .f32⟩ : BufTy).Contents (Elt F)),
    StableHlo.unary main_v41 main_v42 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v37 main_v42 main_v43 (mulf : (⟨S8192x4096, .f32⟩ : BufTy).Contents (Elt F) → (⟨S8192x4096, .f32⟩ : BufTy).Contents (Elt F) → (⟨S8192x4096, .f32⟩ : BufTy).Contents (Elt F)),
    StableHlo.unary main_arg6 main_v44 (broadcastInDim S1x4096 ![1] bcast_S4096_S1x4096_1 : (⟨S4096, .f32⟩ : BufTy).Contents (Elt F) → (⟨S1x4096, .f32⟩ : BufTy).Contents (Elt F)),
    StableHlo.unary main_v44 main_v45 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v43 main_v45 main_v46 (addf : (⟨S8192x4096, .f32⟩ : BufTy).Contents (Elt F) → (⟨S8192x4096, .f32⟩ : BufTy).Contents (Elt F) → (⟨S8192x4096, .f32⟩ : BufTy).Contents (Elt F)),
    StableHlo.unary main_v46 main_v47 (Host.sign : (⟨S8192x4096, .f32⟩ : BufTy).Contents (Elt F) → (⟨S8192x4096, .f32⟩ : BufTy).Contents (Elt F)) ]

theorem opsL2_sub : (opsL2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub ..⟩

abbrev opsL3 : List (HloOp τ sig (Elt F)) :=
  [ StableHlo.unary main_v47 main_v48 (Host.sign : (⟨S8192x4096, .f32⟩ : BufTy).Contents (Elt F) → (⟨S8192x4096, .f32⟩ : BufTy).Contents (Elt F)),
    StableHlo.unary main_arg7 main_v49 (Host.sign : (⟨S4096x4096, .f32⟩ : BufTy).Contents (Elt F) → (⟨S4096x4096, .f32⟩ : BufTy).Contents (Elt F)),
    StableHlo.unary main_v49 main_v50 ((transpose S4096x4096 [1, 0] · transposes_S4096x4096_S4096x4096_1_0) : (⟨S4096x4096, .f32⟩ : BufTy).Contents (Elt F) → (⟨S4096x4096, .f32⟩ : BufTy).Contents (Elt F)),
    StableHlo.binary main_v48 main_v50 main_v51 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst_6 (constant S_ .f32 0x00000000#32),
    StableHlo.binary main_v51 main_cst_6 main_v52 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_7 (constant S_ .f32 0x46000000#32),
    StableHlo.unary main_cst_7 main_v53 (broadcastInDim S4096 ![] bcast_S_S4096 : (⟨S_, .f32⟩ : BufTy).Contents (Elt F) → (⟨S4096, .f32⟩ : BufTy).Contents (Elt F)),
    StableHlo.binary main_v52 main_v53 main_v54 (Host.divf : (⟨S4096, .f32⟩ : BufTy).Contents (Elt F) → (⟨S4096, .f32⟩ : BufTy).Contents (Elt F) → (⟨S4096, .f32⟩ : BufTy).Contents (Elt F)),
    StableHlo.nullary main_c_8 (constantI S_ 32 0#32),
    StableHlo.TRef.nullary main_call2.cst (constant S_ .f32 0x00000000#32),
    StableHlo.TRef.binary (StableHlo.TRef.of main_v51 : StableHlo.TRef sig ⟨S8192x4096, .f32⟩) main_call2.cst main_call2.v0 (fun x v => Host.reduceAdd x v reducesTo_S8192x4096_S4096_d0 h_S_),
    StableHlo.TRef.unary main_call2.v0 main_call2.v1 (broadcastInDim S1x4096 ![1] bcast_S4096_S1x4096_1),
    StableHlo.TRef.nullary main_call2.cst_0 (constant S_ .f32 0x46000000#32),
    StableHlo.TRef.unary main_call2.cst_0 main_call2.v2 (broadcastInDim S1x4096 ![] bcast_S_S1x4096),
    StableHlo.TRef.binary main_call2.v1 main_call2.v2 main_call2.v3 Host.divf,
    StableHlo.TRef.unary main_call2.v3 main_call2.v4 (broadcastInDim S8192x4096 ![0, 1] bcast_S1x4096_S8192x4096_0_1),
    StableHlo.TRef.binary (StableHlo.TRef.of main_v51 : StableHlo.TRef sig ⟨S8192x4096, .f32⟩) main_call2.v4 main_call2.v5 subf,
    StableHlo.TRef.binary main_call2.v5 main_call2.v5 main_call2.v6 mulf,
    StableHlo.TRef.unary (StableHlo.TRef.of main_c_8 : StableHlo.TRef sig ⟨S_, .i32⟩) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x4096_S4096_d0 h_S_),
    StableHlo.TRef.unary main_call2.v8 main_call2.v10 (broadcastInDim S4096 ![] bcast_S_S4096),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4096 ![] bcast_S_S4096),
    StableHlo.TRef.ternary main_call2.v12 main_call2.v11 main_call2.call0.v1 main_call2.call0.v2 (fun p a b => select (broadcastInDim S4096 ![] bcast_S_S4096 p) a b),
    StableHlo.unary main_v54 main_v56 (broadcastInDim S1x4096 ![1] bcast_S4096_S1x4096_1 : (⟨S4096, .f32⟩ : BufTy).Contents (Elt F) → (⟨S1x4096, .f32⟩ : BufTy).Contents (Elt F)),
    StableHlo.unary main_v56 main_v57 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v51 main_v57 main_v58 (subf : (⟨S8192x4096, .f32⟩ : BufTy).Contents (Elt F) → (⟨S8192x4096, .f32⟩ : BufTy).Contents (Elt F) → (⟨S8192x4096, .f32⟩ : BufTy).Contents (Elt F)),
    StableHlo.unary main_arg8 main_v59 (broadcastInDim S1x4096 ![1] bcast_S4096_S1x4096_1 : (⟨S4096, .f32⟩ : BufTy).Contents (Elt F) → (⟨S1x4096, .f32⟩ : BufTy).Contents (Elt F)),
    StableHlo.unary main_v59 main_v60 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v60 main_v58 main_v61 (mulf : (⟨S8192x4096, .f32⟩ : BufTy).Contents (Elt F) → (⟨S8192x4096, .f32⟩ : BufTy).Contents (Elt F) → (⟨S8192x4096, .f32⟩ : BufTy).Contents (Elt F)),
    StableHlo.nullary main_cst_9 (constant S_ .f32 0x3727C5AC#32),
    StableHlo.unary main_cst_9 main_v62 (broadcastInDim S4096 ![] bcast_S_S4096 : (⟨S_, .f32⟩ : BufTy).Contents (Elt F) → (⟨S4096, .f32⟩ : BufTy).Contents (Elt F)),
    StableHlo.binary main_v55 main_v62 main_v63 (addf : (⟨S4096, .f32⟩ : BufTy).Contents (Elt F) → (⟨S4096, .f32⟩ : BufTy).Contents (Elt F) → (⟨S4096, .f32⟩ : BufTy).Contents (Elt F)),
    StableHlo.unary main_v63 main_v64 (Host.rsqrt : (⟨S4096, .f32⟩ : BufTy).Contents (Elt F) → (⟨S4096, .f32⟩ : BufTy).Contents (Elt F)),
    StableHlo.unary main_v64 main_v65 (broadcastInDim S1x4096 ![1] bcast_S4096_S1x4096_1 : (⟨S4096, .f32⟩ : BufTy).Contents (Elt F) → (⟨S1x4096, .f32⟩ : BufTy).Contents (Elt F)),
    StableHlo.unary main_v65 main_v66 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v61 main_v66 main_v67 (mulf : (⟨S8192x4096, .f32⟩ : BufTy).Contents (Elt F) → (⟨S8192x4096, .f32⟩ : BufTy).Contents (Elt F) → (⟨S8192x4096, .f32⟩ : BufTy).Contents (Elt F)),
    StableHlo.unary main_arg9 main_v68 (broadcastInDim S1x4096 ![1] bcast_S4096_S1x4096_1 : (⟨S4096, .f32⟩ : BufTy).Contents (Elt F) → (⟨S1x4096, .f32⟩ : BufTy).Contents (Elt F)),
    StableHlo.unary main_v68 main_v69 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v67 main_v69 main_v70 (addf : (⟨S8192x4096, .f32⟩ : BufTy).Contents (Elt F) → (⟨S8192x4096, .f32⟩ : BufTy).Contents (Elt F) → (⟨S8192x4096, .f32⟩ : BufTy).Contents (Elt F)),
    StableHlo.unary main_v70 main_v71 (Host.sign : (⟨S8192x4096, .f32⟩ : BufTy).Contents (Elt F) → (⟨S8192x4096, .f32⟩ : BufTy).Contents (Elt F)) ]

theorem opsL3_sub : (opsL3 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub ..⟩

abbrev opsH : List (HloOp τ sig (Elt F)) :=
  [ StableHlo.unary main_v71 main_v72 (Host.sign : (⟨S8192x4096, .f32⟩ : BufTy).Contents (Elt F) → (⟨S8192x4096, .f32⟩ : BufTy).Contents (Elt F)),
    StableHlo.unary main_arg10 main_v73 (Host.sign : (⟨S1000x4096, .f32⟩ : BufTy).Contents (Elt F) → (⟨S1000x4096, .f32⟩ : BufTy).Contents (Elt F)),
    StableHlo.unary main_v73 main_v74 ((transpose S4096x1000 [1, 0] · transposes_S1000x4096_S4096x1000_1_0) : (⟨S1000x4096, .f32⟩ : BufTy).Contents (Elt F) → (⟨S4096x1000, .f32⟩ : BufTy).Contents (Elt F)),
    StableHlo.binary main_v72 main_v74 main_v75 ((fun l r => Host.dotGeneral dot_S8192x4096_S4096x1000_S8192x1000_1_0_0_1_n_n none l r) : (⟨S8192x4096, .f32⟩ : BufTy).Contents (Elt F) → (⟨S4096x1000, .f32⟩ : BufTy).Contents (Elt F) → (⟨S8192x1000, .f32⟩ : BufTy).Contents (Elt F)) ]

theorem opsH_sub : (opsH : List (HloOp τ sig (Elt F))).Forall fun op => op.bufs ⊆ StableHlo.tcRefs τ sig :=
  ⟨StableHlo.unary_bufs_sub .., StableHlo.unary_bufs_sub .., StableHlo.unary_bufs_sub .., StableHlo.binary_bufs_sub ..⟩

/-- @main's 151 host operations in order, the three calls of the variance function written in. -/
abbrev ops : List (HloOp τ sig (Elt F)) :=
  [ StableHlo.unary main_arg0 main_v0 (Host.sign : (⟨S8192x4096, .f32⟩ : BufTy).Contents (Elt F) → (⟨S8192x4096, .f32⟩ : BufTy).Contents (Elt F)),
    StableHlo.unary main_arg1 main_v1 (Host.sign : (⟨S4096x4096, .f32⟩ : BufTy).Contents (Elt F) → (⟨S4096x4096, .f32⟩ : BufTy).Contents (Elt F)),
    StableHlo.unary main_v1 main_v2 ((transpose S4096x4096 [1, 0] · transposes_S4096x4096_S4096x4096_1_0) : (⟨S4096x4096, .f32⟩ : BufTy).Contents (Elt F) → (⟨S4096x4096, .f32⟩ : BufTy).Contents (Elt F)),
    StableHlo.binary main_v0 main_v2 main_v3 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst (constant S_ .f32 0x00000000#32),
    StableHlo.binary main_v3 main_cst main_v4 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_0 (constant S_ .f32 0x46000000#32),
    StableHlo.unary main_cst_0 main_v5 (broadcastInDim S4096 ![] bcast_S_S4096 : (⟨S_, .f32⟩ : BufTy).Contents (Elt F) → (⟨S4096, .f32⟩ : BufTy).Contents (Elt F)),
    StableHlo.binary main_v4 main_v5 main_v6 (Host.divf : (⟨S4096, .f32⟩ : BufTy).Contents (Elt F) → (⟨S4096, .f32⟩ : BufTy).Contents (Elt F) → (⟨S4096, .f32⟩ : BufTy).Contents (Elt F)),
    StableHlo.nullary main_c (constantI S_ 32 0#32),
    StableHlo.TRef.nullary main_call0.cst (constant S_ .f32 0x00000000#32),
    StableHlo.TRef.binary (StableHlo.TRef.of main_v3 : StableHlo.TRef sig ⟨S8192x4096, .f32⟩) main_call0.cst main_call0.v0 (fun x v => Host.reduceAdd x v reducesTo_S8192x4096_S4096_d0 h_S_),
    StableHlo.TRef.unary main_call0.v0 main_call0.v1 (broadcastInDim S1x4096 ![1] bcast_S4096_S1x4096_1),
    StableHlo.TRef.nullary main_call0.cst_0 (constant S_ .f32 0x46000000#32),
    StableHlo.TRef.unary main_call0.cst_0 main_call0.v2 (broadcastInDim S1x4096 ![] bcast_S_S1x4096),
    StableHlo.TRef.binary main_call0.v1 main_call0.v2 main_call0.v3 Host.divf,
    StableHlo.TRef.unary main_call0.v3 main_call0.v4 (broadcastInDim S8192x4096 ![0, 1] bcast_S1x4096_S8192x4096_0_1),
    StableHlo.TRef.binary (StableHlo.TRef.of main_v3 : StableHlo.TRef sig ⟨S8192x4096, .f32⟩) main_call0.v4 main_call0.v5 subf,
    StableHlo.TRef.binary main_call0.v5 main_call0.v5 main_call0.v6 mulf,
    StableHlo.TRef.unary (StableHlo.TRef.of main_c : StableHlo.TRef sig ⟨S_, .i32⟩) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x4096_S4096_d0 h_S_),
    StableHlo.TRef.unary main_call0.v8 main_call0.v10 (broadcastInDim S4096 ![] bcast_S_S4096),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4096 ![] bcast_S_S4096),
    StableHlo.TRef.ternary main_call0.v12 main_call0.v11 main_call0.call0.v1 main_call0.call0.v2 (fun p a b => select (broadcastInDim S4096 ![] bcast_S_S4096 p) a b),
    StableHlo.unary main_v6 main_v8 (broadcastInDim S1x4096 ![1] bcast_S4096_S1x4096_1 : (⟨S4096, .f32⟩ : BufTy).Contents (Elt F) → (⟨S1x4096, .f32⟩ : BufTy).Contents (Elt F)),
    StableHlo.unary main_v8 main_v9 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v3 main_v9 main_v10 (subf : (⟨S8192x4096, .f32⟩ : BufTy).Contents (Elt F) → (⟨S8192x4096, .f32⟩ : BufTy).Contents (Elt F) → (⟨S8192x4096, .f32⟩ : BufTy).Contents (Elt F)),
    StableHlo.unary main_arg2 main_v11 (broadcastInDim S1x4096 ![1] bcast_S4096_S1x4096_1 : (⟨S4096, .f32⟩ : BufTy).Contents (Elt F) → (⟨S1x4096, .f32⟩ : BufTy).Contents (Elt F)),
    StableHlo.unary main_v11 main_v12 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v12 main_v10 main_v13 (mulf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x3727C5AC#32),
    StableHlo.unary main_cst_1 main_v14 (broadcastInDim S4096 ![] bcast_S_S4096 : (⟨S_, .f32⟩ : BufTy).Contents (Elt F) → (⟨S4096, .f32⟩ : BufTy).Contents (Elt F)),
    StableHlo.binary main_v7 main_v14 main_v15 (addf : (⟨S4096, .f32⟩ : BufTy).Contents (Elt F) → (⟨S4096, .f32⟩ : BufTy).Contents (Elt F) → (⟨S4096, .f32⟩ : BufTy).Contents (Elt F)),
    StableHlo.unary main_v15 main_v16 (Host.rsqrt : (⟨S4096, .f32⟩ : BufTy).Contents (Elt F) → (⟨S4096, .f32⟩ : BufTy).Contents (Elt F)),
    StableHlo.unary main_v16 main_v17 (broadcastInDim S1x4096 ![1] bcast_S4096_S1x4096_1 : (⟨S4096, .f32⟩ : BufTy).Contents (Elt F) → (⟨S1x4096, .f32⟩ : BufTy).Contents (Elt F)),
    StableHlo.unary main_v17 main_v18 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v13 main_v18 main_v19 (mulf : (⟨S8192x4096, .f32⟩ : BufTy).Contents (Elt F) → (⟨S8192x4096, .f32⟩ : BufTy).Contents (Elt F) → (⟨S8192x4096, .f32⟩ : BufTy).Contents (Elt F)),
    StableHlo.unary main_arg3 main_v20 (broadcastInDim S1x4096 ![1] bcast_S4096_S1x4096_1 : (⟨S4096, .f32⟩ : BufTy).Contents (Elt F) → (⟨S1x4096, .f32⟩ : BufTy).Contents (Elt F)),
    StableHlo.unary main_v20 main_v21 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v19 main_v21 main_v22 (addf : (⟨S8192x4096, .f32⟩ : BufTy).Contents (Elt F) → (⟨S8192x4096, .f32⟩ : BufTy).Contents (Elt F) → (⟨S8192x4096, .f32⟩ : BufTy).Contents (Elt F)),
    StableHlo.unary main_v22 main_v23 (Host.sign : (⟨S8192x4096, .f32⟩ : BufTy).Contents (Elt F) → (⟨S8192x4096, .f32⟩ : BufTy).Contents (Elt F)),
    StableHlo.unary main_v23 main_v24 (Host.sign : (⟨S8192x4096, .f32⟩ : BufTy).Contents (Elt F) → (⟨S8192x4096, .f32⟩ : BufTy).Contents (Elt F)),
    StableHlo.unary main_arg4 main_v25 (Host.sign : (⟨S4096x4096, .f32⟩ : BufTy).Contents (Elt F) → (⟨S4096x4096, .f32⟩ : BufTy).Contents (Elt F)),
    StableHlo.unary main_v25 main_v26 ((transpose S4096x4096 [1, 0] · transposes_S4096x4096_S4096x4096_1_0) : (⟨S4096x4096, .f32⟩ : BufTy).Contents (Elt F) → (⟨S4096x4096, .f32⟩ : BufTy).Contents (Elt F)),
    StableHlo.binary main_v24 main_v26 main_v27 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst_2 (constant S_ .f32 0x00000000#32),
    StableHlo.binary main_v27 main_cst_2 main_v28 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_3 (constant S_ .f32 0x46000000#32),
    StableHlo.unary main_cst_3 main_v29 (broadcastInDim S4096 ![] bcast_S_S4096 : (⟨S_, .f32⟩ : BufTy).Contents (Elt F) → (⟨S4096, .f32⟩ : BufTy).Contents (Elt F)),
    StableHlo.binary main_v28 main_v29 main_v30 (Host.divf : (⟨S4096, .f32⟩ : BufTy).Contents (Elt F) → (⟨S4096, .f32⟩ : BufTy).Contents (Elt F) → (⟨S4096, .f32⟩ : BufTy).Contents (Elt F)),
    StableHlo.nullary main_c_4 (constantI S_ 32 0#32),
    StableHlo.TRef.nullary main_call1.cst (constant S_ .f32 0x00000000#32),
    StableHlo.TRef.binary (StableHlo.TRef.of main_v27 : StableHlo.TRef sig ⟨S8192x4096, .f32⟩) main_call1.cst main_call1.v0 (fun x v => Host.reduceAdd x v reducesTo_S8192x4096_S4096_d0 h_S_),
    StableHlo.TRef.unary main_call1.v0 main_call1.v1 (broadcastInDim S1x4096 ![1] bcast_S4096_S1x4096_1),
    StableHlo.TRef.nullary main_call1.cst_0 (constant S_ .f32 0x46000000#32),
    StableHlo.TRef.unary main_call1.cst_0 main_call1.v2 (broadcastInDim S1x4096 ![] bcast_S_S1x4096),
    StableHlo.TRef.binary main_call1.v1 main_call1.v2 main_call1.v3 Host.divf,
    StableHlo.TRef.unary main_call1.v3 main_call1.v4 (broadcastInDim S8192x4096 ![0, 1] bcast_S1x4096_S8192x4096_0_1),
    StableHlo.TRef.binary (StableHlo.TRef.of main_v27 : StableHlo.TRef sig ⟨S8192x4096, .f32⟩) main_call1.v4 main_call1.v5 subf,
    StableHlo.TRef.binary main_call1.v5 main_call1.v5 main_call1.v6 mulf,
    StableHlo.TRef.unary (StableHlo.TRef.of main_c_4 : StableHlo.TRef sig ⟨S_, .i32⟩) main_call1.v7 (sitofp .f32),
    StableHlo.TRef.nullary main_call1.cst_1 (constant S_ .f32 0x46000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x4096_S4096_d0 h_S_),
    StableHlo.TRef.unary main_call1.v8 main_call1.v10 (broadcastInDim S4096 ![] bcast_S_S4096),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S4096 ![] bcast_S_S4096),
    StableHlo.TRef.ternary main_call1.v12 main_call1.v11 main_call1.call0.v1 main_call1.call0.v2 (fun p a b => select (broadcastInDim S4096 ![] bcast_S_S4096 p) a b),
    StableHlo.unary main_v30 main_v32 (broadcastInDim S1x4096 ![1] bcast_S4096_S1x4096_1 : (⟨S4096, .f32⟩ : BufTy).Contents (Elt F) → (⟨S1x4096, .f32⟩ : BufTy).Contents (Elt F)),
    StableHlo.unary main_v32 main_v33 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v27 main_v33 main_v34 (subf : (⟨S8192x4096, .f32⟩ : BufTy).Contents (Elt F) → (⟨S8192x4096, .f32⟩ : BufTy).Contents (Elt F) → (⟨S8192x4096, .f32⟩ : BufTy).Contents (Elt F)),
    StableHlo.unary main_arg5 main_v35 (broadcastInDim S1x4096 ![1] bcast_S4096_S1x4096_1 : (⟨S4096, .f32⟩ : BufTy).Contents (Elt F) → (⟨S1x4096, .f32⟩ : BufTy).Contents (Elt F)),
    StableHlo.unary main_v35 main_v36 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v36 main_v34 main_v37 (mulf : (⟨S8192x4096, .f32⟩ : BufTy).Contents (Elt F) → (⟨S8192x4096, .f32⟩ : BufTy).Contents (Elt F) → (⟨S8192x4096, .f32⟩ : BufTy).Contents (Elt F)),
    StableHlo.nullary main_cst_5 (constant S_ .f32 0x3727C5AC#32),
    StableHlo.unary main_cst_5 main_v38 (broadcastInDim S4096 ![] bcast_S_S4096 : (⟨S_, .f32⟩ : BufTy).Contents (Elt F) → (⟨S4096, .f32⟩ : BufTy).Contents (Elt F)),
    StableHlo.binary main_v31 main_v38 main_v39 (addf : (⟨S4096, .f32⟩ : BufTy).Contents (Elt F) → (⟨S4096, .f32⟩ : BufTy).Contents (Elt F) → (⟨S4096, .f32⟩ : BufTy).Contents (Elt F)),
    StableHlo.unary main_v39 main_v40 (Host.rsqrt : (⟨S4096, .f32⟩ : BufTy).Contents (Elt F) → (⟨S4096, .f32⟩ : BufTy).Contents (Elt F)),
    StableHlo.unary main_v40 main_v41 (broadcastInDim S1x4096 ![1] bcast_S4096_S1x4096_1 : (⟨S4096, .f32⟩ : BufTy).Contents (Elt F) → (⟨S1x4096, .f32⟩ : BufTy).Contents (Elt F)),
    StableHlo.unary main_v41 main_v42 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v37 main_v42 main_v43 (mulf : (⟨S8192x4096, .f32⟩ : BufTy).Contents (Elt F) → (⟨S8192x4096, .f32⟩ : BufTy).Contents (Elt F) → (⟨S8192x4096, .f32⟩ : BufTy).Contents (Elt F)),
    StableHlo.unary main_arg6 main_v44 (broadcastInDim S1x4096 ![1] bcast_S4096_S1x4096_1 : (⟨S4096, .f32⟩ : BufTy).Contents (Elt F) → (⟨S1x4096, .f32⟩ : BufTy).Contents (Elt F)),
    StableHlo.unary main_v44 main_v45 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v43 main_v45 main_v46 (addf : (⟨S8192x4096, .f32⟩ : BufTy).Contents (Elt F) → (⟨S8192x4096, .f32⟩ : BufTy).Contents (Elt F) → (⟨S8192x4096, .f32⟩ : BufTy).Contents (Elt F)),
    StableHlo.unary main_v46 main_v47 (Host.sign : (⟨S8192x4096, .f32⟩ : BufTy).Contents (Elt F) → (⟨S8192x4096, .f32⟩ : BufTy).Contents (Elt F)),
    StableHlo.unary main_v47 main_v48 (Host.sign : (⟨S8192x4096, .f32⟩ : BufTy).Contents (Elt F) → (⟨S8192x4096, .f32⟩ : BufTy).Contents (Elt F)),
    StableHlo.unary main_arg7 main_v49 (Host.sign : (⟨S4096x4096, .f32⟩ : BufTy).Contents (Elt F) → (⟨S4096x4096, .f32⟩ : BufTy).Contents (Elt F)),
    StableHlo.unary main_v49 main_v50 ((transpose S4096x4096 [1, 0] · transposes_S4096x4096_S4096x4096_1_0) : (⟨S4096x4096, .f32⟩ : BufTy).Contents (Elt F) → (⟨S4096x4096, .f32⟩ : BufTy).Contents (Elt F)),
    StableHlo.binary main_v48 main_v50 main_v51 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst_6 (constant S_ .f32 0x00000000#32),
    StableHlo.binary main_v51 main_cst_6 main_v52 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_7 (constant S_ .f32 0x46000000#32),
    StableHlo.unary main_cst_7 main_v53 (broadcastInDim S4096 ![] bcast_S_S4096 : (⟨S_, .f32⟩ : BufTy).Contents (Elt F) → (⟨S4096, .f32⟩ : BufTy).Contents (Elt F)),
    StableHlo.binary main_v52 main_v53 main_v54 (Host.divf : (⟨S4096, .f32⟩ : BufTy).Contents (Elt F) → (⟨S4096, .f32⟩ : BufTy).Contents (Elt F) → (⟨S4096, .f32⟩ : BufTy).Contents (Elt F)),
    StableHlo.nullary main_c_8 (constantI S_ 32 0#32),
    StableHlo.TRef.nullary main_call2.cst (constant S_ .f32 0x00000000#32),
    StableHlo.TRef.binary (StableHlo.TRef.of main_v51 : StableHlo.TRef sig ⟨S8192x4096, .f32⟩) main_call2.cst main_call2.v0 (fun x v => Host.reduceAdd x v reducesTo_S8192x4096_S4096_d0 h_S_),
    StableHlo.TRef.unary main_call2.v0 main_call2.v1 (broadcastInDim S1x4096 ![1] bcast_S4096_S1x4096_1),
    StableHlo.TRef.nullary main_call2.cst_0 (constant S_ .f32 0x46000000#32),
    StableHlo.TRef.unary main_call2.cst_0 main_call2.v2 (broadcastInDim S1x4096 ![] bcast_S_S1x4096),
    StableHlo.TRef.binary main_call2.v1 main_call2.v2 main_call2.v3 Host.divf,
    StableHlo.TRef.unary main_call2.v3 main_call2.v4 (broadcastInDim S8192x4096 ![0, 1] bcast_S1x4096_S8192x4096_0_1),
    StableHlo.TRef.binary (StableHlo.TRef.of main_v51 : StableHlo.TRef sig ⟨S8192x4096, .f32⟩) main_call2.v4 main_call2.v5 subf,
    StableHlo.TRef.binary main_call2.v5 main_call2.v5 main_call2.v6 mulf,
    StableHlo.TRef.unary (StableHlo.TRef.of main_c_8 : StableHlo.TRef sig ⟨S_, .i32⟩) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x4096_S4096_d0 h_S_),
    StableHlo.TRef.unary main_call2.v8 main_call2.v10 (broadcastInDim S4096 ![] bcast_S_S4096),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4096 ![] bcast_S_S4096),
    StableHlo.TRef.ternary main_call2.v12 main_call2.v11 main_call2.call0.v1 main_call2.call0.v2 (fun p a b => select (broadcastInDim S4096 ![] bcast_S_S4096 p) a b),
    StableHlo.unary main_v54 main_v56 (broadcastInDim S1x4096 ![1] bcast_S4096_S1x4096_1 : (⟨S4096, .f32⟩ : BufTy).Contents (Elt F) → (⟨S1x4096, .f32⟩ : BufTy).Contents (Elt F)),
    StableHlo.unary main_v56 main_v57 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v51 main_v57 main_v58 (subf : (⟨S8192x4096, .f32⟩ : BufTy).Contents (Elt F) → (⟨S8192x4096, .f32⟩ : BufTy).Contents (Elt F) → (⟨S8192x4096, .f32⟩ : BufTy).Contents (Elt F)),
    StableHlo.unary main_arg8 main_v59 (broadcastInDim S1x4096 ![1] bcast_S4096_S1x4096_1 : (⟨S4096, .f32⟩ : BufTy).Contents (Elt F) → (⟨S1x4096, .f32⟩ : BufTy).Contents (Elt F)),
    StableHlo.unary main_v59 main_v60 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v60 main_v58 main_v61 (mulf : (⟨S8192x4096, .f32⟩ : BufTy).Contents (Elt F) → (⟨S8192x4096, .f32⟩ : BufTy).Contents (Elt F) → (⟨S8192x4096, .f32⟩ : BufTy).Contents (Elt F)),
    StableHlo.nullary main_cst_9 (constant S_ .f32 0x3727C5AC#32),
    StableHlo.unary main_cst_9 main_v62 (broadcastInDim S4096 ![] bcast_S_S4096 : (⟨S_, .f32⟩ : BufTy).Contents (Elt F) → (⟨S4096, .f32⟩ : BufTy).Contents (Elt F)),
    StableHlo.binary main_v55 main_v62 main_v63 (addf : (⟨S4096, .f32⟩ : BufTy).Contents (Elt F) → (⟨S4096, .f32⟩ : BufTy).Contents (Elt F) → (⟨S4096, .f32⟩ : BufTy).Contents (Elt F)),
    StableHlo.unary main_v63 main_v64 (Host.rsqrt : (⟨S4096, .f32⟩ : BufTy).Contents (Elt F) → (⟨S4096, .f32⟩ : BufTy).Contents (Elt F)),
    StableHlo.unary main_v64 main_v65 (broadcastInDim S1x4096 ![1] bcast_S4096_S1x4096_1 : (⟨S4096, .f32⟩ : BufTy).Contents (Elt F) → (⟨S1x4096, .f32⟩ : BufTy).Contents (Elt F)),
    StableHlo.unary main_v65 main_v66 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v61 main_v66 main_v67 (mulf : (⟨S8192x4096, .f32⟩ : BufTy).Contents (Elt F) → (⟨S8192x4096, .f32⟩ : BufTy).Contents (Elt F) → (⟨S8192x4096, .f32⟩ : BufTy).Contents (Elt F)),
    StableHlo.unary main_arg9 main_v68 (broadcastInDim S1x4096 ![1] bcast_S4096_S1x4096_1 : (⟨S4096, .f32⟩ : BufTy).Contents (Elt F) → (⟨S1x4096, .f32⟩ : BufTy).Contents (Elt F)),
    StableHlo.unary main_v68 main_v69 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v67 main_v69 main_v70 (addf : (⟨S8192x4096, .f32⟩ : BufTy).Contents (Elt F) → (⟨S8192x4096, .f32⟩ : BufTy).Contents (Elt F) → (⟨S8192x4096, .f32⟩ : BufTy).Contents (Elt F)),
    StableHlo.unary main_v70 main_v71 (Host.sign : (⟨S8192x4096, .f32⟩ : BufTy).Contents (Elt F) → (⟨S8192x4096, .f32⟩ : BufTy).Contents (Elt F)),
    StableHlo.unary main_v71 main_v72 (Host.sign : (⟨S8192x4096, .f32⟩ : BufTy).Contents (Elt F) → (⟨S8192x4096, .f32⟩ : BufTy).Contents (Elt F)),
    StableHlo.unary main_arg10 main_v73 (Host.sign : (⟨S1000x4096, .f32⟩ : BufTy).Contents (Elt F) → (⟨S1000x4096, .f32⟩ : BufTy).Contents (Elt F)),
    StableHlo.unary main_v73 main_v74 ((transpose S4096x1000 [1, 0] · transposes_S1000x4096_S4096x1000_1_0) : (⟨S1000x4096, .f32⟩ : BufTy).Contents (Elt F) → (⟨S4096x1000, .f32⟩ : BufTy).Contents (Elt F)),
    StableHlo.binary main_v72 main_v74 main_v75 ((fun l r => Host.dotGeneral dot_S8192x4096_S4096x1000_S8192x1000_1_0_0_1_n_n none l r) : (⟨S8192x4096, .f32⟩ : BufTy).Contents (Elt F) → (⟨S4096x1000, .f32⟩ : BufTy).Contents (Elt F) → (⟨S8192x1000, .f32⟩ : BufTy).Contents (Elt F)) ]

theorem ops_sub : (ops : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub ..⟩

/-- The whole line is the three layers' lines and the head's, one after the other. -/
theorem ops_split : (ops : List (HloOp τ sig (Elt F))) = opsL1 ++ (opsL2 ++ (opsL3 ++ opsH)) := rfl

end Cert.ReferenceIdeal.Hand

end
-- ==== Proof.RStages.lean ====
/-
  The reference program's stages, as whole-array functions of their operands, for any float values:
  a binarized matrix product, the column mean, the column variance (the sum of squared deviations over
  the count, selected against the constant test that the count is positive), the normalised and
  re-binarized activation, the output head, and their composition over three layers.
  Each is spelt with the program's own operations in the program's own order and association.
-/
import proofs.«139021_j54202487276022_2_alg».proof.Proof.Gen.ReferenceIdeal

noncomputable section

namespace Cert.ReferenceIdeal.Hand

open Cert.ReferenceIdeal Cert.ReferenceIdeal.Gen Idealize.ShloMosaic

variable {F : FTy → Type} [FloatOps F]

/-- `sign h · (sign W)ᵀ`: rows of `h` against rows of `W`, both binarized. -/
def refZ (h : FVec F S8192x4096 .f32) (W : FVec F S4096x4096 .f32) : FVec F S8192x4096 .f32 :=
  Host.dotGeneral (F := F) dot_S8192x4096_S4096x4096_S8192x4096_1_0_0_1_n_n none (Host.sign (F := F) h)
    (transpose S4096x4096 [1, 0] (Host.sign (F := F) W) transposes_S4096x4096_S4096x4096_1_0)

/-- The column sums from zero. -/
def refColSum (Z : FVec F S8192x4096 .f32) : FVec F S4096 .f32 :=
  Host.reduceAdd (F := F) Z (constant (F := F) S_ .f32 0x00000000#32) reducesTo_S8192x4096_S4096_d0 h_S_

/-- The column mean: the column sum over 8192. -/
def refMean (Z : FVec F S8192x4096 .f32) : FVec F S4096 .f32 :=
  Host.divf (F := F) (refColSum Z) (broadcastInDim S4096 ![] bcast_S_S4096 (constant (F := F) S_ .f32 0x46000000#32))

/-- The column mean once more, as the variance computes it: as a row. -/
def refMeanRow (Z : FVec F S8192x4096 .f32) : FVec F S1x4096 .f32 :=
  Host.divf (F := F) (broadcastInDim S1x4096 ![1] bcast_S4096_S1x4096_1 (refColSum Z))
    (broadcastInDim S1x4096 ![] bcast_S_S1x4096 (constant (F := F) S_ .f32 0x46000000#32))

/-- The deviations from the column mean. -/
def refCentered (Z : FVec F S8192x4096 .f32) : FVec F S8192x4096 .f32 :=
  subf Z (broadcastInDim S8192x4096 ![0, 1] bcast_S1x4096_S8192x4096_0_1 (refMeanRow Z))

/-- The count the variance divides by: 8192 minus the (zero) degrees of freedom taken off. -/
def refCount : FVec F S_ .f32 :=
  subf (constant (F := F) S_ .f32 0x46000000#32) (sitofp (F := F) .f32 (constantI S_ 32 0#32))

/-- The sum of squared deviations over the count. -/
def refVarRaw (Z : FVec F S8192x4096 .f32) : FVec F S4096 .f32 :=
  Host.divf (F := F)
    (Host.reduceAdd (F := F) (mulf (refCentered Z) (refCentered Z)) (constant (F := F) S_ .f32 0x00000000#32)
      reducesTo_S8192x4096_S4096_d0 h_S_)
    (broadcastInDim S4096 ![] bcast_S_S4096 (refCount (F := F)))

/-- The column variance: the quotient above where the count is positive, a not-a-number literal elsewhere. -/
def refVar (Z : FVec F S8192x4096 .f32) : FVec F S4096 .f32 :=
  select (broadcastInDim S4096 ![] bcast_S_S4096
      (cmpf (F := F) .ogt (refCount (F := F)) (constant (F := F) S_ .f32 0x00000000#32)))
    (refVarRaw Z)
    (broadcastInDim S4096 ![] bcast_S_S4096 (id (constant (F := F) S_ .f32 0x7FC00000#32)))

/-- A vector over the columns laid along every row. -/
def refRows (v : FVec F S4096 .f32) : FVec F S8192x4096 .f32 :=
  broadcastInDim S8192x4096 ![0, 1] bcast_S1x4096_S8192x4096_0_1 (broadcastInDim S1x4096 ![1] bcast_S4096_S1x4096_1 v)

/-- `sign (g · (Z − mean) · rsqrt (var + ε) + b)`, column statistics and parameters laid along the rows. -/
def refAct (Z : FVec F S8192x4096 .f32) (mean var g b : FVec F S4096 .f32) : FVec F S8192x4096 .f32 :=
  Host.sign (F := F)
    (addf
      (mulf (mulf (refRows g) (subf Z (refRows mean)))
        (refRows (Host.rsqrt (F := F)
          (addf var (broadcastInDim S4096 ![] bcast_S_S4096 (constant (F := F) S_ .f32 0x3727C5AC#32))))))
      (refRows b))

/-- One layer: the binarized product, normalised by its own column statistics, binarized. -/
def refLayer (h : FVec F S8192x4096 .f32) (W : FVec F S4096x4096 .f32) (g b : FVec F S4096 .f32) :
    FVec F S8192x4096 .f32 :=
  refAct (refZ h W) (refMean (refZ h W)) (refVar (refZ h W)) g b

/-- The head: `sign h · (sign W)ᵀ` against the 1000 output rows. -/
def refHead (h : FVec F S8192x4096 .f32) (W : FVec F S1000x4096 .f32) : FVec F S8192x1000 .f32 :=
  Host.dotGeneral (F := F) dot_S8192x4096_S4096x1000_S8192x1000_1_0_0_1_n_n none (Host.sign (F := F) h)
    (transpose S4096x1000 [1, 0] (Host.sign (F := F) W) transposes_S1000x4096_S4096x1000_1_0)

/-- The whole reference: three layers, then the head. -/
def refOut (x : FVec F S8192x4096 .f32) (W1 : FVec F S4096x4096 .f32) (g1 b1 : FVec F S4096 .f32)
    (W2 : FVec F S4096x4096 .f32) (g2 b2 : FVec F S4096 .f32)
    (W3 : FVec F S4096x4096 .f32) (g3 b3 : FVec F S4096 .f32) (Wout : FVec F S1000x4096 .f32) :
    FVec F S8192x1000 .f32 :=
  refHead (refLayer (refLayer (refLayer x W1 g1 b1) W2 g2 b2) W3 g3 b3) Wout

end Cert.ReferenceIdeal.Hand

end
-- ==== Proof.RRun.lean ====
/-
  The reference program's run. @main is one straight line of 151 host operations once the three calls of
  the variance function are written in at their call sites; every weakly fair execution therefore ends with each
  buffer at the fold of the operations over its launch contents. The fold is read layer by layer: over ANY
  contents a layer's 49 operations leave the layer's stage function of four buffers in the layer's last buffer and
  leave the eleven argument buffers alone, and the head's 4 operations leave the head's stage function; chaining
  the four readings gives the result buffer as the composed reference function of the eleven arguments.
-/
import proofs.«139021_j54202487276022_2_alg».proof.Proof.ROps
import proofs.«139021_j54202487276022_2_alg».proof.Proof.RStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## Two general facts -/

/-- Two lines folded one after the other are their concatenation folded. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- Contents moved to a typed reference's buffer and back are the contents. -/
theorem ofBuf_toBuf {T : BufTy} (x : StableHlo.TRef sig T) (v : T.Contents (Elt F)) : x.ofBuf (x.toBuf v) = v := by
  obtain ⟨r, rfl, _, _⟩ := x
  rfl

/-! ## @main is the line -/

set_option maxRecDepth 65536 in
/-- @main is the straight line: the two windows, the variance function and the selection it calls unfold at
    their uses, and both sides are one chain of steps once sequencing is re-associated. -/
theorem main_eq (c : Dev nD) : main (F := F) c = StableHlo.seq ops := by
  simp only [main, main_part0, main_part1, fn_var.body, fn_where.body, ops, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Each layer's line, over any contents -/

/-- Layer 1: from `x`, `W1`, `g1`, `b1`. -/
theorem l1_eq (X : Valuation τ sig (Elt F)) :
    StableHlo.after opsL1 X (main_v23 : DevRef τ sig)
      = refLayer (X (main_arg0 : DevRef τ sig)) (X (main_arg1 : DevRef τ sig)) (X (main_arg2 : DevRef τ sig)) (X (main_arg3 : DevRef τ sig)) := by
  after_results_simp
  simp only [ofBuf_toBuf]
  rfl

/-- Layer 2: from layer 1's buffer, `W2`, `g2`, `b2`. -/
theorem l2_eq (X : Valuation τ sig (Elt F)) :
    StableHlo.after opsL2 X (main_v47 : DevRef τ sig)
      = refLayer (X (main_v23 : DevRef τ sig)) (X (main_arg4 : DevRef τ sig)) (X (main_arg5 : DevRef τ sig)) (X (main_arg6 : DevRef τ sig)) := by
  after_results_simp
  simp only [ofBuf_toBuf]
  rfl

/-- Layer 3: from layer 2's buffer, `W3`, `g3`, `b3`. -/
theorem l3_eq (X : Valuation τ sig (Elt F)) :
    StableHlo.after opsL3 X (main_v71 : DevRef τ sig)
      = refLayer (X (main_v47 : DevRef τ sig)) (X (main_arg7 : DevRef τ sig)) (X (main_arg8 : DevRef τ sig)) (X (main_arg9 : DevRef τ sig)) := by
  after_results_simp
  simp only [ofBuf_toBuf]
  rfl

/-- The head: from layer 3's buffer and `Wout`. -/
theorem h_eq (X : Valuation τ sig (Elt F)) :
    StableHlo.after opsH X (main_v75 : DevRef τ sig) = refHead (X (main_v71 : DevRef τ sig)) (X (main_arg10 : DevRef τ sig)) := by
  after_results_simp
  rfl

/-! ## No line writes an argument -/

/-- The eleven argument buffers hold in `Y` what they hold in `X`. -/
def ArgsKept (X Y : Valuation τ sig (Elt F)) : Prop :=
    Y (main_arg0 : DevRef τ sig) = X (main_arg0 : DevRef τ sig) ∧
    Y (main_arg1 : DevRef τ sig) = X (main_arg1 : DevRef τ sig) ∧
    Y (main_arg2 : DevRef τ sig) = X (main_arg2 : DevRef τ sig) ∧
    Y (main_arg3 : DevRef τ sig) = X (main_arg3 : DevRef τ sig) ∧
    Y (main_arg4 : DevRef τ sig) = X (main_arg4 : DevRef τ sig) ∧
    Y (main_arg5 : DevRef τ sig) = X (main_arg5 : DevRef τ sig) ∧
    Y (main_arg6 : DevRef τ sig) = X (main_arg6 : DevRef τ sig) ∧
    Y (main_arg7 : DevRef τ sig) = X (main_arg7 : DevRef τ sig) ∧
    Y (main_arg8 : DevRef τ sig) = X (main_arg8 : DevRef τ sig) ∧
    Y (main_arg9 : DevRef τ sig) = X (main_arg9 : DevRef τ sig) ∧
    Y (main_arg10 : DevRef τ sig) = X (main_arg10 : DevRef τ sig)

theorem ArgsKept.trans {X Y Z : Valuation τ sig (Elt F)} (h₁ : ArgsKept X Y) (h₂ : ArgsKept Y Z) : ArgsKept X Z := by
  obtain ⟨a0, a1, a2, a3, a4, a5, a6, a7, a8, a9, a10⟩ := h₁
  obtain ⟨b0, b1, b2, b3, b4, b5, b6, b7, b8, b9, b10⟩ := h₂
  exact ⟨b0.trans a0, b1.trans a1, b2.trans a2, b3.trans a3, b4.trans a4, b5.trans a5, b6.trans a6, b7.trans a7,
    b8.trans a8, b9.trans a9, b10.trans a10⟩

theorem keepL1 (X : Valuation τ sig (Elt F)) : ArgsKept X (StableHlo.after opsL1 X) := by
  unfold ArgsKept
  refine ⟨?_, ?_, ?_, ?_, ?_, ?_, ?_, ?_, ?_, ?_, ?_⟩ <;> after_results_simp

theorem keepL2 (X : Valuation τ sig (Elt F)) : ArgsKept X (StableHlo.after opsL2 X) := by
  unfold ArgsKept
  refine ⟨?_, ?_, ?_, ?_, ?_, ?_, ?_, ?_, ?_, ?_, ?_⟩ <;> after_results_simp

theorem keepL3 (X : Valuation τ sig (Elt F)) : ArgsKept X (StableHlo.after opsL3 X) := by
  unfold ArgsKept
  refine ⟨?_, ?_, ?_, ?_, ?_, ?_, ?_, ?_, ?_, ?_, ?_⟩ <;> after_results_simp

theorem keepH (X : Valuation τ sig (Elt F)) : ArgsKept X (StableHlo.after opsH X) := by
  unfold ArgsKept
  refine ⟨?_, ?_, ?_, ?_, ?_, ?_, ?_, ?_, ?_, ?_, ?_⟩ <;> after_results_simp

/-! ## The whole line -/

/-- The whole line leaves the arguments alone. -/
theorem args_kept (V : Valuation τ sig (Elt F)) : ArgsKept V (StableHlo.after ops V) := by
  rw [ops_split, after_append, after_append, after_append]
  exact (((keepL1 V).trans (keepL2 _)).trans (keepL3 _)).trans (keepH _)

/-- The whole line leaves the composed reference function of the arguments in the result buffer. -/
theorem out_eq (V : Valuation τ sig (Elt F)) :
    StableHlo.after ops V (main_v75 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) := by
  rw [ops_split, after_append, after_append, after_append]
  obtain ⟨-, -, -, -, k14, k15, k16, k17, k18, k19, k110⟩ := keepL1 V
  obtain ⟨-, -, -, -, -, -, -, k27, k28, k29, k210⟩ := keepL2 (StableHlo.after opsL1 V)
  obtain ⟨-, -, -, -, -, -, -, -, -, -, k310⟩ := keepL3 (StableHlo.after opsL2 (StableHlo.after opsL1 V))
  rw [h_eq, l3_eq, l2_eq, l1_eq, k310, k210, k110, k27, k28, k29, k17, k18, k19, k14, k15, k16]
  rfl

/-! ## The run -/

/-- On every device, for any float values, from any memory with zero counters: every weakly fair execution of
    @main terminates with the result buffer at the composed reference function of the eleven arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v75).trans (out_eq _),
       (h c main_arg0).trans (args_kept (StableHlo.launchContents m c)).1,
       (h c main_arg1).trans (args_kept (StableHlo.launchContents m c)).2.1,
       (h c main_arg2).trans (args_kept (StableHlo.launchContents m c)).2.2.1,
       (h c main_arg3).trans (args_kept (StableHlo.launchContents m c)).2.2.2.1,
       (h c main_arg4).trans (args_kept (StableHlo.launchContents m c)).2.2.2.2.1,
       (h c main_arg5).trans (args_kept (StableHlo.launchContents m c)).2.2.2.2.2.1,
       (h c main_arg6).trans (args_kept (StableHlo.launchContents m c)).2.2.2.2.2.2.1,
       (h c main_arg7).trans (args_kept (StableHlo.launchContents m c)).2.2.2.2.2.2.2.1,
       (h c main_arg8).trans (args_kept (StableHlo.launchContents m c)).2.2.2.2.2.2.2.2.1,
       (h c main_arg9).trans (args_kept (StableHlo.launchContents m c)).2.2.2.2.2.2.2.2.2.1,
       (h c main_arg10).trans (args_kept (StableHlo.launchContents m c)).2.2.2.2.2.2.2.2.2.2⟩)
    (StableHlo.run_seq scopedRefs_eq scopedSems_eq defs main (fun _ => ops) main_eq (fun _ => ops_sub) m ρ)

end Cert.ReferenceIdeal.Hand

end
-- ==== Proof.RFrame.lean ====
/-
  The reference keeps its arguments.

  The run theorem of the reference gives, at the end of every weakly fair execution, the result buffer and the eleven
  argument buffers; dropping the first of these leaves exactly the statement that the program runs and its arguments
  end unchanged. The precondition is not used: the reference runs from any memory.
-/
import proofs.«139021_j54202487276022_2_alg».proof.Defs
import proofs.«139021_j54202487276022_2_alg».proof.Proof.Gen.Pre_finite_inputs
import proofs.«139021_j54202487276022_2_alg».proof.Proof.RRun

noncomputable section

namespace Cert.ReferenceIdeal.Hand

open Idealize.ShloMosaic Idealize.SL.Sem

/-- The reference runs and its argument arrays end unchanged. -/
theorem frame :
    Cert.frame_ReferenceIdeal (hReferenceIdeal := Cert.ReferenceIdeal.Gen.facts)
      (hPre_finite_inputs := Cert.Pre_finite_inputs.Gen.facts) :=
  fun m g _ => (run (F := Ideal) m g).mono fun _ h c => (h c).2

end Cert.ReferenceIdeal.Hand

end
-- ==== Proof.IRunWalk.lean ====
/- The run of @main: where each buffer a region or a host stretch reads was written. Every input window's array of
   a region, read in the contents the region is entered with, and every buffer a host stretch reads, read in the
   contents the stretch starts from, walks back through the fold (no item in between writes it) to the item that wrote
   it: an earlier region's output array at what its write-backs leave, an earlier host stretch's result, or the launch
   memory for an argument. Stated at any float instance. -/
import proofs.«139021_j54202487276022_2_alg».proof.Proof.IRunFold

-- deciding membership among the 188 buffer references recurses past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ### Region 0, entered with the contents at boundary 0: its input windows' arrays -/

theorem in0_0 (c : Dev nD) : V0 m ρ c (Pipeline.arrRef spec0 0) = m ((c : Thread nD τ).loc main_arg0) :=
  rfl

/-! ### Region 1, entered with the contents at boundary 1: its input windows' arrays -/

theorem in1_0 (c : Dev nD) : V1 m ρ c (Pipeline.arrRef spec1 0) = m ((c : Thread nD τ).loc main_arg1) :=
  (W1_of m ρ c main_arg1 (by decide))

/-! ### Region 2, entered with the contents at boundary 2: its input windows' arrays -/

theorem in2_0 (c : Dev nD) : V2 m ρ c (Pipeline.arrRef spec2 0) = m ((c : Thread nD τ).loc main_arg4) :=
  (W2_of m ρ c main_arg4 (by decide)).trans <|
  (W1_of m ρ c main_arg4 (by decide))

/-! ### Region 3, entered with the contents at boundary 3: its input windows' arrays -/

theorem in3_0 (c : Dev nD) : V3 m ρ c (Pipeline.arrRef spec3 0) = m ((c : Thread nD τ).loc main_arg7) :=
  (W3_of m ρ c main_arg7 (by decide)).trans <|
  (W2_of m ρ c main_arg7 (by decide)).trans <|
  (W1_of m ρ c main_arg7 (by decide))

/-! ### The host stretch hostOps4_1 (with hostOps4 before it), started from the contents at boundary 4: the buffers it reads -/

theorem host4_main_arg10 (c : Dev nD) : W4 m ρ c (Proc.devRef .tc main_arg10) = m ((c : Thread nD τ).loc main_arg10) :=
  (W4_of m ρ c main_arg10 (by decide)).trans <|
  (W3_of m ρ c main_arg10 (by decide)).trans <|
  (W2_of m ρ c main_arg10 (by decide)).trans <|
  (W1_of m ρ c main_arg10 (by decide))

/-! ### Region 4, entered with the contents at boundary 6: its input windows' arrays -/

theorem in4_0 (c : Dev nD) : V6 m ρ c (Pipeline.arrRef spec4 0) = W6 m ρ c (Proc.devRef .tc main_v4) :=
  rfl

/-! ### Region 5, entered with the contents at boundary 7: its input windows' arrays -/

theorem in5_0 (c : Dev nD) : V7 m ρ c (Pipeline.arrRef spec5 0) = (dat0 (V0 m ρ) c).arrAt 1 cfg0.N :=
  (W7_of m ρ c main_v0 (by decide)).trans <|
  (W6_of m ρ c main_v0 (by decide)).trans <|
  (W5_of m ρ c main_v0 (by decide)).trans <|
  (W4_of m ρ c main_v0 (by decide)).trans <|
  (W3_of m ρ c main_v0 (by decide)).trans <|
  (W2_of m ρ c main_v0 (by decide)).trans <|
  (W1_arr m ρ c 1)

theorem in5_1 (c : Dev nD) : V7 m ρ c (Pipeline.arrRef spec5 1) = (dat1 (V1 m ρ) c).arrAt 1 cfg1.N :=
  (W7_of m ρ c main_v1 (by decide)).trans <|
  (W6_of m ρ c main_v1 (by decide)).trans <|
  (W5_of m ρ c main_v1 (by decide)).trans <|
  (W4_of m ρ c main_v1 (by decide)).trans <|
  (W3_of m ρ c main_v1 (by decide)).trans <|
  (W2_arr m ρ c 1)

/-! ### The host stretch hostOps6, started from the contents at boundary 8: the buffers it reads -/

theorem host8_main_v6_1 (c : Dev nD) : W8 m ρ c (Proc.devRef .tc main_v6_1) = (dat5 (V7 m ρ) c).arrAt 3 cfg5.N :=
  (W8_arr m ρ c 3)

theorem host8_main_arg2 (c : Dev nD) : W8 m ρ c (Proc.devRef .tc main_arg2) = m ((c : Thread nD τ).loc main_arg2) :=
  (W8_of m ρ c main_arg2 (by decide)).trans <|
  (W7_of m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide))

theorem host8_main_arg3 (c : Dev nD) : W8 m ρ c (Proc.devRef .tc main_arg3) = m ((c : Thread nD τ).loc main_arg3) :=
  (W8_of m ρ c main_arg3 (by decide)).trans <|
  (W7_of m ρ c main_arg3 (by decide)).trans <|
  (W6_of m ρ c main_arg3 (by decide)).trans <|
  (W5_of m ρ c main_arg3 (by decide)).trans <|
  (W4_of m ρ c main_arg3 (by decide)).trans <|
  (W3_of m ρ c main_arg3 (by decide)).trans <|
  (W2_of m ρ c main_arg3 (by decide)).trans <|
  (W1_of m ρ c main_arg3 (by decide))

/-! ### Region 6, entered with the contents at boundary 9: its input windows' arrays -/

theorem in6_0 (c : Dev nD) : V9 m ρ c (Pipeline.arrRef spec6 0) = (dat5 (V7 m ρ) c).arrAt 2 cfg5.N :=
  (W9_of m ρ c main_v6_0 (by decide)).trans <|
  (W8_arr m ρ c 2)

theorem in6_1 (c : Dev nD) : V9 m ρ c (Pipeline.arrRef spec6 1) = W9 m ρ c (Proc.devRef .tc main_v16) :=
  rfl

theorem in6_2 (c : Dev nD) : V9 m ρ c (Pipeline.arrRef spec6 2) = W9 m ρ c (Proc.devRef .tc main_v22) :=
  rfl

theorem in6_3 (c : Dev nD) : V9 m ρ c (Pipeline.arrRef spec6 3) = W9 m ρ c (Proc.devRef .tc main_v23) :=
  rfl

theorem in6_4 (c : Dev nD) : V9 m ρ c (Pipeline.arrRef spec6 4) = W9 m ρ c (Proc.devRef .tc main_v24) :=
  rfl

/-! ### Region 7, entered with the contents at boundary 10: its input windows' arrays -/

theorem in7_0 (c : Dev nD) : V10 m ρ c (Pipeline.arrRef spec7 0) = (dat6 (V9 m ρ) c).arrAt 5 cfg6.N :=
  (W10_arr m ρ c 5)

theorem in7_1 (c : Dev nD) : V10 m ρ c (Pipeline.arrRef spec7 1) = (dat2 (V2 m ρ) c).arrAt 1 cfg2.N :=
  (W10_of m ρ c main_v2 (by decide)).trans <|
  (W9_of m ρ c main_v2 (by decide)).trans <|
  (W8_of m ρ c main_v2 (by decide)).trans <|
  (W7_of m ρ c main_v2 (by decide)).trans <|
  (W6_of m ρ c main_v2 (by decide)).trans <|
  (W5_of m ρ c main_v2 (by decide)).trans <|
  (W4_of m ρ c main_v2 (by decide)).trans <|
  (W3_arr m ρ c 1)

/-! ### The host stretch hostOps8, started from the contents at boundary 11: the buffers it reads -/

theorem host11_main_v26_1 (c : Dev nD) : W11 m ρ c (Proc.devRef .tc main_v26_1) = (dat7 (V10 m ρ) c).arrAt 3 cfg7.N :=
  (W11_arr m ρ c 3)

theorem host11_main_arg5 (c : Dev nD) : W11 m ρ c (Proc.devRef .tc main_arg5) = m ((c : Thread nD τ).loc main_arg5) :=
  (W11_of m ρ c main_arg5 (by decide)).trans <|
  (W10_of m ρ c main_arg5 (by decide)).trans <|
  (W9_of m ρ c main_arg5 (by decide)).trans <|
  (W8_of m ρ c main_arg5 (by decide)).trans <|
  (W7_of m ρ c main_arg5 (by decide)).trans <|
  (W6_of m ρ c main_arg5 (by decide)).trans <|
  (W5_of m ρ c main_arg5 (by decide)).trans <|
  (W4_of m ρ c main_arg5 (by decide)).trans <|
  (W3_of m ρ c main_arg5 (by decide)).trans <|
  (W2_of m ρ c main_arg5 (by decide)).trans <|
  (W1_of m ρ c main_arg5 (by decide))

theorem host11_main_arg6 (c : Dev nD) : W11 m ρ c (Proc.devRef .tc main_arg6) = m ((c : Thread nD τ).loc main_arg6) :=
  (W11_of m ρ c main_arg6 (by decide)).trans <|
  (W10_of m ρ c main_arg6 (by decide)).trans <|
  (W9_of m ρ c main_arg6 (by decide)).trans <|
  (W8_of m ρ c main_arg6 (by decide)).trans <|
  (W7_of m ρ c main_arg6 (by decide)).trans <|
  (W6_of m ρ c main_arg6 (by decide)).trans <|
  (W5_of m ρ c main_arg6 (by decide)).trans <|
  (W4_of m ρ c main_arg6 (by decide)).trans <|
  (W3_of m ρ c main_arg6 (by decide)).trans <|
  (W2_of m ρ c main_arg6 (by decide)).trans <|
  (W1_of m ρ c main_arg6 (by decide))

/-! ### Region 8, entered with the contents at boundary 12: its input windows' arrays -/

theorem in8_0 (c : Dev nD) : V12 m ρ c (Pipeline.arrRef spec8 0) = (dat7 (V10 m ρ) c).arrAt 2 cfg7.N :=
  (W12_of m ρ c main_v26_0 (by decide)).trans <|
  (W11_arr m ρ c 2)

theorem in8_1 (c : Dev nD) : V12 m ρ c (Pipeline.arrRef spec8 1) = W12 m ρ c (Proc.devRef .tc main_v36) :=
  rfl

theorem in8_2 (c : Dev nD) : V12 m ρ c (Pipeline.arrRef spec8 2) = W12 m ρ c (Proc.devRef .tc main_v42) :=
  rfl

theorem in8_3 (c : Dev nD) : V12 m ρ c (Pipeline.arrRef spec8 3) = W12 m ρ c (Proc.devRef .tc main_v43) :=
  rfl

theorem in8_4 (c : Dev nD) : V12 m ρ c (Pipeline.arrRef spec8 4) = W12 m ρ c (Proc.devRef .tc main_v44) :=
  rfl

/-! ### Region 9, entered with the contents at boundary 13: its input windows' arrays -/

theorem in9_0 (c : Dev nD) : V13 m ρ c (Pipeline.arrRef spec9 0) = (dat8 (V12 m ρ) c).arrAt 5 cfg8.N :=
  (W13_arr m ρ c 5)

theorem in9_1 (c : Dev nD) : V13 m ρ c (Pipeline.arrRef spec9 1) = (dat3 (V3 m ρ) c).arrAt 1 cfg3.N :=
  (W13_of m ρ c main_v3 (by decide)).trans <|
  (W12_of m ρ c main_v3 (by decide)).trans <|
  (W11_of m ρ c main_v3 (by decide)).trans <|
  (W10_of m ρ c main_v3 (by decide)).trans <|
  (W9_of m ρ c main_v3 (by decide)).trans <|
  (W8_of m ρ c main_v3 (by decide)).trans <|
  (W7_of m ρ c main_v3 (by decide)).trans <|
  (W6_of m ρ c main_v3 (by decide)).trans <|
  (W5_of m ρ c main_v3 (by decide)).trans <|
  (W4_arr m ρ c 1)

/-! ### The host stretch hostOps10, started from the contents at boundary 14: the buffers it reads -/

theorem host14_main_v46_1 (c : Dev nD) : W14 m ρ c (Proc.devRef .tc main_v46_1) = (dat9 (V13 m ρ) c).arrAt 3 cfg9.N :=
  (W14_arr m ρ c 3)

theorem host14_main_arg8 (c : Dev nD) : W14 m ρ c (Proc.devRef .tc main_arg8) = m ((c : Thread nD τ).loc main_arg8) :=
  (W14_of m ρ c main_arg8 (by decide)).trans <|
  (W13_of m ρ c main_arg8 (by decide)).trans <|
  (W12_of m ρ c main_arg8 (by decide)).trans <|
  (W11_of m ρ c main_arg8 (by decide)).trans <|
  (W10_of m ρ c main_arg8 (by decide)).trans <|
  (W9_of m ρ c main_arg8 (by decide)).trans <|
  (W8_of m ρ c main_arg8 (by decide)).trans <|
  (W7_of m ρ c main_arg8 (by decide)).trans <|
  (W6_of m ρ c main_arg8 (by decide)).trans <|
  (W5_of m ρ c main_arg8 (by decide)).trans <|
  (W4_of m ρ c main_arg8 (by decide)).trans <|
  (W3_of m ρ c main_arg8 (by decide)).trans <|
  (W2_of m ρ c main_arg8 (by decide)).trans <|
  (W1_of m ρ c main_arg8 (by decide))

theorem host14_main_arg9 (c : Dev nD) : W14 m ρ c (Proc.devRef .tc main_arg9) = m ((c : Thread nD τ).loc main_arg9) :=
  (W14_of m ρ c main_arg9 (by decide)).trans <|
  (W13_of m ρ c main_arg9 (by decide)).trans <|
  (W12_of m ρ c main_arg9 (by decide)).trans <|
  (W11_of m ρ c main_arg9 (by decide)).trans <|
  (W10_of m ρ c main_arg9 (by decide)).trans <|
  (W9_of m ρ c main_arg9 (by decide)).trans <|
  (W8_of m ρ c main_arg9 (by decide)).trans <|
  (W7_of m ρ c main_arg9 (by decide)).trans <|
  (W6_of m ρ c main_arg9 (by decide)).trans <|
  (W5_of m ρ c main_arg9 (by decide)).trans <|
  (W4_of m ρ c main_arg9 (by decide)).trans <|
  (W3_of m ρ c main_arg9 (by decide)).trans <|
  (W2_of m ρ c main_arg9 (by decide)).trans <|
  (W1_of m ρ c main_arg9 (by decide))

/-! ### Region 10, entered with the contents at boundary 15: its input windows' arrays -/

theorem in10_0 (c : Dev nD) : V15 m ρ c (Pipeline.arrRef spec10 0) = (dat9 (V13 m ρ) c).arrAt 2 cfg9.N :=
  (W15_of m ρ c main_v46_0 (by decide)).trans <|
  (W14_arr m ρ c 2)

theorem in10_1 (c : Dev nD) : V15 m ρ c (Pipeline.arrRef spec10 1) = W15 m ρ c (Proc.devRef .tc main_v56) :=
  rfl

theorem in10_2 (c : Dev nD) : V15 m ρ c (Pipeline.arrRef spec10 2) = W15 m ρ c (Proc.devRef .tc main_v62) :=
  rfl

theorem in10_3 (c : Dev nD) : V15 m ρ c (Pipeline.arrRef spec10 3) = W15 m ρ c (Proc.devRef .tc main_v63) :=
  rfl

theorem in10_4 (c : Dev nD) : V15 m ρ c (Pipeline.arrRef spec10 4) = W15 m ρ c (Proc.devRef .tc main_v64) :=
  rfl

/-! ### Region 11, entered with the contents at boundary 16: its input windows' arrays -/

theorem in11_0 (c : Dev nD) : V16 m ρ c (Pipeline.arrRef spec11 0) = (dat10 (V15 m ρ) c).arrAt 5 cfg10.N :=
  (W16_arr m ρ c 5)

theorem in11_1 (c : Dev nD) : V16 m ρ c (Pipeline.arrRef spec11 1) = (dat4 (V6 m ρ) c).arrAt 1 cfg4.N :=
  (W16_of m ρ c main_v5 (by decide)).trans <|
  (W15_of m ρ c main_v5 (by decide)).trans <|
  (W14_of m ρ c main_v5 (by decide)).trans <|
  (W13_of m ρ c main_v5 (by decide)).trans <|
  (W12_of m ρ c main_v5 (by decide)).trans <|
  (W11_of m ρ c main_v5 (by decide)).trans <|
  (W10_of m ρ c main_v5 (by decide)).trans <|
  (W9_of m ρ c main_v5 (by decide)).trans <|
  (W8_of m ρ c main_v5 (by decide)).trans <|
  (W7_arr m ρ c 1)

/-! ### The host stretch hostOps12, started from the contents at boundary 17: the buffers it reads -/

theorem host17_main_v66 (c : Dev nD) : W17 m ρ c (Proc.devRef .tc main_v66) = (dat11 (V16 m ρ) c).arrAt 2 cfg11.N :=
  (W17_arr m ρ c 2)

/-! ### The result -/

/-- The result buffer at the end of @main is what the last host stretch computes from the contents at region 11's exit. -/
theorem W18_main_v67 (c : Dev nD) : W18 m ρ c (Proc.devRef .tc main_v67) = StableHlo.after hostOps12 (W17 m ρ c) (Proc.devRef .tc main_v67) :=
  rfl

end Cert.KernelIdeal.Hand

end
-- ==== Proof.IValSign.lean ====
/- The scalar sign function the sign kernels and the normalize-and-sign kernels apply to every entry, read at
   the exact extended reals: 1.0 carrying the sign of v where |v| > 0, and v itself (which is then zero) elsewhere.
   It is the sign of v: -1 below zero (at -inf too), 1 above zero (at +inf too), 0 at zero; so it is idempotent and
   its values are the three reals -1, 0, 1. -/
import Idealize.ShloMosaic.PureOps.Ideal.Laws
import Idealize.ShloMosaic.Lib.ValueIdx

noncomputable section

namespace Cert.KernelIdeal.Hand

open Idealize.ShloMosaic Idealize.ShloMosaic.ValueIdx

/-- The sign of an extended real as the kernels' bodies spell it: where the absolute value is above zero, -1.0 if
    the value is below zero and 1.0 otherwise; where it is not, the value itself. -/
def sgnK (v : EReal) : EReal :=
  Scalar.select (FloatOps.cmpf (F := Ideal) (φ := .f32) .ogt (FloatOps.absf v) (Scalar.ofBits .f32 0x00000000#32))
    (Scalar.select (FloatOps.cmpf (F := Ideal) (φ := .f32) .olt v (Scalar.ofBits .f32 0x00000000#32))
      (Scalar.ofBits (F := Ideal) .f32 0xBF800000#32) (Scalar.ofBits (F := Ideal) .f32 0x3F800000#32)) v

/-- It is the sign function of the extended reals. -/
theorem sgnK_eq_sign (v : EReal) : sgnK v = Ideal.sign v := Ideal.jnp_sign_eq_sign_f32 v

/-- By the order: -1 below zero, 1 above zero, 0 at zero. -/
theorem sgnK_eq_ite (v : EReal) : sgnK v = if v < 0 then -1 else if 0 < v then 1 else 0 := by
  rw [sgnK_eq_sign]
  by_cases hlt : v < 0
  · rw [if_pos hlt, Ideal.sign_of_neg hlt]
  · rw [if_neg hlt]
    by_cases hgt : 0 < v
    · rw [if_pos hgt, Ideal.sign_of_pos hgt]
    · rw [if_neg hgt, le_antisymm (not_lt.mp hgt) (not_lt.mp hlt), Ideal.sign_zero]

theorem sgnK_of_neg {v : EReal} (h : v < 0) : sgnK v = -1 := by rw [sgnK_eq_ite, if_pos h]
theorem sgnK_of_pos {v : EReal} (h : 0 < v) : sgnK v = 1 := by
  rw [sgnK_eq_ite, if_neg (not_lt.mpr h.le), if_pos h]
theorem sgnK_zero : sgnK 0 = 0 := by rw [sgnK_eq_ite, if_neg (lt_irrefl _), if_neg (lt_irrefl _)]

/-- Its values are the three reals -1, 0 and 1. -/
theorem sgnK_mem (v : EReal) : sgnK v = ((-1 : ℝ) : EReal) ∨ sgnK v = ((0 : ℝ) : EReal) ∨ sgnK v = ((1 : ℝ) : EReal) := by
  rw [sgnK_eq_ite]
  by_cases hlt : v < 0
  · left; rw [if_pos hlt]; simp
  · rw [if_neg hlt]
    by_cases hgt : 0 < v
    · right; right; rw [if_pos hgt]; simp
    · right; left; rw [if_neg hgt]; simp

/-- The sign of a sign is that sign. -/
theorem sgnK_idem (v : EReal) : sgnK (sgnK v) = sgnK v := by
  by_cases hlt : v < 0
  · rw [sgnK_of_neg hlt]; exact sgnK_of_neg (by simp)
  · by_cases hgt : 0 < v
    · rw [sgnK_of_pos hgt]; exact sgnK_of_pos (by simp)
    · rw [le_antisymm (not_lt.mp hgt) (not_lt.mp hlt), sgnK_zero, sgnK_zero]

/-- The printed sign term over a whole vector, the format change after it included, is sgnK at each entry. -/
theorem sign_payload_apply {s : Shape} (x : FVec Ideal s .f32) (h : FTy.bits .bf16 < FTy.bits .f32) (i : s.Idx) :
    (truncf .bf16 (select (cmpf .ogt (absf x) (broadcast s (Scalar.ofBits .f32 0x00000000#32)))
        (select (cmpf .olt x (constant s .f32 0x00000000#32)) (constant s .f32 0xBF800000#32)
          (constant s .f32 0x3F800000#32)) x) h : FVec Ideal s .bf16) i
      = sgnK (x i) := rfl

end Cert.KernelIdeal.Hand

end
-- ==== Proof.IVal0.lean ====
/- Region 0 of @main (one of the five sign kernels), read at the exact extended reals: after the region the
   output array holds, at every index, the sign of the input array's entry at that index. Each grid point writes
   back one 512-row block of the output, computed from the same 512-row block of the input, and the blocks of the
   16 grid points fill the 8192 rows. -/
import proofs.«139021_j54202487276022_2_alg».proof.Proof.IReg0
import proofs.«139021_j54202487276022_2_alg».proof.Proof.IValSign
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- What the output array ends holding: the sign of the input array, entry by entry. -/
def G0 (X : S8192x4096.Idx → EReal) : S8192x4096.Idx → EReal := fun i => sgnK (X i)

/-- The body's payload at an entry of the block is the sign of the loaded block's entry there. -/
theorem pay0_apply (x0 : Vec Ideal S512x4096 .f32) (j : S512x4096.Idx) : k0_pay1 x0 j = sgnK (x0 j) := by
  unfold k0_pay1
  first
    | rfl
    | (rw [shapeCast_self]; rfl)

/-- The two windows' block indices, decided over the grid: the input's block moves with the output's, whose row
    block index is the grid point and whose column block index is zero. -/
theorem blk_facts0 : ∀ t : Fin cfg0.N, win0_0.index t (0 : Fin 2) = win0_1.index t (0 : Fin 2)
    ∧ win0_0.index t (1 : Fin 2) = win0_1.index t (1 : Fin 2)
    ∧ win0_1.index t (0 : Fin 2) < 16 ∧ win0_1.index t (1 : Fin 2) = 0 :=
  (by decide +kernel : ∀ t : Fin grid0.N, _)

/-- Every row block is some point's. -/
theorem blk_onto0 : ∀ (q0 : Fin 16), ∃ t : Fin cfg0.N, win0_1.index t = ![q0.val, 0] :=
  (by decide +kernel : ∀ (q0 : Fin 16), ∃ t : Fin grid0.N, win0_1.index t = ![q0.val, 0])

/-- What point t writes back is block t of the sign of the input array as the region finds it. -/
theorem flushed0_1 (c : Dev nD) (t : Fin cfg0.N) :
    (dat0 V c).flushed 1 t = ((cfg0.win 1).blk t).view.read (Elt Ideal) (G0 (V c (Pipeline.arrRef spec0 0))) := by
  show (cfg0.win 1).cut (grid0.coords t) ((dat0 V c).after 1 t) = _
  rw [after0_1]
  unfold out0_1
  rw [View.canon_unit_zero hz0]
  simp only [View.ld_unit_zero (S := S512x4096) hz0]
  obtain ⟨e0, e1, e2, e3⟩ := blk_facts0 t
  funext j
  show k0_pay1 (fun y => V c (Pipeline.arrRef spec0 0) (((cfg0.win 0).blk t).view.emb y)) j
    = sgnK (V c (Pipeline.arrRef spec0 0) (((cfg0.win 1).blk t).view.emb j))
  rw [pay0_apply]
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the output array is in point t's block iff each coordinate is in the block's range on its axis. -/
theorem mem_blk0 (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole (Pipeline.arrRef spec0 1)).slice (win0_1.rect t)).set ↔ _
  rw [View.set_slice_whole, Rect.mem_set_unit]
  exact Iff.rfl

/-- Every index of the output array is in the block of the point whose row block holds its row. -/
theorem cover_all0 (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := blk_onto0 ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The output array after the region: the sign of the input array as the region finds it. -/
theorem arr0_1 (c : Dev nD) : (dat0 V c).arrAt 1 cfg0.N = G0 (V c (Pipeline.arrRef spec0 0)) :=
  (dat0 V c).arrAt_eq_of_cover 1 (G0 (V c (Pipeline.arrRef spec0 0))) (fun t _ => flushed0_1 V c t) cover_all0

/-- The same, entry by entry over the two coordinates. -/
theorem arr0_1_apply (c : Dev nD) (p : Fin 8192) (q : Fin 4096) :
    (dat0 V c).arrAt 1 cfg0.N (ix2 p q) = sgnK (V c (Pipeline.arrRef spec0 0) (ix2 p q)) :=
  congrFun (arr0_1 V c) (ix2 p q)

/-- The input array is left as the region finds it. -/
theorem arr0_0 (c : Dev nD) : (dat0 V c).arrAt 0 cfg0.N = V c (Pipeline.arrRef spec0 0) :=
  ((dat0 V c).arrAt_in 0 rfl _).trans (A_eq0 V c 0)

end Cert.KernelIdeal.Hand

end
-- ==== Proof.IVal1.lean ====
/- Region 1 of @main (one of the five sign kernels), read at the exact extended reals: after the region the
   output array holds, at every index, the sign of the input array's entry at that index. Each grid point writes
   back one 512-row block of the output, computed from the same 512-row block of the input, and the blocks of the
   8 grid points fill the 4096 rows. -/
import proofs.«139021_j54202487276022_2_alg».proof.Proof.IReg1
import proofs.«139021_j54202487276022_2_alg».proof.Proof.IValSign
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-- What the output array ends holding: the sign of the input array, entry by entry. -/
def G1 (X : S4096x4096.Idx → EReal) : S4096x4096.Idx → EReal := fun i => sgnK (X i)

/-- The body's payload at an entry of the block is the sign of the loaded block's entry there. -/
theorem pay1_apply (x0 : Vec Ideal S512x4096 .f32) (j : S512x4096.Idx) : k1_pay1 x0 j = sgnK (x0 j) := by
  unfold k1_pay1
  first
    | rfl
    | (rw [shapeCast_self]; rfl)

/-- The two windows' block indices, decided over the grid: the input's block moves with the output's, whose row
    block index is the grid point and whose column block index is zero. -/
theorem blk_facts1 : ∀ t : Fin cfg1.N, win1_0.index t (0 : Fin 2) = win1_1.index t (0 : Fin 2)
    ∧ win1_0.index t (1 : Fin 2) = win1_1.index t (1 : Fin 2)
    ∧ win1_1.index t (0 : Fin 2) < 8 ∧ win1_1.index t (1 : Fin 2) = 0 :=
  (by decide +kernel : ∀ t : Fin grid1.N, _)

/-- Every row block is some point's. -/
theorem blk_onto1 : ∀ (q0 : Fin 8), ∃ t : Fin cfg1.N, win1_1.index t = ![q0.val, 0] :=
  (by decide +kernel : ∀ (q0 : Fin 8), ∃ t : Fin grid1.N, win1_1.index t = ![q0.val, 0])

/-- What point t writes back is block t of the sign of the input array as the region finds it. -/
theorem flushed1_1 (c : Dev nD) (t : Fin cfg1.N) :
    (dat1 V c).flushed 1 t = ((cfg1.win 1).blk t).view.read (Elt Ideal) (G1 (V c (Pipeline.arrRef spec1 0))) := by
  show (cfg1.win 1).cut (grid1.coords t) ((dat1 V c).after 1 t) = _
  rw [after1_1]
  unfold out1_1
  rw [View.canon_unit_zero hz1]
  simp only [View.ld_unit_zero (S := S512x4096) hz1]
  obtain ⟨e0, e1, e2, e3⟩ := blk_facts1 t
  funext j
  show k1_pay1 (fun y => V c (Pipeline.arrRef spec1 0) (((cfg1.win 0).blk t).view.emb y)) j
    = sgnK (V c (Pipeline.arrRef spec1 0) (((cfg1.win 1).blk t).view.emb j))
  rw [pay1_apply]
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-- An index of the output array is in point t's block iff each coordinate is in the block's range on its axis. -/
theorem mem_blk1 (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole (Pipeline.arrRef spec1 1)).slice (win1_1.rect t)).set ↔ _
  rw [View.set_slice_whole, Rect.mem_set_unit]
  exact Iff.rfl

/-- Every index of the output array is in the block of the point whose row block holds its row. -/
theorem cover_all1 (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  obtain ⟨t, ht⟩ := blk_onto1 ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- The output array after the region: the sign of the input array as the region finds it. -/
theorem arr1_1 (c : Dev nD) : (dat1 V c).arrAt 1 cfg1.N = G1 (V c (Pipeline.arrRef spec1 0)) :=
  (dat1 V c).arrAt_eq_of_cover 1 (G1 (V c (Pipeline.arrRef spec1 0))) (fun t _ => flushed1_1 V c t) cover_all1

/-- The same, entry by entry over the two coordinates. -/
theorem arr1_1_apply (c : Dev nD) (p : Fin 4096) (q : Fin 4096) :
    (dat1 V c).arrAt 1 cfg1.N (ix2 p q) = sgnK (V c (Pipeline.arrRef spec1 0) (ix2 p q)) :=
  congrFun (arr1_1 V c) (ix2 p q)

/-- The input array is left as the region finds it. -/
theorem arr1_0 (c : Dev nD) : (dat1 V c).arrAt 0 cfg1.N = V c (Pipeline.arrRef spec1 0) :=
  ((dat1 V c).arrAt_in 0 rfl _).trans (A_eq1 V c 0)

end Cert.KernelIdeal.Hand

end
-- ==== Proof.IVal2.lean ====
/- Region 2 of @main (one of the five sign kernels), read at the exact extended reals: after the region the
   output array holds, at every index, the sign of the input array's entry at that index. Each grid point writes
   back one 512-row block of the output, computed from the same 512-row block of the input, and the blocks of the
   8 grid points fill the 4096 rows. -/
import proofs.«139021_j54202487276022_2_alg».proof.Proof.IReg2
import proofs.«139021_j54202487276022_2_alg».proof.Proof.IValSign
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- What the output array ends holding: the sign of the input array, entry by entry. -/
def G2 (X : S4096x4096.Idx → EReal) : S4096x4096.Idx → EReal := fun i => sgnK (X i)

/-- The body's payload at an entry of the block is the sign of the loaded block's entry there. -/
theorem pay2_apply (x0 : Vec Ideal S512x4096 .f32) (j : S512x4096.Idx) : k2_pay1 x0 j = sgnK (x0 j) := by
  unfold k2_pay1
  first
    | rfl
    | (rw [shapeCast_self]; rfl)

/-- The two windows' block indices, decided over the grid: the input's block moves with the output's, whose row
    block index is the grid point and whose column block index is zero. -/
theorem blk_facts2 : ∀ t : Fin cfg2.N, win2_0.index t (0 : Fin 2) = win2_1.index t (0 : Fin 2)
    ∧ win2_0.index t (1 : Fin 2) = win2_1.index t (1 : Fin 2)
    ∧ win2_1.index t (0 : Fin 2) < 8 ∧ win2_1.index t (1 : Fin 2) = 0 :=
  (by decide +kernel : ∀ t : Fin grid2.N, _)

/-- Every row block is some point's. -/
theorem blk_onto2 : ∀ (q0 : Fin 8), ∃ t : Fin cfg2.N, win2_1.index t = ![q0.val, 0] :=
  (by decide +kernel : ∀ (q0 : Fin 8), ∃ t : Fin grid2.N, win2_1.index t = ![q0.val, 0])

/-- What point t writes back is block t of the sign of the input array as the region finds it. -/
theorem flushed2_1 (c : Dev nD) (t : Fin cfg2.N) :
    (dat2 V c).flushed 1 t = ((cfg2.win 1).blk t).view.read (Elt Ideal) (G2 (V c (Pipeline.arrRef spec2 0))) := by
  show (cfg2.win 1).cut (grid2.coords t) ((dat2 V c).after 1 t) = _
  rw [after2_1]
  unfold out2_1
  rw [View.canon_unit_zero hz2]
  simp only [View.ld_unit_zero (S := S512x4096) hz2]
  obtain ⟨e0, e1, e2, e3⟩ := blk_facts2 t
  funext j
  show k2_pay1 (fun y => V c (Pipeline.arrRef spec2 0) (((cfg2.win 0).blk t).view.emb y)) j
    = sgnK (V c (Pipeline.arrRef spec2 0) (((cfg2.win 1).blk t).view.emb j))
  rw [pay2_apply]
  have h0 : ((cfg2.win 0).blk t).view.emb j = ((cfg2.win 1).blk t).view.emb j := by
    funext a; apply Fin.ext
    match a with
    | ⟨0, _⟩ => show win2_0.index t (0 : Fin 2) * 512 + 1 * (j 0).val = win2_1.index t (0 : Fin 2) * 512 + 1 * (j 0).val; omega
    | ⟨1, _⟩ => show win2_0.index t (1 : Fin 2) * 4096 + 1 * (j 1).val = win2_1.index t (1 : Fin 2) * 4096 + 1 * (j 1).val; omega
  rw [h0]

/-- An index of the output array is in point t's block iff each coordinate is in the block's range on its axis. -/
theorem mem_blk2 (t : Fin cfg2.N) (i : S4096x4096.Idx) :
    i ∈ ((cfg2.win 1).blk t).view.set ↔ ∀ a : Fin 2, win2_1.index t a * S512x4096.size a ≤ (i a).val ∧ (i a).val < win2_1.index t a * S512x4096.size a + S512x4096.size a := by
  show i ∈ ((View.whole (Pipeline.arrRef spec2 1)).slice (win2_1.rect t)).set ↔ _
  rw [View.set_slice_whole, Rect.mem_set_unit]
  exact Iff.rfl

/-- Every index of the output array is in the block of the point whose row block holds its row. -/
theorem cover_all2 (i : S4096x4096.Idx) :
    ∃ t : Fin cfg2.N, (cfg2.win 1).flush t = true ∧ i ∈ ((cfg2.win 1).blk t).view.set := by
  have hi0 : (i 0).val < 4096 := (i 0).isLt
  have hi1 : (i 1).val < 4096 := (i 1).isLt
  obtain ⟨t, ht⟩ := blk_onto2 ⟨(i 0).val / 512, by omega⟩
  have q0 : win2_1.index t (0 : Fin 2) = (i 0).val / 512 := congrFun ht 0
  have q1 : win2_1.index t (1 : Fin 2) = 0 := congrFun ht 1
  refine ⟨t, flush2_1 t, ?_⟩
  rw [mem_blk2]
  intro a
  match a with
  | ⟨0, _⟩ => show win2_1.index t (0 : Fin 2) * 512 ≤ (i 0).val ∧ (i 0).val < win2_1.index t (0 : Fin 2) * 512 + 512; omega
  | ⟨1, _⟩ => show win2_1.index t (1 : Fin 2) * 4096 ≤ (i 1).val ∧ (i 1).val < win2_1.index t (1 : Fin 2) * 4096 + 4096; omega

/-- The output array after the region: the sign of the input array as the region finds it. -/
theorem arr2_1 (c : Dev nD) : (dat2 V c).arrAt 1 cfg2.N = G2 (V c (Pipeline.arrRef spec2 0)) :=
  (dat2 V c).arrAt_eq_of_cover 1 (G2 (V c (Pipeline.arrRef spec2 0))) (fun t _ => flushed2_1 V c t) cover_all2

/-- The same, entry by entry over the two coordinates. -/
theorem arr2_1_apply (c : Dev nD) (p : Fin 4096) (q : Fin 4096) :
    (dat2 V c).arrAt 1 cfg2.N (ix2 p q) = sgnK (V c (Pipeline.arrRef spec2 0) (ix2 p q)) :=
  congrFun (arr2_1 V c) (ix2 p q)

/-- The input array is left as the region finds it. -/
theorem arr2_0 (c : Dev nD) : (dat2 V c).arrAt 0 cfg2.N = V c (Pipeline.arrRef spec2 0) :=
  ((dat2 V c).arrAt_in 0 rfl _).trans (A_eq2 V c 0)

end Cert.KernelIdeal.Hand

end
-- ==== Proof.IVal3.lean ====
/- Region 3 of @main (one of the five sign kernels), read at the exact extended reals: after the region the
   output array holds, at every index, the sign of the input array's entry at that index. Each grid point writes
   back one 512-row block of the output, computed from the same 512-row block of the input, and the blocks of the
   8 grid points fill the 4096 rows. -/
import proofs.«139021_j54202487276022_2_alg».proof.Proof.IReg3
import proofs.«139021_j54202487276022_2_alg».proof.Proof.IValSign
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-- What the output array ends holding: the sign of the input array, entry by entry. -/
def G3 (X : S4096x4096.Idx → EReal) : S4096x4096.Idx → EReal := fun i => sgnK (X i)

/-- The body's payload at an entry of the block is the sign of the loaded block's entry there. -/
theorem pay3_apply (x0 : Vec Ideal S512x4096 .f32) (j : S512x4096.Idx) : k3_pay1 x0 j = sgnK (x0 j) := by
  unfold k3_pay1
  first
    | rfl
    | (rw [shapeCast_self]; rfl)

/-- The two windows' block indices, decided over the grid: the input's block moves with the output's, whose row
    block index is the grid point and whose column block index is zero. -/
theorem blk_facts3 : ∀ t : Fin cfg3.N, win3_0.index t (0 : Fin 2) = win3_1.index t (0 : Fin 2)
    ∧ win3_0.index t (1 : Fin 2) = win3_1.index t (1 : Fin 2)
    ∧ win3_1.index t (0 : Fin 2) < 8 ∧ win3_1.index t (1 : Fin 2) = 0 :=
  (by decide +kernel : ∀ t : Fin grid3.N, _)

/-- Every row block is some point's. -/
theorem blk_onto3 : ∀ (q0 : Fin 8), ∃ t : Fin cfg3.N, win3_1.index t = ![q0.val, 0] :=
  (by decide +kernel : ∀ (q0 : Fin 8), ∃ t : Fin grid3.N, win3_1.index t = ![q0.val, 0])

/-- What point t writes back is block t of the sign of the input array as the region finds it. -/
theorem flushed3_1 (c : Dev nD) (t : Fin cfg3.N) :
    (dat3 V c).flushed 1 t = ((cfg3.win 1).blk t).view.read (Elt Ideal) (G3 (V c (Pipeline.arrRef spec3 0))) := by
  show (cfg3.win 1).cut (grid3.coords t) ((dat3 V c).after 1 t) = _
  rw [after3_1]
  unfold out3_1
  rw [View.canon_unit_zero hz3]
  simp only [View.ld_unit_zero (S := S512x4096) hz3]
  obtain ⟨e0, e1, e2, e3⟩ := blk_facts3 t
  funext j
  show k3_pay1 (fun y => V c (Pipeline.arrRef spec3 0) (((cfg3.win 0).blk t).view.emb y)) j
    = sgnK (V c (Pipeline.arrRef spec3 0) (((cfg3.win 1).blk t).view.emb j))
  rw [pay3_apply]
  have h0 : ((cfg3.win 0).blk t).view.emb j = ((cfg3.win 1).blk t).view.emb j := by
    funext a; apply Fin.ext
    match a with
    | ⟨0, _⟩ => show win3_0.index t (0 : Fin 2) * 512 + 1 * (j 0).val = win3_1.index t (0 : Fin 2) * 512 + 1 * (j 0).val; omega
    | ⟨1, _⟩ => show win3_0.index t (1 : Fin 2) * 4096 + 1 * (j 1).val = win3_1.index t (1 : Fin 2) * 4096 + 1 * (j 1).val; omega
  rw [h0]

/-- An index of the output array is in point t's block iff each coordinate is in the block's range on its axis. -/
theorem mem_blk3 (t : Fin cfg3.N) (i : S4096x4096.Idx) :
    i ∈ ((cfg3.win 1).blk t).view.set ↔ ∀ a : Fin 2, win3_1.index t a * S512x4096.size a ≤ (i a).val ∧ (i a).val < win3_1.index t a * S512x4096.size a + S512x4096.size a := by
  show i ∈ ((View.whole (Pipeline.arrRef spec3 1)).slice (win3_1.rect t)).set ↔ _
  rw [View.set_slice_whole, Rect.mem_set_unit]
  exact Iff.rfl

/-- Every index of the output array is in the block of the point whose row block holds its row. -/
theorem cover_all3 (i : S4096x4096.Idx) :
    ∃ t : Fin cfg3.N, (cfg3.win 1).flush t = true ∧ i ∈ ((cfg3.win 1).blk t).view.set := by
  have hi0 : (i 0).val < 4096 := (i 0).isLt
  have hi1 : (i 1).val < 4096 := (i 1).isLt
  obtain ⟨t, ht⟩ := blk_onto3 ⟨(i 0).val / 512, by omega⟩
  have q0 : win3_1.index t (0 : Fin 2) = (i 0).val / 512 := congrFun ht 0
  have q1 : win3_1.index t (1 : Fin 2) = 0 := congrFun ht 1
  refine ⟨t, flush3_1 t, ?_⟩
  rw [mem_blk3]
  intro a
  match a with
  | ⟨0, _⟩ => show win3_1.index t (0 : Fin 2) * 512 ≤ (i 0).val ∧ (i 0).val < win3_1.index t (0 : Fin 2) * 512 + 512; omega
  | ⟨1, _⟩ => show win3_1.index t (1 : Fin 2) * 4096 ≤ (i 1).val ∧ (i 1).val < win3_1.index t (1 : Fin 2) * 4096 + 4096; omega

/-- The output array after the region: the sign of the input array as the region finds it. -/
theorem arr3_1 (c : Dev nD) : (dat3 V c).arrAt 1 cfg3.N = G3 (V c (Pipeline.arrRef spec3 0)) :=
  (dat3 V c).arrAt_eq_of_cover 1 (G3 (V c (Pipeline.arrRef spec3 0))) (fun t _ => flushed3_1 V c t) cover_all3

/-- The same, entry by entry over the two coordinates. -/
theorem arr3_1_apply (c : Dev nD) (p : Fin 4096) (q : Fin 4096) :
    (dat3 V c).arrAt 1 cfg3.N (ix2 p q) = sgnK (V c (Pipeline.arrRef spec3 0) (ix2 p q)) :=
  congrFun (arr3_1 V c) (ix2 p q)

/-- The input array is left as the region finds it. -/
theorem arr3_0 (c : Dev nD) : (dat3 V c).arrAt 0 cfg3.N = V c (Pipeline.arrRef spec3 0) :=
  ((dat3 V c).arrAt_in 0 rfl _).trans (A_eq3 V c 0)

end Cert.KernelIdeal.Hand

end
-- ==== Proof.IVal4.lean ====
/- Region 4 of @main (one of the five sign kernels), read at the exact extended reals: after the region the
   output array holds, at every index, the sign of the input array's entry at that index. Each grid point writes
   back one 512-row block of the output, computed from the same 512-row block of the input, and the blocks of the
   2 grid points fill the 1024 rows. -/
import proofs.«139021_j54202487276022_2_alg».proof.Proof.IReg4
import proofs.«139021_j54202487276022_2_alg».proof.Proof.IValSign
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz4 : (![0, 0] : Fin 2 → Nat) = fun _ => 0 := funext fun a => by fin_cases a <;> rfl

/-- What the output array ends holding: the sign of the input array, entry by entry. -/
def G4 (X : S1024x4096.Idx → EReal) : S1024x4096.Idx → EReal := fun i => sgnK (X i)

/-- The body's payload at an entry of the block is the sign of the loaded block's entry there. -/
theorem pay4_apply (x0 : Vec Ideal S512x4096 .f32) (j : S512x4096.Idx) : k4_pay1 x0 j = sgnK (x0 j) := by
  unfold k4_pay1
  first
    | rfl
    | (rw [shapeCast_self]; rfl)

/-- The two windows' block indices, decided over the grid: the input's block moves with the output's, whose row
    block index is the grid point and whose column block index is zero. -/
theorem blk_facts4 : ∀ t : Fin cfg4.N, win4_0.index t (0 : Fin 2) = win4_1.index t (0 : Fin 2)
    ∧ win4_0.index t (1 : Fin 2) = win4_1.index t (1 : Fin 2)
    ∧ win4_1.index t (0 : Fin 2) < 2 ∧ win4_1.index t (1 : Fin 2) = 0 :=
  (by decide +kernel : ∀ t : Fin grid4.N, _)

/-- Every row block is some point's. -/
theorem blk_onto4 : ∀ (q0 : Fin 2), ∃ t : Fin cfg4.N, win4_1.index t = ![q0.val, 0] :=
  (by decide +kernel : ∀ (q0 : Fin 2), ∃ t : Fin grid4.N, win4_1.index t = ![q0.val, 0])

/-- What point t writes back is block t of the sign of the input array as the region finds it. -/
theorem flushed4_1 (c : Dev nD) (t : Fin cfg4.N) :
    (dat4 V c).flushed 1 t = ((cfg4.win 1).blk t).view.read (Elt Ideal) (G4 (V c (Pipeline.arrRef spec4 0))) := by
  show (cfg4.win 1).cut (grid4.coords t) ((dat4 V c).after 1 t) = _
  rw [after4_1]
  unfold out4_1
  rw [View.canon_unit_zero hz4]
  simp only [View.ld_unit_zero (S := S512x4096) hz4]
  obtain ⟨e0, e1, e2, e3⟩ := blk_facts4 t
  funext j
  show k4_pay1 (fun y => V c (Pipeline.arrRef spec4 0) (((cfg4.win 0).blk t).view.emb y)) j
    = sgnK (V c (Pipeline.arrRef spec4 0) (((cfg4.win 1).blk t).view.emb j))
  rw [pay4_apply]
  have h0 : ((cfg4.win 0).blk t).view.emb j = ((cfg4.win 1).blk t).view.emb j := by
    funext a; apply Fin.ext
    match a with
    | ⟨0, _⟩ => show win4_0.index t (0 : Fin 2) * 512 + 1 * (j 0).val = win4_1.index t (0 : Fin 2) * 512 + 1 * (j 0).val; omega
    | ⟨1, _⟩ => show win4_0.index t (1 : Fin 2) * 4096 + 1 * (j 1).val = win4_1.index t (1 : Fin 2) * 4096 + 1 * (j 1).val; omega
  rw [h0]

/-- An index of the output array is in point t's block iff each coordinate is in the block's range on its axis. -/
theorem mem_blk4 (t : Fin cfg4.N) (i : S1024x4096.Idx) :
    i ∈ ((cfg4.win 1).blk t).view.set ↔ ∀ a : Fin 2, win4_1.index t a * S512x4096.size a ≤ (i a).val ∧ (i a).val < win4_1.index t a * S512x4096.size a + S512x4096.size a := by
  show i ∈ ((View.whole (Pipeline.arrRef spec4 1)).slice (win4_1.rect t)).set ↔ _
  rw [View.set_slice_whole, Rect.mem_set_unit]
  exact Iff.rfl

/-- Every index of the output array is in the block of the point whose row block holds its row. -/
theorem cover_all4 (i : S1024x4096.Idx) :
    ∃ t : Fin cfg4.N, (cfg4.win 1).flush t = true ∧ i ∈ ((cfg4.win 1).blk t).view.set := by
  have hi0 : (i 0).val < 1024 := (i 0).isLt
  have hi1 : (i 1).val < 4096 := (i 1).isLt
  obtain ⟨t, ht⟩ := blk_onto4 ⟨(i 0).val / 512, by omega⟩
  have q0 : win4_1.index t (0 : Fin 2) = (i 0).val / 512 := congrFun ht 0
  have q1 : win4_1.index t (1 : Fin 2) = 0 := congrFun ht 1
  refine ⟨t, flush4_1 t, ?_⟩
  rw [mem_blk4]
  intro a
  match a with
  | ⟨0, _⟩ => show win4_1.index t (0 : Fin 2) * 512 ≤ (i 0).val ∧ (i 0).val < win4_1.index t (0 : Fin 2) * 512 + 512; omega
  | ⟨1, _⟩ => show win4_1.index t (1 : Fin 2) * 4096 ≤ (i 1).val ∧ (i 1).val < win4_1.index t (1 : Fin 2) * 4096 + 4096; omega

/-- The output array after the region: the sign of the input array as the region finds it. -/
theorem arr4_1 (c : Dev nD) : (dat4 V c).arrAt 1 cfg4.N = G4 (V c (Pipeline.arrRef spec4 0)) :=
  (dat4 V c).arrAt_eq_of_cover 1 (G4 (V c (Pipeline.arrRef spec4 0))) (fun t _ => flushed4_1 V c t) cover_all4

/-- The same, entry by entry over the two coordinates. -/
theorem arr4_1_apply (c : Dev nD) (p : Fin 1024) (q : Fin 4096) :
    (dat4 V c).arrAt 1 cfg4.N (ix2 p q) = sgnK (V c (Pipeline.arrRef spec4 0) (ix2 p q)) :=
  congrFun (arr4_1 V c) (ix2 p q)

/-- The input array is left as the region finds it. -/
theorem arr4_0 (c : Dev nD) : (dat4 V c).arrAt 0 cfg4.N = V c (Pipeline.arrRef spec4 0) :=
  ((dat4 V c).arrAt_in 0 rfl _).trans (A_eq4 V c 0)

end Cert.KernelIdeal.Hand

end
-- ==== Proof.LibRowsDot.lean ====
/-
  A matrix times the transpose of another, read at an index, over the extended reals.

  For dimension numbers that contract the left operand's axis 1 with the right operand's axis 1 and keep
  (left axis 0, right axis 0) as the result's axes — rows of the left against rows of the right, the form of
  queries against keys — the contraction at result index `(a, b)` is `Σ_{k < K} l(a, k) · r(b, k)`: the same plain sum for
  a `tpu.matmul` into a zero accumulator and for the host's `dot_general`, whatever the extents. The dimension record
  enters through four coordinate facts about how it reads its operands (for a printed record each holds by
  computation), so the lemmas serve every extent.
-/
import Idealize.ShloMosaic.Lib.ValueIdx
import Idealize.ShloMosaic.PureOps.Ideal.Laws

noncomputable section

namespace Cert.Lib.RowsDot

open Idealize.ShloMosaic Idealize.ShloMosaic.ValueIdx

variable {R K C : Nat} {φ₁ φ₂ : FTy}

/-- How a rows×inner by cols×inner dimension record reads its operands: one contracted axis of extent `K`; at result
    index `i` and contraction position `q` the left operand is read at `(i 0, q)` and the right at `(i 1, q)`. -/
structure Reads (d : DotDims (⟨2, ![R, K]⟩ : Shape) (⟨2, ![C, K]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (i 1).val
  rhs1 : ∀ (i : (⟨2, ![R, C]⟩ : Shape).Idx) (q : d.contr.Idx), (d.rhsIdx i q 1).val = (q ⟨0, by omega⟩).val

variable {d : DotDims (⟨2, ![R, K]⟩ : Shape) (⟨2, ![C, K]⟩ : Shape) (⟨2, ![R, C]⟩ : Shape)}

/-- The sum over the record's contraction index is the sum over the shared inner axis' coordinate. -/
theorem sum_contr (h : Reads d) (l : FVec Ideal (⟨2, ![R, K]⟩ : Shape) φ₁) (r : FVec Ideal (⟨2, ![C, K]⟩ : Shape) φ₂)
    (a : Fin R) (b : Fin C) :
    ∑ q : d.contr.Idx, l (d.lhsIdx (ix2 a b) q) * r (d.rhsIdx (ix2 a b) q) = ∑ k : Fin K, l (ix2 a k) * r (ix2 b k) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 b k := funext fun x => Fin.ext (by
    match x with
    | ⟨0, _⟩ => exact h.rhs0 _ _
    | ⟨1, _⟩ => exact (h.rhs1 _ _).trans hk)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![C, K]⟩ : Shape) φ₂) (a : Fin R) (b : Fin C) :
    FloatOps.matmul d prec l r (constant (⟨2, ![R, C]⟩ : Shape) .f32 0x00000000#32) (ix2 a b)
      = ∑ k : Fin K, l (ix2 a k) * r (ix2 b k) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![C, K]⟩ : Shape) φ₂) (a : Fin R) (b : Fin C) :
    FloatOps.dotGeneral d prec sched l r (ix2 a b) = ∑ k : Fin K, l (ix2 a k) * r (ix2 b k) :=
  (Ideal.dotGeneral_apply d prec sched l r (ix2 a b)).trans (sum_contr h l r a b)

end Cert.Lib.RowsDot

end
-- ==== Proof.LibBlockSum.lean ====
/-
  A finite sum taken in consecutive blocks.

  In any additive commutative monoid the sum of `f` over the first `J * K` naturals is the sum, over the `J`
  consecutive blocks of `K` naturals, of each block's own sum: `Σ_{s<J} Σ_{k<K} f (s·K + k) = Σ_{i<J·K} f i`.
  Only associativity, commutativity and the zero of `+` are used, so the statement holds on the extended reals with
  no finiteness assumption. A function on `Fin n` is carried to the naturals by extending it with zeros
  (`zeroExt`), which turns a `Fin`-indexed sum into a `Finset.range` sum and back.
-/
import Mathlib.Algebra.BigOperators.Fin
import Mathlib.Algebra.BigOperators.Group.Finset.Basic

namespace Cert.Lib.BlockSum

open Finset

variable {β : Type*} [AddCommMonoid β]

/-- The sum over the first `J * K` naturals, taken block by block: block `s` is `s·K, …, s·K + K - 1`. -/
theorem sum_range_blocks (J K : ℕ) (f : ℕ → β) :
    ∑ s ∈ range J, ∑ k ∈ range K, f (s * K + k) = ∑ i ∈ range (J * K), f i := by
  induction J with
  | zero => simp
  | succ J ih => rw [sum_range_succ, ih, Nat.succ_mul, sum_range_add]

/-- A function on `Fin n` extended to every natural by zero past `n`. -/
def zeroExt {n : ℕ} (f : Fin n → β) : ℕ → β := fun i => if h : i < n then f ⟨i, h⟩ else 0

/-- Below `n` the extension is the function. -/
theorem zeroExt_of_lt {n : ℕ} (f : Fin n → β) (i : ℕ) (h : i < n) : zeroExt f i = f ⟨i, h⟩ := dif_pos h

theorem zeroExt_val {n : ℕ} (f : Fin n → β) (i : Fin n) : zeroExt f i.val = f i := dif_pos i.isLt

/-- A `Fin n`-indexed sum is the sum of the extension over the first `n` naturals. -/
theorem sum_fin_eq_sum_range {n : ℕ} (f : Fin n → β) : ∑ i : Fin n, f i = ∑ i ∈ range n, zeroExt f i := by
  rw [Finset.sum_range]
  exact Finset.sum_congr rfl fun i _ => (zeroExt_val f i).symm

/-- The whole `Fin (J·K)`-indexed sum, block by block: block `s`'s sum runs over `k : Fin K` at position `s·K + k`. -/
theorem sum_fin_blocks {N : ℕ} (J K : ℕ) (hN : N = J * K) (f : Fin N → β) :
    ∑ s ∈ range J, ∑ k : Fin K, zeroExt f (s * K + k.val) = ∑ i : Fin N, f i := by
  subst hN
  rw [sum_fin_eq_sum_range f, ← sum_range_blocks]
  exact Finset.sum_congr rfl fun s _ => (Finset.sum_range fun k => zeroExt f (s * K + k)).symm

end Cert.Lib.BlockSum
-- ==== Proof.Moments.lean ====
/-
  Column moments over the extended reals.

  A column of a product of sign matrices is a finite family of REAL numbers (each entry a finite sum of products of
  values in {-1, 0, 1}).  For such a family z₀ … z_{N-1} with N = n > 0 and mean m = (Σ zᵢ)/n, the mean squared
  deviation (Σ (zᵢ - m)²)/n equals (Σ zᵢ²)/n - m², which is therefore nonnegative, so clamping it at zero changes
  nothing: the one-pass variance max((Σ zᵢ²)/n - m², 0) IS the two-pass variance.  The identity is one of real
  numbers; on the extended reals it holds because every quantity involved is (the coercion of) a real, and division
  by a nonzero real is multiplication by its reciprocal.  At an infinite entry it would fail (∞ - ∞), which is why the
  statement is about real families.
-/
import Idealize.ShloMosaic.PureOps.Ideal
import Mathlib.Tactic

noncomputable section

namespace Cert.Moments

open Idealize.ShloMosaic
open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sign of an extended real is one of the reals -1, 0, 1; in particular a real. -/
theorem sign_real (v : EReal) : ∃ r : ℝ, Ideal.sign v = (r : EReal) := by
  induction v using EReal.rec with
  | bot => exact ⟨-1, by rw [Ideal.sign_bot, EReal.coe_neg, EReal.coe_one]⟩
  | top => exact ⟨1, by rw [Ideal.sign_top, EReal.coe_one]⟩
  | coe r => exact ⟨_, Ideal.sign_coe r⟩

/-- The sign of a real, as a real, is its own sign. -/
theorem real_sign_sign (r : ℝ) : SignType.sign ((SignType.sign r : SignType) : ℝ) = SignType.sign r := by
  rcases lt_trichotomy r 0 with h | h | h
  · rw [sign_neg h]; simp
  · subst h; simp
  · rw [sign_pos h]; simp

/-- Taking the sign twice is taking it once. -/
theorem sign_sign (v : EReal) : Ideal.sign (Ideal.sign v) = Ideal.sign v := by
  induction v using EReal.rec with
  | bot =>
    rw [Ideal.sign_bot, show (-1 : EReal) = ((-1 : ℝ) : EReal) by rw [EReal.coe_neg, EReal.coe_one], Ideal.sign_coe,
      sign_neg (by norm_num : (-1 : ℝ) < 0)]; simp
  | top =>
    rw [Ideal.sign_top, show (1 : EReal) = ((1 : ℝ) : EReal) by rw [EReal.coe_one], Ideal.sign_coe,
      sign_pos (by norm_num : (0 : ℝ) < 1)]; simp
  | coe r => rw [Ideal.sign_coe, Ideal.sign_coe, real_sign_sign]

/-- A finite sum of products of signs is a real. -/
theorem sum_sign_mul_real {ι : Type*} (s : Finset ι) (a b : ι → EReal) :
    ∃ r : ℝ, ∑ k ∈ s, Ideal.sign (a k) * Ideal.sign (b k) = (r : EReal) := by
  choose ra ha using fun k => sign_real (a k)
  choose rb hb using fun k => sign_real (b k)
  refine ⟨∑ k ∈ s, ra k * rb k, ?_⟩
  rw [coe_sum]
  exact Finset.sum_congr rfl fun k _ => by rw [ha, hb, EReal.coe_mul]

/-- Division of a real by a nonzero real, at the ideal instance, is the real quotient. -/
theorem div_real (x y : ℝ) (hy : y ≠ 0) : Ideal.div (x : EReal) (y : EReal) = ((x / y : ℝ) : EReal) := by
  rw [Ideal.div_coe hy, ← EReal.coe_mul]; congr 1; ring

/-- The mean squared deviation of a real family about its mean is the mean square less the squared mean, clamped at
    zero or not: the quantity is nonnegative. -/
theorem var_real {N : ℕ} (z : Fin N → ℝ) (n : ℝ) (hn : 0 < n) (hN : (N : ℝ) = n) :
    (∑ i, (z i - (∑ i, z i) / n) * (z i - (∑ i, z i) / n)) / n
      = max ((∑ i, z i * z i) / n - ((∑ i, z i) / n) * ((∑ i, z i) / n)) 0 := by
  set a := ∑ i, z i with ha
  set b := ∑ i, z i * z i with hb
  have h1 : ∑ i, (z i - a / n) * (z i - a / n) = b - 2 * (a / n) * a + n * ((a / n) * (a / n)) := by
    have e : ∀ i, (z i - a / n) * (z i - a / n) = z i * z i - 2 * (a / n) * z i + (a / n) * (a / n) := fun i => by ring
    simp only [e, Finset.sum_add_distrib, Finset.sum_sub_distrib, ← Finset.mul_sum, Finset.sum_const,
      Finset.card_univ, Fintype.card_fin, nsmul_eq_mul, hN, ← ha, ← hb]
    ring
  have h2 : 0 ≤ (∑ i, (z i - a / n) * (z i - a / n)) / n :=
    div_nonneg (Finset.sum_nonneg fun i _ => mul_self_nonneg _) hn.le
  have h3 : (∑ i, (z i - a / n) * (z i - a / n)) / n = b / n - (a / n) * (a / n) := by
    rw [h1]; field_simp; ring
  rw [h3, max_eq_left (h3 ▸ h2)]

end Cert.Moments

end
-- ==== Proof.ColumnLaw.lean ====
/-
  One column of Z, 8192 real entries, seen from both sides.

  The kernel adds the column in four blocks of 2048 rows and then adds the four partial sums; the reference adds all
  8192 entries at once: one sum, regrouped (blocks_sum; no finiteness is needed to regroup a sum).  The kernel's
  variance is the mean square less the squared mean, clamped at zero; the reference's is the mean squared deviation
  about the mean.  For REAL entries the two agree (Cert.Moments.var_real); here the identity is stated on the
  extended reals with the program's words for 0 and 8192 (var_forms), ready to meet both programs' terms.
-/
import proofs.«139021_j54202487276022_2_alg».proof.Proof.Moments
import proofs.«139021_j54202487276022_2_alg».proof.Proof.LibBlockSum

noncomputable section

namespace Cert.ColumnLaw

open Idealize.ShloMosaic Cert.Moments
open scoped BigOperators

/-- The zero word and the word 8192.0 as extended reals (the patterns unfolded once, here). -/
theorem zero_word : Ideal.ofBits .f32 0x00000000#32 = 0 := by
  simp [Ideal.ofBits, Ideal.ieee]
theorem rows_word : Ideal.ofBits .f32 0x46000000#32 = ((8192 : ℝ) : EReal) := by
  simp [Ideal.ofBits, Ideal.ieee, -EReal.coe_mul]; norm_num

/-- Row `r` of row block `ib` (blocks of 2048 rows). -/
def blk (ib : Fin 4) (r : Fin 2048) : Fin 8192 := ⟨ib.val * 2048 + r.val, by omega⟩

/-- A sum over the 8192 rows, taken as four blocks of 2048. -/
theorem blocks_sum {β : Type*} [AddCommMonoid β] (f : Fin 8192 → β) :
    ∑ ib : Fin 4, ∑ r : Fin 2048, f (blk ib r) = ∑ i : Fin 8192, f i := by
  rw [← Cert.Lib.BlockSum.sum_fin_blocks 4 2048 (by norm_num) f, Finset.sum_range]
  refine Finset.sum_congr rfl fun ib _ => Finset.sum_congr rfl fun r _ => ?_
  exact (Cert.Lib.BlockSum.zeroExt_of_lt f _ (by have := ib.isLt; have := r.isLt; omega)).symm

/-- The column's mean, the kernel's way and the reference's. -/
theorem mean_forms (z : Fin 8192 → EReal) :
    Ideal.div (Ideal.ofBits .f32 0x00000000#32 + ∑ ib : Fin 4, ∑ r : Fin 2048, z (blk ib r)) (Ideal.ofBits .f32 0x46000000#32)
      = Ideal.div (Ideal.ofBits .f32 0x00000000#32 + ∑ i : Fin 8192, z i) (Ideal.ofBits .f32 0x46000000#32) := by
  rw [blocks_sum]

/-- The column's variance: the kernel's clamped one-pass form is the reference's two-pass form, for real entries. -/
theorem var_forms (z : Fin 8192 → EReal) (hz : ∀ i, ∃ r : ℝ, z i = (r : EReal)) (m : EReal)
    (hm : m = Ideal.div (Ideal.ofBits .f32 0x00000000#32 + ∑ i : Fin 8192, z i) (Ideal.ofBits .f32 0x46000000#32)) :
    max (Ideal.div (Ideal.ofBits .f32 0x00000000#32 + ∑ ib : Fin 4, ∑ r : Fin 2048, z (blk ib r) * z (blk ib r)) (Ideal.ofBits .f32 0x46000000#32)
          - m * m) (Ideal.ofBits .f32 0x00000000#32)
      = Ideal.div (Ideal.ofBits .f32 0x00000000#32 + ∑ i : Fin 8192, (z i - m) * (z i - m)) (Ideal.ofBits .f32 0x46000000#32) := by
  choose zr hzr using hz
  have hzf : z = fun i => (zr i : EReal) := funext hzr
  subst hzf
  rw [blocks_sum (fun i => ((zr i : ℝ) : EReal) * ((zr i : ℝ) : EReal))]
  have hmr : m = (((∑ i, zr i) / 8192 : ℝ) : EReal) := by
    rw [hm, zero_word, rows_word, zero_add, ← coe_sum, div_real _ _ (by norm_num)]
  rw [hmr, zero_word, rows_word, zero_add, zero_add]
  simp only [← EReal.coe_mul, ← EReal.coe_sub, ← coe_sum]
  rw [div_real _ _ (by norm_num), div_real _ _ (by norm_num), ← EReal.coe_sub,
    show (0 : EReal) = ((0 : ℝ) : EReal) from rfl, ← (EReal.coe_strictMono.monotone).map_max]
  congr 1
  exact (var_real zr 8192 (by norm_num) (by norm_num)).symm

end Cert.ColumnLaw

end
-- ==== Proof.ProdAt.lean ====
/-
  Entries of a product of one array with the transpose of another, and the column sums of such a product taken over
  blocks of 2048 rows, as extended reals: the quantities the product regions leave in their output arrays.
-/
import proofs.«139021_j54202487276022_2_alg».proof.Proof.ColumnLaw
import Idealize.ShloMosaic.Lib.ValueIdx

noncomputable section

namespace Cert.KernelIdeal.Hand

open Idealize.ShloMosaic Idealize.ShloMosaic.ValueIdx
open scoped BigOperators

/-- Entry (i, j) of A times the transpose of W: the products of row i of A with row j of W, added. -/
def dotAt {R C K : Nat} (A : (⟨2, ![R, K]⟩ : Shape).Idx → EReal) (W : (⟨2, ![C, K]⟩ : Shape).Idx → EReal) (i : Fin R) (j : Fin C) : EReal :=
  ∑ k : Fin K, A (ix2 i k) * W (ix2 j k)

/-- The sum of column j of Z over the 2048 rows of row block ib. -/
def colSum (Z : (⟨2, ![8192, 4096]⟩ : Shape).Idx → EReal) (ib : Fin 4) (j : Fin 4096) : EReal :=
  ∑ r : Fin 2048, Z (ix2 (Cert.ColumnLaw.blk ib r) j)

/-- The sum of the squares of column j of Z over the 2048 rows of row block ib. -/
def colSq (Z : (⟨2, ![8192, 4096]⟩ : Shape).Idx → EReal) (ib : Fin 4) (j : Fin 4096) : EReal :=
  ∑ r : Fin 2048, Z (ix2 (Cert.ColumnLaw.blk ib r) j) * Z (ix2 (Cert.ColumnLaw.blk ib r) j)

end Cert.KernelIdeal.Hand

end
-- ==== Proof.IVal5.lean ====
/- Region 5 (the first product with column statistics), read at the exact extended reals.
   The accumulator after the point with innermost coordinate k holds, at every entry of the current block of Z, the sum
   of the first 1024 (k + 1) products of the entry's row of the first input with the entry's row of the second
   (by induction on the point: at k = 0 it restarts from zero, otherwise one more block of 1024 products is added).
   At k = 3 the sum is complete and is written back as the block of Z, together with its column sums and the column
   sums of its squares as the two rows of the statistics block. The blocks written back at the sixteen points with
   k = 3 tile both output arrays. -/
import proofs.«139021_j54202487276022_2_alg».proof.Proof.IReg5
import proofs.«139021_j54202487276022_2_alg».proof.Proof.LibRowsDot
import proofs.«139021_j54202487276022_2_alg».proof.Proof.LibBlockSum
import proofs.«139021_j54202487276022_2_alg».proof.Proof.ColumnLaw
import proofs.«139021_j54202487276022_2_alg».proof.Proof.ProdAt
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx
open scoped BigOperators

theorem hz5 : (![0, 0] : Fin 2 → Nat) = fun _ => 0 := funext fun a => by fin_cases a <;> rfl

/-! ## What each case leaves, as payloads of its inputs (any float values) -/

section Pieces

variable {F : FTy → Type} [FloatOps F]

/-- k = 0: the accumulator is left at the zero block plus the product of the two input blocks. -/
theorem sout5_A_0_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond5_0 i) (hc1 : ¬cond5_1 i) (x0 : Vec F S2048x1024 .bf16) (x1 : Vec F S1024x1024 .bf16) :
    sout5_A_0 c i arg3 harg3 arg4 harg4 arg5 harg5 arg6 harg6 arg7 harg7 hc0 hc1 x0 x1 = k5_pay2 (k5_pay1 (F := F)) x0 x1 := by
  unfold sout5_A_0
  rw [View.read_writes_eq_canon _ _ _ (scover5_A_0 c i arg3 harg3 arg4 harg4 arg5 harg5 arg6 harg6 arg7 harg7 hc0 hc1 x0 x1)]
  unfold kernelRun5_A
  dsimp only
  sl_unfold_words
  rw [View.canon_cons_unit_zero (S := S2048x1024) hz5, View.readCov_unit_zero (S := S2048x1024) _ hz5]
  simp only [View.readAt_eq_ld, harg3.read_unread, harg4.read_unread, View.ld_unit_zero (S := S2048x1024) hz5, View.ld_unit_zero (S := S1024x1024) hz5]

/-- k = 1, 2: the accumulator is left at what it held plus the product of the two input blocks. -/
theorem sout5_B_0_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : ¬cond5_1 i) (x0 : Vec F S2048x1024 .bf16) (x1 : Vec F S1024x1024 .bf16) (xs0 : Vec F S2048x1024 .f32) :
    sout5_B_0 c i arg3 harg3 arg4 harg4 arg5 harg5 arg6 harg6 arg7 harg7 hc0 hc1 x0 x1 xs0 = k5_pay2 xs0 x0 x1 := by
  unfold sout5_B_0
  rw [View.read_writes_eq_canon _ _ _ (scover5_B_0 c i arg3 harg3 arg4 harg4 arg5 harg5 arg6 harg6 arg7 harg7 hc0 hc1 x0 x1 xs0)]
  unfold kernelRun5_B
  dsimp only
  (try sl_unfold_words)
  rw [View.canon_unit_zero hz5]
  simp only [View.readAt_eq_ld, harg3.read_unread, harg4.read_unread, harg7.read_unread, View.ld_unit_zero (S := S2048x1024) hz5, View.ld_unit_zero (S := S1024x1024) hz5]

/-- k = 3: the accumulator likewise; -/
theorem sout5_C_0_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i) (x0 : Vec F S2048x1024 .bf16) (x1 : Vec F S1024x1024 .bf16) (xs0 : Vec F S2048x1024 .f32) :
    sout5_C_0 c i arg3 harg3 arg4 harg4 arg5 harg5 arg6 harg6 arg7 harg7 hc0 hc1 x0 x1 xs0 = k5_pay2 xs0 x0 x1 := by
  unfold sout5_C_0
  rw [View.read_writes_eq_canon _ _ _ (scover5_C_0 c i arg3 harg3 arg4 harg4 arg5 harg5 arg6 harg6 arg7 harg7 hc0 hc1 x0 x1 xs0)]
  unfold kernelRun5_C
  dsimp only
  (try sl_unfold_words)
  rw [View.canon_unit_zero hz5]
  simp only [View.readAt_eq_ld, harg3.read_unread, harg4.read_unread, harg7.read_unread, View.ld_unit_zero (S := S2048x1024) hz5, View.ld_unit_zero (S := S1024x1024) hz5]

/-- the block of Z is the accumulator read back; -/
theorem out5_C_2_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i) (x0 : Vec F S2048x1024 .bf16) (x1 : Vec F S1024x1024 .bf16) (xs0 : Vec F S2048x1024 .f32) :
    out5_C_2 c i arg3 harg3 arg4 harg4 arg5 harg5 arg6 harg6 arg7 harg7 hc0 hc1 x0 x1 xs0 = k5_pay2 xs0 x0 x1 := by
  unfold out5_C_2
  rw [View.read_writes_eq_canon _ _ _ (cover5_C_2 c i arg3 harg3 arg4 harg4 arg5 harg5 arg6 harg6 arg7 harg7 hc0 hc1 x0 x1 xs0)]
  unfold kernelRun5_C
  dsimp only
  (try sl_unfold_words)
  rw [View.canon_unit_zero hz5, View.readCov_unit_zero (S := S2048x1024) _ hz5]
  simp only [View.readAt_eq_ld, harg3.read_unread, harg4.read_unread, harg7.read_unread, View.ld_unit_zero (S := S2048x1024) hz5, View.ld_unit_zero (S := S1024x1024) hz5]

/-- the statistics block is two rows, each a reduction of the accumulator read back. -/
theorem out5_C_3_eq (c : Dev nD) (i : grid5.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond5_0 i) (hc1 : cond5_1 i) (x0 : Vec F S2048x1024 .bf16) (x1 : Vec F S1024x1024 .bf16) (xs0 : Vec F S2048x1024 .f32) :
    out5_C_3 c i arg3 harg3 arg4 harg4 arg5 harg5 arg6 harg6 arg7 harg7 hc0 hc1 x0 x1 xs0
      = View.canon [(⟨Rect.unit (s := S1x2x1024) ![0, 1, 0] S1x1x1024.size inb_S1x2x1024_S1x1x1024_0_1_0, k5_pay4 (k5_pay2 xs0 x0 x1)⟩ : View.Piece (Elt F) S1x2x1024 .f32),
          ⟨Rect.unit (s := S1x2x1024) ![0, 0, 0] S1x1x1024.size inb_S1x2x1024_S1x1x1024_0_0_0, k5_pay3 (k5_pay2 xs0 x0 x1)⟩] := by
  unfold out5_C_3
  rw [View.read_writes_eq_canon _ _ _ (cover5_C_3 c i arg3 harg3 arg4 harg4 arg5 harg5 arg6 harg6 arg7 harg7 hc0 hc1 x0 x1 xs0)]
  unfold kernelRun5_C
  dsimp only
  (try sl_unfold_words)
  rw [View.readCov_unit_zero (S := S2048x1024) _ hz5]
  simp only [View.readAt_eq_ld, harg3.read_unread, harg4.read_unread, harg7.read_unread, View.ld_unit_zero (S := S2048x1024) hz5, View.ld_unit_zero (S := S1024x1024) hz5]

end Pieces

/-! ## Reading two stacked row stores -/

section Rows

variable {Val : EltTy → Type} [∀ e, Nonempty (Val e)] {e : EltTy}

theorem emb5_row1 (cc : Fin 1024) : (Rect.unit (s := S1x2x1024) ![0, 1, 0] S1x1x1024.size inb_S1x2x1024_S1x1x1024_0_1_0).emb (ix3 (0 : Fin 1) (0 : Fin 1) cc) = ix3 (0 : Fin 1) (1 : Fin 2) cc := by
  funext a; apply Fin.ext
  match a with
  | ⟨0, _⟩ => rfl
  | ⟨1, _⟩ => rfl
  | ⟨2, _⟩ => show 0 + 1 * cc.val = cc.val; omega
theorem emb5_row0 (cc : Fin 1024) : (Rect.unit (s := S1x2x1024) ![0, 0, 0] S1x1x1024.size inb_S1x2x1024_S1x1x1024_0_0_0).emb (ix3 (0 : Fin 1) (0 : Fin 1) cc) = ix3 (0 : Fin 1) (0 : Fin 2) cc := by
  funext a; apply Fin.ext
  match a with
  | ⟨0, _⟩ => rfl
  | ⟨1, _⟩ => rfl
  | ⟨2, _⟩ => show 0 + 1 * cc.val = cc.val; omega

/-- Row 1 of the two stacked rows is the last store's payload. -/
theorem canon5_row1 (p3 p4 : S1x1x1024.Idx → Val e) (cc : Fin 1024) :
    View.canon [(⟨Rect.unit (s := S1x2x1024) ![0, 1, 0] S1x1x1024.size inb_S1x2x1024_S1x1x1024_0_1_0, p4⟩ : View.Piece Val S1x2x1024 e), ⟨Rect.unit (s := S1x2x1024) ![0, 0, 0] S1x1x1024.size inb_S1x2x1024_S1x1x1024_0_0_0, p3⟩] (ix3 (0 : Fin 1) (1 : Fin 2) cc) = p4 (ix3 (0 : Fin 1) (0 : Fin 1) cc) := by
  rw [← emb5_row1 cc]; exact View.canon_cons_emb (Rect.unit (s := S1x2x1024) ![0, 1, 0] S1x1x1024.size inb_S1x2x1024_S1x1x1024_0_1_0) p4 _ (ix3 (0 : Fin 1) (0 : Fin 1) cc)

/-- Row 0 is the first store's payload: the last store does not reach it. -/
theorem canon5_row0 (p3 p4 : S1x1x1024.Idx → Val e) (cc : Fin 1024) :
    View.canon [(⟨Rect.unit (s := S1x2x1024) ![0, 1, 0] S1x1x1024.size inb_S1x2x1024_S1x1x1024_0_1_0, p4⟩ : View.Piece Val S1x2x1024 e), ⟨Rect.unit (s := S1x2x1024) ![0, 0, 0] S1x1x1024.size inb_S1x2x1024_S1x1x1024_0_0_0, p3⟩] (ix3 (0 : Fin 1) (0 : Fin 2) cc) = p3 (ix3 (0 : Fin 1) (0 : Fin 1) cc) := by
  rw [View.canon_cons_of_not_mem]
  · rw [← emb5_row0 cc]; exact View.canon_cons_emb (Rect.unit (s := S1x2x1024) ![0, 0, 0] S1x1x1024.size inb_S1x2x1024_S1x1x1024_0_0_0) p3 [] (ix3 (0 : Fin 1) (0 : Fin 1) cc)
  · rw [Rect.mem_set_unit]
    intro h
    have := h (1 : Fin 3)
    revert this
    show ¬ ((1 : Nat) ≤ 0 ∧ _)
    omega

end Rows

/-! ## The payloads at an entry, over the extended reals -/

theorem reads5 : Cert.Lib.RowsDot.Reads (R := 2048) (K := 1024) (C := 1024) dot_S2048x1024_S1024x1024_S2048x1024_1_1_0_0_n_n :=
  ⟨rfl, rfl, fun _ _ => rfl, fun _ _ => rfl, fun _ _ => rfl, fun _ _ => rfl⟩

/-- The zero block. -/
theorem pay5_1_apply (j : S2048x1024.Idx) : k5_pay1 (F := Ideal) j = 0 := by
  unfold k5_pay1
  simp only [shapeCast_self]
  exact Ideal.ofBits_zero_f32

/-- The accumulator's update at an entry: what it held plus the 1024 products of the two blocks' rows. -/
theorem pay5_2_apply (xs : Vec Ideal S2048x1024 .f32) (x0 : Vec Ideal S2048x1024 .bf16) (x1 : Vec Ideal S1024x1024 .bf16) (r : Fin 2048) (cc : Fin 1024) :
    k5_pay2 (F := Ideal) xs x0 x1 (ix2 r cc) = xs (ix2 r cc) + ∑ q : Fin 1024, x0 (ix2 r q) * x1 (ix2 cc q) := by
  unfold k5_pay2
  simp only [shapeCast_self]
  exact congrArg (xs (ix2 r cc) + ·) (Cert.Lib.RowsDot.matmul_zero_apply reads5 none x0 x1 r cc)

/-- A column sum of a block, stored as a row. -/
theorem red5_apply (z : FVec Ideal S2048x1024 .f32) (cc : Fin 1024) :
    shapeCast S1x1x1024 (shapeCast S1x1024 (multiReduction .add [0] S1024 z 0x00000000#32 reduces_S2048x1024_S1024 (.inl rfl) rfl) shapeCasts_S1024_S1x1024) shapeCasts_S1x1024_S1x1x1024 (ix3 (0 : Fin 1) (0 : Fin 1) cc)
      = ∑ r : Fin 2048, z (ix2 r cc) := by
  refine (shapeCast_addUnit_apply ![1, 1024] _ _ _).trans ?_
  refine (shapeCast_addUnit_apply ![1024] _ _ _).trans ?_
  refine (Ideal.multiReduction_add_single z _ reduces_S2048x1024_S1024 (.inl rfl) rfl _).trans ?_
  refine Finset.sum_congr rfl fun r _ => congrArg z ?_
  funext a; apply Fin.ext
  match a with
  | ⟨0, _⟩ => rfl
  | ⟨1, _⟩ => rfl

theorem pay5_3_apply (z : Vec Ideal S2048x1024 .f32) (cc : Fin 1024) :
    k5_pay3 (F := Ideal) z (ix3 (0 : Fin 1) (0 : Fin 1) cc) = ∑ r : Fin 2048, z (ix2 r cc) := by
  unfold k5_pay3
  exact red5_apply z cc

theorem pay5_4_apply (z : Vec Ideal S2048x1024 .f32) (cc : Fin 1024) :
    k5_pay4 (F := Ideal) z (ix3 (0 : Fin 1) (0 : Fin 1) cc) = ∑ r : Fin 2048, z (ix2 r cc) * z (ix2 r cc) := by
  unfold k5_pay4
  exact (red5_apply (mulf z z) cc).trans (Finset.sum_congr rfl fun r _ => rfl)

/-! ## The windows' block indices over the grid -/

/-- Point t = 16 i + 4 j + k: the first input's block is (i, k), the second's (j, k), the block of Z (i, j), the
    statistics block (i, 0, j). -/
theorem idx_facts5 : ∀ t : Fin cfg5.N,
    win5_0.index t (0 : Fin 2) = t.val / 16 ∧ win5_0.index t (1 : Fin 2) = t.val % 4
    ∧ win5_1.index t (0 : Fin 2) = (t.val / 4) % 4 ∧ win5_1.index t (1 : Fin 2) = t.val % 4
    ∧ win5_2.index t (0 : Fin 2) = t.val / 16 ∧ win5_2.index t (1 : Fin 2) = (t.val / 4) % 4
    ∧ win5_3.index t (0 : Fin 3) = t.val / 16 ∧ win5_3.index t (1 : Fin 3) = 0 ∧ win5_3.index t (2 : Fin 3) = (t.val / 4) % 4 :=
  (by decide +kernel : ∀ t : Fin grid5.N, _)

/-- Every block of Z is written back by some point, -/
theorem blk_onto5_2 : ∀ (q0 : Fin 4) (q1 : Fin 4), ∃ t : Fin cfg5.N, (cfg5.win 2).flush t = true ∧ win5_2.index t = ![q0.val, q1.val] :=
  (by decide +kernel : ∀ (q0 : Fin 4) (q1 : Fin 4), ∃ t : Fin grid5.N, win5_2.flush t = true ∧ win5_2.index t = ![q0.val, q1.val])
/-- and every statistics block. -/
theorem blk_onto5_3 : ∀ (q0 : Fin 4) (q2 : Fin 4), ∃ t : Fin cfg5.N, (cfg5.win 3).flush t = true ∧ win5_3.index t = ![q0.val, 0, q2.val] :=
  (by decide +kernel : ∀ (q0 : Fin 4) (q2 : Fin 4), ∃ t : Fin grid5.N, win5_3.flush t = true ∧ win5_3.index t = ![q0.val, 0, q2.val])

-- the TensorCore's buffer contents when the region is entered
variable (V : (c : Dev nD) → (b : Ref sig .tc) → Buf (Elt Ideal) ((c : Thread nD τ).loc b))

/-! ## The input blocks at an entry -/

theorem iblk5_0_apply (c : Dev nD) (t : Fin cfg5.N) (r : Fin 2048) (q : Fin 1024) (p : Fin 8192) (k : Fin 4096)
    (hp : p.val = (t.val / 16) * 2048 + r.val) (hk : k.val = (t.val % 4) * 1024 + q.val) :
    iblk5 V c 0 t (ix2 r q) = V c (Pipeline.arrRef spec5 0) (ix2 p k) := by
  obtain ⟨e0, e1, -⟩ := idx_facts5 t
  unfold iblk5
  rw [View.read_apply]
  refine congrArg (V c (Pipeline.arrRef spec5 0)) ?_
  funext a; apply Fin.ext
  match a with
  | ⟨0, _⟩ => show win5_0.index t (0 : Fin 2) * 2048 + 1 * r.val = p.val; omega
  | ⟨1, _⟩ => show win5_0.index t (1 : Fin 2) * 1024 + 1 * q.val = k.val; omega

theorem iblk5_1_apply (c : Dev nD) (t : Fin cfg5.N) (cc : Fin 1024) (q : Fin 1024) (p : Fin 4096) (k : Fin 4096)
    (hp : p.val = ((t.val / 4) % 4) * 1024 + cc.val) (hk : k.val = (t.val % 4) * 1024 + q.val) :
    iblk5 V c 1 t (ix2 cc q) = V c (Pipeline.arrRef spec5 1) (ix2 p k) := by
  obtain ⟨-, -, e0, e1, -⟩ := idx_facts5 t
  unfold iblk5
  rw [View.read_apply]
  refine congrArg (V c (Pipeline.arrRef spec5 1)) ?_
  funext a; apply Fin.ext
  match a with
  | ⟨0, _⟩ => show win5_1.index t (0 : Fin 2) * 1024 + 1 * cc.val = p.val; omega
  | ⟨1, _⟩ => show win5_1.index t (1 : Fin 2) * 1024 + 1 * q.val = k.val; omega

/-! ## The accumulator's invariant -/

/-- The k-th product of entry (p, q), zero past the 4096 products. -/
def term5 (A : S8192x4096.Idx → EReal) (W : S4096x4096.Idx → EReal) (p : Fin 8192) (q : Fin 4096) : ℕ → EReal :=
  Cert.Lib.BlockSum.zeroExt (fun k : Fin 4096 => A (ix2 p k) * W (ix2 q k))

/-- One update: from the first 1024 k products to the first 1024 (k + 1). -/
theorem step5 (c : Dev nD) (t : Fin cfg5.N) (xs : Vec Ideal S2048x1024 .f32) (r : Fin 2048) (cc : Fin 1024) (p : Fin 8192) (q : Fin 4096)
    (hp : p.val = (t.val / 16) * 2048 + r.val) (hq : q.val = ((t.val / 4) % 4) * 1024 + cc.val)
    (hxs : xs (ix2 r cc) = ∑ j ∈ Finset.range ((t.val % 4) * 1024), term5 (V c (Pipeline.arrRef spec5 0)) (V c (Pipeline.arrRef spec5 1)) p q j) :
    k5_pay2 (F := Ideal) xs (iblk5 V c 0 t) (iblk5 V c 1 t) (ix2 r cc)
      = ∑ j ∈ Finset.range ((t.val % 4 + 1) * 1024), term5 (V c (Pipeline.arrRef spec5 0)) (V c (Pipeline.arrRef spec5 1)) p q j := by
  rw [pay5_2_apply, hxs, show (t.val % 4 + 1) * 1024 = (t.val % 4) * 1024 + 1024 from by omega, Finset.sum_range_add]
  refine congrArg (_ + ·) ?_
  rw [Finset.sum_range]
  refine Finset.sum_congr rfl fun j _ => ?_
  have hj : (t.val % 4) * 1024 + j.val < 4096 := by have := j.isLt; omega
  unfold term5
  rw [Cert.Lib.BlockSum.zeroExt_of_lt _ _ hj,
    iblk5_0_apply V c t r j p ⟨(t.val % 4) * 1024 + j.val, hj⟩ hp rfl,
    iblk5_1_apply V c t cc j q ⟨(t.val % 4) * 1024 + j.val, hj⟩ hq rfl]

/-- After point n the accumulator holds, at entry (r, cc) of the current block, the first 1024 (n mod 4 + 1) products of
    the entry's row of the first input with the entry's row of the second. -/
theorem acc5_eq (c : Dev nD) : ∀ (n : ℕ) (h : n < cfg5.N) (r : Fin 2048) (cc : Fin 1024) (p : Fin 8192) (q : Fin 4096),
    p.val = (n / 16) * 2048 + r.val → q.val = ((n / 4) % 4) * 1024 + cc.val →
    (outsAt5 V c n h).2.2 (ix2 r cc) = ∑ j ∈ Finset.range ((n % 4 + 1) * 1024), term5 (V c (Pipeline.arrRef spec5 0)) (V c (Pipeline.arrRef spec5 1)) p q j
  | 0, h, r, cc, p, q, hp, hq => by
    rw [outsAt5_A V c ⟨0, h⟩ rfl (by show ¬ (0 % 4 = 3); decide)]
    dsimp only
    rw [sout5_A_0_eq]
    exact step5 V c ⟨0, h⟩ _ r cc p q hp hq (by rw [pay5_1_apply]; simp)
  | n + 1, h, r, cc, p, q, hp, hq => by
    have hN : n + 1 < 64 := lt_of_lt_of_eq h N_5
    by_cases h0 : (n + 1) % 4 = 0
    · rw [outsAt5_A V c ⟨n + 1, h⟩ h0 (by dsimp only; omega)]
      dsimp only
      rw [sout5_A_0_eq]
      exact step5 V c ⟨n + 1, h⟩ _ r cc p q hp hq (by
        rw [pay5_1_apply, show (⟨n + 1, h⟩ : Fin cfg5.N).val % 4 = 0 from h0]; simp)
    · have ih := acc5_eq c n (Nat.lt_of_succ_lt h) r cc p q (by omega) (by omega)
      rw [show (n % 4 + 1) * 1024 = ((n + 1) % 4) * 1024 from by omega] at ih
      by_cases h1 : (n + 1) % 4 = 3
      · rw [outsAt5_C V c ⟨n + 1, h⟩ h0 h1]
        dsimp only
        rw [sout5_C_0_eq]
        exact step5 V c ⟨n + 1, h⟩ _ r cc p q hp hq ih
      · rw [outsAt5_B V c ⟨n + 1, h⟩ h0 h1]
        dsimp only
        rw [sout5_B_0_eq]
        exact step5 V c ⟨n + 1, h⟩ _ r cc p q hp hq ih

/-! ## The product array -/

/-- Entry (i, j) of Z: the 4096 products of row i of the first input with row j of the second, added. -/
def Z5 (A : S8192x4096.Idx → EReal) (W : S4096x4096.Idx → EReal) : S8192x4096.Idx → EReal :=
  fun i => dotAt (R := 8192) (C := 4096) (K := 4096) A W (i 0) (i 1)

/-- At a point with k = 3 the block of Z and the accumulator hold the same. -/
theorem zblk5_eq_acc (c : Dev nD) (t : Fin cfg5.N) (h3 : t.val % 4 = 3) :
    (outsAt5 V c t.val t.isLt).1 = (outsAt5 V c t.val t.isLt).2.2 := by
  rw [outsAt5_C V c t (by omega) h3]
  dsimp only
  rw [out5_C_2_eq, sout5_C_0_eq]

/-- There the sum is complete. -/
theorem zblk5_apply (c : Dev nD) (t : Fin cfg5.N) (h3 : t.val % 4 = 3) (r : Fin 2048) (cc : Fin 1024) (p : Fin 8192) (q : Fin 4096)
    (hp : p.val = (t.val / 16) * 2048 + r.val) (hq : q.val = ((t.val / 4) % 4) * 1024 + cc.val) :
    (outsAt5 V c t.val t.isLt).1 (ix2 r cc) = dotAt (R := 8192) (C := 4096) (K := 4096) (V c (Pipeline.arrRef spec5 0)) (V c (Pipeline.arrRef spec5 1)) p q := by
  rw [zblk5_eq_acc V c t h3, acc5_eq V c t.val t.isLt r cc p q hp hq, h3]
  unfold dotAt term5
  exact (Cert.Lib.BlockSum.sum_fin_eq_sum_range _).symm

/-- What a point with k = 3 writes back is its block of Z. -/
theorem flushed5_2 (c : Dev nD) (t : Fin cfg5.N) (hf : (cfg5.win 2).flush t = true) :
    (dat5 V c).flushed 2 t = ((cfg5.win 2).blk t).view.read (Elt Ideal) (Z5 (V c (Pipeline.arrRef spec5 0)) (V c (Pipeline.arrRef spec5 1))) := by
  have h3 := (flush5_2 t).mp hf
  obtain ⟨-, -, -, -, e0, e1, -⟩ := idx_facts5 t
  show (cfg5.win 2).cut (grid5.coords t) ((dat5 V c).after 2 t) = _
  rw [after5_2]
  funext j
  obtain ⟨r, cc, rfl⟩ : ∃ (r : Fin 2048) (cc : Fin 1024), j = ix2 r cc := ⟨j 0, j 1, eq_ix2 (n0 := 2048) (n1 := 1024) j⟩
  show (outsAt5 V c t.val t.isLt).1 (ix2 r cc)
    = dotAt (R := 8192) (C := 4096) (K := 4096) (V c (Pipeline.arrRef spec5 0)) (V c (Pipeline.arrRef spec5 1)) ((((cfg5.win 2).blk t).view.emb (ix2 r cc)) 0) ((((cfg5.win 2).blk t).view.emb (ix2 r cc)) 1)
  exact zblk5_apply V c t h3 r cc _ _
    (show win5_2.index t (0 : Fin 2) * 2048 + 1 * r.val = _ from by omega)
    (show win5_2.index t (1 : Fin 2) * 1024 + 1 * cc.val = _ from by omega)

theorem mem_blk5_2 (t : Fin cfg5.N) (i : S8192x4096.Idx) :
    i ∈ ((cfg5.win 2).blk t).view.set ↔ ∀ a : Fin 2, win5_2.index t a * S2048x1024.size a ≤ (i a).val ∧ (i a).val < win5_2.index t a * S2048x1024.size a + S2048x1024.size a := by
  show i ∈ ((View.whole (Pipeline.arrRef spec5 2)).slice (win5_2.rect t)).set ↔ _
  rw [View.set_slice_whole, Rect.mem_set_unit]
  exact Iff.rfl

theorem cover_all5_2 (i : S8192x4096.Idx) :
    ∃ t : Fin cfg5.N, (cfg5.win 2).flush t = true ∧ i ∈ ((cfg5.win 2).blk t).view.set := by
  have hi0 : (i 0).val < 8192 := (i 0).isLt
  have hi1 : (i 1).val < 4096 := (i 1).isLt
  obtain ⟨t, hf, ht⟩ := blk_onto5_2 ⟨(i 0).val / 2048, by omega⟩ ⟨(i 1).val / 1024, by omega⟩
  have q0 : win5_2.index t (0 : Fin 2) = (i 0).val / 2048 := congrFun ht 0
  have q1 : win5_2.index t (1 : Fin 2) = (i 1).val / 1024 := congrFun ht 1
  refine ⟨t, hf, ?_⟩
  rw [mem_blk5_2]
  intro a
  match a with
  | ⟨0, _⟩ => show win5_2.index t (0 : Fin 2) * 2048 ≤ (i 0).val ∧ (i 0).val < win5_2.index t (0 : Fin 2) * 2048 + 2048; omega
  | ⟨1, _⟩ => show win5_2.index t (1 : Fin 2) * 1024 ≤ (i 1).val ∧ (i 1).val < win5_2.index t (1 : Fin 2) * 1024 + 1024; omega

/-- The product array after the region. -/
theorem arr5_2 (c : Dev nD) : (dat5 V c).arrAt 2 cfg5.N = Z5 (V c (Pipeline.arrRef spec5 0)) (V c (Pipeline.arrRef spec5 1)) :=
  (dat5 V c).arrAt_eq_of_cover 2 (Z5 (V c (Pipeline.arrRef spec5 0)) (V c (Pipeline.arrRef spec5 1))) (fun t hf => flushed5_2 V c t hf) cover_all5_2

/-- The same, entry by entry. -/
theorem arr5_2_apply (c : Dev nD) (i : Fin 8192) (j : Fin 4096) :
    (dat5 V c).arrAt 2 cfg5.N (ix2 i j) = dotAt (R := 8192) (C := 4096) (K := 4096) (V c (Pipeline.arrRef spec5 0)) (V c (Pipeline.arrRef spec5 1)) i j :=
  congrFun (arr5_2 V c) (ix2 i j)

/-! ## The statistics array -/

/-- Per block of 2048 rows and column: the column sum of Z over the block (row 0) and of its squares (row 1). -/
def St5 (Z : S8192x4096.Idx → EReal) : S4x2x4096.Idx → EReal :=
  fun i => if (i 1).val = 0 then colSum Z (i 0) (i 2) else colSq Z (i 0) (i 2)

/-- At a point with k = 3 the statistics block holds the two reductions of the accumulator. -/
theorem sblk5_eq (c : Dev nD) (t : Fin cfg5.N) (h3 : t.val % 4 = 3) :
    (outsAt5 V c t.val t.isLt).2.1
      = View.canon [(⟨Rect.unit (s := S1x2x1024) ![0, 1, 0] S1x1x1024.size inb_S1x2x1024_S1x1x1024_0_1_0, k5_pay4 (F := Ideal) (outsAt5 V c t.val t.isLt).2.2⟩ : View.Piece (Elt Ideal) S1x2x1024 .f32),
          ⟨Rect.unit (s := S1x2x1024) ![0, 0, 0] S1x1x1024.size inb_S1x2x1024_S1x1x1024_0_0_0, k5_pay3 (F := Ideal) (outsAt5 V c t.val t.isLt).2.2⟩] := by
  rw [outsAt5_C V c t (by omega) h3]
  dsimp only
  rw [out5_C_3_eq, sout5_C_0_eq]

/-- What a point with k = 3 writes back is its statistics block. -/
theorem flushed5_3 (c : Dev nD) (t : Fin cfg5.N) (hf : (cfg5.win 3).flush t = true) :
    (dat5 V c).flushed 3 t = ((cfg5.win 3).blk t).view.read (Elt Ideal) (St5 (Z5 (V c (Pipeline.arrRef spec5 0)) (V c (Pipeline.arrRef spec5 1)))) := by
  have h3 := (flush5_3 t).mp hf
  obtain ⟨-, -, -, -, -, -, e0, e1, e2⟩ := idx_facts5 t
  show (cfg5.win 3).cut (grid5.coords t) ((dat5 V c).after 3 t) = _
  rw [after5_3, sblk5_eq V c t h3]
  funext j
  obtain ⟨u, s, cc, rfl⟩ : ∃ (u : Fin 1) (s : Fin 2) (cc : Fin 1024), j = ix3 u s cc := ⟨j 0, j 1, j 2, eq_ix3 (n0 := 1) (n1 := 2) (n2 := 1024) j⟩
  obtain rfl : u = 0 := Subsingleton.elim _ _
  have hib : t.val / 16 < 4 := by have := t.isLt; have : cfg5.N = 64 := N_5; omega
  have hqq : ((t.val / 4) % 4) * 1024 + cc.val < 4096 := by have := cc.isLt; omega
  have hcol : ∀ r : Fin 2048, (outsAt5 V c t.val t.isLt).2.2 (ix2 r cc)
      = Z5 (V c (Pipeline.arrRef spec5 0)) (V c (Pipeline.arrRef spec5 1)) (ix2 (Cert.ColumnLaw.blk ⟨t.val / 16, hib⟩ r) ⟨((t.val / 4) % 4) * 1024 + cc.val, hqq⟩) := fun r =>
    (congrFun (zblk5_eq_acc V c t h3) (ix2 r cc)).symm.trans
      (zblk5_apply V c t h3 r cc (Cert.ColumnLaw.blk ⟨t.val / 16, hib⟩ r) ⟨((t.val / 4) % 4) * 1024 + cc.val, hqq⟩ rfl rfl)
  have hidx : ((cfg5.win 3).blk t).view.emb (ix3 (0 : Fin 1) s cc)
      = ix3 (⟨t.val / 16, hib⟩ : Fin 4) s (⟨((t.val / 4) % 4) * 1024 + cc.val, hqq⟩ : Fin 4096) := by
    funext a; apply Fin.ext
    match a with
    | ⟨0, _⟩ => show win5_3.index t (0 : Fin 3) * 1 + 1 * 0 = t.val / 16; omega
    | ⟨1, _⟩ => show win5_3.index t (1 : Fin 3) * 2 + 1 * s.val = s.val; omega
    | ⟨2, _⟩ => show win5_3.index t (2 : Fin 3) * 1024 + 1 * cc.val = ((t.val / 4) % 4) * 1024 + cc.val; omega
  show _ = St5 (Z5 (V c (Pipeline.arrRef spec5 0)) (V c (Pipeline.arrRef spec5 1))) (((cfg5.win 3).blk t).view.emb (ix3 (0 : Fin 1) s cc))
  rw [hidx]
  match s with
  | ⟨0, _⟩ =>
    refine (canon5_row0 _ _ cc).trans ((pay5_3_apply _ cc).trans ?_)
    unfold St5
    rw [if_pos rfl]
    unfold colSum
    exact Finset.sum_congr rfl fun r _ => hcol r
  | ⟨1, _⟩ =>
    refine (canon5_row1 _ _ cc).trans ((pay5_4_apply _ cc).trans ?_)
    unfold St5
    rw [if_neg (show ¬ ((1 : ℕ) = 0) by decide)]
    unfold colSq
    exact Finset.sum_congr rfl fun r _ => by rw [hcol r]

theorem mem_blk5_3 (t : Fin cfg5.N) (i : S4x2x4096.Idx) :
    i ∈ ((cfg5.win 3).blk t).view.set ↔ ∀ a : Fin 3, win5_3.index t a * S1x2x1024.size a ≤ (i a).val ∧ (i a).val < win5_3.index t a * S1x2x1024.size a + S1x2x1024.size a := by
  show i ∈ ((View.whole (Pipeline.arrRef spec5 3)).slice (win5_3.rect t)).set ↔ _
  rw [View.set_slice_whole, Rect.mem_set_unit]
  exact Iff.rfl

theorem cover_all5_3 (i : S4x2x4096.Idx) :
    ∃ t : Fin cfg5.N, (cfg5.win 3).flush t = true ∧ i ∈ ((cfg5.win 3).blk t).view.set := by
  have hi0 : (i 0).val < 4 := (i 0).isLt
  have hi1 : (i 1).val < 2 := (i 1).isLt
  have hi2 : (i 2).val < 4096 := (i 2).isLt
  obtain ⟨t, hf, ht⟩ := blk_onto5_3 ⟨(i 0).val, hi0⟩ ⟨(i 2).val / 1024, by omega⟩
  have q0 : win5_3.index t (0 : Fin 3) = (i 0).val := congrFun ht 0
  have q1 : win5_3.index t (1 : Fin 3) = 0 := congrFun ht 1
  have q2 : win5_3.index t (2 : Fin 3) = (i 2).val / 1024 := congrFun ht 2
  refine ⟨t, hf, ?_⟩
  rw [mem_blk5_3]
  intro a
  match a with
  | ⟨0, _⟩ => show win5_3.index t (0 : Fin 3) * 1 ≤ (i 0).val ∧ (i 0).val < win5_3.index t (0 : Fin 3) * 1 + 1; omega
  | ⟨1, _⟩ => show win5_3.index t (1 : Fin 3) * 2 ≤ (i 1).val ∧ (i 1).val < win5_3.index t (1 : Fin 3) * 2 + 2; omega
  | ⟨2, _⟩ => show win5_3.index t (2 : Fin 3) * 1024 ≤ (i 2).val ∧ (i 2).val < win5_3.index t (2 : Fin 3) * 1024 + 1024; omega

/-- The statistics array after the region, through the product array. -/
theorem arr5_3 (c : Dev nD) : (dat5 V c).arrAt 3 cfg5.N = St5 ((dat5 V c).arrAt 2 cfg5.N) := by
  rw [arr5_2]
  exact (dat5 V c).arrAt_eq_of_cover 3 (St5 (Z5 (V c (Pipeline.arrRef spec5 0)) (V c (Pipeline.arrRef spec5 1)))) (fun t hf => flushed5_3 V c t hf) cover_all5_3

/-- Row 0: per block of 2048 rows, the column sums of Z. -/
theorem arr5_3_apply0 (c : Dev nD) (ib : Fin 4) (j : Fin 4096) :
    (dat5 V c).arrAt 3 cfg5.N (ix3 ib (0 : Fin 2) j) = colSum ((dat5 V c).arrAt 2 cfg5.N) ib j := by
  rw [arr5_3]; unfold St5; exact if_pos rfl

/-- Row 1: per block of 2048 rows, the column sums of the squares of Z. -/
theorem arr5_3_apply1 (c : Dev nD) (ib : Fin 4) (j : Fin 4096) :
    (dat5 V c).arrAt 3 cfg5.N (ix3 ib (1 : Fin 2) j) = colSq ((dat5 V c).arrAt 2 cfg5.N) ib j := by
  rw [arr5_3]; unfold St5; exact if_neg (show ¬ ((1 : ℕ) = 0) by decide)

/-- The two input arrays are left as the region finds them. -/
theorem arr5_in (c : Dev nD) (w : Fin cfg5.W) (hw : (cfg5.win w).isOut = false) :
    (dat5 V c).arrAt w cfg5.N = V c (Pipeline.arrRef spec5 w) :=
  ((dat5 V c).arrAt_in w hw _).trans (A_eq5 V c w)

end Cert.KernelIdeal.Hand

end
-- ==== Proof.IVal6.lean ====
/- Region 6 of @main (one of the three normalize-and-sign kernels), read at the exact extended reals: after the
   region the output array holds, at row p and column q, the sign of
     scale q * (z p q - mean q) * rsqrt (variance q + eps) + shift q,
   in the body's own association, where z is the 8192x4096 array of pre-activations and mean, variance, scale and
   shift are the four 1x4096 rows the region reads. Each grid point writes back one 1024x1024 block of the output,
   computed from the same block of z and the same column block of the four rows, and the blocks of the 8x4 grid
   points fill the array. -/
import proofs.«139021_j54202487276022_2_alg».proof.Proof.IReg6
import proofs.«139021_j54202487276022_2_alg».proof.Proof.IValSign
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz6 : (![0, 0] : Fin 2 → Nat) = fun _ => 0 := funext fun a => by fin_cases a <;> rfl

/-- The normalized, scaled and shifted pre-activation's sign at row p and column q, from the array z and the four
    rows, in the body's association. -/
def bnAt6 (Z : S8192x4096.Idx → EReal) (M Vr Gm Bt : S1x4096.Idx → EReal) (p : Fin 8192) (q : Fin 4096) : EReal :=
  sgnK (Gm (ix2 (0 : Fin 1) q) * (Z (ix2 p q) - M (ix2 (0 : Fin 1) q))
      * Ideal.rsqrt (Vr (ix2 (0 : Fin 1) q) + Ideal.ofBits .f32 0x3727C5AC#32) + Bt (ix2 (0 : Fin 1) q))

/-- What the output array ends holding: that value at every index's two coordinates. -/
def G6 (Z : S8192x4096.Idx → EReal) (M Vr Gm Bt : S1x4096.Idx → EReal) : S8192x4096.Idx → EReal :=
  fun i => bnAt6 Z M Vr Gm Bt (i 0) (i 1)

/-- The body's payload at row p and column q of the block, from the loaded blocks: each row operand is read at
    column q of its one row, the pre-activations at (p, q). -/
theorem pay6_apply (x0 : Vec Ideal S1024x1024 .f32) (x1 x2 x3 x4 : Vec Ideal S1x1024 .f32) (p : Fin 1024) (q : Fin 1024) :
    k6_pay1 x0 x1 x2 x3 x4 (ix2 p q)
      = sgnK (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) := by
  unfold k6_pay1
  simp only [shapeCast_self]
  refine (sign_payload_apply _ _ (ix2 p q)).trans (congrArg sgnK ?_)
  simp only [addf_apply, mulf_apply, subf_apply, broadcastTo_1b_ab_apply]
  rfl

/-- The six windows' block indices, decided over the grid: the pre-activations' block moves with the output's,
    each row operand's column block is the output's column block and its row block is zero. -/
theorem blk_facts6 : ∀ t : Fin cfg6.N, win6_0.index t (0 : Fin 2) = win6_5.index t (0 : Fin 2)
    ∧ win6_0.index t (1 : Fin 2) = win6_5.index t (1 : Fin 2)
    ∧ win6_1.index t (0 : Fin 2) = 0 ∧ win6_1.index t (1 : Fin 2) = win6_5.index t (1 : Fin 2)
    ∧ win6_2.index t (0 : Fin 2) = 0 ∧ win6_2.index t (1 : Fin 2) = win6_5.index t (1 : Fin 2)
    ∧ win6_3.index t (0 : Fin 2) = 0 ∧ win6_3.index t (1 : Fin 2) = win6_5.index t (1 : Fin 2)
    ∧ win6_4.index t (0 : Fin 2) = 0 ∧ win6_4.index t (1 : Fin 2) = win6_5.index t (1 : Fin 2)
    ∧ win6_5.index t (0 : Fin 2) < 8 ∧ win6_5.index t (1 : Fin 2) < 4 :=
  (by decide +kernel : ∀ t : Fin grid6.N, _)

/-- Every block of the output is some point's. -/
theorem blk_onto6 : ∀ (q0 : Fin 8) (q1 : Fin 4), ∃ t : Fin cfg6.N, win6_5.index t = ![q0.val, q1.val] :=
  (by decide +kernel : ∀ (q0 : Fin 8) (q1 : Fin 4), ∃ t : Fin grid6.N, win6_5.index t = ![q0.val, q1.val])

-- reading the six windows' blocks off the region's data unfolds each window's index map once
set_option maxHeartbeats 1000000 in
/-- What point t writes back is block t of G6 of the five input arrays as the region finds them. -/
theorem flushed6_5 (c : Dev nD) (t : Fin cfg6.N) :
    (dat6 V c).flushed 5 t = ((cfg6.win 5).blk t).view.read (Elt Ideal)
      (G6 (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz6]
  simp only [View.ld_unit_zero (S := S1024x1024) hz6, View.ld_unit_zero (S := S1x1024) hz6]
  obtain ⟨e00, e01, e10, e11, e20, e21, e30, e31, e40, e41, e50, e51⟩ := blk_facts6 t
  funext j
  obtain ⟨p, q, rfl⟩ : ∃ (p : Fin 1024) (q : Fin 1024), j = ix2 p q := ⟨j 0, j 1, eq_ix2 j⟩
  show k6_pay1 (fun y => V c (Pipeline.arrRef spec6 0) (((cfg6.win 0).blk t).view.emb y))
      (fun y => V c (Pipeline.arrRef spec6 1) (((cfg6.win 1).blk t).view.emb y))
      (fun y => V c (Pipeline.arrRef spec6 2) (((cfg6.win 2).blk t).view.emb y))
      (fun y => V c (Pipeline.arrRef spec6 3) (((cfg6.win 3).blk t).view.emb y))
      (fun y => V c (Pipeline.arrRef spec6 4) (((cfg6.win 4).blk t).view.emb y)) (ix2 p q)
    = bnAt6 (V c (Pipeline.arrRef spec6 0)) (V c (Pipeline.arrRef spec6 1)) (V c (Pipeline.arrRef spec6 2))
        (V c (Pipeline.arrRef spec6 3)) (V c (Pipeline.arrRef spec6 4))
        (((cfg6.win 5).blk t).view.emb (ix2 p q) 0) (((cfg6.win 5).blk t).view.emb (ix2 p q) 1)
  rw [pay6_apply]
  unfold bnAt6
  have h0 : ((cfg6.win 0).blk t).view.emb (ix2 p q)
      = ix2 (((cfg6.win 5).blk t).view.emb (ix2 p q) 0) (((cfg6.win 5).blk t).view.emb (ix2 p q) 1) := by
    funext a; apply Fin.ext
    match a with
    | ⟨0, _⟩ => show win6_0.index t (0 : Fin 2) * 1024 + 1 * p.val = win6_5.index t (0 : Fin 2) * 1024 + 1 * p.val; omega
    | ⟨1, _⟩ => show win6_0.index t (1 : Fin 2) * 1024 + 1 * q.val = win6_5.index t (1 : Fin 2) * 1024 + 1 * q.val; omega
  have h1 : ((cfg6.win 1).blk t).view.emb (ix2 (0 : Fin 1) q) = ix2 (0 : Fin 1) (((cfg6.win 5).blk t).view.emb (ix2 p q) 1) := by
    funext a; apply Fin.ext
    match a with
    | ⟨0, _⟩ => show win6_1.index t (0 : Fin 2) * 1 + 1 * 0 = 0; omega
    | ⟨1, _⟩ => show win6_1.index t (1 : Fin 2) * 1024 + 1 * q.val = win6_5.index t (1 : Fin 2) * 1024 + 1 * q.val; omega
  have h2 : ((cfg6.win 2).blk t).view.emb (ix2 (0 : Fin 1) q) = ix2 (0 : Fin 1) (((cfg6.win 5).blk t).view.emb (ix2 p q) 1) := by
    funext a; apply Fin.ext
    match a with
    | ⟨0, _⟩ => show win6_2.index t (0 : Fin 2) * 1 + 1 * 0 = 0; omega
    | ⟨1, _⟩ => show win6_2.index t (1 : Fin 2) * 1024 + 1 * q.val = win6_5.index t (1 : Fin 2) * 1024 + 1 * q.val; omega
  have h3 : ((cfg6.win 3).blk t).view.emb (ix2 (0 : Fin 1) q) = ix2 (0 : Fin 1) (((cfg6.win 5).blk t).view.emb (ix2 p q) 1) := by
    funext a; apply Fin.ext
    match a with
    | ⟨0, _⟩ => show win6_3.index t (0 : Fin 2) * 1 + 1 * 0 = 0; omega
    | ⟨1, _⟩ => show win6_3.index t (1 : Fin 2) * 1024 + 1 * q.val = win6_5.index t (1 : Fin 2) * 1024 + 1 * q.val; omega
  have h4 : ((cfg6.win 4).blk t).view.emb (ix2 (0 : Fin 1) q) = ix2 (0 : Fin 1) (((cfg6.win 5).blk t).view.emb (ix2 p q) 1) := by
    funext a; apply Fin.ext
    match a with
    | ⟨0, _⟩ => show win6_4.index t (0 : Fin 2) * 1 + 1 * 0 = 0; omega
    | ⟨1, _⟩ => show win6_4.index t (1 : Fin 2) * 1024 + 1 * q.val = win6_5.index t (1 : Fin 2) * 1024 + 1 * q.val; omega
  rw [h0, h1, h2, h3, h4]
  rfl

/-- An index of the output array is in point t's block iff each coordinate is in the block's range on its axis. -/
theorem mem_blk6 (t : Fin cfg6.N) (i : S8192x4096.Idx) :
    i ∈ ((cfg6.win 5).blk t).view.set ↔ ∀ a : Fin 2, win6_5.index t a * S1024x1024.size a ≤ (i a).val ∧ (i a).val < win6_5.index t a * S1024x1024.size a + S1024x1024.size a := by
  show i ∈ ((View.whole (Pipeline.arrRef spec6 5)).slice (win6_5.rect t)).set ↔ _
  rw [View.set_slice_whole, Rect.mem_set_unit]
  exact Iff.rfl

/-- Every index of the output array is in the block of the point whose row block and column block hold it. -/
theorem cover_all6 (i : S8192x4096.Idx) :
    ∃ t : Fin cfg6.N, (cfg6.win 5).flush t = true ∧ i ∈ ((cfg6.win 5).blk t).view.set := by
  have hi0 : (i 0).val < 8192 := (i 0).isLt
  have hi1 : (i 1).val < 4096 := (i 1).isLt
  obtain ⟨t, ht⟩ := blk_onto6 ⟨(i 0).val / 1024, by omega⟩ ⟨(i 1).val / 1024, by omega⟩
  have q0 : win6_5.index t (0 : Fin 2) = (i 0).val / 1024 := congrFun ht 0
  have q1 : win6_5.index t (1 : Fin 2) = (i 1).val / 1024 := congrFun ht 1
  refine ⟨t, flush6_5 t, ?_⟩
  rw [mem_blk6]
  intro a
  match a with
  | ⟨0, _⟩ => show win6_5.index t (0 : Fin 2) * 1024 ≤ (i 0).val ∧ (i 0).val < win6_5.index t (0 : Fin 2) * 1024 + 1024; omega
  | ⟨1, _⟩ => show win6_5.index t (1 : Fin 2) * 1024 ≤ (i 1).val ∧ (i 1).val < win6_5.index t (1 : Fin 2) * 1024 + 1024; omega

/-- The output array after the region: G6 of the five input arrays as the region finds them. -/
theorem arr6_5 (c : Dev nD) : (dat6 V c).arrAt 5 cfg6.N
    = G6 (V c (Pipeline.arrRef spec6 0)) (V c (Pipeline.arrRef spec6 1)) (V c (Pipeline.arrRef spec6 2))
        (V c (Pipeline.arrRef spec6 3)) (V c (Pipeline.arrRef spec6 4)) :=
  (dat6 V c).arrAt_eq_of_cover 5 _ (fun t _ => flushed6_5 V c t) cover_all6

/-- The same, entry by entry over the two coordinates: window 0 is the pre-activations, windows 1 to 4 the mean, the
    variance, the scale and the shift. -/
theorem arr6_5_apply (c : Dev nD) (p : Fin 8192) (q : Fin 4096) :
    (dat6 V c).arrAt 5 cfg6.N (ix2 p q)
      = bnAt6 (V c (Pipeline.arrRef spec6 0)) (V c (Pipeline.arrRef spec6 1)) (V c (Pipeline.arrRef spec6 2))
          (V c (Pipeline.arrRef spec6 3)) (V c (Pipeline.arrRef spec6 4)) p q :=
  congrFun (arr6_5 V c) (ix2 p q)

/-- The five input arrays are left as the region finds them. -/
theorem arr6_in (c : Dev nD) (w : Fin cfg6.W) (hw : (cfg6.win w).isOut = false) :
    (dat6 V c).arrAt w cfg6.N = V c (Pipeline.arrRef spec6 w) :=
  ((dat6 V c).arrAt_in w hw _).trans (A_eq6 V c w)

end Cert.KernelIdeal.Hand

end
-- ==== Proof.IVal7.lean ====
/- Region 7 (the second product with column statistics), read at the exact extended reals.
   The accumulator after the point with innermost coordinate k holds, at every entry of the current block of Z, the sum
   of the first 1024 (k + 1) products of the entry's row of the first input with the entry's row of the second
   (by induction on the point: at k = 0 it restarts from zero, otherwise one more block of 1024 products is added).
   At k = 3 the sum is complete and is written back as the block of Z, together with its column sums and the column
   sums of its squares as the two rows of the statistics block. The blocks written back at the sixteen points with
   k = 3 tile both output arrays. -/
import proofs.«139021_j54202487276022_2_alg».proof.Proof.IReg7
import proofs.«139021_j54202487276022_2_alg».proof.Proof.LibRowsDot
import proofs.«139021_j54202487276022_2_alg».proof.Proof.LibBlockSum
import proofs.«139021_j54202487276022_2_alg».proof.Proof.ColumnLaw
import proofs.«139021_j54202487276022_2_alg».proof.Proof.ProdAt
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx
open scoped BigOperators

theorem hz7 : (![0, 0] : Fin 2 → Nat) = fun _ => 0 := funext fun a => by fin_cases a <;> rfl

/-! ## What each case leaves, as payloads of its inputs (any float values) -/

section Pieces

variable {F : FTy → Type} [FloatOps F]

/-- k = 0: the accumulator is left at the zero block plus the product of the two input blocks. -/
theorem sout7_A_0_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond7_0 i) (hc1 : ¬cond7_1 i) (x0 : Vec F S2048x1024 .bf16) (x1 : Vec F S1024x1024 .bf16) :
    sout7_A_0 c i arg3 harg3 arg4 harg4 arg5 harg5 arg6 harg6 arg7 harg7 hc0 hc1 x0 x1 = k7_pay2 (k7_pay1 (F := F)) x0 x1 := by
  unfold sout7_A_0
  rw [View.read_writes_eq_canon _ _ _ (scover7_A_0 c i arg3 harg3 arg4 harg4 arg5 harg5 arg6 harg6 arg7 harg7 hc0 hc1 x0 x1)]
  unfold kernelRun7_A
  dsimp only
  sl_unfold_words
  rw [View.canon_cons_unit_zero (S := S2048x1024) hz7, View.readCov_unit_zero (S := S2048x1024) _ hz7]
  simp only [View.readAt_eq_ld, harg3.read_unread, harg4.read_unread, View.ld_unit_zero (S := S2048x1024) hz7, View.ld_unit_zero (S := S1024x1024) hz7]

/-- k = 1, 2: the accumulator is left at what it held plus the product of the two input blocks. -/
theorem sout7_B_0_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : ¬cond7_1 i) (x0 : Vec F S2048x1024 .bf16) (x1 : Vec F S1024x1024 .bf16) (xs0 : Vec F S2048x1024 .f32) :
    sout7_B_0 c i arg3 harg3 arg4 harg4 arg5 harg5 arg6 harg6 arg7 harg7 hc0 hc1 x0 x1 xs0 = k7_pay2 xs0 x0 x1 := by
  unfold sout7_B_0
  rw [View.read_writes_eq_canon _ _ _ (scover7_B_0 c i arg3 harg3 arg4 harg4 arg5 harg5 arg6 harg6 arg7 harg7 hc0 hc1 x0 x1 xs0)]
  unfold kernelRun7_B
  dsimp only
  (try sl_unfold_words)
  rw [View.canon_unit_zero hz7]
  simp only [View.readAt_eq_ld, harg3.read_unread, harg4.read_unread, harg7.read_unread, View.ld_unit_zero (S := S2048x1024) hz7, View.ld_unit_zero (S := S1024x1024) hz7]

/-- k = 3: the accumulator likewise; -/
theorem sout7_C_0_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i) (x0 : Vec F S2048x1024 .bf16) (x1 : Vec F S1024x1024 .bf16) (xs0 : Vec F S2048x1024 .f32) :
    sout7_C_0 c i arg3 harg3 arg4 harg4 arg5 harg5 arg6 harg6 arg7 harg7 hc0 hc1 x0 x1 xs0 = k7_pay2 xs0 x0 x1 := by
  unfold sout7_C_0
  rw [View.read_writes_eq_canon _ _ _ (scover7_C_0 c i arg3 harg3 arg4 harg4 arg5 harg5 arg6 harg6 arg7 harg7 hc0 hc1 x0 x1 xs0)]
  unfold kernelRun7_C
  dsimp only
  (try sl_unfold_words)
  rw [View.canon_unit_zero hz7]
  simp only [View.readAt_eq_ld, harg3.read_unread, harg4.read_unread, harg7.read_unread, View.ld_unit_zero (S := S2048x1024) hz7, View.ld_unit_zero (S := S1024x1024) hz7]

/-- the block of Z is the accumulator read back; -/
theorem out7_C_2_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i) (x0 : Vec F S2048x1024 .bf16) (x1 : Vec F S1024x1024 .bf16) (xs0 : Vec F S2048x1024 .f32) :
    out7_C_2 c i arg3 harg3 arg4 harg4 arg5 harg5 arg6 harg6 arg7 harg7 hc0 hc1 x0 x1 xs0 = k7_pay2 xs0 x0 x1 := by
  unfold out7_C_2
  rw [View.read_writes_eq_canon _ _ _ (cover7_C_2 c i arg3 harg3 arg4 harg4 arg5 harg5 arg6 harg6 arg7 harg7 hc0 hc1 x0 x1 xs0)]
  unfold kernelRun7_C
  dsimp only
  (try sl_unfold_words)
  rw [View.canon_unit_zero hz7, View.readCov_unit_zero (S := S2048x1024) _ hz7]
  simp only [View.readAt_eq_ld, harg3.read_unread, harg4.read_unread, harg7.read_unread, View.ld_unit_zero (S := S2048x1024) hz7, View.ld_unit_zero (S := S1024x1024) hz7]

/-- the statistics block is two rows, each a reduction of the accumulator read back. -/
theorem out7_C_3_eq (c : Dev nD) (i : grid7.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond7_0 i) (hc1 : cond7_1 i) (x0 : Vec F S2048x1024 .bf16) (x1 : Vec F S1024x1024 .bf16) (xs0 : Vec F S2048x1024 .f32) :
    out7_C_3 c i arg3 harg3 arg4 harg4 arg5 harg5 arg6 harg6 arg7 harg7 hc0 hc1 x0 x1 xs0
      = View.canon [(⟨Rect.unit (s := S1x2x1024) ![0, 1, 0] S1x1x1024.size inb_S1x2x1024_S1x1x1024_0_1_0, k7_pay4 (k7_pay2 xs0 x0 x1)⟩ : View.Piece (Elt F) S1x2x1024 .f32),
          ⟨Rect.unit (s := S1x2x1024) ![0, 0, 0] S1x1x1024.size inb_S1x2x1024_S1x1x1024_0_0_0, k7_pay3 (k7_pay2 xs0 x0 x1)⟩] := by
  unfold out7_C_3
  rw [View.read_writes_eq_canon _ _ _ (cover7_C_3 c i arg3 harg3 arg4 harg4 arg5 harg5 arg6 harg6 arg7 harg7 hc0 hc1 x0 x1 xs0)]
  unfold kernelRun7_C
  dsimp only
  (try sl_unfold_words)
  rw [View.readCov_unit_zero (S := S2048x1024) _ hz7]
  simp only [View.readAt_eq_ld, harg3.read_unread, harg4.read_unread, harg7.read_unread, View.ld_unit_zero (S := S2048x1024) hz7, View.ld_unit_zero (S := S1024x1024) hz7]

end Pieces

/-! ## Reading two stacked row stores -/

section Rows

variable {Val : EltTy → Type} [∀ e, Nonempty (Val e)] {e : EltTy}

theorem emb7_row1 (cc : Fin 1024) : (Rect.unit (s := S1x2x1024) ![0, 1, 0] S1x1x1024.size inb_S1x2x1024_S1x1x1024_0_1_0).emb (ix3 (0 : Fin 1) (0 : Fin 1) cc) = ix3 (0 : Fin 1) (1 : Fin 2) cc := by
  funext a; apply Fin.ext
  match a with
  | ⟨0, _⟩ => rfl
  | ⟨1, _⟩ => rfl
  | ⟨2, _⟩ => show 0 + 1 * cc.val = cc.val; omega
theorem emb7_row0 (cc : Fin 1024) : (Rect.unit (s := S1x2x1024) ![0, 0, 0] S1x1x1024.size inb_S1x2x1024_S1x1x1024_0_0_0).emb (ix3 (0 : Fin 1) (0 : Fin 1) cc) = ix3 (0 : Fin 1) (0 : Fin 2) cc := by
  funext a; apply Fin.ext
  match a with
  | ⟨0, _⟩ => rfl
  | ⟨1, _⟩ => rfl
  | ⟨2, _⟩ => show 0 + 1 * cc.val = cc.val; omega

/-- Row 1 of the two stacked rows is the last store's payload. -/
theorem canon7_row1 (p3 p4 : S1x1x1024.Idx → Val e) (cc : Fin 1024) :
    View.canon [(⟨Rect.unit (s := S1x2x1024) ![0, 1, 0] S1x1x1024.size inb_S1x2x1024_S1x1x1024_0_1_0, p4⟩ : View.Piece Val S1x2x1024 e), ⟨Rect.unit (s := S1x2x1024) ![0, 0, 0] S1x1x1024.size inb_S1x2x1024_S1x1x1024_0_0_0, p3⟩] (ix3 (0 : Fin 1) (1 : Fin 2) cc) = p4 (ix3 (0 : Fin 1) (0 : Fin 1) cc) := by
  rw [← emb7_row1 cc]; exact View.canon_cons_emb (Rect.unit (s := S1x2x1024) ![0, 1, 0] S1x1x1024.size inb_S1x2x1024_S1x1x1024_0_1_0) p4 _ (ix3 (0 : Fin 1) (0 : Fin 1) cc)

/-- Row 0 is the first store's payload: the last store does not reach it. -/
theorem canon7_row0 (p3 p4 : S1x1x1024.Idx → Val e) (cc : Fin 1024) :
    View.canon [(⟨Rect.unit (s := S1x2x1024) ![0, 1, 0] S1x1x1024.size inb_S1x2x1024_S1x1x1024_0_1_0, p4⟩ : View.Piece Val S1x2x1024 e), ⟨Rect.unit (s := S1x2x1024) ![0, 0, 0] S1x1x1024.size inb_S1x2x1024_S1x1x1024_0_0_0, p3⟩] (ix3 (0 : Fin 1) (0 : Fin 2) cc) = p3 (ix3 (0 : Fin 1) (0 : Fin 1) cc) := by
  rw [View.canon_cons_of_not_mem]
  · rw [← emb7_row0 cc]; exact View.canon_cons_emb (Rect.unit (s := S1x2x1024) ![0, 0, 0] S1x1x1024.size inb_S1x2x1024_S1x1x1024_0_0_0) p3 [] (ix3 (0 : Fin 1) (0 : Fin 1) cc)
  · rw [Rect.mem_set_unit]
    intro h
    have := h (1 : Fin 3)
    revert this
    show ¬ ((1 : Nat) ≤ 0 ∧ _)
    omega

end Rows

/-! ## The payloads at an entry, over the extended reals -/

theorem reads7 : Cert.Lib.RowsDot.Reads (R := 2048) (K := 1024) (C := 1024) dot_S2048x1024_S1024x1024_S2048x1024_1_1_0_0_n_n :=
  ⟨rfl, rfl, fun _ _ => rfl, fun _ _ => rfl, fun _ _ => rfl, fun _ _ => rfl⟩

/-- The zero block. -/
theorem pay7_1_apply (j : S2048x1024.Idx) : k7_pay1 (F := Ideal) j = 0 := by
  unfold k7_pay1
  simp only [shapeCast_self]
  exact Ideal.ofBits_zero_f32

/-- The accumulator's update at an entry: what it held plus the 1024 products of the two blocks' rows. -/
theorem pay7_2_apply (xs : Vec Ideal S2048x1024 .f32) (x0 : Vec Ideal S2048x1024 .bf16) (x1 : Vec Ideal S1024x1024 .bf16) (r : Fin 2048) (cc : Fin 1024) :
    k7_pay2 (F := Ideal) xs x0 x1 (ix2 r cc) = xs (ix2 r cc) + ∑ q : Fin 1024, x0 (ix2 r q) * x1 (ix2 cc q) := by
  unfold k7_pay2
  simp only [shapeCast_self]
  exact congrArg (xs (ix2 r cc) + ·) (Cert.Lib.RowsDot.matmul_zero_apply reads7 none x0 x1 r cc)

/-- A column sum of a block, stored as a row. -/
theorem red7_apply (z : FVec Ideal S2048x1024 .f32) (cc : Fin 1024) :
    shapeCast S1x1x1024 (shapeCast S1x1024 (multiReduction .add [0] S1024 z 0x00000000#32 reduces_S2048x1024_S1024 (.inl rfl) rfl) shapeCasts_S1024_S1x1024) shapeCasts_S1x1024_S1x1x1024 (ix3 (0 : Fin 1) (0 : Fin 1) cc)
      = ∑ r : Fin 2048, z (ix2 r cc) := by
  refine (shapeCast_addUnit_apply ![1, 1024] _ _ _).trans ?_
  refine (shapeCast_addUnit_apply ![1024] _ _ _).trans ?_
  refine (Ideal.multiReduction_add_single z _ reduces_S2048x1024_S1024 (.inl rfl) rfl _).trans ?_
  refine Finset.sum_congr rfl fun r _ => congrArg z ?_
  funext a; apply Fin.ext
  match a with
  | ⟨0, _⟩ => rfl
  | ⟨1, _⟩ => rfl

theorem pay7_3_apply (z : Vec Ideal S2048x1024 .f32) (cc : Fin 1024) :
    k7_pay3 (F := Ideal) z (ix3 (0 : Fin 1) (0 : Fin 1) cc) = ∑ r : Fin 2048, z (ix2 r cc) := by
  unfold k7_pay3
  exact red7_apply z cc

theorem pay7_4_apply (z : Vec Ideal S2048x1024 .f32) (cc : Fin 1024) :
    k7_pay4 (F := Ideal) z (ix3 (0 : Fin 1) (0 : Fin 1) cc) = ∑ r : Fin 2048, z (ix2 r cc) * z (ix2 r cc) := by
  unfold k7_pay4
  exact (red7_apply (mulf z z) cc).trans (Finset.sum_congr rfl fun r _ => rfl)

/-! ## The windows' block indices over the grid -/

/-- Point t = 16 i + 4 j + k: the first input's block is (i, k), the second's (j, k), the block of Z (i, j), the
    statistics block (i, 0, j). -/
theorem idx_facts7 : ∀ t : Fin cfg7.N,
    win7_0.index t (0 : Fin 2) = t.val / 16 ∧ win7_0.index t (1 : Fin 2) = t.val % 4
    ∧ win7_1.index t (0 : Fin 2) = (t.val / 4) % 4 ∧ win7_1.index t (1 : Fin 2) = t.val % 4
    ∧ win7_2.index t (0 : Fin 2) = t.val / 16 ∧ win7_2.index t (1 : Fin 2) = (t.val / 4) % 4
    ∧ win7_3.index t (0 : Fin 3) = t.val / 16 ∧ win7_3.index t (1 : Fin 3) = 0 ∧ win7_3.index t (2 : Fin 3) = (t.val / 4) % 4 :=
  (by decide +kernel : ∀ t : Fin grid7.N, _)

/-- Every block of Z is written back by some point, -/
theorem blk_onto7_2 : ∀ (q0 : Fin 4) (q1 : Fin 4), ∃ t : Fin cfg7.N, (cfg7.win 2).flush t = true ∧ win7_2.index t = ![q0.val, q1.val] :=
  (by decide +kernel : ∀ (q0 : Fin 4) (q1 : Fin 4), ∃ t : Fin grid7.N, win7_2.flush t = true ∧ win7_2.index t = ![q0.val, q1.val])
/-- and every statistics block. -/
theorem blk_onto7_3 : ∀ (q0 : Fin 4) (q2 : Fin 4), ∃ t : Fin cfg7.N, (cfg7.win 3).flush t = true ∧ win7_3.index t = ![q0.val, 0, q2.val] :=
  (by decide +kernel : ∀ (q0 : Fin 4) (q2 : Fin 4), ∃ t : Fin grid7.N, win7_3.flush t = true ∧ win7_3.index t = ![q0.val, 0, q2.val])

-- the TensorCore's buffer contents when the region is entered
variable (V : (c : Dev nD) → (b : Ref sig .tc) → Buf (Elt Ideal) ((c : Thread nD τ).loc b))

/-! ## The input blocks at an entry -/

theorem iblk7_0_apply (c : Dev nD) (t : Fin cfg7.N) (r : Fin 2048) (q : Fin 1024) (p : Fin 8192) (k : Fin 4096)
    (hp : p.val = (t.val / 16) * 2048 + r.val) (hk : k.val = (t.val % 4) * 1024 + q.val) :
    iblk7 V c 0 t (ix2 r q) = V c (Pipeline.arrRef spec7 0) (ix2 p k) := by
  obtain ⟨e0, e1, -⟩ := idx_facts7 t
  unfold iblk7
  rw [View.read_apply]
  refine congrArg (V c (Pipeline.arrRef spec7 0)) ?_
  funext a; apply Fin.ext
  match a with
  | ⟨0, _⟩ => show win7_0.index t (0 : Fin 2) * 2048 + 1 * r.val = p.val; omega
  | ⟨1, _⟩ => show win7_0.index t (1 : Fin 2) * 1024 + 1 * q.val = k.val; omega

theorem iblk7_1_apply (c : Dev nD) (t : Fin cfg7.N) (cc : Fin 1024) (q : Fin 1024) (p : Fin 4096) (k : Fin 4096)
    (hp : p.val = ((t.val / 4) % 4) * 1024 + cc.val) (hk : k.val = (t.val % 4) * 1024 + q.val) :
    iblk7 V c 1 t (ix2 cc q) = V c (Pipeline.arrRef spec7 1) (ix2 p k) := by
  obtain ⟨-, -, e0, e1, -⟩ := idx_facts7 t
  unfold iblk7
  rw [View.read_apply]
  refine congrArg (V c (Pipeline.arrRef spec7 1)) ?_
  funext a; apply Fin.ext
  match a with
  | ⟨0, _⟩ => show win7_1.index t (0 : Fin 2) * 1024 + 1 * cc.val = p.val; omega
  | ⟨1, _⟩ => show win7_1.index t (1 : Fin 2) * 1024 + 1 * q.val = k.val; omega

/-! ## The accumulator's invariant -/

/-- The k-th product of entry (p, q), zero past the 4096 products. -/
def term7 (A : S8192x4096.Idx → EReal) (W : S4096x4096.Idx → EReal) (p : Fin 8192) (q : Fin 4096) : ℕ → EReal :=
  Cert.Lib.BlockSum.zeroExt (fun k : Fin 4096 => A (ix2 p k) * W (ix2 q k))

/-- One update: from the first 1024 k products to the first 1024 (k + 1). -/
theorem step7 (c : Dev nD) (t : Fin cfg7.N) (xs : Vec Ideal S2048x1024 .f32) (r : Fin 2048) (cc : Fin 1024) (p : Fin 8192) (q : Fin 4096)
    (hp : p.val = (t.val / 16) * 2048 + r.val) (hq : q.val = ((t.val / 4) % 4) * 1024 + cc.val)
    (hxs : xs (ix2 r cc) = ∑ j ∈ Finset.range ((t.val % 4) * 1024), term7 (V c (Pipeline.arrRef spec7 0)) (V c (Pipeline.arrRef spec7 1)) p q j) :
    k7_pay2 (F := Ideal) xs (iblk7 V c 0 t) (iblk7 V c 1 t) (ix2 r cc)
      = ∑ j ∈ Finset.range ((t.val % 4 + 1) * 1024), term7 (V c (Pipeline.arrRef spec7 0)) (V c (Pipeline.arrRef spec7 1)) p q j := by
  rw [pay7_2_apply, hxs, show (t.val % 4 + 1) * 1024 = (t.val % 4) * 1024 + 1024 from by omega, Finset.sum_range_add]
  refine congrArg (_ + ·) ?_
  rw [Finset.sum_range]
  refine Finset.sum_congr rfl fun j _ => ?_
  have hj : (t.val % 4) * 1024 + j.val < 4096 := by have := j.isLt; omega
  unfold term7
  rw [Cert.Lib.BlockSum.zeroExt_of_lt _ _ hj,
    iblk7_0_apply V c t r j p ⟨(t.val % 4) * 1024 + j.val, hj⟩ hp rfl,
    iblk7_1_apply V c t cc j q ⟨(t.val % 4) * 1024 + j.val, hj⟩ hq rfl]

/-- After point n the accumulator holds, at entry (r, cc) of the current block, the first 1024 (n mod 4 + 1) products of
    the entry's row of the first input with the entry's row of the second. -/
theorem acc7_eq (c : Dev nD) : ∀ (n : ℕ) (h : n < cfg7.N) (r : Fin 2048) (cc : Fin 1024) (p : Fin 8192) (q : Fin 4096),
    p.val = (n / 16) * 2048 + r.val → q.val = ((n / 4) % 4) * 1024 + cc.val →
    (outsAt7 V c n h).2.2 (ix2 r cc) = ∑ j ∈ Finset.range ((n % 4 + 1) * 1024), term7 (V c (Pipeline.arrRef spec7 0)) (V c (Pipeline.arrRef spec7 1)) p q j
  | 0, h, r, cc, p, q, hp, hq => by
    rw [outsAt7_A V c ⟨0, h⟩ rfl (by show ¬ (0 % 4 = 3); decide)]
    dsimp only
    rw [sout7_A_0_eq]
    exact step7 V c ⟨0, h⟩ _ r cc p q hp hq (by rw [pay7_1_apply]; simp)
  | n + 1, h, r, cc, p, q, hp, hq => by
    have hN : n + 1 < 64 := lt_of_lt_of_eq h N_7
    by_cases h0 : (n + 1) % 4 = 0
    · rw [outsAt7_A V c ⟨n + 1, h⟩ h0 (by dsimp only; omega)]
      dsimp only
      rw [sout7_A_0_eq]
      exact step7 V c ⟨n + 1, h⟩ _ r cc p q hp hq (by
        rw [pay7_1_apply, show (⟨n + 1, h⟩ : Fin cfg7.N).val % 4 = 0 from h0]; simp)
    · have ih := acc7_eq c n (Nat.lt_of_succ_lt h) r cc p q (by omega) (by omega)
      rw [show (n % 4 + 1) * 1024 = ((n + 1) % 4) * 1024 from by omega] at ih
      by_cases h1 : (n + 1) % 4 = 3
      · rw [outsAt7_C V c ⟨n + 1, h⟩ h0 h1]
        dsimp only
        rw [sout7_C_0_eq]
        exact step7 V c ⟨n + 1, h⟩ _ r cc p q hp hq ih
      · rw [outsAt7_B V c ⟨n + 1, h⟩ h0 h1]
        dsimp only
        rw [sout7_B_0_eq]
        exact step7 V c ⟨n + 1, h⟩ _ r cc p q hp hq ih

/-! ## The product array -/

/-- Entry (i, j) of Z: the 4096 products of row i of the first input with row j of the second, added. -/
def Z7 (A : S8192x4096.Idx → EReal) (W : S4096x4096.Idx → EReal) : S8192x4096.Idx → EReal :=
  fun i => dotAt (R := 8192) (C := 4096) (K := 4096) A W (i 0) (i 1)

/-- At a point with k = 3 the block of Z and the accumulator hold the same. -/
theorem zblk7_eq_acc (c : Dev nD) (t : Fin cfg7.N) (h3 : t.val % 4 = 3) :
    (outsAt7 V c t.val t.isLt).1 = (outsAt7 V c t.val t.isLt).2.2 := by
  rw [outsAt7_C V c t (by omega) h3]
  dsimp only
  rw [out7_C_2_eq, sout7_C_0_eq]

/-- There the sum is complete. -/
theorem zblk7_apply (c : Dev nD) (t : Fin cfg7.N) (h3 : t.val % 4 = 3) (r : Fin 2048) (cc : Fin 1024) (p : Fin 8192) (q : Fin 4096)
    (hp : p.val = (t.val / 16) * 2048 + r.val) (hq : q.val = ((t.val / 4) % 4) * 1024 + cc.val) :
    (outsAt7 V c t.val t.isLt).1 (ix2 r cc) = dotAt (R := 8192) (C := 4096) (K := 4096) (V c (Pipeline.arrRef spec7 0)) (V c (Pipeline.arrRef spec7 1)) p q := by
  rw [zblk7_eq_acc V c t h3, acc7_eq V c t.val t.isLt r cc p q hp hq, h3]
  unfold dotAt term7
  exact (Cert.Lib.BlockSum.sum_fin_eq_sum_range _).symm

/-- What a point with k = 3 writes back is its block of Z. -/
theorem flushed7_2 (c : Dev nD) (t : Fin cfg7.N) (hf : (cfg7.win 2).flush t = true) :
    (dat7 V c).flushed 2 t = ((cfg7.win 2).blk t).view.read (Elt Ideal) (Z7 (V c (Pipeline.arrRef spec7 0)) (V c (Pipeline.arrRef spec7 1))) := by
  have h3 := (flush7_2 t).mp hf
  obtain ⟨-, -, -, -, e0, e1, -⟩ := idx_facts7 t
  show (cfg7.win 2).cut (grid7.coords t) ((dat7 V c).after 2 t) = _
  rw [after7_2]
  funext j
  obtain ⟨r, cc, rfl⟩ : ∃ (r : Fin 2048) (cc : Fin 1024), j = ix2 r cc := ⟨j 0, j 1, eq_ix2 (n0 := 2048) (n1 := 1024) j⟩
  show (outsAt7 V c t.val t.isLt).1 (ix2 r cc)
    = dotAt (R := 8192) (C := 4096) (K := 4096) (V c (Pipeline.arrRef spec7 0)) (V c (Pipeline.arrRef spec7 1)) ((((cfg7.win 2).blk t).view.emb (ix2 r cc)) 0) ((((cfg7.win 2).blk t).view.emb (ix2 r cc)) 1)
  exact zblk7_apply V c t h3 r cc _ _
    (show win7_2.index t (0 : Fin 2) * 2048 + 1 * r.val = _ from by omega)
    (show win7_2.index t (1 : Fin 2) * 1024 + 1 * cc.val = _ from by omega)

theorem mem_blk7_2 (t : Fin cfg7.N) (i : S8192x4096.Idx) :
    i ∈ ((cfg7.win 2).blk t).view.set ↔ ∀ a : Fin 2, win7_2.index t a * S2048x1024.size a ≤ (i a).val ∧ (i a).val < win7_2.index t a * S2048x1024.size a + S2048x1024.size a := by
  show i ∈ ((View.whole (Pipeline.arrRef spec7 2)).slice (win7_2.rect t)).set ↔ _
  rw [View.set_slice_whole, Rect.mem_set_unit]
  exact Iff.rfl

theorem cover_all7_2 (i : S8192x4096.Idx) :
    ∃ t : Fin cfg7.N, (cfg7.win 2).flush t = true ∧ i ∈ ((cfg7.win 2).blk t).view.set := by
  have hi0 : (i 0).val < 8192 := (i 0).isLt
  have hi1 : (i 1).val < 4096 := (i 1).isLt
  obtain ⟨t, hf, ht⟩ := blk_onto7_2 ⟨(i 0).val / 2048, by omega⟩ ⟨(i 1).val / 1024, by omega⟩
  have q0 : win7_2.index t (0 : Fin 2) = (i 0).val / 2048 := congrFun ht 0
  have q1 : win7_2.index t (1 : Fin 2) = (i 1).val / 1024 := congrFun ht 1
  refine ⟨t, hf, ?_⟩
  rw [mem_blk7_2]
  intro a
  match a with
  | ⟨0, _⟩ => show win7_2.index t (0 : Fin 2) * 2048 ≤ (i 0).val ∧ (i 0).val < win7_2.index t (0 : Fin 2) * 2048 + 2048; omega
  | ⟨1, _⟩ => show win7_2.index t (1 : Fin 2) * 1024 ≤ (i 1).val ∧ (i 1).val < win7_2.index t (1 : Fin 2) * 1024 + 1024; omega

/-- The product array after the region. -/
theorem arr7_2 (c : Dev nD) : (dat7 V c).arrAt 2 cfg7.N = Z7 (V c (Pipeline.arrRef spec7 0)) (V c (Pipeline.arrRef spec7 1)) :=
  (dat7 V c).arrAt_eq_of_cover 2 (Z7 (V c (Pipeline.arrRef spec7 0)) (V c (Pipeline.arrRef spec7 1))) (fun t hf => flushed7_2 V c t hf) cover_all7_2

/-- The same, entry by entry. -/
theorem arr7_2_apply (c : Dev nD) (i : Fin 8192) (j : Fin 4096) :
    (dat7 V c).arrAt 2 cfg7.N (ix2 i j) = dotAt (R := 8192) (C := 4096) (K := 4096) (V c (Pipeline.arrRef spec7 0)) (V c (Pipeline.arrRef spec7 1)) i j :=
  congrFun (arr7_2 V c) (ix2 i j)

/-! ## The statistics array -/

/-- Per block of 2048 rows and column: the column sum of Z over the block (row 0) and of its squares (row 1). -/
def St7 (Z : S8192x4096.Idx → EReal) : S4x2x4096.Idx → EReal :=
  fun i => if (i 1).val = 0 then colSum Z (i 0) (i 2) else colSq Z (i 0) (i 2)

/-- At a point with k = 3 the statistics block holds the two reductions of the accumulator. -/
theorem sblk7_eq (c : Dev nD) (t : Fin cfg7.N) (h3 : t.val % 4 = 3) :
    (outsAt7 V c t.val t.isLt).2.1
      = View.canon [(⟨Rect.unit (s := S1x2x1024) ![0, 1, 0] S1x1x1024.size inb_S1x2x1024_S1x1x1024_0_1_0, k7_pay4 (F := Ideal) (outsAt7 V c t.val t.isLt).2.2⟩ : View.Piece (Elt Ideal) S1x2x1024 .f32),
          ⟨Rect.unit (s := S1x2x1024) ![0, 0, 0] S1x1x1024.size inb_S1x2x1024_S1x1x1024_0_0_0, k7_pay3 (F := Ideal) (outsAt7 V c t.val t.isLt).2.2⟩] := by
  rw [outsAt7_C V c t (by omega) h3]
  dsimp only
  rw [out7_C_3_eq, sout7_C_0_eq]

/-- What a point with k = 3 writes back is its statistics block. -/
theorem flushed7_3 (c : Dev nD) (t : Fin cfg7.N) (hf : (cfg7.win 3).flush t = true) :
    (dat7 V c).flushed 3 t = ((cfg7.win 3).blk t).view.read (Elt Ideal) (St7 (Z7 (V c (Pipeline.arrRef spec7 0)) (V c (Pipeline.arrRef spec7 1)))) := by
  have h3 := (flush7_3 t).mp hf
  obtain ⟨-, -, -, -, -, -, e0, e1, e2⟩ := idx_facts7 t
  show (cfg7.win 3).cut (grid7.coords t) ((dat7 V c).after 3 t) = _
  rw [after7_3, sblk7_eq V c t h3]
  funext j
  obtain ⟨u, s, cc, rfl⟩ : ∃ (u : Fin 1) (s : Fin 2) (cc : Fin 1024), j = ix3 u s cc := ⟨j 0, j 1, j 2, eq_ix3 (n0 := 1) (n1 := 2) (n2 := 1024) j⟩
  obtain rfl : u = 0 := Subsingleton.elim _ _
  have hib : t.val / 16 < 4 := by have := t.isLt; have : cfg7.N = 64 := N_7; omega
  have hqq : ((t.val / 4) % 4) * 1024 + cc.val < 4096 := by have := cc.isLt; omega
  have hcol : ∀ r : Fin 2048, (outsAt7 V c t.val t.isLt).2.2 (ix2 r cc)
      = Z7 (V c (Pipeline.arrRef spec7 0)) (V c (Pipeline.arrRef spec7 1)) (ix2 (Cert.ColumnLaw.blk ⟨t.val / 16, hib⟩ r) ⟨((t.val / 4) % 4) * 1024 + cc.val, hqq⟩) := fun r =>
    (congrFun (zblk7_eq_acc V c t h3) (ix2 r cc)).symm.trans
      (zblk7_apply V c t h3 r cc (Cert.ColumnLaw.blk ⟨t.val / 16, hib⟩ r) ⟨((t.val / 4) % 4) * 1024 + cc.val, hqq⟩ rfl rfl)
  have hidx : ((cfg7.win 3).blk t).view.emb (ix3 (0 : Fin 1) s cc)
      = ix3 (⟨t.val / 16, hib⟩ : Fin 4) s (⟨((t.val / 4) % 4) * 1024 + cc.val, hqq⟩ : Fin 4096) := by
    funext a; apply Fin.ext
    match a with
    | ⟨0, _⟩ => show win7_3.index t (0 : Fin 3) * 1 + 1 * 0 = t.val / 16; omega
    | ⟨1, _⟩ => show win7_3.index t (1 : Fin 3) * 2 + 1 * s.val = s.val; omega
    | ⟨2, _⟩ => show win7_3.index t (2 : Fin 3) * 1024 + 1 * cc.val = ((t.val / 4) % 4) * 1024 + cc.val; omega
  show _ = St7 (Z7 (V c (Pipeline.arrRef spec7 0)) (V c (Pipeline.arrRef spec7 1))) (((cfg7.win 3).blk t).view.emb (ix3 (0 : Fin 1) s cc))
  rw [hidx]
  match s with
  | ⟨0, _⟩ =>
    refine (canon7_row0 _ _ cc).trans ((pay7_3_apply _ cc).trans ?_)
    unfold St7
    rw [if_pos rfl]
    unfold colSum
    exact Finset.sum_congr rfl fun r _ => hcol r
  | ⟨1, _⟩ =>
    refine (canon7_row1 _ _ cc).trans ((pay7_4_apply _ cc).trans ?_)
    unfold St7
    rw [if_neg (show ¬ ((1 : ℕ) = 0) by decide)]
    unfold colSq
    exact Finset.sum_congr rfl fun r _ => by rw [hcol r]

theorem mem_blk7_3 (t : Fin cfg7.N) (i : S4x2x4096.Idx) :
    i ∈ ((cfg7.win 3).blk t).view.set ↔ ∀ a : Fin 3, win7_3.index t a * S1x2x1024.size a ≤ (i a).val ∧ (i a).val < win7_3.index t a * S1x2x1024.size a + S1x2x1024.size a := by
  show i ∈ ((View.whole (Pipeline.arrRef spec7 3)).slice (win7_3.rect t)).set ↔ _
  rw [View.set_slice_whole, Rect.mem_set_unit]
  exact Iff.rfl

theorem cover_all7_3 (i : S4x2x4096.Idx) :
    ∃ t : Fin cfg7.N, (cfg7.win 3).flush t = true ∧ i ∈ ((cfg7.win 3).blk t).view.set := by
  have hi0 : (i 0).val < 4 := (i 0).isLt
  have hi1 : (i 1).val < 2 := (i 1).isLt
  have hi2 : (i 2).val < 4096 := (i 2).isLt
  obtain ⟨t, hf, ht⟩ := blk_onto7_3 ⟨(i 0).val, hi0⟩ ⟨(i 2).val / 1024, by omega⟩
  have q0 : win7_3.index t (0 : Fin 3) = (i 0).val := congrFun ht 0
  have q1 : win7_3.index t (1 : Fin 3) = 0 := congrFun ht 1
  have q2 : win7_3.index t (2 : Fin 3) = (i 2).val / 1024 := congrFun ht 2
  refine ⟨t, hf, ?_⟩
  rw [mem_blk7_3]
  intro a
  match a with
  | ⟨0, _⟩ => show win7_3.index t (0 : Fin 3) * 1 ≤ (i 0).val ∧ (i 0).val < win7_3.index t (0 : Fin 3) * 1 + 1; omega
  | ⟨1, _⟩ => show win7_3.index t (1 : Fin 3) * 2 ≤ (i 1).val ∧ (i 1).val < win7_3.index t (1 : Fin 3) * 2 + 2; omega
  | ⟨2, _⟩ => show win7_3.index t (2 : Fin 3) * 1024 ≤ (i 2).val ∧ (i 2).val < win7_3.index t (2 : Fin 3) * 1024 + 1024; omega

/-- The statistics array after the region, through the product array. -/
theorem arr7_3 (c : Dev nD) : (dat7 V c).arrAt 3 cfg7.N = St7 ((dat7 V c).arrAt 2 cfg7.N) := by
  rw [arr7_2]
  exact (dat7 V c).arrAt_eq_of_cover 3 (St7 (Z7 (V c (Pipeline.arrRef spec7 0)) (V c (Pipeline.arrRef spec7 1)))) (fun t hf => flushed7_3 V c t hf) cover_all7_3

/-- Row 0: per block of 2048 rows, the column sums of Z. -/
theorem arr7_3_apply0 (c : Dev nD) (ib : Fin 4) (j : Fin 4096) :
    (dat7 V c).arrAt 3 cfg7.N (ix3 ib (0 : Fin 2) j) = colSum ((dat7 V c).arrAt 2 cfg7.N) ib j := by
  rw [arr7_3]; unfold St7; exact if_pos rfl

/-- Row 1: per block of 2048 rows, the column sums of the squares of Z. -/
theorem arr7_3_apply1 (c : Dev nD) (ib : Fin 4) (j : Fin 4096) :
    (dat7 V c).arrAt 3 cfg7.N (ix3 ib (1 : Fin 2) j) = colSq ((dat7 V c).arrAt 2 cfg7.N) ib j := by
  rw [arr7_3]; unfold St7; exact if_neg (show ¬ ((1 : ℕ) = 0) by decide)

/-- The two input arrays are left as the region finds them. -/
theorem arr7_in (c : Dev nD) (w : Fin cfg7.W) (hw : (cfg7.win w).isOut = false) :
    (dat7 V c).arrAt w cfg7.N = V c (Pipeline.arrRef spec7 w) :=
  ((dat7 V c).arrAt_in w hw _).trans (A_eq7 V c w)

end Cert.KernelIdeal.Hand

end
-- ==== Proof.IVal8.lean ====
/- Region 8 of @main (one of the three normalize-and-sign kernels), read at the exact extended reals: after the
   region the output array holds, at row p and column q, the sign of
     scale q * (z p q - mean q) * rsqrt (variance q + eps) + shift q,
   in the body's own association, where z is the 8192x4096 array of pre-activations and mean, variance, scale and
   shift are the four 1x4096 rows the region reads. Each grid point writes back one 1024x1024 block of the output,
   computed from the same block of z and the same column block of the four rows, and the blocks of the 8x4 grid
   points fill the array. -/
import proofs.«139021_j54202487276022_2_alg».proof.Proof.IReg8
import proofs.«139021_j54202487276022_2_alg».proof.Proof.IValSign
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz8 : (![0, 0] : Fin 2 → Nat) = fun _ => 0 := funext fun a => by fin_cases a <;> rfl

/-- The normalized, scaled and shifted pre-activation's sign at row p and column q, from the array z and the four
    rows, in the body's association. -/
def bnAt8 (Z : S8192x4096.Idx → EReal) (M Vr Gm Bt : S1x4096.Idx → EReal) (p : Fin 8192) (q : Fin 4096) : EReal :=
  sgnK (Gm (ix2 (0 : Fin 1) q) * (Z (ix2 p q) - M (ix2 (0 : Fin 1) q))
      * Ideal.rsqrt (Vr (ix2 (0 : Fin 1) q) + Ideal.ofBits .f32 0x3727C5AC#32) + Bt (ix2 (0 : Fin 1) q))

/-- What the output array ends holding: that value at every index's two coordinates. -/
def G8 (Z : S8192x4096.Idx → EReal) (M Vr Gm Bt : S1x4096.Idx → EReal) : S8192x4096.Idx → EReal :=
  fun i => bnAt8 Z M Vr Gm Bt (i 0) (i 1)

/-- The body's payload at row p and column q of the block, from the loaded blocks: each row operand is read at
    column q of its one row, the pre-activations at (p, q). -/
theorem pay8_apply (x0 : Vec Ideal S1024x1024 .f32) (x1 x2 x3 x4 : Vec Ideal S1x1024 .f32) (p : Fin 1024) (q : Fin 1024) :
    k8_pay1 x0 x1 x2 x3 x4 (ix2 p q)
      = sgnK (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) := by
  unfold k8_pay1
  simp only [shapeCast_self]
  refine (sign_payload_apply _ _ (ix2 p q)).trans (congrArg sgnK ?_)
  simp only [addf_apply, mulf_apply, subf_apply, broadcastTo_1b_ab_apply]
  rfl

/-- The six windows' block indices, decided over the grid: the pre-activations' block moves with the output's,
    each row operand's column block is the output's column block and its row block is zero. -/
theorem blk_facts8 : ∀ t : Fin cfg8.N, win8_0.index t (0 : Fin 2) = win8_5.index t (0 : Fin 2)
    ∧ win8_0.index t (1 : Fin 2) = win8_5.index t (1 : Fin 2)
    ∧ win8_1.index t (0 : Fin 2) = 0 ∧ win8_1.index t (1 : Fin 2) = win8_5.index t (1 : Fin 2)
    ∧ win8_2.index t (0 : Fin 2) = 0 ∧ win8_2.index t (1 : Fin 2) = win8_5.index t (1 : Fin 2)
    ∧ win8_3.index t (0 : Fin 2) = 0 ∧ win8_3.index t (1 : Fin 2) = win8_5.index t (1 : Fin 2)
    ∧ win8_4.index t (0 : Fin 2) = 0 ∧ win8_4.index t (1 : Fin 2) = win8_5.index t (1 : Fin 2)
    ∧ win8_5.index t (0 : Fin 2) < 8 ∧ win8_5.index t (1 : Fin 2) < 4 :=
  (by decide +kernel : ∀ t : Fin grid8.N, _)

/-- Every block of the output is some point's. -/
theorem blk_onto8 : ∀ (q0 : Fin 8) (q1 : Fin 4), ∃ t : Fin cfg8.N, win8_5.index t = ![q0.val, q1.val] :=
  (by decide +kernel : ∀ (q0 : Fin 8) (q1 : Fin 4), ∃ t : Fin grid8.N, win8_5.index t = ![q0.val, q1.val])

-- reading the six windows' blocks off the region's data unfolds each window's index map once
set_option maxHeartbeats 1000000 in
/-- What point t writes back is block t of G8 of the five input arrays as the region finds them. -/
theorem flushed8_5 (c : Dev nD) (t : Fin cfg8.N) :
    (dat8 V c).flushed 5 t = ((cfg8.win 5).blk t).view.read (Elt Ideal)
      (G8 (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero hz8]
  simp only [View.ld_unit_zero (S := S1024x1024) hz8, View.ld_unit_zero (S := S1x1024) hz8]
  obtain ⟨e00, e01, e10, e11, e20, e21, e30, e31, e40, e41, e50, e51⟩ := blk_facts8 t
  funext j
  obtain ⟨p, q, rfl⟩ : ∃ (p : Fin 1024) (q : Fin 1024), j = ix2 p q := ⟨j 0, j 1, eq_ix2 j⟩
  show k8_pay1 (fun y => V c (Pipeline.arrRef spec8 0) (((cfg8.win 0).blk t).view.emb y))
      (fun y => V c (Pipeline.arrRef spec8 1) (((cfg8.win 1).blk t).view.emb y))
      (fun y => V c (Pipeline.arrRef spec8 2) (((cfg8.win 2).blk t).view.emb y))
      (fun y => V c (Pipeline.arrRef spec8 3) (((cfg8.win 3).blk t).view.emb y))
      (fun y => V c (Pipeline.arrRef spec8 4) (((cfg8.win 4).blk t).view.emb y)) (ix2 p q)
    = bnAt8 (V c (Pipeline.arrRef spec8 0)) (V c (Pipeline.arrRef spec8 1)) (V c (Pipeline.arrRef spec8 2))
        (V c (Pipeline.arrRef spec8 3)) (V c (Pipeline.arrRef spec8 4))
        (((cfg8.win 5).blk t).view.emb (ix2 p q) 0) (((cfg8.win 5).blk t).view.emb (ix2 p q) 1)
  rw [pay8_apply]
  unfold bnAt8
  have h0 : ((cfg8.win 0).blk t).view.emb (ix2 p q)
      = ix2 (((cfg8.win 5).blk t).view.emb (ix2 p q) 0) (((cfg8.win 5).blk t).view.emb (ix2 p q) 1) := by
    funext a; apply Fin.ext
    match a with
    | ⟨0, _⟩ => show win8_0.index t (0 : Fin 2) * 1024 + 1 * p.val = win8_5.index t (0 : Fin 2) * 1024 + 1 * p.val; omega
    | ⟨1, _⟩ => show win8_0.index t (1 : Fin 2) * 1024 + 1 * q.val = win8_5.index t (1 : Fin 2) * 1024 + 1 * q.val; omega
  have h1 : ((cfg8.win 1).blk t).view.emb (ix2 (0 : Fin 1) q) = ix2 (0 : Fin 1) (((cfg8.win 5).blk t).view.emb (ix2 p q) 1) := by
    funext a; apply Fin.ext
    match a with
    | ⟨0, _⟩ => show win8_1.index t (0 : Fin 2) * 1 + 1 * 0 = 0; omega
    | ⟨1, _⟩ => show win8_1.index t (1 : Fin 2) * 1024 + 1 * q.val = win8_5.index t (1 : Fin 2) * 1024 + 1 * q.val; omega
  have h2 : ((cfg8.win 2).blk t).view.emb (ix2 (0 : Fin 1) q) = ix2 (0 : Fin 1) (((cfg8.win 5).blk t).view.emb (ix2 p q) 1) := by
    funext a; apply Fin.ext
    match a with
    | ⟨0, _⟩ => show win8_2.index t (0 : Fin 2) * 1 + 1 * 0 = 0; omega
    | ⟨1, _⟩ => show win8_2.index t (1 : Fin 2) * 1024 + 1 * q.val = win8_5.index t (1 : Fin 2) * 1024 + 1 * q.val; omega
  have h3 : ((cfg8.win 3).blk t).view.emb (ix2 (0 : Fin 1) q) = ix2 (0 : Fin 1) (((cfg8.win 5).blk t).view.emb (ix2 p q) 1) := by
    funext a; apply Fin.ext
    match a with
    | ⟨0, _⟩ => show win8_3.index t (0 : Fin 2) * 1 + 1 * 0 = 0; omega
    | ⟨1, _⟩ => show win8_3.index t (1 : Fin 2) * 1024 + 1 * q.val = win8_5.index t (1 : Fin 2) * 1024 + 1 * q.val; omega
  have h4 : ((cfg8.win 4).blk t).view.emb (ix2 (0 : Fin 1) q) = ix2 (0 : Fin 1) (((cfg8.win 5).blk t).view.emb (ix2 p q) 1) := by
    funext a; apply Fin.ext
    match a with
    | ⟨0, _⟩ => show win8_4.index t (0 : Fin 2) * 1 + 1 * 0 = 0; omega
    | ⟨1, _⟩ => show win8_4.index t (1 : Fin 2) * 1024 + 1 * q.val = win8_5.index t (1 : Fin 2) * 1024 + 1 * q.val; omega
  rw [h0, h1, h2, h3, h4]
  rfl

/-- An index of the output array is in point t's block iff each coordinate is in the block's range on its axis. -/
theorem mem_blk8 (t : Fin cfg8.N) (i : S8192x4096.Idx) :
    i ∈ ((cfg8.win 5).blk t).view.set ↔ ∀ a : Fin 2, win8_5.index t a * S1024x1024.size a ≤ (i a).val ∧ (i a).val < win8_5.index t a * S1024x1024.size a + S1024x1024.size a := by
  show i ∈ ((View.whole (Pipeline.arrRef spec8 5)).slice (win8_5.rect t)).set ↔ _
  rw [View.set_slice_whole, Rect.mem_set_unit]
  exact Iff.rfl

/-- Every index of the output array is in the block of the point whose row block and column block hold it. -/
theorem cover_all8 (i : S8192x4096.Idx) :
    ∃ t : Fin cfg8.N, (cfg8.win 5).flush t = true ∧ i ∈ ((cfg8.win 5).blk t).view.set := by
  have hi0 : (i 0).val < 8192 := (i 0).isLt
  have hi1 : (i 1).val < 4096 := (i 1).isLt
  obtain ⟨t, ht⟩ := blk_onto8 ⟨(i 0).val / 1024, by omega⟩ ⟨(i 1).val / 1024, by omega⟩
  have q0 : win8_5.index t (0 : Fin 2) = (i 0).val / 1024 := congrFun ht 0
  have q1 : win8_5.index t (1 : Fin 2) = (i 1).val / 1024 := congrFun ht 1
  refine ⟨t, flush8_5 t, ?_⟩
  rw [mem_blk8]
  intro a
  match a with
  | ⟨0, _⟩ => show win8_5.index t (0 : Fin 2) * 1024 ≤ (i 0).val ∧ (i 0).val < win8_5.index t (0 : Fin 2) * 1024 + 1024; omega
  | ⟨1, _⟩ => show win8_5.index t (1 : Fin 2) * 1024 ≤ (i 1).val ∧ (i 1).val < win8_5.index t (1 : Fin 2) * 1024 + 1024; omega

/-- The output array after the region: G8 of the five input arrays as the region finds them. -/
theorem arr8_5 (c : Dev nD) : (dat8 V c).arrAt 5 cfg8.N
    = G8 (V c (Pipeline.arrRef spec8 0)) (V c (Pipeline.arrRef spec8 1)) (V c (Pipeline.arrRef spec8 2))
        (V c (Pipeline.arrRef spec8 3)) (V c (Pipeline.arrRef spec8 4)) :=
  (dat8 V c).arrAt_eq_of_cover 5 _ (fun t _ => flushed8_5 V c t) cover_all8

/-- The same, entry by entry over the two coordinates: window 0 is the pre-activations, windows 1 to 4 the mean, the
    variance, the scale and the shift. -/
theorem arr8_5_apply (c : Dev nD) (p : Fin 8192) (q : Fin 4096) :
    (dat8 V c).arrAt 5 cfg8.N (ix2 p q)
      = bnAt8 (V c (Pipeline.arrRef spec8 0)) (V c (Pipeline.arrRef spec8 1)) (V c (Pipeline.arrRef spec8 2))
          (V c (Pipeline.arrRef spec8 3)) (V c (Pipeline.arrRef spec8 4)) p q :=
  congrFun (arr8_5 V c) (ix2 p q)

/-- The five input arrays are left as the region finds them. -/
theorem arr8_in (c : Dev nD) (w : Fin cfg8.W) (hw : (cfg8.win w).isOut = false) :
    (dat8 V c).arrAt w cfg8.N = V c (Pipeline.arrRef spec8 w) :=
  ((dat8 V c).arrAt_in w hw _).trans (A_eq8 V c w)

end Cert.KernelIdeal.Hand

end
-- ==== Proof.IVal9.lean ====
/- Region 9 (the third product with column statistics), read at the exact extended reals.
   The accumulator after the point with innermost coordinate k holds, at every entry of the current block of Z, the sum
   of the first 1024 (k + 1) products of the entry's row of the first input with the entry's row of the second
   (by induction on the point: at k = 0 it restarts from zero, otherwise one more block of 1024 products is added).
   At k = 3 the sum is complete and is written back as the block of Z, together with its column sums and the column
   sums of its squares as the two rows of the statistics block. The blocks written back at the sixteen points with
   k = 3 tile both output arrays. -/
import proofs.«139021_j54202487276022_2_alg».proof.Proof.IReg9
import proofs.«139021_j54202487276022_2_alg».proof.Proof.LibRowsDot
import proofs.«139021_j54202487276022_2_alg».proof.Proof.LibBlockSum
import proofs.«139021_j54202487276022_2_alg».proof.Proof.ColumnLaw
import proofs.«139021_j54202487276022_2_alg».proof.Proof.ProdAt
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx
open scoped BigOperators

theorem hz9 : (![0, 0] : Fin 2 → Nat) = fun _ => 0 := funext fun a => by fin_cases a <;> rfl

/-! ## What each case leaves, as payloads of its inputs (any float values) -/

section Pieces

variable {F : FTy → Type} [FloatOps F]

/-- k = 0: the accumulator is left at the zero block plus the product of the two input blocks. -/
theorem sout9_A_0_eq (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : cond9_0 i) (hc1 : ¬cond9_1 i) (x0 : Vec F S2048x1024 .bf16) (x1 : Vec F S1024x1024 .bf16) :
    sout9_A_0 c i arg3 harg3 arg4 harg4 arg5 harg5 arg6 harg6 arg7 harg7 hc0 hc1 x0 x1 = k9_pay2 (k9_pay1 (F := F)) x0 x1 := by
  unfold sout9_A_0
  rw [View.read_writes_eq_canon _ _ _ (scover9_A_0 c i arg3 harg3 arg4 harg4 arg5 harg5 arg6 harg6 arg7 harg7 hc0 hc1 x0 x1)]
  unfold kernelRun9_A
  dsimp only
  sl_unfold_words
  rw [View.canon_cons_unit_zero (S := S2048x1024) hz9, View.readCov_unit_zero (S := S2048x1024) _ hz9]
  simp only [View.readAt_eq_ld, harg3.read_unread, harg4.read_unread, View.ld_unit_zero (S := S2048x1024) hz9, View.ld_unit_zero (S := S1024x1024) hz9]

/-- k = 1, 2: the accumulator is left at what it held plus the product of the two input blocks. -/
theorem sout9_B_0_eq (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : ¬cond9_1 i) (x0 : Vec F S2048x1024 .bf16) (x1 : Vec F S1024x1024 .bf16) (xs0 : Vec F S2048x1024 .f32) :
    sout9_B_0 c i arg3 harg3 arg4 harg4 arg5 harg5 arg6 harg6 arg7 harg7 hc0 hc1 x0 x1 xs0 = k9_pay2 xs0 x0 x1 := by
  unfold sout9_B_0
  rw [View.read_writes_eq_canon _ _ _ (scover9_B_0 c i arg3 harg3 arg4 harg4 arg5 harg5 arg6 harg6 arg7 harg7 hc0 hc1 x0 x1 xs0)]
  unfold kernelRun9_B
  dsimp only
  (try sl_unfold_words)
  rw [View.canon_unit_zero hz9]
  simp only [View.readAt_eq_ld, harg3.read_unread, harg4.read_unread, harg7.read_unread, View.ld_unit_zero (S := S2048x1024) hz9, View.ld_unit_zero (S := S1024x1024) hz9]

/-- k = 3: the accumulator likewise; -/
theorem sout9_C_0_eq (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i) (x0 : Vec F S2048x1024 .bf16) (x1 : Vec F S1024x1024 .bf16) (xs0 : Vec F S2048x1024 .f32) :
    sout9_C_0 c i arg3 harg3 arg4 harg4 arg5 harg5 arg6 harg6 arg7 harg7 hc0 hc1 x0 x1 xs0 = k9_pay2 xs0 x0 x1 := by
  unfold sout9_C_0
  rw [View.read_writes_eq_canon _ _ _ (scover9_C_0 c i arg3 harg3 arg4 harg4 arg5 harg5 arg6 harg6 arg7 harg7 hc0 hc1 x0 x1 xs0)]
  unfold kernelRun9_C
  dsimp only
  (try sl_unfold_words)
  rw [View.canon_unit_zero hz9]
  simp only [View.readAt_eq_ld, harg3.read_unread, harg4.read_unread, harg7.read_unread, View.ld_unit_zero (S := S2048x1024) hz9, View.ld_unit_zero (S := S1024x1024) hz9]

/-- the block of Z is the accumulator read back; -/
theorem out9_C_2_eq (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i) (x0 : Vec F S2048x1024 .bf16) (x1 : Vec F S1024x1024 .bf16) (xs0 : Vec F S2048x1024 .f32) :
    out9_C_2 c i arg3 harg3 arg4 harg4 arg5 harg5 arg6 harg6 arg7 harg7 hc0 hc1 x0 x1 xs0 = k9_pay2 xs0 x0 x1 := by
  unfold out9_C_2
  rw [View.read_writes_eq_canon _ _ _ (cover9_C_2 c i arg3 harg3 arg4 harg4 arg5 harg5 arg6 harg6 arg7 harg7 hc0 hc1 x0 x1 xs0)]
  unfold kernelRun9_C
  dsimp only
  (try sl_unfold_words)
  rw [View.canon_unit_zero hz9, View.readCov_unit_zero (S := S2048x1024) _ hz9]
  simp only [View.readAt_eq_ld, harg3.read_unread, harg4.read_unread, harg7.read_unread, View.ld_unit_zero (S := S2048x1024) hz9, View.ld_unit_zero (S := S1024x1024) hz9]

/-- the statistics block is two rows, each a reduction of the accumulator read back. -/
theorem out9_C_3_eq (c : Dev nD) (i : grid9.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S1x2x1024 .f32) (harg6 : arg6.IsWhole) (arg7 : Memref sig .tc .vmem S2048x1024 .f32) (harg7 : arg7.IsWhole) (hc0 : ¬cond9_0 i) (hc1 : cond9_1 i) (x0 : Vec F S2048x1024 .bf16) (x1 : Vec F S1024x1024 .bf16) (xs0 : Vec F S2048x1024 .f32) :
    out9_C_3 c i arg3 harg3 arg4 harg4 arg5 harg5 arg6 harg6 arg7 harg7 hc0 hc1 x0 x1 xs0
      = View.canon [(⟨Rect.unit (s := S1x2x1024) ![0, 1, 0] S1x1x1024.size inb_S1x2x1024_S1x1x1024_0_1_0, k9_pay4 (k9_pay2 xs0 x0 x1)⟩ : View.Piece (Elt F) S1x2x1024 .f32),
          ⟨Rect.unit (s := S1x2x1024) ![0, 0, 0] S1x1x1024.size inb_S1x2x1024_S1x1x1024_0_0_0, k9_pay3 (k9_pay2 xs0 x0 x1)⟩] := by
  unfold out9_C_3
  rw [View.read_writes_eq_canon _ _ _ (cover9_C_3 c i arg3 harg3 arg4 harg4 arg5 harg5 arg6 harg6 arg7 harg7 hc0 hc1 x0 x1 xs0)]
  unfold kernelRun9_C
  dsimp only
  (try sl_unfold_words)
  rw [View.readCov_unit_zero (S := S2048x1024) _ hz9]
  simp only [View.readAt_eq_ld, harg3.read_unread, harg4.read_unread, harg7.read_unread, View.ld_unit_zero (S := S2048x1024) hz9, View.ld_unit_zero (S := S1024x1024) hz9]

end Pieces

/-! ## Reading two stacked row stores -/

section Rows

variable {Val : EltTy → Type} [∀ e, Nonempty (Val e)] {e : EltTy}

theorem emb9_row1 (cc : Fin 1024) : (Rect.unit (s := S1x2x1024) ![0, 1, 0] S1x1x1024.size inb_S1x2x1024_S1x1x1024_0_1_0).emb (ix3 (0 : Fin 1) (0 : Fin 1) cc) = ix3 (0 : Fin 1) (1 : Fin 2) cc := by
  funext a; apply Fin.ext
  match a with
  | ⟨0, _⟩ => rfl
  | ⟨1, _⟩ => rfl
  | ⟨2, _⟩ => show 0 + 1 * cc.val = cc.val; omega
theorem emb9_row0 (cc : Fin 1024) : (Rect.unit (s := S1x2x1024) ![0, 0, 0] S1x1x1024.size inb_S1x2x1024_S1x1x1024_0_0_0).emb (ix3 (0 : Fin 1) (0 : Fin 1) cc) = ix3 (0 : Fin 1) (0 : Fin 2) cc := by
  funext a; apply Fin.ext
  match a with
  | ⟨0, _⟩ => rfl
  | ⟨1, _⟩ => rfl
  | ⟨2, _⟩ => show 0 + 1 * cc.val = cc.val; omega

/-- Row 1 of the two stacked rows is the last store's payload. -/
theorem canon9_row1 (p3 p4 : S1x1x1024.Idx → Val e) (cc : Fin 1024) :
    View.canon [(⟨Rect.unit (s := S1x2x1024) ![0, 1, 0] S1x1x1024.size inb_S1x2x1024_S1x1x1024_0_1_0, p4⟩ : View.Piece Val S1x2x1024 e), ⟨Rect.unit (s := S1x2x1024) ![0, 0, 0] S1x1x1024.size inb_S1x2x1024_S1x1x1024_0_0_0, p3⟩] (ix3 (0 : Fin 1) (1 : Fin 2) cc) = p4 (ix3 (0 : Fin 1) (0 : Fin 1) cc) := by
  rw [← emb9_row1 cc]; exact View.canon_cons_emb (Rect.unit (s := S1x2x1024) ![0, 1, 0] S1x1x1024.size inb_S1x2x1024_S1x1x1024_0_1_0) p4 _ (ix3 (0 : Fin 1) (0 : Fin 1) cc)

/-- Row 0 is the first store's payload: the last store does not reach it. -/
theorem canon9_row0 (p3 p4 : S1x1x1024.Idx → Val e) (cc : Fin 1024) :
    View.canon [(⟨Rect.unit (s := S1x2x1024) ![0, 1, 0] S1x1x1024.size inb_S1x2x1024_S1x1x1024_0_1_0, p4⟩ : View.Piece Val S1x2x1024 e), ⟨Rect.unit (s := S1x2x1024) ![0, 0, 0] S1x1x1024.size inb_S1x2x1024_S1x1x1024_0_0_0, p3⟩] (ix3 (0 : Fin 1) (0 : Fin 2) cc) = p3 (ix3 (0 : Fin 1) (0 : Fin 1) cc) := by
  rw [View.canon_cons_of_not_mem]
  · rw [← emb9_row0 cc]; exact View.canon_cons_emb (Rect.unit (s := S1x2x1024) ![0, 0, 0] S1x1x1024.size inb_S1x2x1024_S1x1x1024_0_0_0) p3 [] (ix3 (0 : Fin 1) (0 : Fin 1) cc)
  · rw [Rect.mem_set_unit]
    intro h
    have := h (1 : Fin 3)
    revert this
    show ¬ ((1 : Nat) ≤ 0 ∧ _)
    omega

end Rows

/-! ## The payloads at an entry, over the extended reals -/

theorem reads9 : Cert.Lib.RowsDot.Reads (R := 2048) (K := 1024) (C := 1024) dot_S2048x1024_S1024x1024_S2048x1024_1_1_0_0_n_n :=
  ⟨rfl, rfl, fun _ _ => rfl, fun _ _ => rfl, fun _ _ => rfl, fun _ _ => rfl⟩

/-- The zero block. -/
theorem pay9_1_apply (j : S2048x1024.Idx) : k9_pay1 (F := Ideal) j = 0 := by
  unfold k9_pay1
  simp only [shapeCast_self]
  exact Ideal.ofBits_zero_f32

/-- The accumulator's update at an entry: what it held plus the 1024 products of the two blocks' rows. -/
theorem pay9_2_apply (xs : Vec Ideal S2048x1024 .f32) (x0 : Vec Ideal S2048x1024 .bf16) (x1 : Vec Ideal S1024x1024 .bf16) (r : Fin 2048) (cc : Fin 1024) :
    k9_pay2 (F := Ideal) xs x0 x1 (ix2 r cc) = xs (ix2 r cc) + ∑ q : Fin 1024, x0 (ix2 r q) * x1 (ix2 cc q) := by
  unfold k9_pay2
  simp only [shapeCast_self]
  exact congrArg (xs (ix2 r cc) + ·) (Cert.Lib.RowsDot.matmul_zero_apply reads9 none x0 x1 r cc)

/-- A column sum of a block, stored as a row. -/
theorem red9_apply (z : FVec Ideal S2048x1024 .f32) (cc : Fin 1024) :
    shapeCast S1x1x1024 (shapeCast S1x1024 (multiReduction .add [0] S1024 z 0x00000000#32 reduces_S2048x1024_S1024 (.inl rfl) rfl) shapeCasts_S1024_S1x1024) shapeCasts_S1x1024_S1x1x1024 (ix3 (0 : Fin 1) (0 : Fin 1) cc)
      = ∑ r : Fin 2048, z (ix2 r cc) := by
  refine (shapeCast_addUnit_apply ![1, 1024] _ _ _).trans ?_
  refine (shapeCast_addUnit_apply ![1024] _ _ _).trans ?_
  refine (Ideal.multiReduction_add_single z _ reduces_S2048x1024_S1024 (.inl rfl) rfl _).trans ?_
  refine Finset.sum_congr rfl fun r _ => congrArg z ?_
  funext a; apply Fin.ext
  match a with
  | ⟨0, _⟩ => rfl
  | ⟨1, _⟩ => rfl

theorem pay9_3_apply (z : Vec Ideal S2048x1024 .f32) (cc : Fin 1024) :
    k9_pay3 (F := Ideal) z (ix3 (0 : Fin 1) (0 : Fin 1) cc) = ∑ r : Fin 2048, z (ix2 r cc) := by
  unfold k9_pay3
  exact red9_apply z cc

theorem pay9_4_apply (z : Vec Ideal S2048x1024 .f32) (cc : Fin 1024) :
    k9_pay4 (F := Ideal) z (ix3 (0 : Fin 1) (0 : Fin 1) cc) = ∑ r : Fin 2048, z (ix2 r cc) * z (ix2 r cc) := by
  unfold k9_pay4
  exact (red9_apply (mulf z z) cc).trans (Finset.sum_congr rfl fun r _ => rfl)

/-! ## The windows' block indices over the grid -/

/-- Point t = 16 i + 4 j + k: the first input's block is (i, k), the second's (j, k), the block of Z (i, j), the
    statistics block (i, 0, j). -/
theorem idx_facts9 : ∀ t : Fin cfg9.N,
    win9_0.index t (0 : Fin 2) = t.val / 16 ∧ win9_0.index t (1 : Fin 2) = t.val % 4
    ∧ win9_1.index t (0 : Fin 2) = (t.val / 4) % 4 ∧ win9_1.index t (1 : Fin 2) = t.val % 4
    ∧ win9_2.index t (0 : Fin 2) = t.val / 16 ∧ win9_2.index t (1 : Fin 2) = (t.val / 4) % 4
    ∧ win9_3.index t (0 : Fin 3) = t.val / 16 ∧ win9_3.index t (1 : Fin 3) = 0 ∧ win9_3.index t (2 : Fin 3) = (t.val / 4) % 4 :=
  (by decide +kernel : ∀ t : Fin grid9.N, _)

/-- Every block of Z is written back by some point, -/
theorem blk_onto9_2 : ∀ (q0 : Fin 4) (q1 : Fin 4), ∃ t : Fin cfg9.N, (cfg9.win 2).flush t = true ∧ win9_2.index t = ![q0.val, q1.val] :=
  (by decide +kernel : ∀ (q0 : Fin 4) (q1 : Fin 4), ∃ t : Fin grid9.N, win9_2.flush t = true ∧ win9_2.index t = ![q0.val, q1.val])
/-- and every statistics block. -/
theorem blk_onto9_3 : ∀ (q0 : Fin 4) (q2 : Fin 4), ∃ t : Fin cfg9.N, (cfg9.win 3).flush t = true ∧ win9_3.index t = ![q0.val, 0, q2.val] :=
  (by decide +kernel : ∀ (q0 : Fin 4) (q2 : Fin 4), ∃ t : Fin grid9.N, win9_3.flush t = true ∧ win9_3.index t = ![q0.val, 0, q2.val])

-- the TensorCore's buffer contents when the region is entered
variable (V : (c : Dev nD) → (b : Ref sig .tc) → Buf (Elt Ideal) ((c : Thread nD τ).loc b))

/-! ## The input blocks at an entry -/

theorem iblk9_0_apply (c : Dev nD) (t : Fin cfg9.N) (r : Fin 2048) (q : Fin 1024) (p : Fin 8192) (k : Fin 4096)
    (hp : p.val = (t.val / 16) * 2048 + r.val) (hk : k.val = (t.val % 4) * 1024 + q.val) :
    iblk9 V c 0 t (ix2 r q) = V c (Pipeline.arrRef spec9 0) (ix2 p k) := by
  obtain ⟨e0, e1, -⟩ := idx_facts9 t
  unfold iblk9
  rw [View.read_apply]
  refine congrArg (V c (Pipeline.arrRef spec9 0)) ?_
  funext a; apply Fin.ext
  match a with
  | ⟨0, _⟩ => show win9_0.index t (0 : Fin 2) * 2048 + 1 * r.val = p.val; omega
  | ⟨1, _⟩ => show win9_0.index t (1 : Fin 2) * 1024 + 1 * q.val = k.val; omega

theorem iblk9_1_apply (c : Dev nD) (t : Fin cfg9.N) (cc : Fin 1024) (q : Fin 1024) (p : Fin 4096) (k : Fin 4096)
    (hp : p.val = ((t.val / 4) % 4) * 1024 + cc.val) (hk : k.val = (t.val % 4) * 1024 + q.val) :
    iblk9 V c 1 t (ix2 cc q) = V c (Pipeline.arrRef spec9 1) (ix2 p k) := by
  obtain ⟨-, -, e0, e1, -⟩ := idx_facts9 t
  unfold iblk9
  rw [View.read_apply]
  refine congrArg (V c (Pipeline.arrRef spec9 1)) ?_
  funext a; apply Fin.ext
  match a with
  | ⟨0, _⟩ => show win9_1.index t (0 : Fin 2) * 1024 + 1 * cc.val = p.val; omega
  | ⟨1, _⟩ => show win9_1.index t (1 : Fin 2) * 1024 + 1 * q.val = k.val; omega

/-! ## The accumulator's invariant -/

/-- The k-th product of entry (p, q), zero past the 4096 products. -/
def term9 (A : S8192x4096.Idx → EReal) (W : S4096x4096.Idx → EReal) (p : Fin 8192) (q : Fin 4096) : ℕ → EReal :=
  Cert.Lib.BlockSum.zeroExt (fun k : Fin 4096 => A (ix2 p k) * W (ix2 q k))

/-- One update: from the first 1024 k products to the first 1024 (k + 1). -/
theorem step9 (c : Dev nD) (t : Fin cfg9.N) (xs : Vec Ideal S2048x1024 .f32) (r : Fin 2048) (cc : Fin 1024) (p : Fin 8192) (q : Fin 4096)
    (hp : p.val = (t.val / 16) * 2048 + r.val) (hq : q.val = ((t.val / 4) % 4) * 1024 + cc.val)
    (hxs : xs (ix2 r cc) = ∑ j ∈ Finset.range ((t.val % 4) * 1024), term9 (V c (Pipeline.arrRef spec9 0)) (V c (Pipeline.arrRef spec9 1)) p q j) :
    k9_pay2 (F := Ideal) xs (iblk9 V c 0 t) (iblk9 V c 1 t) (ix2 r cc)
      = ∑ j ∈ Finset.range ((t.val % 4 + 1) * 1024), term9 (V c (Pipeline.arrRef spec9 0)) (V c (Pipeline.arrRef spec9 1)) p q j := by
  rw [pay9_2_apply, hxs, show (t.val % 4 + 1) * 1024 = (t.val % 4) * 1024 + 1024 from by omega, Finset.sum_range_add]
  refine congrArg (_ + ·) ?_
  rw [Finset.sum_range]
  refine Finset.sum_congr rfl fun j _ => ?_
  have hj : (t.val % 4) * 1024 + j.val < 4096 := by have := j.isLt; omega
  unfold term9
  rw [Cert.Lib.BlockSum.zeroExt_of_lt _ _ hj,
    iblk9_0_apply V c t r j p ⟨(t.val % 4) * 1024 + j.val, hj⟩ hp rfl,
    iblk9_1_apply V c t cc j q ⟨(t.val % 4) * 1024 + j.val, hj⟩ hq rfl]

/-- After point n the accumulator holds, at entry (r, cc) of the current block, the first 1024 (n mod 4 + 1) products of
    the entry's row of the first input with the entry's row of the second. -/
theorem acc9_eq (c : Dev nD) : ∀ (n : ℕ) (h : n < cfg9.N) (r : Fin 2048) (cc : Fin 1024) (p : Fin 8192) (q : Fin 4096),
    p.val = (n / 16) * 2048 + r.val → q.val = ((n / 4) % 4) * 1024 + cc.val →
    (outsAt9 V c n h).2.2 (ix2 r cc) = ∑ j ∈ Finset.range ((n % 4 + 1) * 1024), term9 (V c (Pipeline.arrRef spec9 0)) (V c (Pipeline.arrRef spec9 1)) p q j
  | 0, h, r, cc, p, q, hp, hq => by
    rw [outsAt9_A V c ⟨0, h⟩ rfl (by show ¬ (0 % 4 = 3); decide)]
    dsimp only
    rw [sout9_A_0_eq]
    exact step9 V c ⟨0, h⟩ _ r cc p q hp hq (by rw [pay9_1_apply]; simp)
  | n + 1, h, r, cc, p, q, hp, hq => by
    have hN : n + 1 < 64 := lt_of_lt_of_eq h N_9
    by_cases h0 : (n + 1) % 4 = 0
    · rw [outsAt9_A V c ⟨n + 1, h⟩ h0 (by dsimp only; omega)]
      dsimp only
      rw [sout9_A_0_eq]
      exact step9 V c ⟨n + 1, h⟩ _ r cc p q hp hq (by
        rw [pay9_1_apply, show (⟨n + 1, h⟩ : Fin cfg9.N).val % 4 = 0 from h0]; simp)
    · have ih := acc9_eq c n (Nat.lt_of_succ_lt h) r cc p q (by omega) (by omega)
      rw [show (n % 4 + 1) * 1024 = ((n + 1) % 4) * 1024 from by omega] at ih
      by_cases h1 : (n + 1) % 4 = 3
      · rw [outsAt9_C V c ⟨n + 1, h⟩ h0 h1]
        dsimp only
        rw [sout9_C_0_eq]
        exact step9 V c ⟨n + 1, h⟩ _ r cc p q hp hq ih
      · rw [outsAt9_B V c ⟨n + 1, h⟩ h0 h1]
        dsimp only
        rw [sout9_B_0_eq]
        exact step9 V c ⟨n + 1, h⟩ _ r cc p q hp hq ih

/-! ## The product array -/

/-- Entry (i, j) of Z: the 4096 products of row i of the first input with row j of the second, added. -/
def Z9 (A : S8192x4096.Idx → EReal) (W : S4096x4096.Idx → EReal) : S8192x4096.Idx → EReal :=
  fun i => dotAt (R := 8192) (C := 4096) (K := 4096) A W (i 0) (i 1)

/-- At a point with k = 3 the block of Z and the accumulator hold the same. -/
theorem zblk9_eq_acc (c : Dev nD) (t : Fin cfg9.N) (h3 : t.val % 4 = 3) :
    (outsAt9 V c t.val t.isLt).1 = (outsAt9 V c t.val t.isLt).2.2 := by
  rw [outsAt9_C V c t (by omega) h3]
  dsimp only
  rw [out9_C_2_eq, sout9_C_0_eq]

/-- There the sum is complete. -/
theorem zblk9_apply (c : Dev nD) (t : Fin cfg9.N) (h3 : t.val % 4 = 3) (r : Fin 2048) (cc : Fin 1024) (p : Fin 8192) (q : Fin 4096)
    (hp : p.val = (t.val / 16) * 2048 + r.val) (hq : q.val = ((t.val / 4) % 4) * 1024 + cc.val) :
    (outsAt9 V c t.val t.isLt).1 (ix2 r cc) = dotAt (R := 8192) (C := 4096) (K := 4096) (V c (Pipeline.arrRef spec9 0)) (V c (Pipeline.arrRef spec9 1)) p q := by
  rw [zblk9_eq_acc V c t h3, acc9_eq V c t.val t.isLt r cc p q hp hq, h3]
  unfold dotAt term9
  exact (Cert.Lib.BlockSum.sum_fin_eq_sum_range _).symm

/-- What a point with k = 3 writes back is its block of Z. -/
theorem flushed9_2 (c : Dev nD) (t : Fin cfg9.N) (hf : (cfg9.win 2).flush t = true) :
    (dat9 V c).flushed 2 t = ((cfg9.win 2).blk t).view.read (Elt Ideal) (Z9 (V c (Pipeline.arrRef spec9 0)) (V c (Pipeline.arrRef spec9 1))) := by
  have h3 := (flush9_2 t).mp hf
  obtain ⟨-, -, -, -, e0, e1, -⟩ := idx_facts9 t
  show (cfg9.win 2).cut (grid9.coords t) ((dat9 V c).after 2 t) = _
  rw [after9_2]
  funext j
  obtain ⟨r, cc, rfl⟩ : ∃ (r : Fin 2048) (cc : Fin 1024), j = ix2 r cc := ⟨j 0, j 1, eq_ix2 (n0 := 2048) (n1 := 1024) j⟩
  show (outsAt9 V c t.val t.isLt).1 (ix2 r cc)
    = dotAt (R := 8192) (C := 4096) (K := 4096) (V c (Pipeline.arrRef spec9 0)) (V c (Pipeline.arrRef spec9 1)) ((((cfg9.win 2).blk t).view.emb (ix2 r cc)) 0) ((((cfg9.win 2).blk t).view.emb (ix2 r cc)) 1)
  exact zblk9_apply V c t h3 r cc _ _
    (show win9_2.index t (0 : Fin 2) * 2048 + 1 * r.val = _ from by omega)
    (show win9_2.index t (1 : Fin 2) * 1024 + 1 * cc.val = _ from by omega)

theorem mem_blk9_2 (t : Fin cfg9.N) (i : S8192x4096.Idx) :
    i ∈ ((cfg9.win 2).blk t).view.set ↔ ∀ a : Fin 2, win9_2.index t a * S2048x1024.size a ≤ (i a).val ∧ (i a).val < win9_2.index t a * S2048x1024.size a + S2048x1024.size a := by
  show i ∈ ((View.whole (Pipeline.arrRef spec9 2)).slice (win9_2.rect t)).set ↔ _
  rw [View.set_slice_whole, Rect.mem_set_unit]
  exact Iff.rfl

theorem cover_all9_2 (i : S8192x4096.Idx) :
    ∃ t : Fin cfg9.N, (cfg9.win 2).flush t = true ∧ i ∈ ((cfg9.win 2).blk t).view.set := by
  have hi0 : (i 0).val < 8192 := (i 0).isLt
  have hi1 : (i 1).val < 4096 := (i 1).isLt
  obtain ⟨t, hf, ht⟩ := blk_onto9_2 ⟨(i 0).val / 2048, by omega⟩ ⟨(i 1).val / 1024, by omega⟩
  have q0 : win9_2.index t (0 : Fin 2) = (i 0).val / 2048 := congrFun ht 0
  have q1 : win9_2.index t (1 : Fin 2) = (i 1).val / 1024 := congrFun ht 1
  refine ⟨t, hf, ?_⟩
  rw [mem_blk9_2]
  intro a
  match a with
  | ⟨0, _⟩ => show win9_2.index t (0 : Fin 2) * 2048 ≤ (i 0).val ∧ (i 0).val < win9_2.index t (0 : Fin 2) * 2048 + 2048; omega
  | ⟨1, _⟩ => show win9_2.index t (1 : Fin 2) * 1024 ≤ (i 1).val ∧ (i 1).val < win9_2.index t (1 : Fin 2) * 1024 + 1024; omega

/-- The product array after the region. -/
theorem arr9_2 (c : Dev nD) : (dat9 V c).arrAt 2 cfg9.N = Z9 (V c (Pipeline.arrRef spec9 0)) (V c (Pipeline.arrRef spec9 1)) :=
  (dat9 V c).arrAt_eq_of_cover 2 (Z9 (V c (Pipeline.arrRef spec9 0)) (V c (Pipeline.arrRef spec9 1))) (fun t hf => flushed9_2 V c t hf) cover_all9_2

/-- The same, entry by entry. -/
theorem arr9_2_apply (c : Dev nD) (i : Fin 8192) (j : Fin 4096) :
    (dat9 V c).arrAt 2 cfg9.N (ix2 i j) = dotAt (R := 8192) (C := 4096) (K := 4096) (V c (Pipeline.arrRef spec9 0)) (V c (Pipeline.arrRef spec9 1)) i j :=
  congrFun (arr9_2 V c) (ix2 i j)

/-! ## The statistics array -/

/-- Per block of 2048 rows and column: the column sum of Z over the block (row 0) and of its squares (row 1). -/
def St9 (Z : S8192x4096.Idx → EReal) : S4x2x4096.Idx → EReal :=
  fun i => if (i 1).val = 0 then colSum Z (i 0) (i 2) else colSq Z (i 0) (i 2)

/-- At a point with k = 3 the statistics block holds the two reductions of the accumulator. -/
theorem sblk9_eq (c : Dev nD) (t : Fin cfg9.N) (h3 : t.val % 4 = 3) :
    (outsAt9 V c t.val t.isLt).2.1
      = View.canon [(⟨Rect.unit (s := S1x2x1024) ![0, 1, 0] S1x1x1024.size inb_S1x2x1024_S1x1x1024_0_1_0, k9_pay4 (F := Ideal) (outsAt9 V c t.val t.isLt).2.2⟩ : View.Piece (Elt Ideal) S1x2x1024 .f32),
          ⟨Rect.unit (s := S1x2x1024) ![0, 0, 0] S1x1x1024.size inb_S1x2x1024_S1x1x1024_0_0_0, k9_pay3 (F := Ideal) (outsAt9 V c t.val t.isLt).2.2⟩] := by
  rw [outsAt9_C V c t (by omega) h3]
  dsimp only
  rw [out9_C_3_eq, sout9_C_0_eq]

/-- What a point with k = 3 writes back is its statistics block. -/
theorem flushed9_3 (c : Dev nD) (t : Fin cfg9.N) (hf : (cfg9.win 3).flush t = true) :
    (dat9 V c).flushed 3 t = ((cfg9.win 3).blk t).view.read (Elt Ideal) (St9 (Z9 (V c (Pipeline.arrRef spec9 0)) (V c (Pipeline.arrRef spec9 1)))) := by
  have h3 := (flush9_3 t).mp hf
  obtain ⟨-, -, -, -, -, -, e0, e1, e2⟩ := idx_facts9 t
  show (cfg9.win 3).cut (grid9.coords t) ((dat9 V c).after 3 t) = _
  rw [after9_3, sblk9_eq V c t h3]
  funext j
  obtain ⟨u, s, cc, rfl⟩ : ∃ (u : Fin 1) (s : Fin 2) (cc : Fin 1024), j = ix3 u s cc := ⟨j 0, j 1, j 2, eq_ix3 (n0 := 1) (n1 := 2) (n2 := 1024) j⟩
  obtain rfl : u = 0 := Subsingleton.elim _ _
  have hib : t.val / 16 < 4 := by have := t.isLt; have : cfg9.N = 64 := N_9; omega
  have hqq : ((t.val / 4) % 4) * 1024 + cc.val < 4096 := by have := cc.isLt; omega
  have hcol : ∀ r : Fin 2048, (outsAt9 V c t.val t.isLt).2.2 (ix2 r cc)
      = Z9 (V c (Pipeline.arrRef spec9 0)) (V c (Pipeline.arrRef spec9 1)) (ix2 (Cert.ColumnLaw.blk ⟨t.val / 16, hib⟩ r) ⟨((t.val / 4) % 4) * 1024 + cc.val, hqq⟩) := fun r =>
    (congrFun (zblk9_eq_acc V c t h3) (ix2 r cc)).symm.trans
      (zblk9_apply V c t h3 r cc (Cert.ColumnLaw.blk ⟨t.val / 16, hib⟩ r) ⟨((t.val / 4) % 4) * 1024 + cc.val, hqq⟩ rfl rfl)
  have hidx : ((cfg9.win 3).blk t).view.emb (ix3 (0 : Fin 1) s cc)
      = ix3 (⟨t.val / 16, hib⟩ : Fin 4) s (⟨((t.val / 4) % 4) * 1024 + cc.val, hqq⟩ : Fin 4096) := by
    funext a; apply Fin.ext
    match a with
    | ⟨0, _⟩ => show win9_3.index t (0 : Fin 3) * 1 + 1 * 0 = t.val / 16; omega
    | ⟨1, _⟩ => show win9_3.index t (1 : Fin 3) * 2 + 1 * s.val = s.val; omega
    | ⟨2, _⟩ => show win9_3.index t (2 : Fin 3) * 1024 + 1 * cc.val = ((t.val / 4) % 4) * 1024 + cc.val; omega
  show _ = St9 (Z9 (V c (Pipeline.arrRef spec9 0)) (V c (Pipeline.arrRef spec9 1))) (((cfg9.win 3).blk t).view.emb (ix3 (0 : Fin 1) s cc))
  rw [hidx]
  match s with
  | ⟨0, _⟩ =>
    refine (canon9_row0 _ _ cc).trans ((pay9_3_apply _ cc).trans ?_)
    unfold St9
    rw [if_pos rfl]
    unfold colSum
    exact Finset.sum_congr rfl fun r _ => hcol r
  | ⟨1, _⟩ =>
    refine (canon9_row1 _ _ cc).trans ((pay9_4_apply _ cc).trans ?_)
    unfold St9
    rw [if_neg (show ¬ ((1 : ℕ) = 0) by decide)]
    unfold colSq
    exact Finset.sum_congr rfl fun r _ => by rw [hcol r]

theorem mem_blk9_3 (t : Fin cfg9.N) (i : S4x2x4096.Idx) :
    i ∈ ((cfg9.win 3).blk t).view.set ↔ ∀ a : Fin 3, win9_3.index t a * S1x2x1024.size a ≤ (i a).val ∧ (i a).val < win9_3.index t a * S1x2x1024.size a + S1x2x1024.size a := by
  show i ∈ ((View.whole (Pipeline.arrRef spec9 3)).slice (win9_3.rect t)).set ↔ _
  rw [View.set_slice_whole, Rect.mem_set_unit]
  exact Iff.rfl

theorem cover_all9_3 (i : S4x2x4096.Idx) :
    ∃ t : Fin cfg9.N, (cfg9.win 3).flush t = true ∧ i ∈ ((cfg9.win 3).blk t).view.set := by
  have hi0 : (i 0).val < 4 := (i 0).isLt
  have hi1 : (i 1).val < 2 := (i 1).isLt
  have hi2 : (i 2).val < 4096 := (i 2).isLt
  obtain ⟨t, hf, ht⟩ := blk_onto9_3 ⟨(i 0).val, hi0⟩ ⟨(i 2).val / 1024, by omega⟩
  have q0 : win9_3.index t (0 : Fin 3) = (i 0).val := congrFun ht 0
  have q1 : win9_3.index t (1 : Fin 3) = 0 := congrFun ht 1
  have q2 : win9_3.index t (2 : Fin 3) = (i 2).val / 1024 := congrFun ht 2
  refine ⟨t, hf, ?_⟩
  rw [mem_blk9_3]
  intro a
  match a with
  | ⟨0, _⟩ => show win9_3.index t (0 : Fin 3) * 1 ≤ (i 0).val ∧ (i 0).val < win9_3.index t (0 : Fin 3) * 1 + 1; omega
  | ⟨1, _⟩ => show win9_3.index t (1 : Fin 3) * 2 ≤ (i 1).val ∧ (i 1).val < win9_3.index t (1 : Fin 3) * 2 + 2; omega
  | ⟨2, _⟩ => show win9_3.index t (2 : Fin 3) * 1024 ≤ (i 2).val ∧ (i 2).val < win9_3.index t (2 : Fin 3) * 1024 + 1024; omega

/-- The statistics array after the region, through the product array. -/
theorem arr9_3 (c : Dev nD) : (dat9 V c).arrAt 3 cfg9.N = St9 ((dat9 V c).arrAt 2 cfg9.N) := by
  rw [arr9_2]
  exact (dat9 V c).arrAt_eq_of_cover 3 (St9 (Z9 (V c (Pipeline.arrRef spec9 0)) (V c (Pipeline.arrRef spec9 1)))) (fun t hf => flushed9_3 V c t hf) cover_all9_3

/-- Row 0: per block of 2048 rows, the column sums of Z. -/
theorem arr9_3_apply0 (c : Dev nD) (ib : Fin 4) (j : Fin 4096) :
    (dat9 V c).arrAt 3 cfg9.N (ix3 ib (0 : Fin 2) j) = colSum ((dat9 V c).arrAt 2 cfg9.N) ib j := by
  rw [arr9_3]; unfold St9; exact if_pos rfl

/-- Row 1: per block of 2048 rows, the column sums of the squares of Z. -/
theorem arr9_3_apply1 (c : Dev nD) (ib : Fin 4) (j : Fin 4096) :
    (dat9 V c).arrAt 3 cfg9.N (ix3 ib (1 : Fin 2) j) = colSq ((dat9 V c).arrAt 2 cfg9.N) ib j := by
  rw [arr9_3]; unfold St9; exact if_neg (show ¬ ((1 : ℕ) = 0) by decide)

/-- The two input arrays are left as the region finds them. -/
theorem arr9_in (c : Dev nD) (w : Fin cfg9.W) (hw : (cfg9.win w).isOut = false) :
    (dat9 V c).arrAt w cfg9.N = V c (Pipeline.arrRef spec9 w) :=
  ((dat9 V c).arrAt_in w hw _).trans (A_eq9 V c w)

end Cert.KernelIdeal.Hand

end
-- ==== Proof.IVal10.lean ====
/- Region 10 of @main (one of the three normalize-and-sign kernels), read at the exact extended reals: after the
   region the output array holds, at row p and column q, the sign of
     scale q * (z p q - mean q) * rsqrt (variance q + eps) + shift q,
   in the body's own association, where z is the 8192x4096 array of pre-activations and mean, variance, scale and
   shift are the four 1x4096 rows the region reads. Each grid point writes back one 1024x1024 block of the output,
   computed from the same block of z and the same column block of the four rows, and the blocks of the 8x4 grid
   points fill the array. -/
import proofs.«139021_j54202487276022_2_alg».proof.Proof.IReg10
import proofs.«139021_j54202487276022_2_alg».proof.Proof.IValSign
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

theorem hz10 : (![0, 0] : Fin 2 → Nat) = fun _ => 0 := funext fun a => by fin_cases a <;> rfl

/-- The normalized, scaled and shifted pre-activation's sign at row p and column q, from the array z and the four
    rows, in the body's association. -/
def bnAt10 (Z : S8192x4096.Idx → EReal) (M Vr Gm Bt : S1x4096.Idx → EReal) (p : Fin 8192) (q : Fin 4096) : EReal :=
  sgnK (Gm (ix2 (0 : Fin 1) q) * (Z (ix2 p q) - M (ix2 (0 : Fin 1) q))
      * Ideal.rsqrt (Vr (ix2 (0 : Fin 1) q) + Ideal.ofBits .f32 0x3727C5AC#32) + Bt (ix2 (0 : Fin 1) q))

/-- What the output array ends holding: that value at every index's two coordinates. -/
def G10 (Z : S8192x4096.Idx → EReal) (M Vr Gm Bt : S1x4096.Idx → EReal) : S8192x4096.Idx → EReal :=
  fun i => bnAt10 Z M Vr Gm Bt (i 0) (i 1)

/-- The body's payload at row p and column q of the block, from the loaded blocks: each row operand is read at
    column q of its one row, the pre-activations at (p, q). -/
theorem pay10_apply (x0 : Vec Ideal S1024x1024 .f32) (x1 x2 x3 x4 : Vec Ideal S1x1024 .f32) (p : Fin 1024) (q : Fin 1024) :
    k10_pay1 x0 x1 x2 x3 x4 (ix2 p q)
      = sgnK (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) := by
  unfold k10_pay1
  simp only [shapeCast_self]
  refine (sign_payload_apply _ _ (ix2 p q)).trans (congrArg sgnK ?_)
  simp only [addf_apply, mulf_apply, subf_apply, broadcastTo_1b_ab_apply]
  rfl

/-- The six windows' block indices, decided over the grid: the pre-activations' block moves with the output's,
    each row operand's column block is the output's column block and its row block is zero. -/
theorem blk_facts10 : ∀ t : Fin cfg10.N, win10_0.index t (0 : Fin 2) = win10_5.index t (0 : Fin 2)
    ∧ win10_0.index t (1 : Fin 2) = win10_5.index t (1 : Fin 2)
    ∧ win10_1.index t (0 : Fin 2) = 0 ∧ win10_1.index t (1 : Fin 2) = win10_5.index t (1 : Fin 2)
    ∧ win10_2.index t (0 : Fin 2) = 0 ∧ win10_2.index t (1 : Fin 2) = win10_5.index t (1 : Fin 2)
    ∧ win10_3.index t (0 : Fin 2) = 0 ∧ win10_3.index t (1 : Fin 2) = win10_5.index t (1 : Fin 2)
    ∧ win10_4.index t (0 : Fin 2) = 0 ∧ win10_4.index t (1 : Fin 2) = win10_5.index t (1 : Fin 2)
    ∧ win10_5.index t (0 : Fin 2) < 8 ∧ win10_5.index t (1 : Fin 2) < 4 :=
  (by decide +kernel : ∀ t : Fin grid10.N, _)

/-- Every block of the output is some point's. -/
theorem blk_onto10 : ∀ (q0 : Fin 8) (q1 : Fin 4), ∃ t : Fin cfg10.N, win10_5.index t = ![q0.val, q1.val] :=
  (by decide +kernel : ∀ (q0 : Fin 8) (q1 : Fin 4), ∃ t : Fin grid10.N, win10_5.index t = ![q0.val, q1.val])

-- reading the six windows' blocks off the region's data unfolds each window's index map once
set_option maxHeartbeats 1000000 in
/-- What point t writes back is block t of G10 of the five input arrays as the region finds them. -/
theorem flushed10_5 (c : Dev nD) (t : Fin cfg10.N) :
    (dat10 V c).flushed 5 t = ((cfg10.win 5).blk t).view.read (Elt Ideal)
      (G10 (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat10 V c).after 5 t) = _
  rw [after10_5]
  unfold out10_5
  rw [View.canon_unit_zero hz10]
  simp only [View.ld_unit_zero (S := S1024x1024) hz10, View.ld_unit_zero (S := S1x1024) hz10]
  obtain ⟨e00, e01, e10, e11, e20, e21, e30, e31, e40, e41, e50, e51⟩ := blk_facts10 t
  funext j
  obtain ⟨p, q, rfl⟩ : ∃ (p : Fin 1024) (q : Fin 1024), j = ix2 p q := ⟨j 0, j 1, eq_ix2 j⟩
  show k10_pay1 (fun y => V c (Pipeline.arrRef spec10 0) (((cfg10.win 0).blk t).view.emb y))
      (fun y => V c (Pipeline.arrRef spec10 1) (((cfg10.win 1).blk t).view.emb y))
      (fun y => V c (Pipeline.arrRef spec10 2) (((cfg10.win 2).blk t).view.emb y))
      (fun y => V c (Pipeline.arrRef spec10 3) (((cfg10.win 3).blk t).view.emb y))
      (fun y => V c (Pipeline.arrRef spec10 4) (((cfg10.win 4).blk t).view.emb y)) (ix2 p q)
    = bnAt10 (V c (Pipeline.arrRef spec10 0)) (V c (Pipeline.arrRef spec10 1)) (V c (Pipeline.arrRef spec10 2))
        (V c (Pipeline.arrRef spec10 3)) (V c (Pipeline.arrRef spec10 4))
        (((cfg10.win 5).blk t).view.emb (ix2 p q) 0) (((cfg10.win 5).blk t).view.emb (ix2 p q) 1)
  rw [pay10_apply]
  unfold bnAt10
  have h0 : ((cfg10.win 0).blk t).view.emb (ix2 p q)
      = ix2 (((cfg10.win 5).blk t).view.emb (ix2 p q) 0) (((cfg10.win 5).blk t).view.emb (ix2 p q) 1) := by
    funext a; apply Fin.ext
    match a with
    | ⟨0, _⟩ => show win10_0.index t (0 : Fin 2) * 1024 + 1 * p.val = win10_5.index t (0 : Fin 2) * 1024 + 1 * p.val; omega
    | ⟨1, _⟩ => show win10_0.index t (1 : Fin 2) * 1024 + 1 * q.val = win10_5.index t (1 : Fin 2) * 1024 + 1 * q.val; omega
  have h1 : ((cfg10.win 1).blk t).view.emb (ix2 (0 : Fin 1) q) = ix2 (0 : Fin 1) (((cfg10.win 5).blk t).view.emb (ix2 p q) 1) := by
    funext a; apply Fin.ext
    match a with
    | ⟨0, _⟩ => show win10_1.index t (0 : Fin 2) * 1 + 1 * 0 = 0; omega
    | ⟨1, _⟩ => show win10_1.index t (1 : Fin 2) * 1024 + 1 * q.val = win10_5.index t (1 : Fin 2) * 1024 + 1 * q.val; omega
  have h2 : ((cfg10.win 2).blk t).view.emb (ix2 (0 : Fin 1) q) = ix2 (0 : Fin 1) (((cfg10.win 5).blk t).view.emb (ix2 p q) 1) := by
    funext a; apply Fin.ext
    match a with
    | ⟨0, _⟩ => show win10_2.index t (0 : Fin 2) * 1 + 1 * 0 = 0; omega
    | ⟨1, _⟩ => show win10_2.index t (1 : Fin 2) * 1024 + 1 * q.val = win10_5.index t (1 : Fin 2) * 1024 + 1 * q.val; omega
  have h3 : ((cfg10.win 3).blk t).view.emb (ix2 (0 : Fin 1) q) = ix2 (0 : Fin 1) (((cfg10.win 5).blk t).view.emb (ix2 p q) 1) := by
    funext a; apply Fin.ext
    match a with
    | ⟨0, _⟩ => show win10_3.index t (0 : Fin 2) * 1 + 1 * 0 = 0; omega
    | ⟨1, _⟩ => show win10_3.index t (1 : Fin 2) * 1024 + 1 * q.val = win10_5.index t (1 : Fin 2) * 1024 + 1 * q.val; omega
  have h4 : ((cfg10.win 4).blk t).view.emb (ix2 (0 : Fin 1) q) = ix2 (0 : Fin 1) (((cfg10.win 5).blk t).view.emb (ix2 p q) 1) := by
    funext a; apply Fin.ext
    match a with
    | ⟨0, _⟩ => show win10_4.index t (0 : Fin 2) * 1 + 1 * 0 = 0; omega
    | ⟨1, _⟩ => show win10_4.index t (1 : Fin 2) * 1024 + 1 * q.val = win10_5.index t (1 : Fin 2) * 1024 + 1 * q.val; omega
  rw [h0, h1, h2, h3, h4]
  rfl

/-- An index of the output array is in point t's block iff each coordinate is in the block's range on its axis. -/
theorem mem_blk10 (t : Fin cfg10.N) (i : S8192x4096.Idx) :
    i ∈ ((cfg10.win 5).blk t).view.set ↔ ∀ a : Fin 2, win10_5.index t a * S1024x1024.size a ≤ (i a).val ∧ (i a).val < win10_5.index t a * S1024x1024.size a + S1024x1024.size a := by
  show i ∈ ((View.whole (Pipeline.arrRef spec10 5)).slice (win10_5.rect t)).set ↔ _
  rw [View.set_slice_whole, Rect.mem_set_unit]
  exact Iff.rfl

/-- Every index of the output array is in the block of the point whose row block and column block hold it. -/
theorem cover_all10 (i : S8192x4096.Idx) :
    ∃ t : Fin cfg10.N, (cfg10.win 5).flush t = true ∧ i ∈ ((cfg10.win 5).blk t).view.set := by
  have hi0 : (i 0).val < 8192 := (i 0).isLt
  have hi1 : (i 1).val < 4096 := (i 1).isLt
  obtain ⟨t, ht⟩ := blk_onto10 ⟨(i 0).val / 1024, by omega⟩ ⟨(i 1).val / 1024, by omega⟩
  have q0 : win10_5.index t (0 : Fin 2) = (i 0).val / 1024 := congrFun ht 0
  have q1 : win10_5.index t (1 : Fin 2) = (i 1).val / 1024 := congrFun ht 1
  refine ⟨t, flush10_5 t, ?_⟩
  rw [mem_blk10]
  intro a
  match a with
  | ⟨0, _⟩ => show win10_5.index t (0 : Fin 2) * 1024 ≤ (i 0).val ∧ (i 0).val < win10_5.index t (0 : Fin 2) * 1024 + 1024; omega
  | ⟨1, _⟩ => show win10_5.index t (1 : Fin 2) * 1024 ≤ (i 1).val ∧ (i 1).val < win10_5.index t (1 : Fin 2) * 1024 + 1024; omega

/-- The output array after the region: G10 of the five input arrays as the region finds them. -/
theorem arr10_5 (c : Dev nD) : (dat10 V c).arrAt 5 cfg10.N
    = G10 (V c (Pipeline.arrRef spec10 0)) (V c (Pipeline.arrRef spec10 1)) (V c (Pipeline.arrRef spec10 2))
        (V c (Pipeline.arrRef spec10 3)) (V c (Pipeline.arrRef spec10 4)) :=
  (dat10 V c).arrAt_eq_of_cover 5 _ (fun t _ => flushed10_5 V c t) cover_all10

/-- The same, entry by entry over the two coordinates: window 0 is the pre-activations, windows 1 to 4 the mean, the
    variance, the scale and the shift. -/
theorem arr10_5_apply (c : Dev nD) (p : Fin 8192) (q : Fin 4096) :
    (dat10 V c).arrAt 5 cfg10.N (ix2 p q)
      = bnAt10 (V c (Pipeline.arrRef spec10 0)) (V c (Pipeline.arrRef spec10 1)) (V c (Pipeline.arrRef spec10 2))
          (V c (Pipeline.arrRef spec10 3)) (V c (Pipeline.arrRef spec10 4)) p q :=
  congrFun (arr10_5 V c) (ix2 p q)

/-- The five input arrays are left as the region finds them. -/
theorem arr10_in (c : Dev nD) (w : Fin cfg10.W) (hw : (cfg10.win w).isOut = false) :
    (dat10 V c).arrAt w cfg10.N = V c (Pipeline.arrRef spec10 w) :=
  ((dat10 V c).arrAt_in w hw _).trans (A_eq10 V c w)

end Cert.KernelIdeal.Hand

end
-- ==== Proof.IVal11.lean ====
/- Region 11 (the head product), read at the exact extended reals. Each of the sixteen grid points takes one block of
   512 rows of the first input and the whole second input, zeroes the accumulator, adds the product of the two blocks
   (all 4096 products of each pair of rows at once), and writes the accumulator back as its block of the output. The
   sixteen blocks tile the output array. -/
import proofs.«139021_j54202487276022_2_alg».proof.Proof.IReg11
import proofs.«139021_j54202487276022_2_alg».proof.Proof.LibRowsDot
import proofs.«139021_j54202487276022_2_alg».proof.Proof.ProdAt
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx
open scoped BigOperators

theorem hz11 : (![0, 0] : Fin 2 → Nat) = fun _ => 0 := funext fun a => by fin_cases a <;> rfl

/-! ## What the body leaves, as a payload of its inputs (any float values) -/

section Pieces

variable {F : FTy → Type} [FloatOps F]

/-- The output block is the accumulator read back: the zero block plus the product of the two input blocks. -/
theorem out11_2_eq (c : Dev nD) (i : grid11.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (hc0 : cond11_0 i) (hc1 : cond11_1 i) (x0 : Vec F S512x4096 .bf16) (x1 : Vec F S1024x4096 .bf16) :
    out11_2 c i arg3 harg3 arg4 harg4 arg5 harg5 arg6 harg6 hc0 hc1 x0 x1 = k11_pay2 (k11_pay1 (F := F)) x0 x1 := by
  unfold out11_2
  rw [View.read_writes_eq_canon _ _ _ (cover11_2 c i arg3 harg3 arg4 harg4 arg5 harg5 arg6 harg6 hc0 hc1 x0 x1)]
  unfold kernelRun11
  dsimp only
  sl_unfold_words
  rw [View.canon_unit_zero hz11]
  rw [View.readCov_eq_canon_ld _ _ _ (fun y => ⟨_, List.mem_cons_self, View.mem_set_unit_zero hz11 inb_S512x1024_S512x1024_0_0 y⟩)]
  rw [View.canon_cons_unit_zero (S := S512x1024) hz11, View.ld_unit_zero (S := S512x1024) hz11, View.readCov_unit_zero (S := S512x1024) _ hz11]
  simp only [View.readAt_eq_ld, harg3.read_unread, harg4.read_unread, View.ld_unit_zero (S := S512x4096) hz11, View.ld_unit_zero (S := S1024x4096) hz11]

end Pieces

/-! ## The payloads at an entry, over the extended reals -/

theorem reads11 : Cert.Lib.RowsDot.Reads (R := 512) (K := 4096) (C := 1024) dot_S512x4096_S1024x4096_S512x1024_1_1_0_0_n_n :=
  ⟨rfl, rfl, fun _ _ => rfl, fun _ _ => rfl, fun _ _ => rfl, fun _ _ => rfl⟩

/-- The zero block. -/
theorem pay11_1_apply (j : S512x1024.Idx) : k11_pay1 (F := Ideal) j = 0 := by
  unfold k11_pay1
  simp only [shapeCast_self]
  exact Ideal.ofBits_zero_f32

/-- The accumulator's update at an entry: what it held plus the 4096 products of the two blocks' rows. -/
theorem pay11_2_apply (xs : Vec Ideal S512x1024 .f32) (x0 : Vec Ideal S512x4096 .bf16) (x1 : Vec Ideal S1024x4096 .bf16) (r : Fin 512) (cc : Fin 1024) :
    k11_pay2 (F := Ideal) xs x0 x1 (ix2 r cc) = xs (ix2 r cc) + ∑ q : Fin 4096, x0 (ix2 r q) * x1 (ix2 cc q) := by
  unfold k11_pay2
  simp only [shapeCast_self]
  exact congrArg (xs (ix2 r cc) + ·) (Cert.Lib.RowsDot.matmul_zero_apply reads11 none x0 x1 r cc)

/-! ## The windows' block indices over the grid -/

/-- Point t: the first input's block and the output's are row block t; the second input has one block. -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- Every row block of the output is some point's. -/
theorem blk_onto11_2 : ∀ (q0 : Fin 16), ∃ t : Fin cfg11.N, win11_2.index t = ![q0.val, 0] :=
  (by decide +kernel : ∀ (q0 : Fin 16), ∃ t : Fin grid11.N, win11_2.index t = ![q0.val, 0])

-- the TensorCore's buffer contents when the region is entered
variable (V : (c : Dev nD) → (b : Ref sig .tc) → Buf (Elt Ideal) ((c : Thread nD τ).loc b))

/-! ## The input blocks at an entry -/

theorem iblk11_0_apply (c : Dev nD) (t : Fin cfg11.N) (r : Fin 512) (q : Fin 4096) (p : Fin 8192)
    (hp : p.val = t.val * 512 + r.val) :
    iblk11 V c 0 t (ix2 r q) = V c (Pipeline.arrRef spec11 0) (ix2 p q) := by
  obtain ⟨e0, e1, -⟩ := idx_facts11 t
  unfold iblk11
  rw [View.read_apply]
  refine congrArg (V c (Pipeline.arrRef spec11 0)) ?_
  funext a; apply Fin.ext
  match a with
  | ⟨0, _⟩ => show win11_0.index t (0 : Fin 2) * 512 + 1 * r.val = p.val; omega
  | ⟨1, _⟩ => show win11_0.index t (1 : Fin 2) * 4096 + 1 * q.val = q.val; omega

theorem iblk11_1_apply (c : Dev nD) (t : Fin cfg11.N) (cc : Fin 1024) (q : Fin 4096) :
    iblk11 V c 1 t (ix2 cc q) = V c (Pipeline.arrRef spec11 1) (ix2 cc q) := by
  obtain ⟨-, -, e0, e1, -⟩ := idx_facts11 t
  unfold iblk11
  rw [View.read_apply]
  refine congrArg (V c (Pipeline.arrRef spec11 1)) ?_
  funext a; apply Fin.ext
  match a with
  | ⟨0, _⟩ => show win11_1.index t (0 : Fin 2) * 1024 + 1 * cc.val = cc.val; omega
  | ⟨1, _⟩ => show win11_1.index t (1 : Fin 2) * 4096 + 1 * q.val = q.val; omega

/-! ## The output array -/

/-- Entry (i, j) of the head product: the 4096 products of row i of the first input with row j of the second, added. -/
def Z11 (A : S8192x4096.Idx → EReal) (W : S1024x4096.Idx → EReal) : S8192x1024.Idx → EReal :=
  fun i => ∑ k : Fin 4096, A (ix2 (i 0) k) * W (ix2 (i 1) k)

theorem Z11_apply (A : S8192x4096.Idx → EReal) (W : S1024x4096.Idx → EReal) (i : Fin 8192) (j : Fin 1024) :
    Z11 A W (ix2 i j) = ∑ k : Fin 4096, A (ix2 i k) * W (ix2 j k) := rfl

/-- The output block of point t at an entry. -/
theorem outAt11_apply (c : Dev nD) (t : Fin cfg11.N) (r : Fin 512) (cc : Fin 1024) (p : Fin 8192) (hp : p.val = t.val * 512 + r.val) :
    outAt11 V c t (ix2 r cc) = Z11 (V c (Pipeline.arrRef spec11 0)) (V c (Pipeline.arrRef spec11 1)) (ix2 p cc) := by
  unfold outAt11
  rw [out11_2_eq, pay11_2_apply, pay11_1_apply, zero_add, Z11_apply]
  exact Finset.sum_congr rfl fun k _ => by rw [iblk11_0_apply V c t r k p hp, iblk11_1_apply V c t cc k]

/-- What point t writes back is its block of the head product. -/
theorem flushed11_2 (c : Dev nD) (t : Fin cfg11.N) :
    (dat11 V c).flushed 2 t = ((cfg11.win 2).blk t).view.read (Elt Ideal) (Z11 (V c (Pipeline.arrRef spec11 0)) (V c (Pipeline.arrRef spec11 1))) := by
  obtain ⟨-, -, -, -, e0, e1⟩ := idx_facts11 t
  have hN : t.val < 16 := lt_of_lt_of_eq t.isLt (show cfg11.N = 16 from N_11)
  show (cfg11.win 2).cut (grid11.coords t) ((dat11 V c).after 2 t) = _
  rw [after11_2]
  funext j
  obtain ⟨r, cc, rfl⟩ : ∃ (r : Fin 512) (cc : Fin 1024), j = ix2 r cc := ⟨j 0, j 1, eq_ix2 (n0 := 512) (n1 := 1024) j⟩
  have hidx : ((cfg11.win 2).blk t).view.emb (ix2 r cc) = ix2 (⟨t.val * 512 + r.val, by have := r.isLt; omega⟩ : Fin 8192) cc := by
    funext a; apply Fin.ext
    match a with
    | ⟨0, _⟩ => show win11_2.index t (0 : Fin 2) * 512 + 1 * r.val = t.val * 512 + r.val; omega
    | ⟨1, _⟩ => show win11_2.index t (1 : Fin 2) * 1024 + 1 * cc.val = cc.val; omega
  show outAt11 V c t (ix2 r cc) = Z11 (V c (Pipeline.arrRef spec11 0)) (V c (Pipeline.arrRef spec11 1)) (((cfg11.win 2).blk t).view.emb (ix2 r cc))
  rw [hidx]
  exact outAt11_apply V c t r cc _ rfl

theorem mem_blk11_2 (t : Fin cfg11.N) (i : S8192x1024.Idx) :
    i ∈ ((cfg11.win 2).blk t).view.set ↔ ∀ a : Fin 2, win11_2.index t a * S512x1024.size a ≤ (i a).val ∧ (i a).val < win11_2.index t a * S512x1024.size a + S512x1024.size a := by
  show i ∈ ((View.whole (Pipeline.arrRef spec11 2)).slice (win11_2.rect t)).set ↔ _
  rw [View.set_slice_whole, Rect.mem_set_unit]
  exact Iff.rfl

theorem cover_all11_2 (i : S8192x1024.Idx) :
    ∃ t : Fin cfg11.N, (cfg11.win 2).flush t = true ∧ i ∈ ((cfg11.win 2).blk t).view.set := by
  have hi0 : (i 0).val < 8192 := (i 0).isLt
  have hi1 : (i 1).val < 1024 := (i 1).isLt
  obtain ⟨t, ht⟩ := blk_onto11_2 ⟨(i 0).val / 512, by omega⟩
  have q0 : win11_2.index t (0 : Fin 2) = (i 0).val / 512 := congrFun ht 0
  have q1 : win11_2.index t (1 : Fin 2) = 0 := congrFun ht 1
  refine ⟨t, flush11_2 t, ?_⟩
  rw [mem_blk11_2]
  intro a
  match a with
  | ⟨0, _⟩ => show win11_2.index t (0 : Fin 2) * 512 ≤ (i 0).val ∧ (i 0).val < win11_2.index t (0 : Fin 2) * 512 + 512; omega
  | ⟨1, _⟩ => show win11_2.index t (1 : Fin 2) * 1024 ≤ (i 1).val ∧ (i 1).val < win11_2.index t (1 : Fin 2) * 1024 + 1024; omega

/-- The output array after the region. -/
theorem arr11_2 (c : Dev nD) : (dat11 V c).arrAt 2 cfg11.N = Z11 (V c (Pipeline.arrRef spec11 0)) (V c (Pipeline.arrRef spec11 1)) :=
  (dat11 V c).arrAt_eq_of_cover 2 (Z11 (V c (Pipeline.arrRef spec11 0)) (V c (Pipeline.arrRef spec11 1))) (fun t _ => flushed11_2 V c t) cover_all11_2

/-- The same, entry by entry. -/
theorem arr11_2_apply (c : Dev nD) (i : Fin 8192) (j : Fin 1024) :
    (dat11 V c).arrAt 2 cfg11.N (ix2 i j)
      = dotAt (R := 8192) (C := 1024) (K := 4096) (V c (Pipeline.arrRef spec11 0)) (V c (Pipeline.arrRef spec11 1)) i j :=
  congrFun (arr11_2 V c) (ix2 i j)

/-- The two input arrays are left as the region finds them. -/
theorem arr11_in (c : Dev nD) (w : Fin cfg11.W) (hw : (cfg11.win w).isOut = false) :
    (dat11 V c).arrAt w cfg11.N = V c (Pipeline.arrRef spec11 w) :=
  ((dat11 V c).arrAt_in w hw _).trans (A_eq11 V c w)

end Cert.KernelIdeal.Hand

end
-- ==== Proof.IHost.lean ====
/-
  The host operations between the kernel's regions, as whole-array functions.

  After a product region has left, per block of 2048 rows, the column sums and the column sums of squares of its
  block of Z (an array [4, 2, 4096]: row block, which of the two, column), the host adds the four partial rows
  (sumRow0, sumRow1), divides by the 8192 rows (meanRow; the mean square), subtracts the squared mean and clamps at
  zero (varRow), and lays the scale and shift vectors out as rows (rowOf).  Before the head product it pads the head
  weight [1000, 4096] with 24 zero rows (padRows); after it, it keeps the first 1000 of the 1024 columns (keepCols).
  Each is read here at an index, over the extended reals.
-/
import proofs.«139021_j54202487276022_2_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx Cert.KernelIdeal Cert.KernelIdeal.Gen
open scoped BigOperators

variable {F : FTy → Type} [FloatOps F]

/-! ## The stages -/

/-- The four row blocks' column sums, added: a [1, 4096] row. -/
def sumRow0 (st : FVec F S4x2x4096 .f32) : FVec F S1x4096 .f32 :=
  broadcastInDim S1x4096 ![1] bcast_S4096_S1x4096_1
    (Host.reduceAdd (shapeCast S4x4096 (extractStridedSlice S4x1x4096 ![0, 0, 0] st slices_S4x2x4096_S4x1x4096_0_0_0) shapeCasts_S4x1x4096_S4x4096)
      (constant S_ .f32 0x00000000#32) reducesTo_S4x4096_S4096_d0 h_S_)

/-- The four row blocks' column sums of squares, added. -/
def sumRow1 (st : FVec F S4x2x4096 .f32) : FVec F S1x4096 .f32 :=
  broadcastInDim S1x4096 ![1] bcast_S4096_S1x4096_1
    (Host.reduceAdd (shapeCast S4x4096 (extractStridedSlice S4x1x4096 ![0, 1, 0] st slices_S4x2x4096_S4x1x4096_0_1_0) shapeCasts_S4x1x4096_S4x4096)
      (constant S_ .f32 0x00000000#32) reducesTo_S4x4096_S4096_d0 h_S_)

/-- The number of rows, 8192, along a row. -/
def rowsRow : FVec F S1x4096 .f32 := broadcastInDim S1x4096 ![] bcast_S_S1x4096 (constant S_ .f32 0x46000000#32)

/-- The column means. -/
def meanRow (st : FVec F S4x2x4096 .f32) : FVec F S1x4096 .f32 := Host.divf (sumRow0 st) rowsRow

/-- The column variances in one pass: mean square less squared mean, clamped at zero. -/
def varRow (st : FVec F S4x2x4096 .f32) : FVec F S1x4096 .f32 :=
  maximumf (subf (Host.divf (sumRow1 st) rowsRow) (mulf (meanRow st) (meanRow st)))
    (broadcastInDim S1x4096 ![] bcast_S_S1x4096 (constant S_ .f32 0x00000000#32))

/-- A vector of 4096 entries laid out as a [1, 4096] row. -/
def rowOf (v : FVec F S4096 .f32) : FVec F S1x4096 .f32 := shapeCast S1x4096 v shapeCasts_S4096_S1x4096

/-- The head weight with 24 rows of zeros below it. -/
def padRows (w : FVec F S1000x4096 .f32) : FVec F S1024x4096 .f32 :=
  pad S1024x4096 ![0, 0] ![24, 0] ![0, 0] w (sitofp .f32 (constantI S_ 32 0#32)) pads_S1000x4096_S1024x4096_0240_000 h_S_

/-- The first 1000 columns. -/
def keepCols (o : FVec F S8192x1024 .f32) : FVec F S8192x1000 .f32 :=
  extractStridedSlice S8192x1000 ![0, 0] o slices_S8192x1024_S8192x1000_0_0

/-! ## The stretches read back, over any buffer contents -/

section ReadBack
variable (X : Valuation τ sig (Elt F))

theorem host6_mean : (StableHlo.after (hostOps6 (F := F)) X (Proc.devRef .tc main_v16) : FVec F S1x4096 .f32)
    = meanRow (X (Proc.devRef .tc main_v6_1)) := by after_results; rfl
theorem host6_var : (StableHlo.after (hostOps6 (F := F)) X (Proc.devRef .tc main_v22) : FVec F S1x4096 .f32)
    = varRow (X (Proc.devRef .tc main_v6_1)) := by after_results; rfl
theorem host6_scale : (StableHlo.after (hostOps6 (F := F)) X (Proc.devRef .tc main_v23) : FVec F S1x4096 .f32)
    = rowOf (X (Proc.devRef .tc main_arg2)) := by after_results; rfl
theorem host6_shift : (StableHlo.after (hostOps6 (F := F)) X (Proc.devRef .tc main_v24) : FVec F S1x4096 .f32)
    = rowOf (X (Proc.devRef .tc main_arg3)) := by after_results; rfl

set_option maxHeartbeats 2000000 in
theorem host8_mean : (StableHlo.after (hostOps8 (F := F)) X (Proc.devRef .tc main_v36) : FVec F S1x4096 .f32)
    = meanRow (X (Proc.devRef .tc main_v26_1)) := by after_results; rfl
set_option maxHeartbeats 2000000 in
theorem host8_var : (StableHlo.after (hostOps8 (F := F)) X (Proc.devRef .tc main_v42) : FVec F S1x4096 .f32)
    = varRow (X (Proc.devRef .tc main_v26_1)) := by after_results; rfl
set_option maxHeartbeats 2000000 in
theorem host8_scale : (StableHlo.after (hostOps8 (F := F)) X (Proc.devRef .tc main_v43) : FVec F S1x4096 .f32)
    = rowOf (X (Proc.devRef .tc main_arg5)) := by after_results; rfl
set_option maxHeartbeats 2000000 in
theorem host8_shift : (StableHlo.after (hostOps8 (F := F)) X (Proc.devRef .tc main_v44) : FVec F S1x4096 .f32)
    = rowOf (X (Proc.devRef .tc main_arg6)) := by after_results; rfl

set_option maxHeartbeats 2000000 in
theorem host10_mean : (StableHlo.after (hostOps10 (F := F)) X (Proc.devRef .tc main_v56) : FVec F S1x4096 .f32)
    = meanRow (X (Proc.devRef .tc main_v46_1)) := by after_results; rfl
set_option maxHeartbeats 2000000 in
theorem host10_var : (StableHlo.after (hostOps10 (F := F)) X (Proc.devRef .tc main_v62) : FVec F S1x4096 .f32)
    = varRow (X (Proc.devRef .tc main_v46_1)) := by after_results; rfl
set_option maxHeartbeats 2000000 in
theorem host10_scale : (StableHlo.after (hostOps10 (F := F)) X (Proc.devRef .tc main_v63) : FVec F S1x4096 .f32)
    = rowOf (X (Proc.devRef .tc main_arg8)) := by after_results; rfl
set_option maxHeartbeats 2000000 in
theorem host10_shift : (StableHlo.after (hostOps10 (F := F)) X (Proc.devRef .tc main_v64) : FVec F S1x4096 .f32)
    = rowOf (X (Proc.devRef .tc main_arg9)) := by after_results; rfl

set_option maxHeartbeats 2000000 in
theorem host4_pad : (StableHlo.after (hostOps4_1 (F := F)) (StableHlo.after (hostOps4 (F := F)) X) (Proc.devRef .tc main_v4) : FVec F S1024x4096 .f32)
    = padRows (X (Proc.devRef .tc main_arg10)) := by after_results; rfl
set_option maxHeartbeats 2000000 in
theorem host12_keep : (StableHlo.after (hostOps12 (F := F)) X (Proc.devRef .tc main_v67) : FVec F S8192x1000 .f32)
    = keepCols (X (Proc.devRef .tc main_v66)) := by after_results; rfl

end ReadBack

end Cert.KernelIdeal.Hand

end
-- ==== Proof.IHostAt.lean ====
/-
  The host stages between the kernel's regions, read at an index over the extended reals: a partial-sum row is the
  zero word plus the sum of the four blocks' entries of that column; the mean divides it by the word 8192; the
  variance is the mean square less the squared mean, clamped at the zero word; a vector laid out as a row reads its
  entry; the padded head weight reads the weight on its first 1000 rows; the kept columns read themselves.
-/
import proofs.«139021_j54202487276022_2_alg».proof.Proof.IHost

noncomputable section

namespace Cert.KernelIdeal.Hand

open Idealize.ShloMosaic Idealize.ShloMosaic.TcCoe Idealize.ShloMosaic.ValueIdx Cert.KernelIdeal Cert.KernelIdeal.Gen
open scoped BigOperators

theorem red4 : Shape.Reduces S4x4096 [0] S4096 := by decide

set_option maxHeartbeats 1000000 in
theorem sumRow0_apply (st : FVec Ideal S4x2x4096 .f32) (j : Fin 4096) :
    sumRow0 (F := Ideal) st (ix2 (0 : Fin 1) j)
      = Ideal.ofBits .f32 0x00000000#32 + ∑ ib : Fin 4, st (ix3 ib (0 : Fin 2) j) := by
  unfold sumRow0
  rw [broadcastInDim_apply ![1] bcast_S4096_S1x4096_1 _ (ix2 (0 : Fin 1) j) (ix1 j)
        (fun a => by match a with | ⟨0, _⟩ => rfl)]
  rw [hostReduceAdd_apply, Ideal.hostReduceAdd_single _ red4]
  congr 1
  refine Finset.sum_congr rfl fun (ib : Fin 4) _ => ?_
  have hk : (S4x1x4096.rowMajor (ix3 ib (0 : Fin 1) j)).val = (S4x4096.rowMajor (red4.lift (ix1 j) ib)).val := by
    rw [Shape.rowMajor_val_three, Shape.rowMajor_val_two]
    show (ib.val * 1 + 0) * 4096 + j.val = ib.val * 4096 + j.val
    omega
  exact (shapeCast_apply (extractStridedSlice S4x1x4096 ![0, 0, 0] st _) shapeCasts_S4x1x4096_S4x4096 _ (ix3 ib (0 : Fin 1) j) hk).trans
    (slice3_axis1_apply 0 st _ ib (0 : Fin 1) j (0 : Fin 2) rfl)

set_option maxHeartbeats 1000000 in
theorem sumRow1_apply (st : FVec Ideal S4x2x4096 .f32) (j : Fin 4096) :
    sumRow1 (F := Ideal) st (ix2 (0 : Fin 1) j)
      = Ideal.ofBits .f32 0x00000000#32 + ∑ ib : Fin 4, st (ix3 ib (1 : Fin 2) j) := by
  unfold sumRow1
  rw [broadcastInDim_apply ![1] bcast_S4096_S1x4096_1 _ (ix2 (0 : Fin 1) j) (ix1 j)
        (fun a => by match a with | ⟨0, _⟩ => rfl)]
  rw [hostReduceAdd_apply, Ideal.hostReduceAdd_single _ red4]
  congr 1
  refine Finset.sum_congr rfl fun (ib : Fin 4) _ => ?_
  have hk : (S4x1x4096.rowMajor (ix3 ib (0 : Fin 1) j)).val = (S4x4096.rowMajor (red4.lift (ix1 j) ib)).val := by
    rw [Shape.rowMajor_val_three, Shape.rowMajor_val_two]
    show (ib.val * 1 + 0) * 4096 + j.val = ib.val * 4096 + j.val
    omega
  exact (shapeCast_apply (extractStridedSlice S4x1x4096 ![0, 1, 0] st _) shapeCasts_S4x1x4096_S4x4096 _ (ix3 ib (0 : Fin 1) j) hk).trans
    (slice3_axis1_apply 1 st _ ib (0 : Fin 1) j (1 : Fin 2) rfl)

theorem rowsRow_apply (i : S1x4096.Idx) : rowsRow (F := Ideal) i = Ideal.ofBits .f32 0x46000000#32 := by
  unfold rowsRow; rw [broadcastInDim_scalar_apply]; rfl

theorem meanRow_apply (st : FVec Ideal S4x2x4096 .f32) (j : Fin 4096) :
    meanRow (F := Ideal) st (ix2 (0 : Fin 1) j)
      = Ideal.div (Ideal.ofBits .f32 0x00000000#32 + ∑ ib : Fin 4, st (ix3 ib (0 : Fin 2) j)) (Ideal.ofBits .f32 0x46000000#32) := by
  unfold meanRow; rw [hostDivf_apply, sumRow0_apply, rowsRow_apply]

theorem varRow_apply (st : FVec Ideal S4x2x4096 .f32) (j : Fin 4096) :
    varRow (F := Ideal) st (ix2 (0 : Fin 1) j)
      = max (Ideal.div (Ideal.ofBits .f32 0x00000000#32 + ∑ ib : Fin 4, st (ix3 ib (1 : Fin 2) j)) (Ideal.ofBits .f32 0x46000000#32)
              - meanRow (F := Ideal) st (ix2 (0 : Fin 1) j) * meanRow (F := Ideal) st (ix2 (0 : Fin 1) j))
          (Ideal.ofBits .f32 0x00000000#32) := by
  unfold varRow
  show max (Ideal.div (sumRow1 (F := Ideal) st (ix2 (0 : Fin 1) j)) (rowsRow (F := Ideal) (ix2 (0 : Fin 1) j)) - _ * _)
      (broadcastInDim S1x4096 ![] bcast_S_S1x4096 (constant (F := Ideal) S_ .f32 0x00000000#32) (ix2 (0 : Fin 1) j)) = _
  rw [sumRow1_apply, rowsRow_apply, broadcastInDim_scalar_apply]; rfl

theorem rowOf_apply (v : FVec Ideal S4096 .f32) (u : Fin 1) (j : Fin 4096) :
    rowOf (F := Ideal) v (ix2 u j) = v (ix1 j) := by
  unfold rowOf; exact shapeCast_a_1a_apply v _ u j

/-- On its first 1000 rows the padded head weight is the head weight. -/
theorem padRows_apply (w : FVec Ideal S1000x4096 .f32) (r : Fin 1024) (hr : r.val < 1000) (k : Fin 4096) :
    padRows (F := Ideal) w (ix2 r k) = w (ix2 (⟨r.val, hr⟩ : Fin 1000) k) := by
  unfold padRows
  exact pad_apply_of_inside _ _ _ w _ _ _ (ix2 r k) (ix2 (⟨r.val, hr⟩ : Fin 1000) k) (fun a => by
    match a with
    | ⟨0, _⟩ => show r.val = 0 + r.val * (0 + 1); omega
    | ⟨1, _⟩ => show k.val = 0 + k.val * (0 + 1); omega)

theorem keepCols_apply (o : FVec Ideal S8192x1024 .f32) (i : Fin 8192) (j : Fin 1000) :
    keepCols (F := Ideal) o (ix2 i j) = o (ix2 i (⟨j.val, by omega⟩ : Fin 1024)) := by
  unfold keepCols
  exact extractStridedSlice_apply _ o _ (ix2 i j) (ix2 i (⟨j.val, by omega⟩ : Fin 1024)) (fun a => by
    match a with
    | ⟨0, _⟩ => show i.val = 0 + i.val; omega
    | ⟨1, _⟩ => show j.val = 0 + j.val; omega)

end Cert.KernelIdeal.Hand

end
-- ==== Proof.LayerLaw.lean ====
import proofs.«139021_j54202487276022_2_alg».proof.Proof.ColumnLaw

/-!
# One network, two arrangements

Over matrices of extended reals indexed by `Fin`, this module states the network both programs compute and shows the
two arrangements equal.

A hidden layer takes activations `H` (8192 rows, 4096 columns) and weights `W` (4096 rows, 4096 columns), forms
`Z i j = ∑ k, sign (H i k) * sign (W j k)`, normalizes every column of `Z` by its mean and variance over the 8192 rows,
scales by `g j`, shifts by `b j`, and takes the sign.  The two arrangements differ only in the column statistics:

* one sums each column in four blocks of 2048 rows, takes `mean = (∑ Z) / 8192` and the one-pass variance
  `max ((∑ Z²) / 8192 - mean², 0)`;
* the other sums the 8192 rows at once and takes the two-pass variance `(∑ (Z - mean)²) / 8192`.

Every entry of `Z` is a finite sum of products of signs, hence a real number, and for real columns the two variances
agree (`Cert.ColumnLaw.var_forms`): no hypothesis on the inputs is needed.  The output of a layer is a sign, so the
sign the next layer applies to it changes nothing (`Cert.Moments.sign_sign`).
-/

noncomputable section

namespace Cert.LayerLaw

open Idealize.ShloMosaic Cert.Moments Cert.ColumnLaw
open scoped BigOperators

/-- A matrix of extended reals with `R` rows and `C` columns. -/
abbrev Mat (R C : ℕ) := Fin R → Fin C → EReal

/-- Rows against rows: entry `(i, j)` is `∑ k, A i k * B j k`. -/
def rowsDot {R C K : ℕ} (A : Mat R K) (B : Mat C K) : Mat R C := fun i j => ∑ k : Fin K, A i k * B j k

/-- The sign, entry by entry. -/
def sgn {R C : ℕ} (A : Mat R C) : Mat R C := fun i j => Ideal.sign (A i j)

/-- The mean of column `j` over all 8192 rows at once. -/
def meanR (Z : Mat 8192 4096) (j : Fin 4096) : EReal :=
  Ideal.div (Ideal.ofBits .f32 0x00000000#32 + ∑ i : Fin 8192, Z i j) (Ideal.ofBits .f32 0x46000000#32)

/-- The two-pass variance of column `j`: the mean of the squared deviations from the column's mean. -/
def varR (Z : Mat 8192 4096) (j : Fin 4096) : EReal :=
  Ideal.div (Ideal.ofBits .f32 0x00000000#32 + ∑ i : Fin 8192, (Z i j - meanR Z j) * (Z i j - meanR Z j))
    (Ideal.ofBits .f32 0x46000000#32)

/-- The mean of column `j` from the sums of four blocks of 2048 rows. -/
def meanK (Z : Mat 8192 4096) (j : Fin 4096) : EReal :=
  Ideal.div (Ideal.ofBits .f32 0x00000000#32 + ∑ ib : Fin 4, ∑ r : Fin 2048, Z (blk ib r) j)
    (Ideal.ofBits .f32 0x46000000#32)

/-- The one-pass variance of column `j`, clamped at zero: the mean of the squares minus the square of the mean. -/
def varK (Z : Mat 8192 4096) (j : Fin 4096) : EReal :=
  max (Ideal.div (Ideal.ofBits .f32 0x00000000#32 + ∑ ib : Fin 4, ∑ r : Fin 2048, Z (blk ib r) j * Z (blk ib r) j)
          (Ideal.ofBits .f32 0x46000000#32)
        - meanK Z j * meanK Z j)
    (Ideal.ofBits .f32 0x00000000#32)

/-- Normalize, scale, shift, and take the sign. -/
def act (Z : Mat 8192 4096) (mean var g b : Fin 4096 → EReal) : Mat 8192 4096 := fun i j =>
  Ideal.sign (g j * (Z i j - mean j) * Ideal.rsqrt (var j + Ideal.ofBits .f32 0x3727C5AC#32) + b j)

theorem meanK_eq (Z : Mat 8192 4096) (j : Fin 4096) : meanK Z j = meanR Z j :=
  mean_forms (fun i => Z i j)

/-- For a column of real numbers the clamped one-pass variance is the two-pass variance. -/
theorem varK_eq (Z : Mat 8192 4096) (j : Fin 4096) (hZ : ∀ i, ∃ r : ℝ, Z i j = (r : EReal)) :
    varK Z j = varR Z j := by
  unfold varK varR
  rw [meanK_eq]
  exact var_forms (fun i => Z i j) hZ (meanR Z j) rfl

/-- A hidden layer with the block statistics; its inputs are already signs. -/
def layerK (H : Mat 8192 4096) (Wk : Mat 4096 4096) (g b : Fin 4096 → EReal) : Mat 8192 4096 :=
  act (rowsDot H Wk) (meanK (rowsDot H Wk)) (varK (rowsDot H Wk)) g b

/-- A hidden layer with the whole-column statistics; it takes the signs of its inputs itself. -/
def layerR (H : Mat 8192 4096) (W : Mat 4096 4096) (g b : Fin 4096 → EReal) : Mat 8192 4096 :=
  act (rowsDot (sgn H) (sgn W)) (meanR (rowsDot (sgn H) (sgn W))) (varR (rowsDot (sgn H) (sgn W))) g b

/-- A sum of products of signs is a real number. -/
theorem rowsDot_sgn_real {R C K : ℕ} (A : Mat R K) (B : Mat C K) (i : Fin R) (j : Fin C) :
    ∃ r : ℝ, rowsDot (sgn A) (sgn B) i j = (r : EReal) :=
  sum_sign_mul_real Finset.univ (fun k => A i k) (fun k => B j k)

theorem layer_eq (Hk Hr : Mat 8192 4096) (W : Mat 4096 4096) (g b : Fin 4096 → EReal) (hH : Hk = sgn Hr) :
    layerK Hk (sgn W) g b = layerR Hr W g b := by
  subst hH
  unfold layerK layerR
  have hm : meanK (rowsDot (sgn Hr) (sgn W)) = meanR (rowsDot (sgn Hr) (sgn W)) := funext (meanK_eq _)
  have hv : varK (rowsDot (sgn Hr) (sgn W)) = varR (rowsDot (sgn Hr) (sgn W)) :=
    funext fun j => varK_eq _ j (fun i => rowsDot_sgn_real Hr W i j)
  rw [hm, hv]

/-- A layer's output is a sign already. -/
theorem sgn_layerR (H : Mat 8192 4096) (W : Mat 4096 4096) (g b : Fin 4096 → EReal) :
    sgn (layerR H W g b) = layerR H W g b :=
  funext fun _ => funext fun _ => sign_sign _

/-- The network in the first arrangement: the signs of `x` and of every weight matrix are taken beforehand. -/
def netK (xk : Mat 8192 4096) (W1k : Mat 4096 4096) (g1 b1 : Fin 4096 → EReal) (W2k : Mat 4096 4096)
    (g2 b2 : Fin 4096 → EReal) (W3k : Mat 4096 4096) (g3 b3 : Fin 4096 → EReal) (Wok : Mat 1000 4096) :
    Mat 8192 1000 :=
  rowsDot (layerK (layerK (layerK xk W1k g1 b1) W2k g2 b2) W3k g3 b3) Wok

/-- The network in the second arrangement. -/
def netR (x : Mat 8192 4096) (W1 : Mat 4096 4096) (g1 b1 : Fin 4096 → EReal) (W2 : Mat 4096 4096)
    (g2 b2 : Fin 4096 → EReal) (W3 : Mat 4096 4096) (g3 b3 : Fin 4096 → EReal) (Wout : Mat 1000 4096) :
    Mat 8192 1000 :=
  rowsDot (sgn (layerR (layerR (layerR x W1 g1 b1) W2 g2 b2) W3 g3 b3)) (sgn Wout)

theorem net_eq (x : Mat 8192 4096) (W1 : Mat 4096 4096) (g1 b1 : Fin 4096 → EReal) (W2 : Mat 4096 4096)
    (g2 b2 : Fin 4096 → EReal) (W3 : Mat 4096 4096) (g3 b3 : Fin 4096 → EReal) (Wout : Mat 1000 4096) :
    netK (sgn x) (sgn W1) g1 b1 (sgn W2) g2 b2 (sgn W3) g3 b3 (sgn Wout)
      = netR x W1 g1 b1 W2 g2 b2 W3 g3 b3 Wout := by
  unfold netK netR
  have h1 : layerK (sgn x) (sgn W1) g1 b1 = layerR x W1 g1 b1 := layer_eq (sgn x) x W1 g1 b1 rfl
  have h2 : layerK (layerR x W1 g1 b1) (sgn W2) g2 b2 = layerR (layerR x W1 g1 b1) W2 g2 b2 :=
    layer_eq _ _ W2 g2 b2 (sgn_layerR x W1 g1 b1).symm
  have h3 : layerK (layerR (layerR x W1 g1 b1) W2 g2 b2) (sgn W3) g3 b3
      = layerR (layerR (layerR x W1 g1 b1) W2 g2 b2) W3 g3 b3 :=
    layer_eq _ _ W3 g3 b3 (sgn_layerR _ W2 g2 b2).symm
  rw [h1, h2, h3, sgn_layerR]

end Cert.LayerLaw

end
-- ==== Proof.KLayer.lean ====
import proofs.«139021_j54202487276022_2_alg».proof.Proof.IHostAt
import proofs.«139021_j54202487276022_2_alg».proof.Proof.IValSign
import proofs.«139021_j54202487276022_2_alg».proof.Proof.LayerLaw

/-!
# One hidden layer and the head, from the arrays the kernels leave

Stated over arbitrary arrays that satisfy what each step of the program establishes about them:

* a product array `Zarr` with `Zarr (i, j) = ∑ k, A i k * Wk j k`;
* a statistics array whose plane 0 holds, per block of 2048 rows and per column, the sum of `Zarr` over the block, and
  whose plane 1 holds the sum of its squares;
* the mean row and the variance row computed from the statistics array by the host stages `meanRow` and `varRow`;
* the scale and shift rows;
* the activation array, the sign of `scale * (Zarr - mean) * rsqrt (var + ε) + shift`.

Then the activation array, read as a matrix, is `Cert.LayerLaw.layerK A Wk g b`.  For the head: the product with the
weight matrix padded by zero rows from 1000 to 1024 rows, its first 1000 columns kept, is the product with the
unpadded matrix.
-/

noncomputable section

namespace Cert.KernelIdeal.Hand

open Idealize.ShloMosaic Idealize.ShloMosaic.TcCoe Idealize.ShloMosaic.ValueIdx Cert.KernelIdeal Cert.KernelIdeal.Gen
open Cert.LayerLaw Cert.ColumnLaw
open scoped BigOperators

/-- An array of rank two read as a matrix. -/
def mat {R C : ℕ} (a : FVec Ideal (⟨2, ![R, C]⟩ : Shape) .f32) : Mat R C := fun i k => a (ix2 i k)

/-- An array of rank one read as a vector. -/
def vec {C : ℕ} (a : FVec Ideal (⟨1, ![C]⟩ : Shape) .f32) : Fin C → EReal := fun j => a (ix1 j)

theorem layer_step (A : Mat 8192 4096) (Wk : Mat 4096 4096) (g b : Fin 4096 → EReal)
    (Zarr Out : FVec Ideal S8192x4096 .f32) (Sarr : FVec Ideal S4x2x4096 .f32) (Grow Brow : FVec Ideal S1x4096 .f32)
    (hZ : ∀ (i : Fin 8192) (j : Fin 4096), Zarr (ix2 i j) = ∑ k : Fin 4096, A i k * Wk j k)
    (hS0 : ∀ (ib : Fin 4) (j : Fin 4096), Sarr (ix3 ib (0 : Fin 2) j) = ∑ r : Fin 2048, Zarr (ix2 (blk ib r) j))
    (hS1 : ∀ (ib : Fin 4) (j : Fin 4096),
      Sarr (ix3 ib (1 : Fin 2) j) = ∑ r : Fin 2048, Zarr (ix2 (blk ib r) j) * Zarr (ix2 (blk ib r) j))
    (hG : ∀ j : Fin 4096, Grow (ix2 (0 : Fin 1) j) = g j) (hB : ∀ j : Fin 4096, Brow (ix2 (0 : Fin 1) j) = b j)
    (hOut : ∀ (p : Fin 8192) (q : Fin 4096), Out (ix2 p q)
      = sgnK (Grow (ix2 (0 : Fin 1) q) * (Zarr (ix2 p q) - meanRow (F := Ideal) Sarr (ix2 (0 : Fin 1) q))
          * Ideal.rsqrt (varRow (F := Ideal) Sarr (ix2 (0 : Fin 1) q) + Ideal.ofBits .f32 0x3727C5AC#32)
          + Brow (ix2 (0 : Fin 1) q))) :
    mat Out = layerK A Wk g b := by
  have hmean : ∀ q : Fin 4096, meanRow (F := Ideal) Sarr (ix2 (0 : Fin 1) q) = meanK (rowsDot A Wk) q := by
    intro q
    rw [meanRow_apply]
    simp only [hS0, hZ]
    rfl
  have hvar : ∀ q : Fin 4096, varRow (F := Ideal) Sarr (ix2 (0 : Fin 1) q) = varK (rowsDot A Wk) q := by
    intro q
    rw [varRow_apply, hmean]
    simp only [hS1, hZ]
    rfl
  funext p q
  show Out (ix2 p q) = _
  rw [hOut, sgnK_eq_sign, hmean, hvar, hG, hB, hZ]
  rfl

theorem head_step (A : Mat 8192 4096) (Wo : Mat 1000 4096) (Hd : FVec Ideal S8192x1024 .f32)
    (Wp : FVec Ideal S1024x4096 .f32)
    (hHd : ∀ (i : Fin 8192) (j : Fin 1024), Hd (ix2 i j) = ∑ k : Fin 4096, A i k * Wp (ix2 j k))
    (hWp : ∀ (j : Fin 1000) (k : Fin 4096), Wp (ix2 (⟨j.val, by omega⟩ : Fin 1024) k) = Wo j k) :
    mat (keepCols (F := Ideal) Hd) = rowsDot A Wo := by
  funext i j
  show keepCols (F := Ideal) Hd (ix2 i j) = _
  rw [keepCols_apply, hHd]
  simp only [hWp]
  rfl

end Cert.KernelIdeal.Hand

end
-- ==== Proof.KNet.lean ====
import proofs.«139021_j54202487276022_2_alg».proof.Proof.IRunWalk
import proofs.«139021_j54202487276022_2_alg».proof.Proof.IVal0
import proofs.«139021_j54202487276022_2_alg».proof.Proof.IVal1
import proofs.«139021_j54202487276022_2_alg».proof.Proof.IVal2
import proofs.«139021_j54202487276022_2_alg».proof.Proof.IVal3
import proofs.«139021_j54202487276022_2_alg».proof.Proof.IVal4
import proofs.«139021_j54202487276022_2_alg».proof.Proof.IVal5
import proofs.«139021_j54202487276022_2_alg».proof.Proof.IVal6
import proofs.«139021_j54202487276022_2_alg».proof.Proof.IVal7
import proofs.«139021_j54202487276022_2_alg».proof.Proof.IVal8
import proofs.«139021_j54202487276022_2_alg».proof.Proof.IVal9
import proofs.«139021_j54202487276022_2_alg».proof.Proof.IVal10
import proofs.«139021_j54202487276022_2_alg».proof.Proof.IVal11
import proofs.«139021_j54202487276022_2_alg».proof.Proof.KLayer

/-!
# The kernel program's result as a network of matrices

The fold of the program's eighteen items names every buffer at every boundary.  Walking each consumed buffer back to
the region or host stretch that produced it, and reading each producer's array entry by entry, the result array is
`Cert.LayerLaw.netK` of the signs of the inputs:

* regions 0 to 3 leave the signs of `x`, `W1`, `W2`, `W3`; region 4 the signs of the output weights padded with
  zero rows to 1024 rows;
* regions 5, 7, 9 leave the product array of a layer and its block statistics; the host stretch after each forms the
  mean and variance rows and lays the scale and the shift out as rows; regions 6, 8, 10 leave the activations;
* region 11 leaves the product of the last activations with the padded weights, of which the last host stretch
  keeps the first 1000 columns.
-/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.LayerLaw Cert.ColumnLaw
open scoped BigOperators

variable (m : (ℓ : Loc nD τ sig) → Buf (Elt Ideal) ℓ) (ρ : Dev nD → PrngReg)

/-! ## The arguments as matrices and vectors -/

def aX (c : Dev nD) : Mat 8192 4096 := mat (R := 8192) (C := 4096) (m ((c : Thread nD τ).loc main_arg0))
def aW1 (c : Dev nD) : Mat 4096 4096 := mat (R := 4096) (C := 4096) (m ((c : Thread nD τ).loc main_arg1))
def aG1 (c : Dev nD) : Fin 4096 → EReal := vec (C := 4096) (m ((c : Thread nD τ).loc main_arg2))
def aB1 (c : Dev nD) : Fin 4096 → EReal := vec (C := 4096) (m ((c : Thread nD τ).loc main_arg3))
def aW2 (c : Dev nD) : Mat 4096 4096 := mat (R := 4096) (C := 4096) (m ((c : Thread nD τ).loc main_arg4))
def aG2 (c : Dev nD) : Fin 4096 → EReal := vec (C := 4096) (m ((c : Thread nD τ).loc main_arg5))
def aB2 (c : Dev nD) : Fin 4096 → EReal := vec (C := 4096) (m ((c : Thread nD τ).loc main_arg6))
def aW3 (c : Dev nD) : Mat 4096 4096 := mat (R := 4096) (C := 4096) (m ((c : Thread nD τ).loc main_arg7))
def aG3 (c : Dev nD) : Fin 4096 → EReal := vec (C := 4096) (m ((c : Thread nD τ).loc main_arg8))
def aB3 (c : Dev nD) : Fin 4096 → EReal := vec (C := 4096) (m ((c : Thread nD τ).loc main_arg9))
def aWo (c : Dev nD) : Mat 1000 4096 := mat (R := 1000) (C := 4096) (m ((c : Thread nD τ).loc main_arg10))

/-! ## The sign regions -/

theorem bin0 (c : Dev nD) : mat (R := 8192) (C := 4096) ((dat0 (V0 m ρ) c).arrAt 1 cfg0.N) = sgn (aX m c) := by
  funext i k
  refine (arr0_1_apply (V0 m ρ) c i k).trans ?_
  rw [in0_0 m ρ c, sgnK_eq_sign]
  rfl

theorem bin1 (c : Dev nD) : mat (R := 4096) (C := 4096) ((dat1 (V1 m ρ) c).arrAt 1 cfg1.N) = sgn (aW1 m c) := by
  funext i k
  refine (arr1_1_apply (V1 m ρ) c i k).trans ?_
  rw [in1_0 m ρ c, sgnK_eq_sign]
  rfl

theorem bin2 (c : Dev nD) : mat (R := 4096) (C := 4096) ((dat2 (V2 m ρ) c).arrAt 1 cfg2.N) = sgn (aW2 m c) := by
  funext i k
  refine (arr2_1_apply (V2 m ρ) c i k).trans ?_
  rw [in2_0 m ρ c, sgnK_eq_sign]
  rfl

theorem bin3 (c : Dev nD) : mat (R := 4096) (C := 4096) ((dat3 (V3 m ρ) c).arrAt 1 cfg3.N) = sgn (aW3 m c) := by
  funext i k
  refine (arr3_1_apply (V3 m ρ) c i k).trans ?_
  rw [in3_0 m ρ c, sgnK_eq_sign]
  rfl

/-- The first 1000 rows of the padded output weights' signs are the signs of the output weights. -/
theorem bin4 (c : Dev nD) (j : Fin 1000) (k : Fin 4096) :
    (dat4 (V6 m ρ) c).arrAt 1 cfg4.N (ix2 (⟨j.val, by omega⟩ : Fin 1024) k) = sgn (aWo m c) j k := by
  refine (arr4_1_apply (V6 m ρ) c (⟨j.val, by omega⟩ : Fin 1024) k).trans ?_
  rw [in4_0 m ρ c,
    show W6 m ρ c (Proc.devRef .tc main_v4) = padRows (F := Ideal) (W4 m ρ c (Proc.devRef .tc main_arg10)) from
      host4_pad (F := Ideal) (W4 m ρ c),
    padRows_apply _ (⟨j.val, by omega⟩ : Fin 1024) j.isLt k, host4_main_arg10 m ρ c, sgnK_eq_sign]
  rfl

/-! ## The three hidden layers -/

/-- Layer 1: the activations the normalizing region leaves are `layerK` of the previous activations, the signs of
    the layer's weights, and its scale and shift. -/
theorem act1 (c : Dev nD) :
    mat (R := 8192) (C := 4096) ((dat6 (V9 m ρ) c).arrAt 5 cfg6.N)
      = layerK (sgn (aX m c)) (sgn (aW1 m c)) (aG1 m c) (aB1 m c) := by
  have hmean : W9 m ρ c (Proc.devRef .tc main_v16) = meanRow (F := Ideal) ((dat5 (V7 m ρ) c).arrAt 3 cfg5.N) :=
    (host6_mean (F := Ideal) (W8 m ρ c)).trans (congrArg (meanRow (F := Ideal)) (host8_main_v6_1 m ρ c))
  have hvar : W9 m ρ c (Proc.devRef .tc main_v22) = varRow (F := Ideal) ((dat5 (V7 m ρ) c).arrAt 3 cfg5.N) :=
    (host6_var (F := Ideal) (W8 m ρ c)).trans (congrArg (varRow (F := Ideal)) (host8_main_v6_1 m ρ c))
  have hscale : W9 m ρ c (Proc.devRef .tc main_v23) = rowOf (F := Ideal) (m ((c : Thread nD τ).loc main_arg2)) :=
    (host6_scale (F := Ideal) (W8 m ρ c)).trans (congrArg (rowOf (F := Ideal)) (host8_main_arg2 m ρ c))
  have hshift : W9 m ρ c (Proc.devRef .tc main_v24) = rowOf (F := Ideal) (m ((c : Thread nD τ).loc main_arg3)) :=
    (host6_shift (F := Ideal) (W8 m ρ c)).trans (congrArg (rowOf (F := Ideal)) (host8_main_arg3 m ρ c))
  refine layer_step _ _ _ _ ((dat5 (V7 m ρ) c).arrAt 2 cfg5.N) _ ((dat5 (V7 m ρ) c).arrAt 3 cfg5.N)
    (W9 m ρ c (Proc.devRef .tc main_v23)) (W9 m ρ c (Proc.devRef .tc main_v24)) ?_ ?_ ?_ ?_ ?_ ?_
  · intro i j
    rw [arr5_2_apply (V7 m ρ) c i j, in5_0 m ρ c, in5_1 m ρ c]
    unfold dotAt
    refine Finset.sum_congr rfl fun k _ => ?_
    exact congrArg₂ (· * ·) (congrFun (congrFun (bin0 m ρ c) i) k) (congrFun (congrFun (bin1 m ρ c) j) k)
  · intro ib j
    exact arr5_3_apply0 (V7 m ρ) c ib j
  · intro ib j
    exact arr5_3_apply1 (V7 m ρ) c ib j
  · intro j
    rw [hscale, rowOf_apply]
    rfl
  · intro j
    rw [hshift, rowOf_apply]
    rfl
  · intro p q
    refine (arr6_5_apply (V9 m ρ) c p q).trans ?_
    rw [in6_0 m ρ c, in6_1 m ρ c, in6_2 m ρ c, in6_3 m ρ c, in6_4 m ρ c,
      hmean, hvar]
    rfl

set_option maxHeartbeats 1600000 in
/-- Layer 2: the activations the normalizing region leaves are `layerK` of the previous activations, the signs of
    the layer's weights, and its scale and shift. -/
theorem act2 (c : Dev nD) :
    mat (R := 8192) (C := 4096) ((dat8 (V12 m ρ) c).arrAt 5 cfg8.N)
      = layerK (layerK (sgn (aX m c)) (sgn (aW1 m c)) (aG1 m c) (aB1 m c)) (sgn (aW2 m c)) (aG2 m c) (aB2 m c) := by
  have hmean : W12 m ρ c (Proc.devRef .tc main_v36) = meanRow (F := Ideal) ((dat7 (V10 m ρ) c).arrAt 3 cfg7.N) :=
    (host8_mean (F := Ideal) (W11 m ρ c)).trans (congrArg (meanRow (F := Ideal)) (host11_main_v26_1 m ρ c))
  have hvar : W12 m ρ c (Proc.devRef .tc main_v42) = varRow (F := Ideal) ((dat7 (V10 m ρ) c).arrAt 3 cfg7.N) :=
    (host8_var (F := Ideal) (W11 m ρ c)).trans (congrArg (varRow (F := Ideal)) (host11_main_v26_1 m ρ c))
  have hscale : W12 m ρ c (Proc.devRef .tc main_v43) = rowOf (F := Ideal) (m ((c : Thread nD τ).loc main_arg5)) :=
    (host8_scale (F := Ideal) (W11 m ρ c)).trans (congrArg (rowOf (F := Ideal)) (host11_main_arg5 m ρ c))
  have hshift : W12 m ρ c (Proc.devRef .tc main_v44) = rowOf (F := Ideal) (m ((c : Thread nD τ).loc main_arg6)) :=
    (host8_shift (F := Ideal) (W11 m ρ c)).trans (congrArg (rowOf (F := Ideal)) (host11_main_arg6 m ρ c))
  refine layer_step _ _ _ _ ((dat7 (V10 m ρ) c).arrAt 2 cfg7.N) _ ((dat7 (V10 m ρ) c).arrAt 3 cfg7.N)
    (W12 m ρ c (Proc.devRef .tc main_v43)) (W12 m ρ c (Proc.devRef .tc main_v44)) ?_ ?_ ?_ ?_ ?_ ?_
  · intro i j
    rw [arr7_2_apply (V10 m ρ) c i j, in7_0 m ρ c, in7_1 m ρ c]
    unfold dotAt
    refine Finset.sum_congr rfl fun k _ => ?_
    exact congrArg₂ (· * ·) (congrFun (congrFun (act1 m ρ c) i) k) (congrFun (congrFun (bin2 m ρ c) j) k)
  · intro ib j
    exact arr7_3_apply0 (V10 m ρ) c ib j
  · intro ib j
    exact arr7_3_apply1 (V10 m ρ) c ib j
  · intro j
    rw [hscale, rowOf_apply]
    rfl
  · intro j
    rw [hshift, rowOf_apply]
    rfl
  · intro p q
    refine (arr8_5_apply (V12 m ρ) c p q).trans ?_
    rw [in8_0 m ρ c]
    show bnAt8 ((dat7 (V10 m ρ) c).arrAt 2 cfg7.N) (W12 m ρ c (Proc.devRef .tc main_v36)) (W12 m ρ c (Proc.devRef .tc main_v42))
      (W12 m ρ c (Proc.devRef .tc main_v43)) (W12 m ρ c (Proc.devRef .tc main_v44)) p q = _
    rw [hmean, hvar]
    rfl

set_option maxHeartbeats 1600000 in
/-- Layer 3: the activations the normalizing region leaves are `layerK` of the previous activations, the signs of
    the layer's weights, and its scale and shift. -/
theorem act3 (c : Dev nD) :
    mat (R := 8192) (C := 4096) ((dat10 (V15 m ρ) c).arrAt 5 cfg10.N)
      = layerK (layerK (layerK (sgn (aX m c)) (sgn (aW1 m c)) (aG1 m c) (aB1 m c)) (sgn (aW2 m c)) (aG2 m c) (aB2 m c)) (sgn (aW3 m c)) (aG3 m c) (aB3 m c) := by
  have hmean : W15 m ρ c (Proc.devRef .tc main_v56) = meanRow (F := Ideal) ((dat9 (V13 m ρ) c).arrAt 3 cfg9.N) :=
    (host10_mean (F := Ideal) (W14 m ρ c)).trans (congrArg (meanRow (F := Ideal)) (host14_main_v46_1 m ρ c))
  have hvar : W15 m ρ c (Proc.devRef .tc main_v62) = varRow (F := Ideal) ((dat9 (V13 m ρ) c).arrAt 3 cfg9.N) :=
    (host10_var (F := Ideal) (W14 m ρ c)).trans (congrArg (varRow (F := Ideal)) (host14_main_v46_1 m ρ c))
  have hscale : W15 m ρ c (Proc.devRef .tc main_v63) = rowOf (F := Ideal) (m ((c : Thread nD τ).loc main_arg8)) :=
    (host10_scale (F := Ideal) (W14 m ρ c)).trans (congrArg (rowOf (F := Ideal)) (host14_main_arg8 m ρ c))
  have hshift : W15 m ρ c (Proc.devRef .tc main_v64) = rowOf (F := Ideal) (m ((c : Thread nD τ).loc main_arg9)) :=
    (host10_shift (F := Ideal) (W14 m ρ c)).trans (congrArg (rowOf (F := Ideal)) (host14_main_arg9 m ρ c))
  refine layer_step _ _ _ _ ((dat9 (V13 m ρ) c).arrAt 2 cfg9.N) _ ((dat9 (V13 m ρ) c).arrAt 3 cfg9.N)
    (W15 m ρ c (Proc.devRef .tc main_v63)) (W15 m ρ c (Proc.devRef .tc main_v64)) ?_ ?_ ?_ ?_ ?_ ?_
  · intro i j
    rw [arr9_2_apply (V13 m ρ) c i j, in9_0 m ρ c, in9_1 m ρ c]
    unfold dotAt
    refine Finset.sum_congr rfl fun k _ => ?_
    exact congrArg₂ (· * ·) (congrFun (congrFun (act2 m ρ c) i) k) (congrFun (congrFun (bin3 m ρ c) j) k)
  · intro ib j
    exact arr9_3_apply0 (V13 m ρ) c ib j
  · intro ib j
    exact arr9_3_apply1 (V13 m ρ) c ib j
  · intro j
    rw [hscale, rowOf_apply]
    rfl
  · intro j
    rw [hshift, rowOf_apply]
    rfl
  · intro p q
    refine (arr10_5_apply (V15 m ρ) c p q).trans ?_
    rw [in10_0 m ρ c]
    show bnAt10 ((dat9 (V13 m ρ) c).arrAt 2 cfg9.N) (W15 m ρ c (Proc.devRef .tc main_v56)) (W15 m ρ c (Proc.devRef .tc main_v62))
      (W15 m ρ c (Proc.devRef .tc main_v63)) (W15 m ρ c (Proc.devRef .tc main_v64)) p q = _
    rw [hmean, hvar]
    rfl

/-! ## The head -/

set_option maxHeartbeats 1600000 in
/-- The result array is the network of the signs of the arguments. -/
theorem out_mat (c : Dev nD) :
    mat (R := 8192) (C := 1000) (W18 m ρ c (Proc.devRef .tc main_v67))
      = netK (sgn (aX m c)) (sgn (aW1 m c)) (aG1 m c) (aB1 m c) (sgn (aW2 m c)) (aG2 m c) (aB2 m c)
          (sgn (aW3 m c)) (aG3 m c) (aB3 m c) (sgn (aWo m c)) := by
  rw [show W18 m ρ c (Proc.devRef .tc main_v67) = keepCols (F := Ideal) (W17 m ρ c (Proc.devRef .tc main_v66)) from
      host12_keep (F := Ideal) (W17 m ρ c), host17_main_v66 m ρ c]
  unfold netK
  rw [← act3 m ρ c]
  refine head_step _ _ _ ((dat4 (V6 m ρ) c).arrAt 1 cfg4.N) (fun i j => ?_) (bin4 m ρ c)
  rw [arr11_2_apply (V16 m ρ) c i j, in11_0 m ρ c, in11_1 m ρ c]
  rfl

end Cert.KernelIdeal.Hand

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibBiasLayout.lean ====
/-
  A bias laid out as a row, and a scalar spread over an array, read at an index.

  `broadcast_in_dim` of a rank-0 value to any shape reads that one value everywhere; of a `[1, b]` row to `[a, b]` along
  dims (0, 1) it reads, at `(p, c)`, the row at `c`; of a `[b]` vector to a `[1, b]` row along dim 1 it reads, at
  `(u, i)`, the vector at `i` — which is also what the reshape `[b] → [1, b]` reads, so the two layouts of a bias as a
  row are one array.
-/
import Idealize.ShloMosaic.Lib.Pipeline.Value
import Idealize.ShloMosaic.Lib.ValueIdx
import Idealize.ShloMosaic.Lib.ValueLayout

noncomputable section

namespace Cert.Lib.BiasLayout

open Idealize.ShloMosaic Idealize.ShloMosaic.ValueIdx

variable {α : Type}

/-- A rank-0 value broadcast to any shape reads that value at every index. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A `[1, b]` row broadcast to `[a, b]` along dims (0, 1) reads, at `(p, c)`, the row at `c`. -/
theorem bcast_row_apply {a b : ℕ} (dims : Fin 2 → Fin 2) (hd : dims = ![0, 1])
    (h : (⟨2, ![1, b]⟩ : Shape).BroadcastsInDim ⟨2, ![a, b]⟩ dims) (v : (⟨2, ![1, b]⟩ : Shape).Idx → α)
    (p : Fin a) (c : Fin b) : broadcastInDim ⟨2, ![a, b]⟩ dims h v (ix2 p c) = v (ix2 (0 : Fin 1) c) := by
  subst hd
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector broadcast to a `[1, b]` row along dim 1 reads, at `(u, i)`, the vector at `i`. -/
theorem bcast_vec_row_apply {b : ℕ} (dims : Fin 1 → Fin 2) (hd : dims = ![1])
    (h : (⟨1, ![b]⟩ : Shape).BroadcastsInDim ⟨2, ![1, b]⟩ dims) (x : (⟨1, ![b]⟩ : Shape).Idx → α)
    (u : Fin 1) (i : Fin b) : broadcastInDim ⟨2, ![1, b]⟩ dims h x (ix2 u i) = x (ix1 i) := by
  subst hd
  refine broadcastInDim_apply _ h x (ix2 u i) (ix1 i) fun ax => ?_
  match ax with
  | ⟨0, _⟩ =>
    show i.val = if b = 1 then 0 else i.val
    split
    · have := i.isLt; omega
    · rfl

/-- So the reshape `[b] → [1, b]` and the broadcast `[b] → [1, b]` along dim 1 lay a vector out as the same row. -/
theorem reshape_row_eq_bcast_row {b : ℕ} (dims : Fin 1 → Fin 2) (hd : dims = ![1])
    (hc : (⟨1, ![b]⟩ : Shape).ShapeCasts ⟨2, ![1, b]⟩) (hb : (⟨1, ![b]⟩ : Shape).BroadcastsInDim ⟨2, ![1, b]⟩ dims)
    (x : (⟨1, ![b]⟩ : Shape).Idx → α) :
    shapeCast ⟨2, ![1, b]⟩ x hc = broadcastInDim ⟨2, ![1, b]⟩ dims hb x := by
  funext j
  obtain ⟨u, i, rfl⟩ : ∃ (u : Fin 1) (i : Fin b), j = ix2 u i := ⟨j 0, j 1, eq_ix2 j⟩
  rw [shapeCast_a_1a_apply x hc u i, bcast_vec_row_apply dims hd hb x u i]

end Cert.Lib.BiasLayout

end
-- ==== Proof.RVal.lean ====
/-
  The reference's stages read at an index, over the extended reals.

  Each stage of the reference (the binarized product, the column mean, the column variance, the normalised
  activation, the head) is a whole-array function; here each is read at explicit coordinates: the product as
  the sum over the inner axis of the two signs' product, a column statistic as the initial zero plus the sum down the
  column, divided by the count, and the activation as the sign of the affine normalisation at that entry.
  The variance's selection is resolved: its condition compares the constant count 8192 − 0 with the constant 0,
  so it holds, and the not-a-number literal is never read.
-/
import proofs.«139021_j54202487276022_2_alg».proof.Proof.RStages
import proofs.«139021_j54202487276022_2_alg».proof.Proof.LibPlainDot
import proofs.«139021_j54202487276022_2_alg».proof.Proof.LibBiasLayout
import Idealize.ShloMosaic.Lib.ValueLayout
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx
open Cert.Lib

/-! ## Words and signs -/

/-- The word `0x46000000` is 8192. -/
theorem ofBits_8192 : Ideal.ofBits .f32 0x46000000#32 = ((8192 : ℝ) : EReal) := by
  simp [Ideal.ofBits, Ideal.ieee, -EReal.coe_mul]; norm_num

/-- The sign of a sign is that sign. -/
theorem sign_sign (a : EReal) : Ideal.sign (Ideal.sign a) = Ideal.sign a := by
  rcases lt_trichotomy a 0 with h | h | h
  · rw [Ideal.sign_of_neg h]
    exact Ideal.sign_of_neg (by
      rw [← EReal.coe_one, ← EReal.coe_neg, ← EReal.coe_zero, EReal.coe_lt_coe_iff]; norm_num)
  · subst h
    rw [Ideal.sign_zero, Ideal.sign_zero]
  · rw [Ideal.sign_of_pos h]
    exact Ideal.sign_of_pos (by
      rw [← EReal.coe_one, ← EReal.coe_zero, EReal.coe_lt_coe_iff]; norm_num)

/-! ## The two products -/

theorem reads_4096 : PlainDot.Reads (R := 8192) (K := 4096) (C := 4096) dot_S8192x4096_S4096x4096_S8192x4096_1_0_0_1_n_n :=
  ⟨rfl, rfl, fun _ _ => rfl, fun _ _ => rfl, fun _ _ => rfl, fun _ _ => rfl⟩

theorem reads_1000 : PlainDot.Reads (R := 8192) (K := 4096) (C := 1000) dot_S8192x4096_S4096x1000_S8192x1000_1_0_0_1_n_n :=
  ⟨rfl, rfl, fun _ _ => rfl, fun _ _ => rfl, fun _ _ => rfl, fun _ _ => rfl⟩

/-- The binarized product at `(i, j)`: row `i` of `sign h` against row `j` of `sign W`. -/
theorem refZ_apply (h : FVec Ideal S8192x4096 .f32) (W : FVec Ideal S4096x4096 .f32) (i : Fin 8192) (j : Fin 4096) :
    refZ (F := Ideal) h W (ix2 i j) = ∑ k : Fin 4096, Ideal.sign (h (ix2 i k)) * Ideal.sign (W (ix2 j k)) := by
  unfold refZ
  refine (PlainDot.dotGeneral_apply reads_4096 none .single _ _ i j).trans ?_
  refine Finset.sum_congr rfl fun k _ => ?_
  rw [transpose_ix2_apply]
  rfl

/-- The head at `(i, j)`: row `i` of `sign h` against output row `j` of `sign W`. -/
theorem refHead_apply (h : FVec Ideal S8192x4096 .f32) (W : FVec Ideal S1000x4096 .f32) (i : Fin 8192) (j : Fin 1000) :
    refHead (F := Ideal) h W (ix2 i j) = ∑ k : Fin 4096, Ideal.sign (h (ix2 i k)) * Ideal.sign (W (ix2 j k)) := by
  unfold refHead
  refine (PlainDot.dotGeneral_apply reads_1000 none .single _ _ i j).trans ?_
  refine Finset.sum_congr rfl fun k _ => ?_
  rw [transpose_ix2_apply]
  rfl

/-! ## The column statistics -/

/-- A column sum from the zero word: that word's value plus the sum down the column. -/
theorem refColSum_apply (Z : FVec Ideal S8192x4096 .f32) (j : Fin 4096) :
    refColSum (F := Ideal) Z (ix1 j) = Ideal.ofBits .f32 0x00000000#32 + ∑ i : Fin 8192, Z (ix2 i j) := by
  have hR : S8192x4096.Reduces [0] S4096 := by decide
  show Ideal.hostReduceAdd reducesTo_S8192x4096_S4096_d0 Z (Ideal.ofBits .f32 0x00000000#32) (ix1 j) = _
  rw [Ideal.hostReduceAdd_single reducesTo_S8192x4096_S4096_d0 hR]
  refine congrArg (Ideal.ofBits .f32 0x00000000#32 + ·) (Finset.sum_congr rfl fun k _ => congrArg Z ?_)
  funext a
  match a with
  | ⟨0, _⟩ => rfl
  | ⟨1, _⟩ => rfl

/-- The column mean at `j`. -/
theorem refMean_apply (Z : FVec Ideal S8192x4096 .f32) (j : Fin 4096) :
    refMean (F := Ideal) Z (ix1 j)
      = Ideal.div (Ideal.ofBits .f32 0x00000000#32 + ∑ i : Fin 8192, Z (ix2 i j)) (Ideal.ofBits .f32 0x46000000#32) := by
  show Ideal.div (refColSum (F := Ideal) Z (ix1 j))
      (broadcastInDim S4096 ![] bcast_S_S4096 (constant (F := Ideal) S_ .f32 0x46000000#32) (ix1 j)) = _
  rw [refColSum_apply, BiasLayout.bcast_scalar_apply]
  rfl

/-- The mean the variance recomputes, as a row, is the column mean. -/
theorem refMeanRow_apply (Z : FVec Ideal S8192x4096 .f32) (u : Fin 1) (j : Fin 4096) :
    refMeanRow (F := Ideal) Z (ix2 u j) = refMean (F := Ideal) Z (ix1 j) := by
  show Ideal.div (broadcastInDim S1x4096 ![1] bcast_S4096_S1x4096_1 (refColSum (F := Ideal) Z) (ix2 u j))
      (broadcastInDim S1x4096 ![] bcast_S_S1x4096 (constant (F := Ideal) S_ .f32 0x46000000#32) (ix2 u j))
    = Ideal.div (refColSum (F := Ideal) Z (ix1 j))
      (broadcastInDim S4096 ![] bcast_S_S4096 (constant (F := Ideal) S_ .f32 0x46000000#32) (ix1 j))
  rw [BiasLayout.bcast_vec_row_apply _ rfl, BiasLayout.bcast_scalar_apply, BiasLayout.bcast_scalar_apply]

/-- The deviation from the column mean at `(i, j)`. -/
theorem refCentered_apply (Z : FVec Ideal S8192x4096 .f32) (i : Fin 8192) (j : Fin 4096) :
    refCentered (F := Ideal) Z (ix2 i j) = Z (ix2 i j) - refMean (F := Ideal) Z (ix1 j) := by
  show Z (ix2 i j) - broadcastInDim S8192x4096 ![0, 1] bcast_S1x4096_S8192x4096_0_1 (refMeanRow (F := Ideal) Z) (ix2 i j) = _
  rw [BiasLayout.bcast_row_apply _ rfl, refMeanRow_apply]

/-- The count, as the program spells it: the word for 8192 minus the converted integer zero. -/
theorem refCount_ix0 :
    refCount (F := Ideal) ix0 = Ideal.ofBits .f32 0x46000000#32 - (((0#32 : BitVec 32).toInt : ℝ) : EReal) := rfl

/-- The count is 8192. -/
theorem refCount_val : refCount (F := Ideal) ix0 = ((8192 : ℝ) : EReal) := by
  rw [refCount_ix0, ofBits_8192]
  norm_num

/-- The variance's test, that the count is positive, holds. -/
theorem refCount_pos :
    cmpf (F := Ideal) .ogt (refCount (F := Ideal)) (constant (F := Ideal) S_ .f32 0x00000000#32) ix0 = 1#1 := by
  show Ideal.cmp .ogt (refCount (F := Ideal) ix0) (Ideal.ofBits .f32 0x00000000#32) = 1#1
  rw [refCount_val, Ideal.ofBits_zero_f32]
  unfold Ideal.cmp
  have : ((0 : ℝ) : EReal) < ((8192 : ℝ) : EReal) := EReal.coe_lt_coe_iff.mpr (by norm_num)
  simp [this]

/-- The column variance at `j`: the sum of squared deviations down the column, from the zero word, over the count. -/
theorem refVar_apply (Z : FVec Ideal S8192x4096 .f32) (j : Fin 4096) :
    refVar (F := Ideal) Z (ix1 j)
      = Ideal.div
          (Ideal.ofBits .f32 0x00000000#32
            + ∑ i : Fin 8192, (Z (ix2 i j) - refMean (F := Ideal) Z (ix1 j)) * (Z (ix2 i j) - refMean (F := Ideal) Z (ix1 j)))
          (refCount (F := Ideal) ix0) := by
  unfold refVar
  have hc : broadcastInDim S4096 ![] bcast_S_S4096
      (cmpf (F := Ideal) .ogt (refCount (F := Ideal)) (constant (F := Ideal) S_ .f32 0x00000000#32)) (ix1 j) = 1#1 := by
    rw [BiasLayout.bcast_scalar_apply]
    exact refCount_pos
  rw [select_apply, hc, select_one]
  show Ideal.div (refColSum (F := Ideal) (mulf (refCentered (F := Ideal) Z) (refCentered (F := Ideal) Z)) (ix1 j))
      (broadcastInDim S4096 ![] bcast_S_S4096 (refCount (F := Ideal)) (ix1 j)) = _
  rw [refColSum_apply, BiasLayout.bcast_scalar_apply]
  refine congrArg (fun s => Ideal.div (Ideal.ofBits .f32 0x00000000#32 + s) (refCount (F := Ideal) ix0))
    (Finset.sum_congr rfl fun i _ => ?_)
  rw [mulf_apply, refCentered_apply]

/-! ## The activation -/

/-- A column vector laid along the rows reads, at `(i, j)`, its entry `j`. -/
theorem refRows_apply (v : FVec Ideal S4096 .f32) (i : Fin 8192) (j : Fin 4096) :
    refRows (F := Ideal) v (ix2 i j) = v (ix1 j) := by
  unfold refRows
  rw [BiasLayout.bcast_row_apply _ rfl, BiasLayout.bcast_vec_row_apply _ rfl]

/-- The activation at `(i, j)`, in the program's association. -/
theorem refAct_apply (Z : FVec Ideal S8192x4096 .f32) (mean var g b : FVec Ideal S4096 .f32) (i : Fin 8192) (j : Fin 4096) :
    refAct (F := Ideal) Z mean var g b (ix2 i j)
      = Ideal.sign (g (ix1 j) * (Z (ix2 i j) - mean (ix1 j))
            * Ideal.rsqrt (var (ix1 j) + Ideal.ofBits .f32 0x3727C5AC#32) + b (ix1 j)) := by
  show Ideal.sign (refRows (F := Ideal) g (ix2 i j) * (Z (ix2 i j) - refRows (F := Ideal) mean (ix2 i j))
        * refRows (F := Ideal) (Host.rsqrt (F := Ideal)
            (addf var (broadcastInDim S4096 ![] bcast_S_S4096 (constant (F := Ideal) S_ .f32 0x3727C5AC#32)))) (ix2 i j)
        + refRows (F := Ideal) b (ix2 i j)) = _
  rw [refRows_apply, refRows_apply, refRows_apply, refRows_apply]
  show Ideal.sign (g (ix1 j) * (Z (ix2 i j) - mean (ix1 j))
        * Ideal.rsqrt (var (ix1 j)
            + broadcastInDim S4096 ![] bcast_S_S4096 (constant (F := Ideal) S_ .f32 0x3727C5AC#32) (ix1 j))
        + b (ix1 j)) = _
  rw [BiasLayout.bcast_scalar_apply]
  rfl

/-- One layer at `(i, j)`: the sign of the product's entry normalised by its column's mean and variance. -/
theorem refLayer_apply (h : FVec Ideal S8192x4096 .f32) (W : FVec Ideal S4096x4096 .f32) (g b : FVec Ideal S4096 .f32)
    (i : Fin 8192) (j : Fin 4096) :
    refLayer (F := Ideal) h W g b (ix2 i j)
      = Ideal.sign (g (ix1 j) * (refZ (F := Ideal) h W (ix2 i j) - refMean (F := Ideal) (refZ (F := Ideal) h W) (ix1 j))
            * Ideal.rsqrt (refVar (F := Ideal) (refZ (F := Ideal) h W) (ix1 j) + Ideal.ofBits .f32 0x3727C5AC#32)
          + b (ix1 j)) := by
  unfold refLayer
  exact refAct_apply _ _ _ _ _ i j

end Cert.ReferenceIdeal.Hand

end
-- ==== Proof.RNet.lean ====
/-
  The reference's stages as matrices of extended reals.

  Reading an array of rank two at (i, j) and an array of rank one at j turns each stage of the reference into the
  matrix function of the same name in Cert.LayerLaw: the binarized product into the rows-against-rows product of the
  signs, the column mean and the column variance into the whole-column mean and the two-pass variance (the count the
  variance divides by is 8192, the value of the word the mean divides by), a layer into the layer with whole-column
  statistics, and the whole program into the network in its second arrangement.
-/
import proofs.«139021_j54202487276022_2_alg».proof.Proof.RVal
import proofs.«139021_j54202487276022_2_alg».proof.Proof.LayerLaw

noncomputable section

open scoped BigOperators

namespace Cert.ReferenceIdeal.Hand

open Cert.ReferenceIdeal Cert.ReferenceIdeal.Gen Idealize.ShloMosaic Idealize.ShloMosaic.ValueIdx
open Cert.LayerLaw

/-- An array of rank two as a matrix. -/
def mat {R C : ℕ} (X : FVec Ideal (⟨2, ![R, C]⟩ : Shape) .f32) : Mat R C := fun i j => X (ix2 i j)

/-- An array of rank one as a family. -/
def vec {C : ℕ} (g : FVec Ideal (⟨1, ![C]⟩ : Shape) .f32) : Fin C → EReal := fun j => g (ix1 j)

theorem mat_apply {R C : ℕ} (X : FVec Ideal (⟨2, ![R, C]⟩ : Shape) .f32) (i : Fin R) (j : Fin C) :
    mat X i j = X (ix2 i j) := rfl

theorem vec_apply {C : ℕ} (g : FVec Ideal (⟨1, ![C]⟩ : Shape) .f32) (j : Fin C) : vec g j = g (ix1 j) := rfl

/-- The binarized product is the rows-against-rows product of the signs. -/
theorem refZ_mat (h : FVec Ideal S8192x4096 .f32) (W : FVec Ideal S4096x4096 .f32) :
    mat (refZ (F := Ideal) h W) = rowsDot (sgn (mat h)) (sgn (mat W)) :=
  funext fun i => funext fun j => refZ_apply h W i j

/-- Every entry of the binarized product is a real number. -/
theorem refZ_real (h : FVec Ideal S8192x4096 .f32) (W : FVec Ideal S4096x4096 .f32) (i : Fin 8192) (j : Fin 4096) :
    ∃ r : ℝ, refZ (F := Ideal) h W (ix2 i j) = (r : EReal) := by
  rw [refZ_apply]
  exact Cert.Moments.sum_sign_mul_real Finset.univ _ _

/-- The head is the rows-against-rows product of the signs. -/
theorem refHead_mat (h : FVec Ideal S8192x4096 .f32) (W : FVec Ideal S1000x4096 .f32) :
    mat (refHead (F := Ideal) h W) = rowsDot (sgn (mat h)) (sgn (mat W)) :=
  funext fun i => funext fun j => refHead_apply h W i j

/-- The column mean is the whole-column mean. -/
theorem refMean_vec (Z : FVec Ideal S8192x4096 .f32) : vec (refMean (F := Ideal) Z) = meanR (mat Z) :=
  funext fun j => refMean_apply Z j

/-- The column variance is the two-pass variance: its count is the value of the word for 8192. -/
theorem refVar_vec (Z : FVec Ideal S8192x4096 .f32) : vec (refVar (F := Ideal) Z) = varR (mat Z) := by
  funext j
  have hm : ∀ j' : Fin 4096, refMean (F := Ideal) Z (ix1 j') = meanR (mat Z) j' := fun j' => refMean_apply Z j'
  show refVar (F := Ideal) Z (ix1 j) = _
  rw [refVar_apply, refCount_val, ← ofBits_8192, hm]
  rfl

/-- One layer is the layer with whole-column statistics. -/
theorem refLayer_mat (h : FVec Ideal S8192x4096 .f32) (W : FVec Ideal S4096x4096 .f32) (g b : FVec Ideal S4096 .f32) :
    mat (refLayer (F := Ideal) h W g b) = layerR (mat h) (mat W) (vec g) (vec b) := by
  funext i j
  show refLayer (F := Ideal) h W g b (ix2 i j)
    = act (rowsDot (sgn (mat h)) (sgn (mat W))) (meanR (rowsDot (sgn (mat h)) (sgn (mat W))))
        (varR (rowsDot (sgn (mat h)) (sgn (mat W)))) (vec g) (vec b) i j
  rw [← refZ_mat, ← refMean_vec, ← refVar_vec, refLayer_apply]
  rfl

/-- The whole reference is the network in its second arrangement. -/
theorem refOut_mat (x : FVec Ideal S8192x4096 .f32) (W1 : FVec Ideal S4096x4096 .f32) (g1 b1 : FVec Ideal S4096 .f32)
    (W2 : FVec Ideal S4096x4096 .f32) (g2 b2 : FVec Ideal S4096 .f32)
    (W3 : FVec Ideal S4096x4096 .f32) (g3 b3 : FVec Ideal S4096 .f32) (Wout : FVec Ideal S1000x4096 .f32) :
    mat (refOut (F := Ideal) x W1 g1 b1 W2 g2 b2 W3 g3 b3 Wout)
      = netR (mat x) (mat W1) (vec g1) (vec b1) (mat W2) (vec g2) (vec b2) (mat W3) (vec g3) (vec b3) (mat Wout) := by
  unfold refOut netR
  rw [refHead_mat, refLayer_mat, refLayer_mat, refLayer_mat]

end Cert.ReferenceIdeal.Hand

end
-- ==== Proof.Bridge.lean ====
import proofs.«139021_j54202487276022_2_alg».proof.Proof.KNet
import proofs.«139021_j54202487276022_2_alg».proof.Proof.RNet

/-!
# The two results are equal

From memories that agree on the eleven arguments, the kernel program's result array and the reference's result are
equal entry by entry: the first is `Cert.LayerLaw.netK` of the signs of the arguments, the second `Cert.LayerLaw.netR`
of the arguments, and the two networks are equal (`Cert.LayerLaw.net_eq`).
-/

set_option maxRecDepth 16384

noncomputable section

namespace Cert.Bridge

open Idealize.ShloMosaic Idealize.ShloMosaic.TcCoe Idealize.SL.Sem Idealize.ShloMosaic.ValueIdx
open Cert.LayerLaw

/-- The kernel program's result array, as the fold names it, is the reference's function of the arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Hand.W18 m ρ c (Proc.devRef .tc Cert.KernelIdeal.main_v67)
      = Cert.ReferenceIdeal.Hand.refOut (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := by
  funext idx
  obtain ⟨i, j, rfl⟩ : ∃ (i : Fin 8192) (j : Fin 1000), idx = ix2 i j := ⟨idx 0, idx 1, eq_ix2 idx⟩
  have hk := congrFun (congrFun (Cert.KernelIdeal.Hand.out_mat m ρ c) i) j
  have hn := congrFun (congrFun (net_eq (Cert.KernelIdeal.Hand.aX m c) (Cert.KernelIdeal.Hand.aW1 m c)
    (Cert.KernelIdeal.Hand.aG1 m c) (Cert.KernelIdeal.Hand.aB1 m c) (Cert.KernelIdeal.Hand.aW2 m c)
    (Cert.KernelIdeal.Hand.aG2 m c) (Cert.KernelIdeal.Hand.aB2 m c) (Cert.KernelIdeal.Hand.aW3 m c)
    (Cert.KernelIdeal.Hand.aG3 m c) (Cert.KernelIdeal.Hand.aB3 m c) (Cert.KernelIdeal.Hand.aWo m c)) i) j
  have hr := congrFun (congrFun (Cert.ReferenceIdeal.Hand.refOut_mat
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))) i) j
  exact hk.trans (hn.trans hr.symm)

end Cert.Bridge

end
-- ==== Proof.lean ====
/-
  A network of three binarized layers with batch normalization and a binarized output head, computed by twelve kernel
  regions and the host operations between them, against the same network written with whole-array operations.

  Every matrix product is a product of signs; the statistics of each layer's columns are taken either from the sums
  of four blocks of rows with the one-pass variance clamped at zero, or over the whole column with the two-pass
  variance.  The entries being sums of products of signs, they are real numbers, and for real columns the two
  variances agree; the rest of the two computations is the same expression entry by entry.  The precondition is not
  used.

  The frames: the word-level and the idealized kernel programs each run their eighteen items in order, every region
  through its pipeline, leaving the arguments as they were; the reference is a straight line of host operations.
  The idealization: eight sign-bit rewrites, each the library's statement at the block's shape.
-/
import proofs.«139021_j54202487276022_2_alg».proof.Defs
import proofs.«139021_j54202487276022_2_alg».proof.Proof.Gen.Kernel
import proofs.«139021_j54202487276022_2_alg».proof.Proof.Gen.KernelIdeal
import proofs.«139021_j54202487276022_2_alg».proof.Proof.Gen.ReferenceIdeal
import proofs.«139021_j54202487276022_2_alg».proof.Proof.Gen.Pre_finite_inputs
import proofs.«139021_j54202487276022_2_alg».proof.Proof.BRun
import proofs.«139021_j54202487276022_2_alg».proof.Proof.IRun
import proofs.«139021_j54202487276022_2_alg».proof.Proof.RRun
import proofs.«139021_j54202487276022_2_alg».proof.Proof.RFrame
import proofs.«139021_j54202487276022_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := Cert.ReferenceIdeal.Hand.frame

/-- The two idealized programs, from memories agreeing on the arguments, end with equal results. -/
theorem algebraic : Cert.algebraic_KernelIdeal_ReferenceIdeal := by
  intro m ρ m' ρ' _ hagree
  refine ⟨fun c => Cert.KernelIdeal.Hand.W18 m ρ c (Proc.devRef .tc Cert.KernelIdeal.main_v67),
    Cert.KernelIdeal.Hand.run_out m ρ, ?_⟩
  refine (θ_run Cert.ReferenceIdeal.defs _ _).mono (fun r h c => ⟨(h c).1.trans ?_, (h c).2⟩)
    (Cert.ReferenceIdeal.Hand.run (F := Ideal) m' ρ')
  obtain ⟨h0, h1, h2, h3, h4, h5, h6, h7, h8, h9, h10⟩ := hagree c
  rw [h0, h1, h2, h3, h4, h5, h6, h7, h8, h9, h10]
  exact (Cert.Bridge.result_eq m ρ c).symm

/-- The eight sign-bit rewrites of the idealization, each at its block's shape. -/
theorem preserves : Cert.preserves_Kernel_KernelIdeal :=
  ⟨IdealRules.sign_bit.statement _ _, IdealRules.sign_bit.statement _ _, IdealRules.sign_bit.statement _ _,
   IdealRules.sign_bit.statement _ _, IdealRules.sign_bit.statement _ _, IdealRules.sign_bit.statement _ _,
   IdealRules.sign_bit.statement _ _, IdealRules.sign_bit.statement _ _⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
